-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x64 : Shape := ⟨2, ![1000000, 64]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg0 : IVec S16384 32) (main_arg1 : IVec S16384 32) (main_v33 : IVec S_ 1) : IVec S_ 1 :=
  let main_c_12 : IVec S_ 32 := constantI S_ 32 0#32
  let main_v34 : IVec S16384 32 := broadcastInDim S16384 ![] bcast_S_S16384 main_c_12
  let main_v35 : IVec S16384 1 := cmpi .sge main_arg0 main_v34
  let main_c_13 : IVec S_ 32 := constantI S_ 32 999999#32
  let main_v36 : IVec S16384 32 := broadcastInDim S16384 ![] bcast_S_S16384 main_c_13
  let main_v37 : IVec S16384 1 := cmpi .sle main_arg0 main_v36
  let main_v38 : IVec S16384 1 := andi main_v35 main_v37
  let main_c_14 : IVec S_ 1 := constantI S_ 1 1#1
  let main_v39 : IVec S_ 1 := (fun x v => Host.reduce IntOp.andi x v reducesTo_S16384_S_d0 h_S_) main_v38 main_c_14
  let main_v40 : IVec S_ 1 := andi main_v33 main_v39
  let main_c_15 : IVec S_ 32 := constantI S_ 32 0#32
  let main_v41 : IVec S16384 32 := broadcastInDim S16384 ![] bcast_S_S16384 main_c_15
  let main_v42 : IVec S16384 1 := cmpi .sge main_arg1 main_v41
  let main_c_16 : IVec S_ 32 := constantI S_ 32 999999#32
  let main_v43 : IVec S16384 32 := broadcastInDim S16384 ![] bcast_S_S16384 main_c_16
  let main_v44 : IVec S16384 1 := cmpi .sle main_arg1 main_v43
  let main_v45 : IVec S16384 1 := andi main_v42 main_v44
  let main_c_17 : IVec S_ 1 := constantI S_ 1 1#1
  let main_v46 : IVec S_ 1 := (fun x v => Host.reduce IntOp.andi x v reducesTo_S16384_S_d0 h_S_) main_v45 main_c_17
  let main_v47 : IVec S_ 1 := andi main_v40 main_v46
  main_v47

def fn_part1 {F : FTy → Type} [FloatOps F] (main_arg0 : IVec S16384 32) (main_arg1 : IVec S16384 32) (main_arg6 : FVec F S64 .f32) (main_arg7 : FVec F S1x64 .f32) (main_arg8 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x64 .f32 := Host.absf main_arg7
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg0 main_arg1 main_v33

def fn {F : FTy → Type} [FloatOps F] (main_arg0 : IVec S16384 32) (main_arg1 : IVec S16384 32) (main_arg2 : FVec F S1000000x64 .f32) (main_arg3 : FVec F S128x128 .f32) (main_arg4 : FVec F S128 .f32) (main_arg5 : FVec F S64x128 .f32) (main_arg6 : FVec F S64 .f32) (main_arg7 : FVec F S1x64 .f32) (main_arg8 : FVec F S1 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg0 main_arg1 main_arg6 main_arg7 main_arg8 main_v13 main_v16
-- ==== Kernel.lean ====
abbrev S16384 : Shape := ⟨1, ![16384]⟩
abbrev S1000000x64 : Shape := ⟨2, ![1000000, 64]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S16384x64 : Shape := ⟨2, ![16384, 64]⟩
abbrev S512 : Shape := ⟨1, ![512]⟩
abbrev S512x64 : Shape := ⟨2, ![512, 64]⟩
abbrev S_ : Shape := ⟨0, ![]⟩
abbrev S16 : Shape := ⟨1, ![16]⟩
abbrev S128x64 : Shape := ⟨2, ![128, 64]⟩
abbrev S1x128 : Shape := ⟨2, ![1, 128]⟩
abbrev S64x1 : Shape := ⟨2, ![64, 1]⟩
abbrev S1x1 : Shape := ⟨2, ![1, 1]⟩
abbrev S16384x1 : Shape := ⟨2, ![16384, 1]⟩
abbrev S2048x64 : Shape := ⟨2, ![2048, 64]⟩
abbrev S2048x1 : Shape := ⟨2, ![2048, 1]⟩
abbrev S2048x128 : Shape := ⟨2, ![2048, 128]⟩

abbrev nBuf : Table → Nat
  | .hbm => 21
  | .local .tc .vmem => 13
  | .local .scVector .vmem => 2
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S1x64, .f32⟩
  | .hbm, ⟨8, _⟩ => ⟨S1, .f32⟩
  | .hbm, ⟨9, _⟩ => ⟨S16384x64, .f32⟩
  | .hbm, ⟨10, _⟩ => ⟨S16384x64, .f32⟩
  | .hbm, ⟨11, _⟩ => ⟨S128x64, .f32⟩
  | .hbm, ⟨12, _⟩ => ⟨S64x128, .f32⟩
  | .hbm, ⟨13, _⟩ => ⟨S128x64, .f32⟩
  | .hbm, ⟨14, _⟩ => ⟨S64x128, .f32⟩
  | .hbm, ⟨15, _⟩ => ⟨S1x128, .f32⟩
  | .hbm, ⟨16, _⟩ => ⟨S128x64, .f32⟩
  | .hbm, ⟨17, _⟩ => ⟨S1x64, .f32⟩
  | .hbm, ⟨18, _⟩ => ⟨S64x1, .f32⟩
  | .hbm, ⟨19, _⟩ => ⟨S1x1, .f32⟩
  | .hbm, ⟨20, _⟩ => ⟨S16384x1, .f32⟩
  | .local .tc .vmem, ⟨0, _⟩ => ⟨S2048x64, .f32⟩
  | .local .tc .vmem, ⟨1, _⟩ => ⟨S2048x64, .f32⟩
  | .local .tc .vmem, ⟨2, _⟩ => ⟨S2048x64, .f32⟩
  | .local .tc .vmem, ⟨3, _⟩ => ⟨S2048x64, .f32⟩
  | .local .tc .vmem, ⟨4, _⟩ => ⟨S64x128, .f32⟩
  | .local .tc .vmem, ⟨5, _⟩ => ⟨S64x128, .f32⟩
  | .local .tc .vmem, ⟨6, _⟩ => ⟨S1x128, .f32⟩
  | .local .tc .vmem, ⟨7, _⟩ => ⟨S128x64, .f32⟩
  | .local .tc .vmem, ⟨8, _⟩ => ⟨S1x64, .f32⟩
  | .local .tc .vmem, ⟨9, _⟩ => ⟨S64x1, .f32⟩
  | .local .tc .vmem, ⟨10, _⟩ => ⟨S1x1, .f32⟩
  | .local .tc .vmem, ⟨11, _⟩ => ⟨S2048x1, .f32⟩
  | .local .tc .vmem, ⟨12, _⟩ => ⟨S2048x1, .f32⟩
  | .local .scVector .vmem, ⟨0, _⟩ => ⟨S512, .i32⟩
  | .local .scVector .vmem, ⟨1, _⟩ => ⟨S512x64, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_0_scv : Ref sig .scVector := ⟨.hbm, 9, rfl⟩
abbrev main_v0_1_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg9_1 : Ref sig .tc := ⟨.vmem, 12, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg10 : BitVec 32 := Scf.iv c0_i32_0 c1_i32 k0_t1
  let c16_i32 : BitVec 32 := 16#32
  let v7 : BitVec 32 := Scalar.muli arg10 c16_i32
  let v8 : Index := Scalar.indexCast v7
  ![v8.toNat]
def k0_off3 (k0_t1 : Fin k0_t1_loop.trips) : Fin 2 → Nat :=
  let c0_i32_0 : BitVec 32 := 0#32
  let c1_i32 : BitVec 32 := 1#32
  let arg10 : BitVec 32 := Scf.iv c0_i32_0 c1_i32 k0_t1
  let c16_i32_17 : BitVec 32 := 16#32
  let v13 : BitVec 32 := Scalar.muli arg10 c16_i32_17
  let c0_i32_18 : BitVec 32 := 0#32
  let v14 : BitVec 32 := Scalar.addi v13 c0_i32_18
  let c0_i32_19 : BitVec 32 := 0#32
  ![v14.toNat, 0]
def k0_off4 (v12 : BitVec 32) : Fin 2 → Nat :=
  let c0_i32_20 : BitVec 32 := 0#32
  ![v12.toNat, 0]

def k0_chk1 (v12 : BitVec 32) : Prop :=
  (∀ a, (k0_off4 v12) a + S1x64.size a ≤ S1000000x64.size a)
instance k0_chk1.dec : ∀ (v12 : BitVec 32), Decidable (k0_chk1 v12) := fun v12 => decidable_of_iff' _ (Iff.of_eq (k0_chk1.eq_1 v12))
theorem k0_off4_inb : ∀ (v12 : BitVec 32) (k0_hw1 : k0_chk1 v12), ∀ a, (k0_off4 v12) a + S1x64.size a ≤ S1000000x64.size a := fun v12 k0_hw1 => k0_hw1

def k0_off5 (k0_t1 : Fin k0_t1_loop.trips) (c0_i32_18 : BitVec 32) : Fin 2 → Nat :=
  let c0_i32_0 : BitVec 32 := 0#32
  let c1_i32 : BitVec 32 := 1#32
  let arg10 : BitVec 32 := Scf.iv c0_i32_0 c1_i32 k0_t1
  let c16_i32_17 : BitVec 32 := 16#32
  let v13 : BitVec 32 := Scalar.muli arg10 c16_i32_17
  let v14 : BitVec 32 := Scalar.addi v13 c0_i32_18
  let c0_i32_21 : BitVec 32 := 0#32
  ![v14.toNat, 0]
def k0_off6 (v24 : BitVec 32) : Fin 2 → Nat :=
  let c0_i32_26 : BitVec 32 := 0#32
  ![v24.toNat, 0]

def k0_chk2 (v24 : BitVec 32) : Prop :=
  (∀ a, (k0_off6 v24) a + S1x64.size a ≤ S1000000x64.size a)
instance k0_chk2.dec : ∀ (v24 : BitVec 32), Decidable (k0_chk2 v24) := fun v24 => decidable_of_iff' _ (Iff.of_eq (k0_chk2.eq_1 v24))
theorem k0_off6_inb : ∀ (v24 : BitVec 32) (k0_hw2 : k0_chk2 v24), ∀ a, (k0_off6 v24) a + S1x64.size a ≤ S1000000x64.size a := fun v24 k0_hw2 => k0_hw2

def k0_off7 (k0_t1 : Fin k0_t1_loop.trips) (c1_i32_24 : BitVec 32) : Fin 2 → Nat :=
  let c0_i32_0 : BitVec 32 := 0#32
  let c1_i32 : BitVec 32 := 1#32
  let arg10 : BitVec 32 := Scf.iv c0_i32_0 c1_i32 k0_t1
  let c16_i32_23 : BitVec 32 := 16#32
  let v25 : BitVec 32 := Scalar.muli arg10 c16_i32_23
  let v26 : BitVec 32 := Scalar.addi v25 c1_i32_24
  let c0_i32_27 : BitVec 32 := 0#32
  ![v26.toNat, 0]
def k0_off8 (v36 : BitVec 32) : Fin 2 → Nat :=
  let c0_i32_32 : BitVec 32 := 0#32
  ![v36.toNat, 0]

def k0_chk3 (v36 : BitVec 32) : Prop :=
  (∀ a, (k0_off8 v36) a + S1x64.size a ≤ S1000000x64.size a)
instance k0_chk3.dec : ∀ (v36 : BitVec 32), Decidable (k0_chk3 v36) := fun v36 => decidable_of_iff' _ (Iff.of_eq (k0_chk3.eq_1 v36))
theorem k0_off8_inb : ∀ (v36 : BitVec 32) (k0_hw3 : k0_chk3 v36), ∀ a, (k0_off8 v36) a + S1x64.size a ≤ S1000000x64.size a := fun v36 k0_hw3 => k0_hw3

def k0_off9 (k0_t1 : Fin k0_t1_loop.trips) (c2_i32_30 : BitVec 32) : Fin 2 → Nat :=
  let c0_i32_0 : BitVec 32 := 0#32
  let c1_i32 : BitVec 32 := 1#32
  let arg10 : BitVec 32 := Scf.iv c0_i32_0 c1_i32 k0_t1
  let c16_i32_29 : BitVec 32 := 16#32
  let v37 : BitVec 32 := Scalar.muli arg10 c16_i32_29
  let v38 : BitVec 32 := Scalar.addi v37 c2_i32_30
  let c0_i32_33 : BitVec 32 := 0#32
  ![v38.toNat, 0]
def k0_off10 (v48 : BitVec 32) : Fin 2 → Nat :=
  let c0_i32_37 : BitVec 32 := 0#32
  ![v48.toNat, 0]

def k0_chk4 (v48 : BitVec 32) : Prop :=
  (∀ a, (k0_off10 v48) a + S1x64.size a ≤ S1000000x64.size a)
instance k0_chk4.dec : ∀ (v48 : BitVec 32), Decidable (k0_chk4 v48) := fun v48 => decidable_of_iff' _ (Iff.of_eq (k0_chk4.eq_1 v48))
theorem k0_off10_inb : ∀ (v48 : BitVec 32) (k0_hw4 : k0_chk4 v48), ∀ a, (k0_off10 v48) a + S1x64.size a ≤ S1000000x64.size a := fun v48 k0_hw4 => k0_hw4

def k0_off11 (k0_t1 : Fin k0_t1_loop.trips) (c3_i32 : BitVec 32) : Fin 2 → Nat :=
  let c0_i32_0 : BitVec 32 := 0#32
  let c1_i32 : BitVec 32 := 1#32
  let arg10 : BitVec 32 := Scf.iv c0_i32_0 c1_i32 k0_t1
  let c16_i32_35 : BitVec 32 := 16#32
  let v49 : BitVec 32 := Scalar.muli arg10 c16_i32_35
  let v50 : BitVec 32 := Scalar.addi v49 c3_i32
  let c0_i32_38 : BitVec 32 := 0#32
  ![v50.toNat, 0]
def k0_off12 (v60 : BitVec 32) : Fin 2 → Nat :=
  let c0_i32_42 : BitVec 32 := 0#32
  ![v60.toNat, 0]

def k0_chk5 (v60 : BitVec 32) : Prop :=
  (∀ a, (k0_off12 v60) a + S1x64.size a ≤ S1000000x64.size a)
instance k0_chk5.dec : ∀ (v60 : BitVec 32), Decidable (k0_chk5 v60) := fun v60 => decidable_of_iff' _ (Iff.of_eq (k0_chk5.eq_1 v60))
theorem k0_off12_inb : ∀ (v60 : BitVec 32) (k0_hw5 : k0_chk5 v60), ∀ a, (k0_off12 v60) a + S1x64.size a ≤ S1000000x64.size a := fun v60 k0_hw5 => k0_hw5

def k0_off13 (k0_t1 : Fin k0_t1_loop.trips) (c4_i32 : BitVec 32) : Fin 2 → Nat :=
  let c0_i32_0 : BitVec 32 := 0#32
  let c1_i32 : BitVec 32 := 1#32
  let arg10 : BitVec 32 := Scf.iv c0_i32_0 c1_i32 k0_t1
  let c16_i32_40 : BitVec 32 := 16#32
  let v61 : BitVec 32 := Scalar.muli arg10 c16_i32_40
  let v62 : BitVec 32 := Scalar.addi v61 c4_i32
  let c0_i32_43 : BitVec 32 := 0#32
  ![v62.toNat, 0]
def k0_off14 (v72 : BitVec 32) : Fin 2 → Nat :=
  let c0_i32_47 : BitVec 32 := 0#32
  ![v72.toNat, 0]

def k0_chk6 (v72 : BitVec 32) : Prop :=
  (∀ a, (k0_off14 v72) a + S1x64.size a ≤ S1000000x64.size a)
instance k0_chk6.dec : ∀ (v72 : BitVec 32), Decidable (k0_chk6 v72) := fun v72 => decidable_of_iff' _ (Iff.of_eq (k0_chk6.eq_1 v72))
theorem k0_off14_inb : ∀ (v72 : BitVec 32) (k0_hw6 : k0_chk6 v72), ∀ a, (k0_off14 v72) a + S1x64.size a ≤ S1000000x64.size a := fun v72 k0_hw6 => k0_hw6

def k0_off15 (k0_t1 : Fin k0_t1_loop.trips) (c5_i32 : BitVec 32) : Fin 2 → Nat :=
  let c0_i32_0 : BitVec 32 := 0#32
  let c1_i32 : BitVec 32 := 1#32
  let arg10 : BitVec 32 := Scf.iv c0_i32_0 c1_i32 k0_t1
  let c16_i32_45 : BitVec 32 := 16#32
  let v73 : BitVec 32 := Scalar.muli arg10 c16_i32_45
  let v74 : BitVec 32 := Scalar.addi v73 c5_i32
  let c0_i32_48 : BitVec 32 := 0#32
  ![v74.toNat, 0]
def k0_off16 (v84 : BitVec 32) : Fin 2 → Nat :=
  let c0_i32_52 : BitVec 32 := 0#32
  ![v84.toNat, 0]

def k0_chk7 (v84 : BitVec 32) : Prop :=
  (∀ a, (k0_off16 v84) a + S1x64.size a ≤ S1000000x64.size a)
instance k0_chk7.dec : ∀ (v84 : BitVec 32), Decidable (k0_chk7 v84) := fun v84 => decidable_of_iff' _ (Iff.of_eq (k0_chk7.eq_1 v84))
theorem k0_off16_inb : ∀ (v84 : BitVec 32) (k0_hw7 : k0_chk7 v84), ∀ a, (k0_off16 v84) a + S1x64.size a ≤ S1000000x64.size a := fun v84 k0_hw7 => k0_hw7

def k0_off17 (k0_t1 : Fin k0_t1_loop.trips) (c6_i32 : BitVec 32) : Fin 2 → Nat :=
  let c0_i32_0 : BitVec 32 := 0#32
  let c1_i32 : BitVec 32 := 1#32
  let arg10 : BitVec 32 := Scf.iv c0_i32_0 c1_i32 k0_t1
  let c16_i32_50 : BitVec 32 := 16#32
  let v85 : BitVec 32 := Scalar.muli arg10 c16_i32_50
  let v86 : BitVec 32 := Scalar.addi v85 c6_i32
  let c0_i32_53 : BitVec 32 := 0#32
  ![v86.toNat, 0]
def k0_off18 (v96 : BitVec 32) : Fin 2 → Nat :=
  let c0_i32_57 : BitVec 32 := 0#32
  ![v96.toNat, 0]

def k0_chk8 (v96 : BitVec 32) : Prop :=
  (∀ a, (k0_off18 v96) a + S1x64.size a ≤ S1000000x64.size a)
instance k0_chk8.dec : ∀ (v96 : BitVec 32), Decidable (k0_chk8 v96) := fun v96 => decidable_of_iff' _ (Iff.of_eq (k0_chk8.eq_1 v96))
theorem k0_off18_inb : ∀ (v96 : BitVec 32) (k0_hw8 : k0_chk8 v96), ∀ a, (k0_off18 v96) a + S1x64.size a ≤ S1000000x64.size a := fun v96 k0_hw8 => k0_hw8

def k0_off19 (k0_t1 : Fin k0_t1_loop.trips) (c7_i32 : BitVec 32) : Fin 2 → Nat :=
  let c0_i32_0 : BitVec 32 := 0#32
  let c1_i32 : BitVec 32 := 1#32
  let arg10 : BitVec 32 := Scf.iv c0_i32_0 c1_i32 k0_t1
  let c16_i32_55 : BitVec 32 := 16#32
  let v97 : BitVec 32 := Scalar.muli arg10 c16_i32_55
  let v98 : BitVec 32 := Scalar.addi v97 c7_i32
  let c0_i32_58 : BitVec 32 := 0#32
  ![v98.toNat, 0]
def k0_off20 (v108 : BitVec 32) : Fin 2 → Nat :=
  let c0_i32_62 : BitVec 32 := 0#32
  ![v108.toNat, 0]

def k0_chk9 (v108 : BitVec 32) : Prop :=
  (∀ a, (k0_off20 v108) a + S1x64.size a ≤ S1000000x64.size a)
instance k0_chk9.dec : ∀ (v108 : BitVec 32), Decidable (k0_chk9 v108) := fun v108 => decidable_of_iff' _ (Iff.of_eq (k0_chk9.eq_1 v108))
theorem k0_off20_inb : ∀ (v108 : BitVec 32) (k0_hw9 : k0_chk9 v108), ∀ a, (k0_off20 v108) a + S1x64.size a ≤ S1000000x64.size a := fun v108 k0_hw9 => k0_hw9

def k0_off21 (k0_t1 : Fin k0_t1_loop.trips) (c8_i32 : BitVec 32) : Fin 2 → Nat :=
  let c0_i32_0 : BitVec 32 := 0#32
  let c1_i32 : BitVec 32 := 1#32
  let arg10 : BitVec 32 := Scf.iv c0_i32_0 c1_i32 k0_t1
  let c16_i32_60 : BitVec 32 := 16#32
  let v109 : BitVec 32 := Scalar.muli arg10 c16_i32_60
  let v110 : BitVec 32 := Scalar.addi v109 c8_i32
  let c0_i32_63 : BitVec 32 := 0#32
  ![v110.toNat, 0]
def k0_off22 (v120 : BitVec 32) : Fin 2 → Nat :=
  let c0_i32_67 : BitVec 32 := 0#32
  ![v120.toNat, 0]

def k0_chk10 (v120 : BitVec 32) : Prop :=
  (∀ a, (k0_off22 v120) a + S1x64.size a ≤ S1000000x64.size a)
instance k0_chk10.dec : ∀ (v120 : BitVec 32), Decidable (k0_chk10 v120) := fun v120 => decidable_of_iff' _ (Iff.of_eq (k0_chk10.eq_1 v120))
theorem k0_off22_inb : ∀ (v120 : BitVec 32) (k0_hw10 : k0_chk10 v120), ∀ a, (k0_off22 v120) a + S1x64.size a ≤ S1000000x64.size a := fun v120 k0_hw10 => k0_hw10

def k0_off23 (k0_t1 : Fin k0_t1_loop.trips) (c9_i32 : BitVec 32) : Fin 2 → Nat :=
  let c0_i32_0 : BitVec 32 := 0#32
  let c1_i32 : BitVec 32 := 1#32
  let arg10 : BitVec 32 := Scf.iv c0_i32_0 c1_i32 k0_t1
  let c16_i32_65 : BitVec 32 := 16#32
  let v121 : BitVec 32 := Scalar.muli arg10 c16_i32_65
  let v122 : BitVec 32 := Scalar.addi v121 c9_i32
  let c0_i32_68 : BitVec 32 := 0#32
  ![v122.toNat, 0]
def k0_off24 (v132 : BitVec 32) : Fin 2 → Nat :=
  let c0_i32_72 : BitVec 32 := 0#32
  ![v132.toNat, 0]

def k0_chk11 (v132 : BitVec 32) : Prop :=
  (∀ a, (k0_off24 v132) a + S1x64.size a ≤ S1000000x64.size a)
instance k0_chk11.dec : ∀ (v132 : BitVec 32), Decidable (k0_chk11 v132) := fun v132 => decidable_of_iff' _ (Iff.of_eq (k0_chk11.eq_1 v132))
theorem k0_off24_inb : ∀ (v132 : BitVec 32) (k0_hw11 : k0_chk11 v132), ∀ a, (k0_off24 v132) a + S1x64.size a ≤ S1000000x64.size a := fun v132 k0_hw11 => k0_hw11

def k0_off25 (k0_t1 : Fin k0_t1_loop.trips) (c10_i32 : BitVec 32) : Fin 2 → Nat :=
  let c0_i32_0 : BitVec 32 := 0#32
  let c1_i32 : BitVec 32 := 1#32
  let arg10 : BitVec 32 := Scf.iv c0_i32_0 c1_i32 k0_t1
  let c16_i32_70 : BitVec 32 := 16#32
  let v133 : BitVec 32 := Scalar.muli arg10 c16_i32_70
  let v134 : BitVec 32 := Scalar.addi v133 c10_i32
  let c0_i32_73 : BitVec 32 := 0#32
  ![v134.toNat, 0]
def k0_off26 (v144 : BitVec 32) : Fin 2 → Nat :=
  let c0_i32_77 : BitVec 32 := 0#32
  ![v144.toNat, 0]

def k0_chk12 (v144 : BitVec 32) : Prop :=
  (∀ a, (k0_off26 v144) a + S1x64.size a ≤ S1000000x64.size a)
instance k0_chk12.dec : ∀ (v144 : BitVec 32), Decidable (k0_chk12 v144) := fun v144 => decidable_of_iff' _ (Iff.of_eq (k0_chk12.eq_1 v144))
theorem k0_off26_inb : ∀ (v144 : BitVec 32) (k0_hw12 : k0_chk12 v144), ∀ a, (k0_off26 v144) a + S1x64.size a ≤ S1000000x64.size a := fun v144 k0_hw12 => k0_hw12

def k0_off27 (k0_t1 : Fin k0_t1_loop.trips) (c11_i32 : BitVec 32) : Fin 2 → Nat :=
  let c0_i32_0 : BitVec 32 := 0#32
  let c1_i32 : BitVec 32 := 1#32
  let arg10 : BitVec 32 := Scf.iv c0_i32_0 c1_i32 k0_t1
  let c16_i32_75 : BitVec 32 := 16#32
  let v145 : BitVec 32 := Scalar.muli arg10 c16_i32_75
  let v146 : BitVec 32 := Scalar.addi v145 c11_i32
  let c0_i32_78 : BitVec 32 := 0#32
  ![v146.toNat, 0]
def k0_off28 (v156 : BitVec 32) : Fin 2 → Nat :=
  let c0_i32_82 : BitVec 32 := 0#32
  ![v156.toNat, 0]

def k0_chk13 (v156 : BitVec 32) : Prop :=
  (∀ a, (k0_off28 v156) a + S1x64.size a ≤ S1000000x64.size a)
instance k0_chk13.dec : ∀ (v156 : BitVec 32), Decidable (k0_chk13 v156) := fun v156 => decidable_of_iff' _ (Iff.of_eq (k0_chk13.eq_1 v156))
theorem k0_off28_inb : ∀ (v156 : BitVec 32) (k0_hw13 : k0_chk13 v156), ∀ a, (k0_off28 v156) a + S1x64.size a ≤ S1000000x64.size a := fun v156 k0_hw13 => k0_hw13

def k0_off29 (k0_t1 : Fin k0_t1_loop.trips) (c12_i32 : BitVec 32) : Fin 2 → Nat :=
  let c0_i32_0 : BitVec 32 := 0#32
  let c1_i32 : BitVec 32 := 1#32
  let arg10 : BitVec 32 := Scf.iv c0_i32_0 c1_i32 k0_t1
  let c16_i32_80 : BitVec 32 := 16#32
  let v157 : BitVec 32 := Scalar.muli arg10 c16_i32_80
  let v158 : BitVec 32 := Scalar.addi v157 c12_i32
  let c0_i32_83 : BitVec 32 := 0#32
  ![v158.toNat, 0]
def k0_off30 (v168 : BitVec 32) : Fin 2 → Nat :=
  let c0_i32_87 : BitVec 32 := 0#32
  ![v168.toNat, 0]

def k0_chk14 (v168 : BitVec 32) : Prop :=
  (∀ a, (k0_off30 v168) a + S1x64.size a ≤ S1000000x64.size a)
instance k0_chk14.dec : ∀ (v168 : BitVec 32), Decidable (k0_chk14 v168) := fun v168 => decidable_of_iff' _ (Iff.of_eq (k0_chk14.eq_1 v168))
theorem k0_off30_inb : ∀ (v168 : BitVec 32) (k0_hw14 : k0_chk14 v168), ∀ a, (k0_off30 v168) a + S1x64.size a ≤ S1000000x64.size a := fun v168 k0_hw14 => k0_hw14

def k0_off31 (k0_t1 : Fin k0_t1_loop.trips) (c13_i32 : BitVec 32) : Fin 2 → Nat :=
  let c0_i32_0 : BitVec 32 := 0#32
  let c1_i32 : BitVec 32 := 1#32
  let arg10 : BitVec 32 := Scf.iv c0_i32_0 c1_i32 k0_t1
  let c16_i32_85 : BitVec 32 := 16#32
  let v169 : BitVec 32 := Scalar.muli arg10 c16_i32_85
  let v170 : BitVec 32 := Scalar.addi v169 c13_i32
  let c0_i32_88 : BitVec 32 := 0#32
  ![v170.toNat, 0]
def k0_off32 (v180 : BitVec 32) : Fin 2 → Nat :=
  let c0_i32_92 : BitVec 32 := 0#32
  ![v180.toNat, 0]

def k0_chk15 (v180 : BitVec 32) : Prop :=
  (∀ a, (k0_off32 v180) a + S1x64.size a ≤ S1000000x64.size a)
instance k0_chk15.dec : ∀ (v180 : BitVec 32), Decidable (k0_chk15 v180) := fun v180 => decidable_of_iff' _ (Iff.of_eq (k0_chk15.eq_1 v180))
theorem k0_off32_inb : ∀ (v180 : BitVec 32) (k0_hw15 : k0_chk15 v180), ∀ a, (k0_off32 v180) a + S1x64.size a ≤ S1000000x64.size a := fun v180 k0_hw15 => k0_hw15

def k0_off33 (k0_t1 : Fin k0_t1_loop.trips) (c14_i32 : BitVec 32) : Fin 2 → Nat :=
  let c0_i32_0 : BitVec 32 := 0#32
  let c1_i32 : BitVec 32 := 1#32
  let arg10 : BitVec 32 := Scf.iv c0_i32_0 c1_i32 k0_t1
  let c16_i32_90 : BitVec 32 := 16#32
  let v181 : BitVec 32 := Scalar.muli arg10 c16_i32_90
  let v182 : BitVec 32 := Scalar.addi v181 c14_i32
  let c0_i32_93 : BitVec 32 := 0#32
  ![v182.toNat, 0]
def k0_off34 (v192 : BitVec 32) : Fin 2 → Nat :=
  let c0_i32_97 : BitVec 32 := 0#32
  ![v192.toNat, 0]

def k0_chk16 (v192 : BitVec 32) : Prop :=
  (∀ a, (k0_off34 v192) a + S1x64.size a ≤ S1000000x64.size a)
instance k0_chk16.dec : ∀ (v192 : BitVec 32), Decidable (k0_chk16 v192) := fun v192 => decidable_of_iff' _ (Iff.of_eq (k0_chk16.eq_1 v192))
theorem k0_off34_inb : ∀ (v192 : BitVec 32) (k0_hw16 : k0_chk16 v192), ∀ a, (k0_off34 v192) a + S1x64.size a ≤ S1000000x64.size a := fun v192 k0_hw16 => k0_hw16

def k0_off35 (k0_t1 : Fin k0_t1_loop.trips) : Fin 2 → Nat :=
  let c0_i32_0 : BitVec 32 := 0#32
  let c1_i32 : BitVec 32 := 1#32
  let arg10 : BitVec 32 := Scf.iv c0_i32_0 c1_i32 k0_t1
  let c16_i32_95 : BitVec 32 := 16#32
  let v193 : BitVec 32 := Scalar.muli arg10 c16_i32_95
  let c15_i32 : BitVec 32 := 15#32
  let v194 : BitVec 32 := Scalar.addi v193 c15_i32
  let c0_i32_98 : BitVec 32 := 0#32
  ![v194.toNat, 0]
@[reducible] def k0_t2_loop : Scf.Loop 32 :=
  let c0_i32_3 : BitVec 32 := 0#32
  let c512_i32_4 : BitVec 32 := 512#32
  let v4 : BitVec 32 := Scalar.addi c0_i32_3 c512_i32_4
  let c1_i32_5 : BitVec 32 := 1#32
  ⟨c0_i32_3, v4, c1_i32_5⟩
def k0_off36 (k0_t2 : Fin k0_t2_loop.trips) : Fin 2 → Nat :=
  let c0_i32_3 : BitVec 32 := 0#32
  let c1_i32_5 : BitVec 32 := 1#32
  let arg10 : BitVec 32 := Scf.iv c0_i32_3 c1_i32_5 k0_t2
  let c0_i32_18 : BitVec 32 := 0#32
  ![arg10.toNat, 0]
def k0_off37 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_17_r1 : BitVec 32 := 0#32
  ![v2.toNat, 0]
@[reducible] def k0_t3_loop : Scf.Loop 32 :=
  let c0_i32_8 : BitVec 32 := 0#32
  let c32_i32_9 : BitVec 32 := 32#32
  let v5 : BitVec 32 := Scalar.addi c0_i32_8 c32_i32_9
  let c1_i32_10 : BitVec 32 := 1#32
  ⟨c0_i32_8, v5, c1_i32_10⟩
def k0_off38 (k0_t3 : Fin k0_t3_loop.trips) : Fin 1 → Nat :=
  let c0_i32_8 : BitVec 32 := 0#32
  let c1_i32_10 : BitVec 32 := 1#32
  let arg10 : BitVec 32 := Scf.iv c0_i32_8 c1_i32_10 k0_t3
  let c16_i32 : BitVec 32 := 16#32
  let v7 : BitVec 32 := Scalar.muli arg10 c16_i32
  let v8 : Index := Scalar.indexCast v7
  ![v8.toNat]
def k0_off39 (k0_t3 : Fin k0_t3_loop.trips) : Fin 2 → Nat :=
  let c0_i32_8 : BitVec 32 := 0#32
  let c1_i32_10 : BitVec 32 := 1#32
  let arg10 : BitVec 32 := Scf.iv c0_i32_8 c1_i32_10 k0_t3
  let c16_i32_17 : BitVec 32 := 16#32
  let v13 : BitVec 32 := Scalar.muli arg10 c16_i32_17
  let c0_i32_18 : BitVec 32 := 0#32
  let v14 : BitVec 32 := Scalar.addi v13 c0_i32_18
  let c0_i32_19 : BitVec 32 := 0#32
  ![v14.toNat, 0]
def k0_off40 (v12 : BitVec 32) : Fin 2 → Nat :=
  let c0_i32_20 : BitVec 32 := 0#32
  ![v12.toNat, 0]

def k0_chk17 (v12 : BitVec 32) : Prop :=
  (∀ a, (k0_off40 v12) a + S1x64.size a ≤ S1000000x64.size a)
instance k0_chk17.dec : ∀ (v12 : BitVec 32), Decidable (k0_chk17 v12) := fun v12 => decidable_of_iff' _ (Iff.of_eq (k0_chk17.eq_1 v12))
theorem k0_off40_inb : ∀ (v12 : BitVec 32) (k0_hw17 : k0_chk17 v12), ∀ a, (k0_off40 v12) a + S1x64.size a ≤ S1000000x64.size a := fun v12 k0_hw17 => k0_hw17

def k0_off41 (k0_t3 : Fin k0_t3_loop.trips) (c0_i32_18 : BitVec 32) : Fin 2 → Nat :=
  let c0_i32_8 : BitVec 32 := 0#32
  let c1_i32_10 : BitVec 32 := 1#32
  let arg10 : BitVec 32 := Scf.iv c0_i32_8 c1_i32_10 k0_t3
  let c16_i32_17 : BitVec 32 := 16#32
  let v13 : BitVec 32 := Scalar.muli arg10 c16_i32_17
  let v14 : BitVec 32 := Scalar.addi v13 c0_i32_18
  let c0_i32_21 : BitVec 32 := 0#32
  ![v14.toNat, 0]
def k0_off42 (v24 : BitVec 32) : Fin 2 → Nat :=
  let c0_i32_26 : BitVec 32 := 0#32
  ![v24.toNat, 0]

def k0_chk18 (v24 : BitVec 32) : Prop :=
  (∀ a, (k0_off42 v24) a + S1x64.size a ≤ S1000000x64.size a)
instance k0_chk18.dec : ∀ (v24 : BitVec 32), Decidable (k0_chk18 v24) := fun v24 => decidable_of_iff' _ (Iff.of_eq (k0_chk18.eq_1 v24))
theorem k0_off42_inb : ∀ (v24 : BitVec 32) (k0_hw18 : k0_chk18 v24), ∀ a, (k0_off42 v24) a + S1x64.size a ≤ S1000000x64.size a := fun v24 k0_hw18 => k0_hw18

def k0_off43 (k0_t3 : Fin k0_t3_loop.trips) (c1_i32_24 : BitVec 32) : Fin 2 → Nat :=
  let c0_i32_8 : BitVec 32 := 0#32
  let c1_i32_10 : BitVec 32 := 1#32
  let arg10 : BitVec 32 := Scf.iv c0_i32_8 c1_i32_10 k0_t3
  let c16_i32_23 : BitVec 32 := 16#32
  let v25 : BitVec 32 := Scalar.muli arg10 c16_i32_23
  let v26 : BitVec 32 := Scalar.addi v25 c1_i32_24
  let c0_i32_27 : BitVec 32 := 0#32
  ![v26.toNat, 0]
def k0_off44 (v36 : BitVec 32) : Fin 2 → Nat :=
  let c0_i32_32 : BitVec 32 := 0#32
  ![v36.toNat, 0]

def k0_chk19 (v36 : BitVec 32) : Prop :=
  (∀ a, (k0_off44 v36) a + S1x64.size a ≤ S1000000x64.size a)
instance k0_chk19.dec : ∀ (v36 : BitVec 32), Decidable (k0_chk19 v36) := fun v36 => decidable_of_iff' _ (Iff.of_eq (k0_chk19.eq_1 v36))
theorem k0_off44_inb : ∀ (v36 : BitVec 32) (k0_hw19 : k0_chk19 v36), ∀ a, (k0_off44 v36) a + S1x64.size a ≤ S1000000x64.size a := fun v36 k0_hw19 => k0_hw19

def k0_off45 (k0_t3 : Fin k0_t3_loop.trips) (c2_i32_30 : BitVec 32) : Fin 2 → Nat :=
  let c0_i32_8 : BitVec 32 := 0#32
  let c1_i32_10 : BitVec 32 := 1#32
  let arg10 : BitVec 32 := Scf.iv c0_i32_8 c1_i32_10 k0_t3
  let c16_i32_29 : BitVec 32 := 16#32
  let v37 : BitVec 32 := Scalar.muli arg10 c16_i32_29
  let v38 : BitVec 32 := Scalar.addi v37 c2_i32_30
  let c0_i32_33 : BitVec 32 := 0#32
  ![v38.toNat, 0]
def k0_off46 (v48 : BitVec 32) : Fin 2 → Nat :=
  let c0_i32_37 : BitVec 32 := 0#32
  ![v48.toNat, 0]

def k0_chk20 (v48 : BitVec 32) : Prop :=
  (∀ a, (k0_off46 v48) a + S1x64.size a ≤ S1000000x64.size a)
instance k0_chk20.dec : ∀ (v48 : BitVec 32), Decidable (k0_chk20 v48) := fun v48 => decidable_of_iff' _ (Iff.of_eq (k0_chk20.eq_1 v48))
theorem k0_off46_inb : ∀ (v48 : BitVec 32) (k0_hw20 : k0_chk20 v48), ∀ a, (k0_off46 v48) a + S1x64.size a ≤ S1000000x64.size a := fun v48 k0_hw20 => k0_hw20

def k0_off47 (k0_t3 : Fin k0_t3_loop.trips) (c3_i32 : BitVec 32) : Fin 2 → Nat :=
  let c0_i32_8 : BitVec 32 := 0#32
  let c1_i32_10 : BitVec 32 := 1#32
  let arg10 : BitVec 32 := Scf.iv c0_i32_8 c1_i32_10 k0_t3
  let c16_i32_35 : BitVec 32 := 16#32
  let v49 : BitVec 32 := Scalar.muli arg10 c16_i32_35
  let v50 : BitVec 32 := Scalar.addi v49 c3_i32
  let c0_i32_38 : BitVec 32 := 0#32
  ![v50.toNat, 0]
def k0_off48 (v60 : BitVec 32) : Fin 2 → Nat :=
  let c0_i32_42 : BitVec 32 := 0#32
  ![v60.toNat, 0]

def k0_chk21 (v60 : BitVec 32) : Prop :=
  (∀ a, (k0_off48 v60) a + S1x64.size a ≤ S1000000x64.size a)
instance k0_chk21.dec : ∀ (v60 : BitVec 32), Decidable (k0_chk21 v60) := fun v60 => decidable_of_iff' _ (Iff.of_eq (k0_chk21.eq_1 v60))
theorem k0_off48_inb : ∀ (v60 : BitVec 32) (k0_hw21 : k0_chk21 v60), ∀ a, (k0_off48 v60) a + S1x64.size a ≤ S1000000x64.size a := fun v60 k0_hw21 => k0_hw21

def k0_off49 (k0_t3 : Fin k0_t3_loop.trips) (c4_i32 : BitVec 32) : Fin 2 → Nat :=
  let c0_i32_8 : BitVec 32 := 0#32
  let c1_i32_10 : BitVec 32 := 1#32
  let arg10 : BitVec 32 := Scf.iv c0_i32_8 c1_i32_10 k0_t3
  let c16_i32_40 : BitVec 32 := 16#32
  let v61 : BitVec 32 := Scalar.muli arg10 c16_i32_40
  let v62 : BitVec 32 := Scalar.addi v61 c4_i32
  let c0_i32_43 : BitVec 32 := 0#32
  ![v62.toNat, 0]
def k0_off50 (v72 : BitVec 32) : Fin 2 → Nat :=
  let c0_i32_47 : BitVec 32 := 0#32
  ![v72.toNat, 0]

def k0_chk22 (v72 : BitVec 32) : Prop :=
  (∀ a, (k0_off50 v72) a + S1x64.size a ≤ S1000000x64.size a)
instance k0_chk22.dec : ∀ (v72 : BitVec 32), Decidable (k0_chk22 v72) := fun v72 => decidable_of_iff' _ (Iff.of_eq (k0_chk22.eq_1 v72))
theorem k0_off50_inb : ∀ (v72 : BitVec 32) (k0_hw22 : k0_chk22 v72), ∀ a, (k0_off50 v72) a + S1x64.size a ≤ S1000000x64.size a := fun v72 k0_hw22 => k0_hw22

def k0_off51 (k0_t3 : Fin k0_t3_loop.trips) (c5_i32 : BitVec 32) : Fin 2 → Nat :=
  let c0_i32_8 : BitVec 32 := 0#32
  let c1_i32_10 : BitVec 32 := 1#32
  let arg10 : BitVec 32 := Scf.iv c0_i32_8 c1_i32_10 k0_t3
  let c16_i32_45 : BitVec 32 := 16#32
  let v73 : BitVec 32 := Scalar.muli arg10 c16_i32_45
  let v74 : BitVec 32 := Scalar.addi v73 c5_i32
  let c0_i32_48 : BitVec 32 := 0#32
  ![v74.toNat, 0]
def k0_off52 (v84 : BitVec 32) : Fin 2 → Nat :=
  let c0_i32_52 : BitVec 32 := 0#32
  ![v84.toNat, 0]

def k0_chk23 (v84 : BitVec 32) : Prop :=
  (∀ a, (k0_off52 v84) a + S1x64.size a ≤ S1000000x64.size a)
instance k0_chk23.dec : ∀ (v84 : BitVec 32), Decidable (k0_chk23 v84) := fun v84 => decidable_of_iff' _ (Iff.of_eq (k0_chk23.eq_1 v84))
theorem k0_off52_inb : ∀ (v84 : BitVec 32) (k0_hw23 : k0_chk23 v84), ∀ a, (k0_off52 v84) a + S1x64.size a ≤ S1000000x64.size a := fun v84 k0_hw23 => k0_hw23

def k0_off53 (k0_t3 : Fin k0_t3_loop.trips) (c6_i32 : BitVec 32) : Fin 2 → Nat :=
  let c0_i32_8 : BitVec 32 := 0#32
  let c1_i32_10 : BitVec 32 := 1#32
  let arg10 : BitVec 32 := Scf.iv c0_i32_8 c1_i32_10 k0_t3
  let c16_i32_50 : BitVec 32 := 16#32
  let v85 : BitVec 32 := Scalar.muli arg10 c16_i32_50
  let v86 : BitVec 32 := Scalar.addi v85 c6_i32
  let c0_i32_53 : BitVec 32 := 0#32
  ![v86.toNat, 0]
def k0_off54 (v96 : BitVec 32) : Fin 2 → Nat :=
  let c0_i32_57 : BitVec 32 := 0#32
  ![v96.toNat, 0]

def k0_chk24 (v96 : BitVec 32) : Prop :=
  (∀ a, (k0_off54 v96) a + S1x64.size a ≤ S1000000x64.size a)
instance k0_chk24.dec : ∀ (v96 : BitVec 32), Decidable (k0_chk24 v96) := fun v96 => decidable_of_iff' _ (Iff.of_eq (k0_chk24.eq_1 v96))
theorem k0_off54_inb : ∀ (v96 : BitVec 32) (k0_hw24 : k0_chk24 v96), ∀ a, (k0_off54 v96) a + S1x64.size a ≤ S1000000x64.size a := fun v96 k0_hw24 => k0_hw24

def k0_off55 (k0_t3 : Fin k0_t3_loop.trips) (c7_i32 : BitVec 32) : Fin 2 → Nat :=
  let c0_i32_8 : BitVec 32 := 0#32
  let c1_i32_10 : BitVec 32 := 1#32
  let arg10 : BitVec 32 := Scf.iv c0_i32_8 c1_i32_10 k0_t3
  let c16_i32_55 : BitVec 32 := 16#32
  let v97 : BitVec 32 := Scalar.muli arg10 c16_i32_55
  let v98 : BitVec 32 := Scalar.addi v97 c7_i32
  let c0_i32_58 : BitVec 32 := 0#32
  ![v98.toNat, 0]
def k0_off56 (v108 : BitVec 32) : Fin 2 → Nat :=
  let c0_i32_62 : BitVec 32 := 0#32
  ![v108.toNat, 0]

def k0_chk25 (v108 : BitVec 32) : Prop :=
  (∀ a, (k0_off56 v108) a + S1x64.size a ≤ S1000000x64.size a)
instance k0_chk25.dec : ∀ (v108 : BitVec 32), Decidable (k0_chk25 v108) := fun v108 => decidable_of_iff' _ (Iff.of_eq (k0_chk25.eq_1 v108))
theorem k0_off56_inb : ∀ (v108 : BitVec 32) (k0_hw25 : k0_chk25 v108), ∀ a, (k0_off56 v108) a + S1x64.size a ≤ S1000000x64.size a := fun v108 k0_hw25 => k0_hw25

def k0_off57 (k0_t3 : Fin k0_t3_loop.trips) (c8_i32 : BitVec 32) : Fin 2 → Nat :=
  let c0_i32_8 : BitVec 32 := 0#32
  let c1_i32_10 : BitVec 32 := 1#32
  let arg10 : BitVec 32 := Scf.iv c0_i32_8 c1_i32_10 k0_t3
  let c16_i32_60 : BitVec 32 := 16#32
  let v109 : BitVec 32 := Scalar.muli arg10 c16_i32_60
  let v110 : BitVec 32 := Scalar.addi v109 c8_i32
  let c0_i32_63 : BitVec 32 := 0#32
  ![v110.toNat, 0]
def k0_off58 (v120 : BitVec 32) : Fin 2 → Nat :=
  let c0_i32_67 : BitVec 32 := 0#32
  ![v120.toNat, 0]

def k0_chk26 (v120 : BitVec 32) : Prop :=
  (∀ a, (k0_off58 v120) a + S1x64.size a ≤ S1000000x64.size a)
instance k0_chk26.dec : ∀ (v120 : BitVec 32), Decidable (k0_chk26 v120) := fun v120 => decidable_of_iff' _ (Iff.of_eq (k0_chk26.eq_1 v120))
theorem k0_off58_inb : ∀ (v120 : BitVec 32) (k0_hw26 : k0_chk26 v120), ∀ a, (k0_off58 v120) a + S1x64.size a ≤ S1000000x64.size a := fun v120 k0_hw26 => k0_hw26

def k0_off59 (k0_t3 : Fin k0_t3_loop.trips) (c9_i32 : BitVec 32) : Fin 2 → Nat :=
  let c0_i32_8 : BitVec 32 := 0#32
  let c1_i32_10 : BitVec 32 := 1#32
  let arg10 : BitVec 32 := Scf.iv c0_i32_8 c1_i32_10 k0_t3
  let c16_i32_65 : BitVec 32 := 16#32
  let v121 : BitVec 32 := Scalar.muli arg10 c16_i32_65
  let v122 : BitVec 32 := Scalar.addi v121 c9_i32
  let c0_i32_68 : BitVec 32 := 0#32
  ![v122.toNat, 0]
def k0_off60 (v132 : BitVec 32) : Fin 2 → Nat :=
  let c0_i32_72 : BitVec 32 := 0#32
  ![v132.toNat, 0]

def k0_chk27 (v132 : BitVec 32) : Prop :=
  (∀ a, (k0_off60 v132) a + S1x64.size a ≤ S1000000x64.size a)
instance k0_chk27.dec : ∀ (v132 : BitVec 32), Decidable (k0_chk27 v132) := fun v132 => decidable_of_iff' _ (Iff.of_eq (k0_chk27.eq_1 v132))
theorem k0_off60_inb : ∀ (v132 : BitVec 32) (k0_hw27 : k0_chk27 v132), ∀ a, (k0_off60 v132) a + S1x64.size a ≤ S1000000x64.size a := fun v132 k0_hw27 => k0_hw27

def k0_off61 (k0_t3 : Fin k0_t3_loop.trips) (c10_i32 : BitVec 32) : Fin 2 → Nat :=
  let c0_i32_8 : BitVec 32 := 0#32
  let c1_i32_10 : BitVec 32 := 1#32
  let arg10 : BitVec 32 := Scf.iv c0_i32_8 c1_i32_10 k0_t3
  let c16_i32_70 : BitVec 32 := 16#32
  let v133 : BitVec 32 := Scalar.muli arg10 c16_i32_70
  let v134 : BitVec 32 := Scalar.addi v133 c10_i32
  let c0_i32_73 : BitVec 32 := 0#32
  ![v134.toNat, 0]
def k0_off62 (v144 : BitVec 32) : Fin 2 → Nat :=
  let c0_i32_77 : BitVec 32 := 0#32
  ![v144.toNat, 0]

def k0_chk28 (v144 : BitVec 32) : Prop :=
  (∀ a, (k0_off62 v144) a + S1x64.size a ≤ S1000000x64.size a)
instance k0_chk28.dec : ∀ (v144 : BitVec 32), Decidable (k0_chk28 v144) := fun v144 => decidable_of_iff' _ (Iff.of_eq (k0_chk28.eq_1 v144))
theorem k0_off62_inb : ∀ (v144 : BitVec 32) (k0_hw28 : k0_chk28 v144), ∀ a, (k0_off62 v144) a + S1x64.size a ≤ S1000000x64.size a := fun v144 k0_hw28 => k0_hw28

def k0_off63 (k0_t3 : Fin k0_t3_loop.trips) (c11_i32 : BitVec 32) : Fin 2 → Nat :=
  let c0_i32_8 : BitVec 32 := 0#32
  let c1_i32_10 : BitVec 32 := 1#32
  let arg10 : BitVec 32 := Scf.iv c0_i32_8 c1_i32_10 k0_t3
  let c16_i32_75 : BitVec 32 := 16#32
  let v145 : BitVec 32 := Scalar.muli arg10 c16_i32_75
  let v146 : BitVec 32 := Scalar.addi v145 c11_i32
  let c0_i32_78 : BitVec 32 := 0#32
  ![v146.toNat, 0]
def k0_off64 (v156 : BitVec 32) : Fin 2 → Nat :=
  let c0_i32_82 : BitVec 32 := 0#32
  ![v156.toNat, 0]

def k0_chk29 (v156 : BitVec 32) : Prop :=
  (∀ a, (k0_off64 v156) a + S1x64.size a ≤ S1000000x64.size a)
instance k0_chk29.dec : ∀ (v156 : BitVec 32), Decidable (k0_chk29 v156) := fun v156 => decidable_of_iff' _ (Iff.of_eq (k0_chk29.eq_1 v156))
theorem k0_off64_inb : ∀ (v156 : BitVec 32) (k0_hw29 : k0_chk29 v156), ∀ a, (k0_off64 v156) a + S1x64.size a ≤ S1000000x64.size a := fun v156 k0_hw29 => k0_hw29

def k0_off65 (k0_t3 : Fin k0_t3_loop.trips) (c12_i32 : BitVec 32) : Fin 2 → Nat :=
  let c0_i32_8 : BitVec 32 := 0#32
  let c1_i32_10 : BitVec 32 := 1#32
  let arg10 : BitVec 32 := Scf.iv c0_i32_8 c1_i32_10 k0_t3
  let c16_i32_80 : BitVec 32 := 16#32
  let v157 : BitVec 32 := Scalar.muli arg10 c16_i32_80
  let v158 : BitVec 32 := Scalar.addi v157 c12_i32
  let c0_i32_83 : BitVec 32 := 0#32
  ![v158.toNat, 0]
def k0_off66 (v168 : BitVec 32) : Fin 2 → Nat :=
  let c0_i32_87 : BitVec 32 := 0#32
  ![v168.toNat, 0]

def k0_chk30 (v168 : BitVec 32) : Prop :=
  (∀ a, (k0_off66 v168) a + S1x64.size a ≤ S1000000x64.size a)
instance k0_chk30.dec : ∀ (v168 : BitVec 32), Decidable (k0_chk30 v168) := fun v168 => decidable_of_iff' _ (Iff.of_eq (k0_chk30.eq_1 v168))
theorem k0_off66_inb : ∀ (v168 : BitVec 32) (k0_hw30 : k0_chk30 v168), ∀ a, (k0_off66 v168) a + S1x64.size a ≤ S1000000x64.size a := fun v168 k0_hw30 => k0_hw30

def k0_off67 (k0_t3 : Fin k0_t3_loop.trips) (c13_i32 : BitVec 32) : Fin 2 → Nat :=
  let c0_i32_8 : BitVec 32 := 0#32
  let c1_i32_10 : BitVec 32 := 1#32
  let arg10 : BitVec 32 := Scf.iv c0_i32_8 c1_i32_10 k0_t3
  let c16_i32_85 : BitVec 32 := 16#32
  let v169 : BitVec 32 := Scalar.muli arg10 c16_i32_85
  let v170 : BitVec 32 := Scalar.addi v169 c13_i32
  let c0_i32_88 : BitVec 32 := 0#32
  ![v170.toNat, 0]
def k0_off68 (v180 : BitVec 32) : Fin 2 → Nat :=
  let c0_i32_92 : BitVec 32 := 0#32
  ![v180.toNat, 0]

def k0_chk31 (v180 : BitVec 32) : Prop :=
  (∀ a, (k0_off68 v180) a + S1x64.size a ≤ S1000000x64.size a)
instance k0_chk31.dec : ∀ (v180 : BitVec 32), Decidable (k0_chk31 v180) := fun v180 => decidable_of_iff' _ (Iff.of_eq (k0_chk31.eq_1 v180))
theorem k0_off68_inb : ∀ (v180 : BitVec 32) (k0_hw31 : k0_chk31 v180), ∀ a, (k0_off68 v180) a + S1x64.size a ≤ S1000000x64.size a := fun v180 k0_hw31 => k0_hw31

def k0_off69 (k0_t3 : Fin k0_t3_loop.trips) (c14_i32 : BitVec 32) : Fin 2 → Nat :=
  let c0_i32_8 : BitVec 32 := 0#32
  let c1_i32_10 : BitVec 32 := 1#32
  let arg10 : BitVec 32 := Scf.iv c0_i32_8 c1_i32_10 k0_t3
  let c16_i32_90 : BitVec 32 := 16#32
  let v181 : BitVec 32 := Scalar.muli arg10 c16_i32_90
  let v182 : BitVec 32 := Scalar.addi v181 c14_i32
  let c0_i32_93 : BitVec 32 := 0#32
  ![v182.toNat, 0]
def k0_off70 (v192 : BitVec 32) : Fin 2 → Nat :=
  let c0_i32_97 : BitVec 32 := 0#32
  ![v192.toNat, 0]

def k0_chk32 (v192 : BitVec 32) : Prop :=
  (∀ a, (k0_off70 v192) a + S1x64.size a ≤ S1000000x64.size a)
instance k0_chk32.dec : ∀ (v192 : BitVec 32), Decidable (k0_chk32 v192) := fun v192 => decidable_of_iff' _ (Iff.of_eq (k0_chk32.eq_1 v192))
theorem k0_off70_inb : ∀ (v192 : BitVec 32) (k0_hw32 : k0_chk32 v192), ∀ a, (k0_off70 v192) a + S1x64.size a ≤ S1000000x64.size a := fun v192 k0_hw32 => k0_hw32

def k0_off71 (k0_t3 : Fin k0_t3_loop.trips) : Fin 2 → Nat :=
  let c0_i32_8 : BitVec 32 := 0#32
  let c1_i32_10 : BitVec 32 := 1#32
  let arg10 : BitVec 32 := Scf.iv c0_i32_8 c1_i32_10 k0_t3
  let c16_i32_95 : BitVec 32 := 16#32
  let v193 : BitVec 32 := Scalar.muli arg10 c16_i32_95
  let c15_i32 : BitVec 32 := 15#32
  let v194 : BitVec 32 := Scalar.addi v193 c15_i32
  let c0_i32_98 : BitVec 32 := 0#32
  ![v194.toNat, 0]
@[reducible] def k0_t4_loop : Scf.Loop 32 :=
  let c0_i32_13 : BitVec 32 := 0#32
  let c512_i32_14 : BitVec 32 := 512#32
  let v6 : BitVec 32 := Scalar.addi c0_i32_13 c512_i32_14
  let c1_i32_15 : BitVec 32 := 1#32
  ⟨c0_i32_13, v6, c1_i32_15⟩
def k0_off72 (k0_t4 : Fin k0_t4_loop.trips) : Fin 2 → Nat :=
  let c0_i32_13 : BitVec 32 := 0#32
  let c1_i32_15 : BitVec 32 := 1#32
  let arg10 : BitVec 32 := Scf.iv c0_i32_13 c1_i32_15 k0_t4
  let c0_i32_18 : BitVec 32 := 0#32
  ![arg10.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  shapeCasts_S16_S16 : S16.ShapeCasts S16
  slices_S16_o0_S1 : S16.Slices ![0] S1
  inpos_S1_p0 : ∀ a, (![0] : Fin 1 → Nat) a < S1.size a
  squeezes_S1x64_S64 : S1x64.Squeezes S64
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S1000000x64_S1x64_0_0 : ∀ a, (![0, 0] : Fin 2 → Nat) a + S1x64.size a ≤ S1000000x64.size a
  slices_S128x128_S128x64_0_0 : S128x128.Slices ![0, 0] S128x64
  transposes_S128x64_S64x128_1_0 : S128x64.Transposes [1, 0] S64x128
  slices_S128x128_S128x64_0_64 : S128x128.Slices ![0, 64] S128x64
  shapeCasts_S128_S1x128 : S128.ShapeCasts S1x128
  transposes_S64x128_S128x64_1_0 : S64x128.Transposes [1, 0] S128x64
  shapeCasts_S64_S1x64 : S64.ShapeCasts S1x64
  transposes_S1x64_S64x1_1_0 : S1x64.Transposes [1, 0] S64x1
  shapeCasts_S1_S1x1 : S1.ShapeCasts S1x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x64_S64x128_S2048x128_1_0_0_1_n_n_wf : DotDims.WF S2048x64 S64x128 S2048x128 [1] [0] [0] [1] [] []
  dot_S2048x128_S128x64_S2048x64_1_0_0_1_n_n_wf : DotDims.WF S2048x128 S128x64 S2048x64 [1] [0] [0] [1] [] []
  dot_S2048x64_S64x1_S2048x1_1_0_0_1_n_n_wf : DotDims.WF S2048x64 S64x1 S2048x1 [1] [0] [0] [1] [] []
  hcc0_scratch2 : 0 + S_.numel ≤ 18
  hcc0_scoped0 : 1 + S_.numel ≤ 18
  hcc0_scoped1 : 2 + S_.numel ≤ 18
  hcc0_scoped2 : 3 + S_.numel ≤ 18
  hcc0_scoped3 : 4 + S_.numel ≤ 18
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ a, (k0_off2 k0_t1) a + S16.size a ≤ S512.size a
  k0_off3_inb : ∀ k0_t1 : Fin k0_t1_loop.trips, ∀ a, (k0_off3 k0_t1) a + S1x64.size a ≤ S512x64.size a
  k0_off5_inb : ∀ k0_t1 : Fin k0_t1_loop.trips, ∀ (r : Fin 2), ∀ a, (k0_off5 k0_t1 (BitVec.ofNat 32 r.val)) a + S1x64.size a ≤ S512x64.size a
  k0_off7_inb : ∀ k0_t1 : Fin k0_t1_loop.trips, ∀ (r : Fin 2), ∀ a, (k0_off7 k0_t1 (BitVec.ofNat 32 (1 + r.val))) a + S1x64.size a ≤ S512x64.size a
  k0_off9_inb : ∀ k0_t1 : Fin k0_t1_loop.trips, ∀ (r : Fin 2), ∀ a, (k0_off9 k0_t1 (BitVec.ofNat 32 (2 + r.val))) a + S1x64.size a ≤ S512x64.size a
  k0_off11_inb : ∀ k0_t1 : Fin k0_t1_loop.trips, ∀ (r : Fin 2), ∀ a, (k0_off11 k0_t1 (BitVec.ofNat 32 (3 + r.val))) a + S1x64.size a ≤ S512x64.size a
  k0_off13_inb : ∀ k0_t1 : Fin k0_t1_loop.trips, ∀ (r : Fin 2), ∀ a, (k0_off13 k0_t1 (BitVec.ofNat 32 (4 + r.val))) a + S1x64.size a ≤ S512x64.size a
  k0_off15_inb : ∀ k0_t1 : Fin k0_t1_loop.trips, ∀ (r : Fin 2), ∀ a, (k0_off15 k0_t1 (BitVec.ofNat 32 (5 + r.val))) a + S1x64.size a ≤ S512x64.size a
  k0_off17_inb : ∀ k0_t1 : Fin k0_t1_loop.trips, ∀ (r : Fin 2), ∀ a, (k0_off17 k0_t1 (BitVec.ofNat 32 (6 + r.val))) a + S1x64.size a ≤ S512x64.size a
  k0_off19_inb : ∀ k0_t1 : Fin k0_t1_loop.trips, ∀ (r : Fin 2), ∀ a, (k0_off19 k0_t1 (BitVec.ofNat 32 (7 + r.val))) a + S1x64.size a ≤ S512x64.size a
  k0_off21_inb : ∀ k0_t1 : Fin k0_t1_loop.trips, ∀ (r : Fin 2), ∀ a, (k0_off21 k0_t1 (BitVec.ofNat 32 (8 + r.val))) a + S1x64.size a ≤ S512x64.size a
  k0_off23_inb : ∀ k0_t1 : Fin k0_t1_loop.trips, ∀ (r : Fin 2), ∀ a, (k0_off23 k0_t1 (BitVec.ofNat 32 (9 + r.val))) a + S1x64.size a ≤ S512x64.size a
  k0_off25_inb : ∀ k0_t1 : Fin k0_t1_loop.trips, ∀ (r : Fin 2), ∀ a, (k0_off25 k0_t1 (BitVec.ofNat 32 (10 + r.val))) a + S1x64.size a ≤ S512x64.size a
  k0_off27_inb : ∀ k0_t1 : Fin k0_t1_loop.trips, ∀ (r : Fin 2), ∀ a, (k0_off27 k0_t1 (BitVec.ofNat 32 (11 + r.val))) a + S1x64.size a ≤ S512x64.size a
  k0_off29_inb : ∀ k0_t1 : Fin k0_t1_loop.trips, ∀ (r : Fin 2), ∀ a, (k0_off29 k0_t1 (BitVec.ofNat 32 (12 + r.val))) a + S1x64.size a ≤ S512x64.size a
  k0_off31_inb : ∀ k0_t1 : Fin k0_t1_loop.trips, ∀ (r : Fin 2), ∀ a, (k0_off31 k0_t1 (BitVec.ofNat 32 (13 + r.val))) a + S1x64.size a ≤ S512x64.size a
  k0_off33_inb : ∀ k0_t1 : Fin k0_t1_loop.trips, ∀ (r : Fin 2), ∀ a, (k0_off33 k0_t1 (BitVec.ofNat 32 (14 + r.val))) a + S1x64.size a ≤ S512x64.size a
  k0_off35_inb : ∀ k0_t1 : Fin k0_t1_loop.trips, ∀ a, (k0_off35 k0_t1) a + S1x64.size a ≤ S512x64.size a
  k0_t2_ok : k0_t2_loop.OK
  k0_off36_inb : ∀ k0_t2 : Fin k0_t2_loop.trips, ∀ a, (k0_off36 k0_t2) a + S1x64.size a ≤ S512x64.size a
  k0_off37_inb : ∀ i : grid0.Coords, ∀ a, (k0_off37 i) a + S512x64.size a ≤ S16384x64.size a
  k0_t3_ok : k0_t3_loop.OK
  k0_off38_inb : ∀ k0_t3 : Fin k0_t3_loop.trips, ∀ a, (k0_off38 k0_t3) a + S16.size a ≤ S512.size a
  k0_off39_inb : ∀ k0_t3 : Fin k0_t3_loop.trips, ∀ a, (k0_off39 k0_t3) a + S1x64.size a ≤ S512x64.size a
  k0_off41_inb : ∀ k0_t3 : Fin k0_t3_loop.trips, ∀ (r : Fin 2), ∀ a, (k0_off41 k0_t3 (BitVec.ofNat 32 r.val)) a + S1x64.size a ≤ S512x64.size a
  k0_off43_inb : ∀ k0_t3 : Fin k0_t3_loop.trips, ∀ (r : Fin 2), ∀ a, (k0_off43 k0_t3 (BitVec.ofNat 32 (1 + r.val))) a + S1x64.size a ≤ S512x64.size a
  k0_off45_inb : ∀ k0_t3 : Fin k0_t3_loop.trips, ∀ (r : Fin 2), ∀ a, (k0_off45 k0_t3 (BitVec.ofNat 32 (2 + r.val))) a + S1x64.size a ≤ S512x64.size a
  k0_off47_inb : ∀ k0_t3 : Fin k0_t3_loop.trips, ∀ (r : Fin 2), ∀ a, (k0_off47 k0_t3 (BitVec.ofNat 32 (3 + r.val))) a + S1x64.size a ≤ S512x64.size a
  k0_off49_inb : ∀ k0_t3 : Fin k0_t3_loop.trips, ∀ (r : Fin 2), ∀ a, (k0_off49 k0_t3 (BitVec.ofNat 32 (4 + r.val))) a + S1x64.size a ≤ S512x64.size a
  k0_off51_inb : ∀ k0_t3 : Fin k0_t3_loop.trips, ∀ (r : Fin 2), ∀ a, (k0_off51 k0_t3 (BitVec.ofNat 32 (5 + r.val))) a + S1x64.size a ≤ S512x64.size a
  k0_off53_inb : ∀ k0_t3 : Fin k0_t3_loop.trips, ∀ (r : Fin 2), ∀ a, (k0_off53 k0_t3 (BitVec.ofNat 32 (6 + r.val))) a + S1x64.size a ≤ S512x64.size a
  k0_off55_inb : ∀ k0_t3 : Fin k0_t3_loop.trips, ∀ (r : Fin 2), ∀ a, (k0_off55 k0_t3 (BitVec.ofNat 32 (7 + r.val))) a + S1x64.size a ≤ S512x64.size a
  k0_off57_inb : ∀ k0_t3 : Fin k0_t3_loop.trips, ∀ (r : Fin 2), ∀ a, (k0_off57 k0_t3 (BitVec.ofNat 32 (8 + r.val))) a + S1x64.size a ≤ S512x64.size a
  k0_off59_inb : ∀ k0_t3 : Fin k0_t3_loop.trips, ∀ (r : Fin 2), ∀ a, (k0_off59 k0_t3 (BitVec.ofNat 32 (9 + r.val))) a + S1x64.size a ≤ S512x64.size a
  k0_off61_inb : ∀ k0_t3 : Fin k0_t3_loop.trips, ∀ (r : Fin 2), ∀ a, (k0_off61 k0_t3 (BitVec.ofNat 32 (10 + r.val))) a + S1x64.size a ≤ S512x64.size a
  k0_off63_inb : ∀ k0_t3 : Fin k0_t3_loop.trips, ∀ (r : Fin 2), ∀ a, (k0_off63 k0_t3 (BitVec.ofNat 32 (11 + r.val))) a + S1x64.size a ≤ S512x64.size a
  k0_off65_inb : ∀ k0_t3 : Fin k0_t3_loop.trips, ∀ (r : Fin 2), ∀ a, (k0_off65 k0_t3 (BitVec.ofNat 32 (12 + r.val))) a + S1x64.size a ≤ S512x64.size a
  k0_off67_inb : ∀ k0_t3 : Fin k0_t3_loop.trips, ∀ (r : Fin 2), ∀ a, (k0_off67 k0_t3 (BitVec.ofNat 32 (13 + r.val))) a + S1x64.size a ≤ S512x64.size a
  k0_off69_inb : ∀ k0_t3 : Fin k0_t3_loop.trips, ∀ (r : Fin 2), ∀ a, (k0_off69 k0_t3 (BitVec.ofNat 32 (14 + r.val))) a + S1x64.size a ≤ S512x64.size a
  k0_off71_inb : ∀ k0_t3 : Fin k0_t3_loop.trips, ∀ a, (k0_off71 k0_t3) a + S1x64.size a ≤ S512x64.size a
  k0_t4_ok : k0_t4_loop.OK
  k0_off72_inb : ∀ k0_t4 : Fin k0_t4_loop.trips, ∀ a, (k0_off72 k0_t4) a + S1x64.size a ≤ S512x64.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .f32 = 32 ∨ (Rect.block (s := S16384x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x1.size a ≤ S64x1.size a
  hwx1_7 : ∀ i : grid1.Coords, EltTy.bits .f32 = 32 ∨ (Rect.block (s := S64x1) S64x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x1.size a ≤ S16384x1.size a
  hwx1_9 : ∀ i : grid1.Coords, EltTy.bits .f32 = 32 ∨ (Rect.block (s := S16384x1) S2048x1.size (cc1_transform_9 i) (hinb1_9 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc0_scoped3 : DmaSems sig S_ := SemArray.consecutive 4 S_ hcc0_scoped3
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win1_0 : Pipeline.Window sig grid1 :=
  Pipeline.Window.ofSpec (Memref.whole main_v0_0) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S64x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v9) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v10) S2048x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S16384 : Shape := ⟨1, ![16384]⟩
abbrev S1000000x64 : Shape := ⟨2, ![1000000, 64]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x64 : Shape := ⟨2, ![16384, 64]⟩
abbrev S16384x128 : Shape := ⟨2, ![16384, 128]⟩
abbrev S1x128 : Shape := ⟨2, ![1, 128]⟩
abbrev S128x64 : Shape := ⟨2, ![128, 64]⟩
abbrev S64x1 : Shape := ⟨2, ![64, 1]⟩

abbrev nBuf : Space → Nat
  | .hbm => 85
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S1x64, .f32⟩
  | .hbm, ⟨8, _⟩ => ⟨S1, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S1, .i32⟩
  | .hbm, ⟨18, _⟩ => ⟨S_, .i32⟩
  | .hbm, ⟨19, _⟩ => ⟨S16384x1, .i32⟩
  | .hbm, ⟨20, _⟩ => ⟨S16384x1, .i1⟩
  | .hbm, ⟨21, _⟩ => ⟨S1x1, .i32⟩
  | .hbm, ⟨22, _⟩ => ⟨S16384x1, .i32⟩
  | .hbm, ⟨23, _⟩ => ⟨S16384x1, .i1⟩
  | .hbm, ⟨24, _⟩ => ⟨S16384x1, .i1⟩
  | .hbm, ⟨25, _⟩ => ⟨S_, .i1⟩
  | .hbm, ⟨26, _⟩ => ⟨S16384, .i1⟩
  | .hbm, ⟨27, _⟩ => ⟨S16384x64, .f32⟩
  | .hbm, ⟨28, _⟩ => ⟨S16384x64, .i1⟩
  | .hbm, ⟨29, _⟩ => ⟨S_, .f32⟩
  | .hbm, ⟨30, _⟩ => ⟨S16384x64, .f32⟩
  | .hbm, ⟨31, _⟩ => ⟨S16384x64, .f32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384x1, .i32⟩
  | .hbm, ⟨40, _⟩ => ⟨S1, .i32⟩
  | .hbm, ⟨41, _⟩ => ⟨S_, .i32⟩
  | .hbm, ⟨42, _⟩ => ⟨S16384x1, .i32⟩
  | .hbm, ⟨43, _⟩ => ⟨S16384x1, .i1⟩
  | .hbm, ⟨44, _⟩ => ⟨S1x1, .i32⟩
  | .hbm, ⟨45, _⟩ => ⟨S16384x1, .i32⟩
  | .hbm, ⟨46, _⟩ => ⟨S16384x1, .i1⟩
  | .hbm, ⟨47, _⟩ => ⟨S16384x1, .i1⟩
  | .hbm, ⟨48, _⟩ => ⟨S_, .i1⟩
  | .hbm, ⟨49, _⟩ => ⟨S16384, .i1⟩
  | .hbm, ⟨50, _⟩ => ⟨S16384x64, .f32⟩
  | .hbm, ⟨51, _⟩ => ⟨S16384x64, .i1⟩
  | .hbm, ⟨52, _⟩ => ⟨S_, .f32⟩
  | .hbm, ⟨53, _⟩ => ⟨S16384x64, .f32⟩
  | .hbm, ⟨54, _⟩ => ⟨S16384x64, .f32⟩
  | .hbm, ⟨55, _⟩ => ⟨S16384x128, .f32⟩
  | .hbm, ⟨56, _⟩ => ⟨S128x128, .f32⟩
  | .hbm, ⟨57, _⟩ => ⟨S16384x128, .f32⟩
  | .hbm, ⟨58, _⟩ => ⟨S1x128, .f32⟩
  | .hbm, ⟨59, _⟩ => ⟨S16384x128, .f32⟩
  | .hbm, ⟨60, _⟩ => ⟨S16384x128, .f32⟩
  | .hbm, ⟨61, _⟩ => ⟨S_, .f32⟩
  | .hbm, ⟨62, _⟩ => ⟨S16384x128, .f32⟩
  | .hbm, ⟨63, _⟩ => ⟨S16384x128, .f32⟩
  | .hbm, ⟨64, _⟩ => ⟨S128x64, .f32⟩
  | .hbm, ⟨65, _⟩ => ⟨S16384x64, .f32⟩
  | .hbm, ⟨66, _⟩ => ⟨S1x64, .f32⟩
  | .hbm, ⟨67, _⟩ => ⟨S16384x64, .f32⟩
  | .hbm, ⟨68, _⟩ => ⟨S16384x64, .f32⟩
  | .hbm, ⟨69, _⟩ => ⟨S_, .f32⟩
  | .hbm, ⟨70, _⟩ => ⟨S16384x64, .f32⟩
  | .hbm, ⟨71, _⟩ => ⟨S16384x64, .f32⟩
  | .hbm, ⟨72, _⟩ => ⟨S64x1, .f32⟩
  | .hbm, ⟨73, _⟩ => ⟨S16384x1, .f32⟩
  | .hbm, ⟨74, _⟩ => ⟨S1x1, .f32⟩
  | .hbm, ⟨75, _⟩ => ⟨S16384x1, .f32⟩
  | .hbm, ⟨76, _⟩ => ⟨S16384x1, .f32⟩
  | .hbm, ⟨77, _⟩ => ⟨S16384x1, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384x1, .f32⟩
  | .hbm, ⟨84, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_call2_cst : Ref sig .tc := ⟨.hbm, 61, rfl⟩
abbrev main_call2_v0 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_call3_cst : Ref sig .tc := ⟨.hbm, 69, rfl⟩
abbrev main_call3_v0 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_cst : Ref sig .tc := ⟨.hbm, 79, rfl⟩
abbrev main_v22 : Ref sig .tc := ⟨.hbm, 80, rfl⟩
abbrev main_v23 : Ref sig .tc := ⟨.hbm, 81, rfl⟩
abbrev main_cst_0 : Ref sig .tc := ⟨.hbm, 82, rfl⟩
abbrev main_v24 : Ref sig .tc := ⟨.hbm, 83, rfl⟩
abbrev main_v25 : Ref sig .tc := ⟨.hbm, 84, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  concatenates_S16384x64_S16384x64_S16384x128_d1 : Shape.Concatenates [S16384x64, S16384x64] S16384x128 1
  transposes_S128x128_S128x128_1_0 : S128x128.Transposes [1, 0] S128x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  transposes_S64x128_S128x64_1_0 : S64x128.Transposes [1, 0] S128x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  transposes_S1x64_S64x1_1_0 : S1x64.Transposes [1, 0] S64x1
  gather_S1000000x64_S16384x1_S16384x64_1_0_n_n_0_1_164_wf : GatherDims.WF S1000000x64 S16384x1 S16384x64 [1] [0] [] [0] [] 1 ![1, 64]
  dot_S16384x128_S128x128_S16384x128_1_0_0_1_n_n_wf : DotDims.WF S16384x128 S128x128 S16384x128 [1] [0] [0] [1] [] []
  dot_S16384x128_S128x64_S16384x64_1_0_0_1_n_n_wf : DotDims.WF S16384x128 S128x64 S16384x64 [1] [0] [0] [1] [] []
  dot_S16384x64_S64x1_S16384x1_1_0_0_1_n_n_wf : DotDims.WF S16384x64 S64x1 S16384x1 [1] [0] [0] [1] [] []

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.Sc.Setup.lean ====
/-
  The program as the launch theorem for SparseCore programs sees it, and the ghost state the proof runs at.

  The device runs one vector-subcore kernel on 2 SparseCores × 16 tiles (the row gather) and then one TensorCore
  kernel over a grid of 8 row blocks (the perceptron). Three protocols meet: the launch handshakes between the
  TensorCore, the sequencers and the tiles (rounds indexed by the call), the TensorCore pipeline's staging cells
  (rounds with no index), and each tile's own local copies (plain counters). The ghost state is their product.
-/
import proofs.«205169_g39805756899661_cont_8to1_b_81_27_alg».proof.KernelIdeal
import proofs.«205169_g39805756899661_cont_8to1_b_81_27_alg».proof.Proof.Gen.KernelIdeal
import Idealize.ShloMosaic.Lib.SparseCore.Launch
import Idealize.ShloMosaic.Lib.Pipeline.Kit
import Idealize.ShloMosaic.Lib.Transfers

noncomputable section

namespace Cert.Proof.ScI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem
open Idealize.ShloMosaic.Rounds

variable {F : FTy → Type}

/-- The label table of the TensorCore pipelines (one pallas_call), which the SparseCore calls extend. -/
abbrev ΛP : Labels := Pipeline.Sig Λ₀ (Fin 1) fun p => (pcfgs (F := F) p).Adm
/-- The SparseCore calls of @main: one, the gather. -/
abbrev K : SparseCore.Cfg τ sig (ΛP (F := F)) 1 := sc (F := F)
/-- The body table the SparseCore calls extend: the kernels' bodies and the pipeline's. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds (indexed by the call), -/
abbrev UH : Type := URounds (GSem nD τ sig) ℕ
/-- the TensorCore pipeline's staging cells' rounds, -/
abbrev UP : Type := URounds (GSem nD τ sig) Unit
/-- and their product with the local copies' counters. -/
abbrev UU : Type := UH × (UP × Counters)

/-- The handshakes' rounds are the left factor. -/
abbrev EH : Emb UH (MT nD τ sig (HIx 1) (Elt F) ℕ UU ℕ) := embL
/-- The pipeline's staging cells' rounds are the left factor of the right factor. -/
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

end Cert.Proof.ScI

end
-- ==== Proof.Spec.lean ====
/-
  The function both programs compute, written once over plain index types.

  Row `r` of the batch names two rows of the embedding table, one by each index array; the two 64-wide rows
  are fed to a three-layer perceptron. The first layer's weight matrix `W1 : [128, 128]` acts on the
  concatenation of the two rows, which is the same as its left half acting on the first row plus its right half
  acting on the second: a sum over 128 terms split into two sums over 64 terms, an identity of any commutative
  monoid and so of the extended reals with no finiteness needed. Each hidden layer is followed by `max · 0`, and
  the output by the logistic function `1 / (1 + e^(-x))`.
-/
import Idealize.ShloMosaic.PureOps.Ideal
import Idealize.ShloMosaic.Lib.ValueIdx

noncomputable section

namespace Cert.Spec

open Idealize.ShloMosaic Idealize.ShloMosaic.ValueIdx

/-- The table row a signed 32-bit index word names. Under the precondition the word lies in `[0, 999999]` and
    this is the word itself; the clamp only keeps the function total. -/
def rowOf (w : BitVec 32) : Fin 1000000 := ⟨min w.toNat 999999, by omega⟩

theorem rowOf_val_of_lt {w : BitVec 32} (h : w.toNat < 1000000) : (rowOf w).val = w.toNat := by
  simp only [rowOf]; omega

/-- Entry `k` of the table row that entry `r` of the index array names. -/
def emb (table : (⟨2, ![1000000, 64]⟩ : Shape).Idx → EReal) (idx : (⟨1, ![16384]⟩ : Shape).Idx → BitVec 32)
    (r : Fin 16384) (k : Fin 64) : EReal :=
  table (ix2 (rowOf (idx (ix1 r))) k)

/-- Unit `n` of the first hidden layer: the left half of row `n` of `W1` against `a`, the right half against
    `b`, the bias, and the rectifier. -/
def hidden1 (a b : Fin 64 → EReal) (W1 : (⟨2, ![128, 128]⟩ : Shape).Idx → EReal)
    (b1 : (⟨1, ![128]⟩ : Shape).Idx → EReal) (n : Fin 128) : EReal :=
  max ((∑ k : Fin 64, a k * W1 (ix2 n (⟨k.val, by omega⟩ : Fin 128)))
        + (∑ k : Fin 64, b k * W1 (ix2 n (⟨64 + k.val, by omega⟩ : Fin 128))) + b1 (ix1 n)) 0

/-- Unit `j` of the second hidden layer. -/
def hidden2 (h : Fin 128 → EReal) (W2 : (⟨2, ![64, 128]⟩ : Shape).Idx → EReal)
    (b2 : (⟨1, ![64]⟩ : Shape).Idx → EReal) (j : Fin 64) : EReal :=
  max ((∑ n : Fin 128, h n * W2 (ix2 j n)) + b2 (ix1 j)) 0

/-- The perceptron's output for one pair of rows. -/
def mlp (a b : Fin 64 → EReal) (W1 : (⟨2, ![128, 128]⟩ : Shape).Idx → EReal) (b1 : (⟨1, ![128]⟩ : Shape).Idx → EReal)
    (W2 : (⟨2, ![64, 128]⟩ : Shape).Idx → EReal) (b2 : (⟨1, ![64]⟩ : Shape).Idx → EReal)
    (W3 : (⟨2, ![1, 64]⟩ : Shape).Idx → EReal) (b3 : (⟨1, ![1]⟩ : Shape).Idx → EReal) : EReal :=
  Ideal.logistic ((∑ j : Fin 64, hidden2 (hidden1 a b W1 b1) W2 b2 j * W3 (ix2 (0 : Fin 1) j)) + b3 (ix1 (0 : Fin 1)))

/-- The whole result array `[16384, 1]` as one function of the nine argument arrays. -/
def out (ia ib : (⟨1, ![16384]⟩ : Shape).Idx → BitVec 32) (table : (⟨2, ![1000000, 64]⟩ : Shape).Idx → EReal)
    (W1 : (⟨2, ![128, 128]⟩ : Shape).Idx → EReal) (b1 : (⟨1, ![128]⟩ : Shape).Idx → EReal)
    (W2 : (⟨2, ![64, 128]⟩ : Shape).Idx → EReal) (b2 : (⟨1, ![64]⟩ : Shape).Idx → EReal)
    (W3 : (⟨2, ![1, 64]⟩ : Shape).Idx → EReal) (b3 : (⟨1, ![1]⟩ : Shape).Idx → EReal) :
    (⟨2, ![16384, 1]⟩ : Shape).Idx → EReal :=
  fun j => mlp (emb table ia (j 0)) (emb table ib (j 0)) W1 b1 W2 b2 W3 b3

/-- Every entry of an index array is a word in `[0, 999999]`: what the precondition says of each of the two. -/
def InRange (idx : (⟨1, ![16384]⟩ : Shape).Idx → BitVec 32) : Prop :=
  ∀ r : Fin 16384, (idx (ix1 r)).toNat < 1000000

end Cert.Spec

end
-- ==== Proof.Sc.TileSpec.lean ====
/-
  What one tile of the gather kernel is handed and hands back, and its obligation.

  Tile (c, s) — SparseCore c, vector subcore s — owns entries [1024 s + 512 c, +512) of each index array and the same
  rows of each gathered array; the table is read by every tile, each under a read share. After the tile's body,
  row r of a gathered array holds the table's row that entry r of the index array names.
-/
import proofs.«205169_g39805756899661_cont_8to1_b_81_27_alg».proof.Proof.Sc.Setup
import proofs.«205169_g39805756899661_cont_8to1_b_81_27_alg».proof.Proof.Gen.KernelIdeal.Skeleton
import Idealize.ShloMosaic.Lib.SparseCore.Launch
import Idealize.ShloMosaic.Lib.Batch
import Idealize.ShloMosaic.Lib.StableHlo.Run
import Idealize.ShloMosaic.Lib.Pipeline.Kit
import Idealize.ShloMosaic.Lib.Tactic
import Idealize.ShloMosaic.Lib.Ring
import proofs.«205169_g39805756899661_cont_8to1_b_81_27_alg».proof.Proof.Spec

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iaW" => (Memref.whole Cert.KernelIdeal.main_arg0_scv : Memref Cert.KernelIdeal.sig Kind.scVector Space.hbm Cert.KernelIdeal.S16384 EltTy.i32)
local notation "ibW" => (Memref.whole Cert.KernelIdeal.main_arg1_scv : Memref Cert.KernelIdeal.sig Kind.scVector Space.hbm Cert.KernelIdeal.S16384 EltTy.i32)
local notation "tbW" => (Memref.whole Cert.KernelIdeal.main_arg2_scv : Memref Cert.KernelIdeal.sig Kind.scVector Space.hbm Cert.KernelIdeal.S1000000x64 EltTy.f32)
local notation "oaW" => (Memref.whole Cert.KernelIdeal.main_v0_0_scv : Memref Cert.KernelIdeal.sig Kind.scVector Space.hbm Cert.KernelIdeal.S16384x64 EltTy.f32)
local notation "obW" => (Memref.whole Cert.KernelIdeal.main_v0_1_scv : Memref Cert.KernelIdeal.sig Kind.scVector Space.hbm Cert.KernelIdeal.S16384x64 EltTy.f32)
local notation "sIW" => (Memref.whole Cert.KernelIdeal.cc0_scratch0 : Memref Cert.KernelIdeal.sig Kind.scVector Space.vmem Cert.KernelIdeal.S512 EltTy.i32)
local notation "sRW" => (Memref.whole Cert.KernelIdeal.cc0_scratch1 : Memref Cert.KernelIdeal.sig Kind.scVector Space.vmem Cert.KernelIdeal.S512x64 EltTy.f32)

variable [FloatOps F]

variable (d : Dev nD) (L : grid0.Coords)

/-- The SparseCore and the vector subcore a grid point names. -/
abbrev cV (L : grid0.Coords) : Fin τ.nSC := (L 0).castLE hcore0
abbrev jV (L : grid0.Coords) : Fin τ.nSub := (L 1).castLE hsub0

/-- The tile's 512 entries of an index array, as the body slices them. -/
def iaSl (L : grid0.Coords) : Memref sig .scVector .hbm S512 .i32 := (iaW).slice (Rect.unit (s := S16384) (k0_off1 L) S512.size (k0_off1_inb L)) (fun _ => rfl)
def ibSl (L : grid0.Coords) : Memref sig .scVector .hbm S512 .i32 := (ibW).slice (Rect.unit (s := S16384) (k0_off1 L) S512.size (k0_off1_inb L)) (fun _ => rfl)
/-- The tile's 512 rows of a gathered array. -/
def oaSl (L : grid0.Coords) : Memref sig .scVector .hbm S512x64 .f32 := (oaW).slice (Rect.unit (s := S16384x64) (k0_off37 L) S512x64.size (k0_off37_inb L)) (fun _ => rfl)
def obSl (L : grid0.Coords) : Memref sig .scVector .hbm S512x64 .f32 := (obW).slice (Rect.unit (s := S16384x64) (k0_off37 L) S512x64.size (k0_off37_inb L)) (fun _ => rfl)

/-- The gathered array as ONE whole-array function of the table and an index array: row `r` is the table's row
    that entry `r` of the index array names. Pure data movement, the same at every reading of floats. -/
def gath (tb : S1000000x64.Idx → Elt F .f32) (ix : S16384.Idx → BitVec 32) : S16384x64.Idx → Elt F .f32 :=
  fun y => tb (ValueIdx.ix2 (Cert.Spec.rowOf (ix (ValueIdx.ix1 (y 0)))) (y 1))

/-- What a tile is handed: its entries of the two index arrays under a read share `qi`, the table under a read share `q`,
    and its rows of the two gathered arrays at whatever they hold. -/
def tileGo (qi q : PosShare TreeShare) (ia ib : S16384.Idx → BitVec 32) (tb : S1000000x64.Idx → Elt F .f32) : sProp 𝕄 :=
  iprop(((iaSl L).view.loc (V d (cV L) (jV L)) ↦[(iaSl L).view.set]{qi} ia)
    ∗ ((ibSl L).view.loc (V d (cV L) (jV L)) ↦[(ibSl L).view.set]{qi} ib)
    ∗ ((tbW).view.loc (V d (cV L) (jV L)) ↦{q} tb)
    ∗ (∃ f, (oaSl L).view.loc (V d (cV L) (jV L)) ↦[(oaSl L).view.set]{fullShare} f)
    ∗ (∃ f, (obSl L).view.loc (V d (cV L) (jV L)) ↦[(obSl L).view.set]{fullShare} f))

/-- What it hands back: its rows of the gathered arrays, now the gathered rows. (The read shares are not handed back:
    nothing after the kernel needs them whole.) -/
def tileTd (ia ib : S16384.Idx → BitVec 32) (tb : S1000000x64.Idx → Elt F .f32) : sProp 𝕄 :=
  iprop(((oaSl L).view.loc (V d (cV L) (jV L)) ↦[(oaSl L).view.set]{fullShare} gath tb ia)
    ∗ ((obSl L).view.loc (V d (cV L) (jV L)) ↦[(obSl L).view.set]{fullShare} gath tb ib))

/-- THE TILE'S OBLIGATION, as the launch needs it: at a symbolic tile, from what it is handed, its scoped storage and
    what it owes, the gather kernel's body runs to what it hands back, the scoped storage as it was, owing the same. -/
def TileBody : Prop :=
  ∀ (d : Dev nD) (L : grid0.Coords) (qi q : PosShare TreeShare) (ia ib : S16384.Idx → BitVec 32) (tb : S1000000x64.Idx → Elt F .f32)
    (_ : Cert.Spec.InRange ia) (_ : Cert.Spec.InRange ib)
    (O : CellTallies nD τ sig (HIx 1)) (W : Waits sig (HIx 1)) (_ : ∀ g, O g none = 0),
    iprop(levAts (K (F := F)).L (K (F := F)).lev ∗ tileGo (F := F) d L qi q ia ib tb
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L iaW (Memref.isWhole_whole _) ibW (Memref.isWhole_whole _) tbW (Memref.isWhole_whole _) oaW (Memref.isWhole_whole _) obW (Memref.isWhole_whole _)
            sIW (Memref.isWhole_whole _) sRW (Memref.isWhole_whole _) cc0_scratch2 cc0_scoped0 cc0_scoped1 cc0_scoped2 cc0_scoped3)
          fun _ => iprop(tileTd (F := F) d L ia ib tb ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.ScI

end
-- ==== Proof.Sc.Tiles.lean ====
/-
  How the 32 tiles cut the index arrays and the gathered arrays.

  Tile (c, s) — SparseCore c of 2, vector subcore s of 16 — works on rows [1024·s + 512·c, 1024·s + 512·c + 512)
  of each [16384] index array and of each [16384, 64] gathered array.  The 32 intervals of length 512 starting at
  1024·s + 512·c, c < 2, s < 16, are pairwise disjoint and cover [0, 16384): row r lies in the tile with
  s = r / 1024 and c = (r / 512) mod 2.  Hence an array held whole is held tile by tile, and back.
-/
import proofs.«205169_g39805756899661_cont_8to1_b_81_27_alg».proof.Proof.Sc.Setup
import Idealize.ShloMosaic.Lib.Ring

noncomputable section

namespace Cert.Proof.ScI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem

variable {F : FTy → Type}

/-! ## The tiles' coordinates -/

/-- The grid point of SparseCore c, vector subcore s. -/
def tile (c : Fin 2) (s : Fin 16) : grid0.Coords :=
  fun | 0 => c | 1 => s | ⟨_ + 2, h⟩ => absurd h (Nat.not_lt.2 (Nat.le_add_left _ _))

theorem core_lt (i : grid0.Coords) : (i 0).val < 2 := (i 0).isLt
theorem sub_lt (i : grid0.Coords) : (i 1).val < 16 := (i 1).isLt

/-- A grid point is its two coordinates. -/
theorem coords_ext {i i' : grid0.Coords} (h0 : (i 0).val = (i' 0).val) (h1 : (i 1).val = (i' 1).val) : i = i' := by
  funext a
  match a with
  | ⟨0, _⟩ => exact Fin.ext h0
  | ⟨1, _⟩ => exact Fin.ext h1

/-- The first row of tile i. -/
def tileBase (i : grid0.Coords) : ℕ := 1024 * (i 1).val + 512 * (i 0).val

/-- Two tiles whose row intervals meet are one tile. -/
theorem tile_unique {i i' : grid0.Coords} {r : ℕ} (h : tileBase i ≤ r ∧ r < tileBase i + 512)
    (h' : tileBase i' ≤ r ∧ r < tileBase i' + 512) : i = i' := by
  unfold tileBase at h h'
  have := core_lt i; have := core_lt i'; have := sub_lt i; have := sub_lt i'
  exact coords_ext (by omega) (by omega)

/-- Row r lies in the tile of subcore r / 1024, core (r / 512) mod 2. -/
theorem tile_of_row (r : ℕ) (hr : r < 16384) :
    ∃ i : grid0.Coords, tileBase i ≤ r ∧ r < tileBase i + 512 := by
  refine ⟨tile ⟨r / 512 % 2, Nat.mod_lt _ (by decide)⟩ ⟨r / 1024, by omega⟩, ?_⟩
  show 1024 * (r / 1024) + 512 * (r / 512 % 2) ≤ r ∧ r < 1024 * (r / 1024) + 512 * (r / 512 % 2) + 512
  omega

/-! ## The tiles of an index array -/

/-- The elements of a [16384] index array tile i works on: the rectangle exactly as the body slices it. -/
def tileIdxSet (i : grid0.Coords) : Finset S16384.Idx :=
  (Rect.unit (s := S16384) (k0_off1 i) S512.size (k0_off1_inb i)).set

theorem mem_tileIdxSet (i : grid0.Coords) (y : S16384.Idx) :
    y ∈ tileIdxSet i ↔ 1024 * (i 1).val + 512 * (i 0).val ≤ (y 0).val ∧ (y 0).val < 1024 * (i 1).val + 512 * (i 0).val + 512 := by
  unfold tileIdxSet
  rw [Rect.mem_set_unit, k0_off1_eq]
  constructor
  · intro H; exact H 0
  · intro H a
    match a with
    | ⟨0, _⟩ => exact H

theorem tileIdxSet_disjoint (i i' : grid0.Coords) (h : i ≠ i') : Disjoint (tileIdxSet i) (tileIdxSet i') := by
  rw [Finset.disjoint_left]
  intro y hy hy'
  rw [mem_tileIdxSet] at hy hy'
  exact h (tile_unique (r := (y 0).val) hy hy')

theorem tileIdxSet_cover : Finset.univ.biUnion tileIdxSet = Finset.univ := by
  ext y
  simp only [Finset.mem_biUnion, Finset.mem_univ, true_and, iff_true]
  obtain ⟨i, hi⟩ := tile_of_row (y 0).val (y 0).isLt
  exact ⟨i, (mem_tileIdxSet i y).mpr hi⟩

/-! ## The tiles of a gathered array -/

/-- The elements of a [16384, 64] gathered array tile i works on: its 512 rows, whole. -/
def tileRowSet (i : grid0.Coords) : Finset S16384x64.Idx :=
  (Rect.unit (s := S16384x64) (k0_off37 i) S512x64.size (k0_off37_inb i)).set

theorem mem_tileRowSet (i : grid0.Coords) (y : S16384x64.Idx) :
    y ∈ tileRowSet i ↔ 1024 * (i 1).val + 512 * (i 0).val ≤ (y 0).val ∧ (y 0).val < 1024 * (i 1).val + 512 * (i 0).val + 512 := by
  unfold tileRowSet
  rw [Rect.mem_set_unit, k0_off37_eq]
  constructor
  · intro H; exact H 0
  · intro H a
    match a with
    | ⟨0, _⟩ => exact H
    | ⟨1, _⟩ => exact ⟨Nat.zero_le _, by have h : (y 1).val < 64 := (y 1).isLt; show (y 1).val < 0 + 64; omega⟩

theorem tileRowSet_disjoint (i i' : grid0.Coords) (h : i ≠ i') : Disjoint (tileRowSet i) (tileRowSet i') := by
  rw [Finset.disjoint_left]
  intro y hy hy'
  rw [mem_tileRowSet] at hy hy'
  exact h (tile_unique (r := (y 0).val) hy hy')

theorem tileRowSet_cover : Finset.univ.biUnion tileRowSet = Finset.univ := by
  ext y
  simp only [Finset.mem_biUnion, Finset.mem_univ, true_and, iff_true]
  obtain ⟨i, hi⟩ := tile_of_row (y 0).val (y 0).isLt
  exact ⟨i, (mem_tileRowSet i y).mpr hi⟩

/-! ## An array held whole is held tile by tile -/

local notation "𝕄" => MT nD τ sig (HIx 1) (Elt F) ℕ UU ℕ

/-- The four arrays' buffers on device d. -/
abbrev locIa (d : Dev nD) : Loc nD τ sig := (SparseCore.T d : Thread nD τ).loc main_arg0
abbrev locIb (d : Dev nD) : Loc nD τ sig := (SparseCore.T d : Thread nD τ).loc main_arg1
abbrev locGa (d : Dev nD) : Loc nD τ sig := (SparseCore.T d : Thread nD τ).loc main_v0_0
abbrev locGb (d : Dev nD) : Loc nD τ sig := (SparseCore.T d : Thread nD τ).loc main_v0_1

/-- The first index array, whole, is its 32 tiles. -/
theorem pts_tiles_arg0 (d : Dev nD) (q : PosShare TreeShare) (f : Buf (Elt F) (locIa d)) :
    ((locIa d) ↦{q} f : sProp 𝕄)
      = bigSep Finset.univ (fun i : grid0.Coords => ((locIa d) ↦[tileIdxSet i]{q} f : sProp 𝕄)) :=
  Ring.pointsTo_blocks (ℓ := locIa d) (Ix := HIx 1) (Val := Elt F) (Name := ℕ) (U := UU) (Lvl := ℕ) (B := grid0.Coords) (q := q)
    (fun i : grid0.Coords => (tileIdxSet i : Finset (Idx (locIa d)))) tileIdxSet_disjoint tileIdxSet_cover f

/-- The second index array, whole, is its 32 tiles. -/
theorem pts_tiles_arg1 (d : Dev nD) (q : PosShare TreeShare) (f : Buf (Elt F) (locIb d)) :
    ((locIb d) ↦{q} f : sProp 𝕄)
      = bigSep Finset.univ (fun i : grid0.Coords => ((locIb d) ↦[tileIdxSet i]{q} f : sProp 𝕄)) :=
  Ring.pointsTo_blocks (ℓ := locIb d) (Ix := HIx 1) (Val := Elt F) (Name := ℕ) (U := UU) (Lvl := ℕ) (B := grid0.Coords) (q := q)
    (fun i : grid0.Coords => (tileIdxSet i : Finset (Idx (locIb d)))) tileIdxSet_disjoint tileIdxSet_cover f

/-- The first gathered array, whole, is its 32 tiles. -/
theorem pts_tiles_v0_0 (d : Dev nD) (q : PosShare TreeShare) (f : Buf (Elt F) (locGa d)) :
    ((locGa d) ↦{q} f : sProp 𝕄)
      = bigSep Finset.univ (fun i : grid0.Coords => ((locGa d) ↦[tileRowSet i]{q} f : sProp 𝕄)) :=
  Ring.pointsTo_blocks (ℓ := locGa d) (Ix := HIx 1) (Val := Elt F) (Name := ℕ) (U := UU) (Lvl := ℕ) (B := grid0.Coords) (q := q)
    (fun i : grid0.Coords => (tileRowSet i : Finset (Idx (locGa d)))) tileRowSet_disjoint tileRowSet_cover f

/-- The second gathered array, whole, is its 32 tiles. -/
theorem pts_tiles_v0_1 (d : Dev nD) (q : PosShare TreeShare) (f : Buf (Elt F) (locGb d)) :
    ((locGb d) ↦{q} f : sProp 𝕄)
      = bigSep Finset.univ (fun i : grid0.Coords => ((locGb d) ↦[tileRowSet i]{q} f : sProp 𝕄)) :=
  Ring.pointsTo_blocks (ℓ := locGb d) (Ix := HIx 1) (Val := Elt F) (Name := ℕ) (U := UU) (Lvl := ℕ) (B := grid0.Coords) (q := q)
    (fun i : grid0.Coords => (tileRowSet i : Finset (Idx (locGb d)))) tileRowSet_disjoint tileRowSet_cover f

end Cert.Proof.ScI

end
-- ==== Proof.Sc.Pay.lean ====
/-
  What the gather call's handshakes carry.

  The one SparseCore call runs on 2 SparseCores × 16 vector subcores. Tile (c, s) is handed its 512 entries of the
  two index arrays under the right half of the full share, the whole table under a read share — the one numbered
  16 c + s of the 32 split off the full share — and its 512 rows of the two gathered arrays, owned; it hands back
  its rows of the gathered arrays, now the gathered rows. A SparseCore is handed, and hands back, exactly what its
  sixteen tiles are: the split of a SparseCore's operands among its tiles is the identity. The arrays live in HBM,
  where a tile's view of a location is the TensorCore's: the payloads are stated over the TensorCore's locations
  and the tiles' element sets, and are what the tile's body is stated over.
-/
import proofs.«205169_g39805756899661_cont_8to1_b_81_27_alg».proof.Proof.Sc.TileSpec
import proofs.«205169_g39805756899661_cont_8to1_b_81_27_alg».proof.Proof.Sc.Tiles

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

theorem nCore_zero : (K (F := F)).nCore 0 = 2 := rfl
theorem nSub_zero : (K (F := F)).nSub 0 = 16 := rfl

/-! ## A tile's slices are its element sets -/

omit [FloatOps F] in
private theorem set_iaSl (L : grid0.Coords) : (iaSl L).view.set = tileIdxSet L := by
  show ((View.whole (main_arg0_scv : Ref sig .scVector)).slice (Rect.unit (s := S16384) (k0_off1 L) S512.size (k0_off1_inb L))).set = _
  rw [View.set_slice]; exact Finset.map_refl
omit [FloatOps F] in
private theorem set_ibSl (L : grid0.Coords) : (ibSl L).view.set = tileIdxSet L := by
  show ((View.whole (main_arg1_scv : Ref sig .scVector)).slice (Rect.unit (s := S16384) (k0_off1 L) S512.size (k0_off1_inb L))).set = _
  rw [View.set_slice]; exact Finset.map_refl
omit [FloatOps F] in
private theorem set_oaSl (L : grid0.Coords) : (oaSl L).view.set = tileRowSet L := by
  show ((View.whole (main_v0_0_scv : Ref sig .scVector)).slice (Rect.unit (s := S16384x64) (k0_off37 L) S512x64.size (k0_off37_inb L))).set = _
  rw [View.set_slice]; exact Finset.map_refl
omit [FloatOps F] in
private theorem set_obSl (L : grid0.Coords) : (obSl L).view.set = tileRowSet L := by
  show ((View.whole (main_v0_1_scv : Ref sig .scVector)).slice (Rect.unit (s := S16384x64) (k0_off37 L) S512x64.size (k0_off37_inb L))).set = _
  rw [View.set_slice]; exact Finset.map_refl

/-! ## The payloads over the TensorCore's locations -/

/-- The table's buffer on device `d`. -/
abbrev locTb (d : Dev nD) : Loc nD τ sig := (SparseCore.T d : Thread nD τ).loc main_arg2

/-- What tile `L` is handed, over the TensorCore's locations, -/
def goT (d : Dev nD) (L : grid0.Coords) (qi q : PosShare TreeShare) (ia ib : S16384.Idx → BitVec 32)
    (tb : S1000000x64.Idx → Elt F .f32) : sProp 𝕄 :=
  iprop((locIa d ↦[tileIdxSet L]{qi} ia) ∗ (locIb d ↦[tileIdxSet L]{qi} ib) ∗ (locTb d ↦{q} tb)
    ∗ (∃ f, locGa d ↦[tileRowSet L]{fullShare} f) ∗ (∃ f, locGb d ↦[tileRowSet L]{fullShare} f))
/-- and what it hands back. -/
def tdT (d : Dev nD) (L : grid0.Coords) (ia ib : S16384.Idx → BitVec 32) (tb : S1000000x64.Idx → Elt F .f32) : sProp 𝕄 :=
  iprop((locGa d ↦[tileRowSet L]{fullShare} gath tb ia) ∗ (locGb d ↦[tileRowSet L]{fullShare} gath tb ib))

omit [FloatOps F] in
/-- They are what the tile's body is stated over. -/
theorem tileGo_eq (d : Dev nD) (L : grid0.Coords) (qi q : PosShare TreeShare) (ia ib : S16384.Idx → BitVec 32)
    (tb : S1000000x64.Idx → Elt F .f32) : tileGo (F := F) d L qi q ia ib tb = goT d L qi q ia ib tb := by
  unfold tileGo goT
  rw [set_iaSl, set_ibSl, set_oaSl, set_obSl]
  rfl
omit [FloatOps F] in
theorem tileTd_eq (d : Dev nD) (L : grid0.Coords) (ia ib : S16384.Idx → BitVec 32)
    (tb : S1000000x64.Idx → Elt F .f32) : tileTd (F := F) d L ia ib tb = tdT d L ia ib tb := by
  unfold tileTd tdT
  rw [set_oaSl, set_obSl]
  rfl

/-- The launch memory's two index arrays and the table, on device `d`. -/
abbrev iaM (d : Dev nD) : S16384.Idx → BitVec 32 := m (locIa d)
abbrev ibM (d : Dev nD) : S16384.Idx → BitVec 32 := m (locIb d)
abbrev tbM (d : Dev nD) : S1000000x64.Idx → Elt F .f32 := m (locTb d)

/-- The read share of the table tile `L` is handed: the one numbered `16 c + s` of 32. -/
def tok (L : grid0.Coords) : PosShare TreeShare := Transfers.shareTok fullShare 32 (finProdFinEquiv (L 0, L 1))

/-- The grid point a SparseCore and a vector subcore of the call's grid name. -/
abbrev tileOf (c : Fin ((K (F := F)).nCore 0)) (i : Fin ((K (F := F)).nSub 0)) : grid0.Coords :=
  tile (Fin.cast nCore_zero c) (Fin.cast nSub_zero i)

/-- What tile `(c, i)` of the call's grid is handed, -/
def goB (d : Dev nD) (c : Fin ((K (F := F)).nCore 0)) (i : Fin ((K (F := F)).nSub 0)) : sProp 𝕄 :=
  goT d (tileOf c i) fullShare.right (tok (tileOf c i)) (iaM m d) (ibM m d) (tbM m d)
/-- and what it hands back. -/
def tdB (d : Dev nD) (c : Fin ((K (F := F)).nCore 0)) (i : Fin ((K (F := F)).nSub 0)) : sProp 𝕄 :=
  tdT d (tileOf c i) (iaM m d) (ibM m d) (tbM m d)

instance goB_storable (d : Dev nD) (c : Fin ((K (F := F)).nCore 0)) (i : Fin ((K (F := F)).nSub 0)) :
    BI.Storable (upEmb : UEmb _ 𝕄) (goB m d c i) := by
  unfold goB goT; infer_instance
instance tdB_storable (d : Dev nD) (c : Fin ((K (F := F)).nCore 0)) (i : Fin ((K (F := F)).nSub 0)) :
    BI.Storable (upEmb : UEmb _ 𝕄) (tdB m d c i) := by
  unfold tdB tdT; infer_instance

/-- The call's payloads: a SparseCore's are its sixteen tiles'; no kernel proof consumes anything of the launch's. -/
def P : (K (F := F)).Pay (nD := nD) (Val := Elt F) (Name := ℕ) (U := UU) where
  st := fun q d c => match q with | 0 => bigSep Finset.univ fun i : Fin ((K (F := F)).nSub 0) => goB m d c i
  dn := fun q d c => match q with | 0 => bigSep Finset.univ fun i : Fin ((K (F := F)).nSub 0) => tdB m d c i
  go := fun q d c i => match q with | 0 => goB m d c i
  td := fun q d c i => match q with | 0 => tdB m d c i
  x := fun _ _ => iprop(emp)

instance P_storable : (P (F := F) m).IsStorable where
  st q d c := match q with
    | 0 => (inferInstance : BI.Storable (upEmb : UEmb _ 𝕄) (bigSep Finset.univ fun i : Fin ((K (F := F)).nSub 0) => goB m d c i))
  dn q d c := match q with
    | 0 => (inferInstance : BI.Storable (upEmb : UEmb _ 𝕄) (bigSep Finset.univ fun i : Fin ((K (F := F)).nSub 0) => tdB m d c i))
  go q d c i := match q with
    | 0 => (inferInstance : BI.Storable (upEmb : UEmb _ 𝕄) (goB m d c i))
  td q d c i := match q with
    | 0 => (inferInstance : BI.Storable (upEmb : UEmb _ 𝕄) (tdB m d c i))

/-- A SparseCore's operands are its tiles', and its results theirs. -/
theorem vecSplit : (K (F := F)).VecSplit' (P m) 0 := by
  intro d c
  show (bigSep Finset.univ fun i : Fin ((K (F := F)).nSub 0) => goB m d c i) ⊢ |={Set.univ}=> iprop(
      (bigSep Finset.univ fun i : Fin ((K (F := F)).nSub 0) => goB m d c i)
      ∗ ((bigSep Finset.univ fun i : Fin ((K (F := F)).nSub 0) => tdB m d c i)
          -∗ (bigSep Finset.univ fun i : Fin ((K (F := F)).nSub 0) => tdB m d c i)))
  iintro H; imodintro
  isplitl [H]; · iexact H
  iintro H; iexact H

end Cert.Proof.ScI

end
-- ==== Proof.Sc.TileObl.lean ====
/-
  The tile's obligation to the launch, from the tile's body.

  The launch runs the gather kernel's label on vector subcore (c, i) of the call's grid under the lifted body
  table; the label's row there is the kernel's function at the grid point (c, i). What the tile is handed and hands
  back are the payloads of Pay.lean, which are the body's own pre- and postcondition; the kernel owes nothing for
  a protocol of its own.
-/
import proofs.«205169_g39805756899661_cont_8to1_b_81_27_alg».proof.Proof.Sc.Pay
import Idealize.ShloMosaic.Lib.SparseCore.Launch
import Idealize.ShloMosaic.Lib.Tactic

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-- The label's row on a vector subcore is the kernel's function at the subcore's grid point. -/
theorem defs₀_vector (c : Fin τ.nSC) (s : Fin τ.nSub) :
    defs₀ (F := F) (.scVector c s) 0 ()
      = SparseCore.onTile hcore0 hsub0 (fun c s => cc0_gather_kernel (tile c s)
          (Memref.whole main_arg0_scv) (Memref.isWhole_whole _) (Memref.whole main_arg1_scv) (Memref.isWhole_whole _)
          (Memref.whole main_arg2_scv) (Memref.isWhole_whole _) (Memref.whole main_v0_0_scv) (Memref.isWhole_whole _)
          (Memref.whole main_v0_1_scv) (Memref.isWhole_whole _) (Memref.whole cc0_scratch0) (Memref.isWhole_whole _)
          (Memref.whole cc0_scratch1) (Memref.isWhole_whole _) cc0_scratch2 cc0_scoped0 cc0_scoped1 cc0_scoped2 cc0_scoped3) ⟨⟩ c s := rfl

omit [FloatOps F] in
/-- The recorded waits the body leaves are among those the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- Nothing of the launch's is consumed by the kernel's proof. -/
theorem obl_pre {A B C D E : sProp 𝕄} : iprop(A ∗ (iprop(emp) : sProp 𝕄) ∗ B ∗ C ∗ D ∗ E) ⊢ iprop(A ∗ B ∗ C ∗ D ∗ E) := by
  iintro ⟨HA, -, HB, HC, HD, HE⟩
  isplitl [HA]; · iexact HA
  isplitl [HB]; · iexact HB
  isplitl [HC]; · iexact HC
  isplitl [HD]; · iexact HD
  iexact HE

/-- THE TILE'S OBLIGATION at the one call, from the tile's body and the precondition on the two index arrays. -/
theorem tileObl (hbody : TileBody (F := F))
    (hin : ∀ d : Dev nD, Cert.Spec.InRange (iaM m d) ∧ Cert.Spec.InRange (ibM m d)) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hb := hbody d (tile ⟨_, hc.1⟩ ⟨_, hc.2⟩) fullShare.right (tok (tileOf c i)) (iaM m d) (ibM m d) (tbM m d)
    (hin d).1 (hin d).2 O W hO
  rw [tileGo_eq, tileTd_eq] at hb
  exact (obl_pre.trans hb).trans (wp_mono frame _ _ fun _ => obl_post)

end Cert.Proof.ScI

end
-- ==== Proof.Sc.Ghost.lean ====
/-
  The launch element of the ghost state.

  The ghost state is the product of the handshakes' rounds, the TensorCore pipeline's staging cells' rounds and the
  local copies' counters. At launch it is the handshake cells' and the staging cells' initial elements and the unit
  counter: the first goes to the launch theorem, the second funds every TensorCore's staging cells' ghost state and
  duty tokens — what the kernel region is entered with —, and the gather kernel's proof consumes nothing.
-/
import proofs.«205169_g39805756899661_cont_8to1_b_81_27_alg».proof.Proof.Sc.Pay
import proofs.«205169_g39805756899661_cont_8to1_b_81_27_alg».proof.Proof.Gen.KernelIdeal.Launch
import Idealize.ShloMosaic.Lib.SparseCore.Launch
import Idealize.ShloMosaic.Lib.Pipeline.Kit
import Idealize.ShloMosaic.Lib.Tactic

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-- What @main's proof starts from on device `d`, beyond what the launch deals every TensorCore: the pipeline's
    staging cells' ghost state and duty tokens. -/
def G (d : Dev nD) : sProp 𝕄 :=
  iprop(Pipeline.cellsGhost cfgs (EP (F := F)) 0 d ∗ Pipeline.toksInit cfgs (EP (F := F)) 0 d)

/-- The launch element: the handshake cells' rounds, the staging cells' rounds, the unit counter. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

omit [FloatOps F] in
/-- One pipeline: a family over the pipelines is its member. -/
theorem bigSep_pipes (Φ : Fin 1 → Dev nD → sProp 𝕄) :
    (bigSep Finset.univ fun d : Dev nD => bigSep Finset.univ fun p : Fin 1 => Φ p d) = bigSep Finset.univ fun d : Dev nD => Φ 0 d :=
  bigSep_congr fun _ _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost cfgs (EP (F := F)) cellOf_inj) $$ HP with ⟨Hg, Ht⟩
  imodintro
  isplitl [HH]; · iexact HH
  isplitl [Hg Ht]
  · unfold G
    rw [bigSep_sep']
    isplitl [Hg]
    · iapply (Entails.of_eq (bigSep_pipes (F := F) (fun p d => Pipeline.cellsGhost cfgs (EP (F := F)) p d))); iexact Hg
    · iapply (Entails.of_eq (bigSep_pipes (F := F) (fun p d => Pipeline.toksInit cfgs (EP (F := F)) p d))); iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.ScI

end
-- ==== Proof.Sc.RegionBody.lean ====
/-
  The perceptron kernel's body on one block of rows: nine whole-buffer loads, one pure term, one whole-buffer store.

  Run on ten whole staging buffers, the nine inputs' at contents read and the output's at anything, the body hands
  the nine back as they were and leaves in the output's buffer the pure term of the nine contents, stored through
  the buffer's one covering rectangle.
-/
import proofs.«205169_g39805756899661_cont_8to1_b_81_27_alg».proof.Proof.Sc.Setup
import proofs.«205169_g39805756899661_cont_8to1_b_81_27_alg».proof.Proof.Gen.KernelIdeal.Launch
import proofs.«205169_g39805756899661_cont_8to1_b_81_27_alg».proof.Proof.Gen.KernelIdeal.Skeleton
import proofs.«205169_g39805756899661_cont_8to1_b_81_27_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.Proof.ScI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses: each buffer through its one whole rectangle -/

abbrev rIn : Rect S2048x64 := Rect.unit (s := S2048x64) ![0, 0] S2048x64.size inb_S2048x64_S2048x64_0_0
abbrev rW1 : Rect S64x128 := Rect.unit (s := S64x128) ![0, 0] S64x128.size inb_S64x128_S64x128_0_0
abbrev rB1 : Rect S1x128 := Rect.unit (s := S1x128) ![0, 0] S1x128.size inb_S1x128_S1x128_0_0
abbrev rW2 : Rect S128x64 := Rect.unit (s := S128x64) ![0, 0] S128x64.size inb_S128x64_S128x64_0_0
abbrev rB2 : Rect S1x64 := Rect.unit (s := S1x64) ![0, 0] S1x64.size inb_S1x64_S1x64_0_0
abbrev rW3 : Rect S64x1 := Rect.unit (s := S64x1) ![0, 0] S64x1.size inb_S64x1_S64x1_0_0
abbrev rB3 : Rect S1x1 := Rect.unit (s := S1x1) ![0, 0] S1x1.size inb_S1x1_S1x1_0_0
abbrev rOut : Rect S2048x1 := Rect.unit (s := S2048x1) ![0, 0] S2048x1.size inb_S2048x1_S2048x1_0_0

/-- What the body leaves in the output's buffer, from the nine inputs' contents: its one store as a piece. -/
def blockOut (xa xb : Vec F S2048x64 .f32) (w1a w1b : Vec F S64x128 .f32) (b1r : Vec F S1x128 .f32)
    (w2t : Vec F S128x64 .f32) (b2r : Vec F S1x64 .f32) (w3t : Vec F S64x1 .f32) (b3r : Vec F S1x1 .f32) : Vec F S2048x1 .f32 :=
  View.canon [⟨rOut, k1_pay1 (View.ld xa rIn) (View.ld w1a rW1) (View.ld xb rIn) (View.ld w1b rW1) (View.ld b1r rB1)
    (View.ld w2t rW2) (View.ld b2r rB2) (View.ld w3t rW3) (View.ld b3r rB3)⟩]

/-- The store's rectangle is the whole buffer. -/
theorem cover_out (p0 : Vec F S2048x1 .f32) (y : S2048x1.Idx) :
    ∃ pc ∈ ([⟨rOut, p0⟩] : List (View.Piece (Elt F) S2048x1 .f32)), y ∈ pc.1.set :=
  View.cover_of_tiled [⟨rOut, p0⟩] S2048x1.size (by rfl) y

set_option maxHeartbeats 1000000 in
/-- The body's triple on whole staging memrefs. -/
theorem sound_kernel (c : Dev nD) (E : Set ℕ) (i : grid1.Coords)
    (arg1 : Memref sig .tc .vmem S2048x64 .f32) (harg1 : arg1.IsWhole) (arg2 : Memref sig .tc .vmem S2048x64 .f32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S128x64 .f32) (harg6 : arg6.IsWhole)
    (arg7 : Memref sig .tc .vmem S1x64 .f32) (harg7 : arg7.IsWhole) (arg8 : Memref sig .tc .vmem S64x1 .f32) (harg8 : arg8.IsWhole)
    (arg9 : Memref sig .tc .vmem S1x1 .f32) (harg9 : arg9.IsWhole) (arg10 : Memref sig .tc .vmem S2048x1 .f32) (harg10 : arg10.IsWhole)
    (xa xb : Vec F S2048x64 .f32) (w1a w1b : Vec F S64x128 .f32) (b1r : Vec F S1x128 .f32)
    (w2t : Vec F S128x64 .f32) (b2r : Vec F S1x64 .f32) (w3t : Vec F S64x1 .f32) (b3r : Vec F S1x1 .f32) (Kc : PUnit → sProp 𝕄) :
    iprop(owns (c : Thread nD τ) arg1 fullShare xa ∗ owns (c : Thread nD τ) arg2 fullShare xb
        ∗ owns (c : Thread nD τ) arg3 fullShare w1a ∗ owns (c : Thread nD τ) arg4 fullShare w1b
        ∗ owns (c : Thread nD τ) arg5 fullShare b1r ∗ owns (c : Thread nD τ) arg6 fullShare w2t
        ∗ owns (c : Thread nD τ) arg7 fullShare b2r ∗ owns (c : Thread nD τ) arg8 fullShare w3t
        ∗ owns (c : Thread nD τ) arg9 fullShare b3r ∗ (∃ d, owns (c : Thread nD τ) arg10 fullShare d)
        ∗ (iprop(owns (c : Thread nD τ) arg1 fullShare xa ∗ owns (c : Thread nD τ) arg2 fullShare xb
            ∗ owns (c : Thread nD τ) arg3 fullShare w1a ∗ owns (c : Thread nD τ) arg4 fullShare w1b
            ∗ owns (c : Thread nD τ) arg5 fullShare b1r ∗ owns (c : Thread nD τ) arg6 fullShare w2t
            ∗ owns (c : Thread nD τ) arg7 fullShare b2r ∗ owns (c : Thread nD τ) arg8 fullShare w3t
            ∗ owns (c : Thread nD τ) arg9 fullShare b3r
            ∗ owns (c : Thread nD τ) arg10 fullShare (blockOut xa xb w1a w1b b1r w2t b2r w3t b3r)) -∗ Kc ⟨⟩))
      ⊢ wp frame (wpE (defs₀ (F := F)) Variants.none c none) E
          (cc1__mlp_body i arg1 harg1 arg2 harg2 arg3 harg3 arg4 harg4 arg5 harg5 arg6 harg6 arg7 harg7 arg8 harg8 arg9 harg9 arg10 harg10) Kc := by
  simp only [cc1__mlp_body_eq_skeleton]; unfold cc1__mlp_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover_out _)

end Cert.Proof.ScI

end
-- ==== Proof.Sc.RegionData.lean ====
/-
  The proof data of the perceptron pipeline inside the SparseCore program, and its body obligation.

  The pipeline runs the body at eight points, block row t of the two gathered arrays at point t, the seven weight
  operands whole at every point. After the body each input's staging buffer holds its block as fetched and the
  output's holds the body's term of the nine blocks. The core owes nothing during the region; the pairs its
  earlier waits recorded stay at or below the level the handshakes left them at.
-/
import proofs.«205169_g39805756899661_cont_8to1_b_81_27_alg».proof.Proof.Sc.Setup
import proofs.«205169_g39805756899661_cont_8to1_b_81_27_alg».proof.Proof.Gen.KernelIdeal.Launch
import proofs.«205169_g39805756899661_cont_8to1_b_81_27_alg».proof.Proof.Gen.KernelIdeal.Skeleton
import proofs.«205169_g39805756899661_cont_8to1_b_81_27_alg».proof.Proof.Gen.KernelIdeal.Points
import proofs.«205169_g39805756899661_cont_8to1_b_81_27_alg».proof.Proof.Sc.RegionBody
import Idealize.ShloMosaic.Lib.Pipeline.FrameBody
import Idealize.ShloMosaic.Lib.Pipeline.Regions
import Idealize.ShloMosaic.Lib.Tactic

set_option maxRecDepth 16384

noncomputable section

namespace Cert.Proof.ScI

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The pipeline has no prefetched table: its one admissible table contents. -/
abbrev adm : (p : Fin 1) → (pcfgs (F := F) p).Adm := fun p => (cfgs p).toPCfg_adm

/-- A valuation of every TensorCore's buffers. -/
abbrev Valn : Type := (c : Dev nD) → (b : Ref sig .tc) → Buf (Elt F) ((c : Thread nD τ).loc b)

variable (V : Valn (F := F))

/-- Window `w`'s block at point `t`, read off its array at the valuation. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pairs a TensorCore's waits may have recorded when the region is entered: those at or below level 8. -/
def lowPairs (c : Dev nD) : Set (SemLoc sig × HIx 1) := {p | (K (F := F)).lev ((T c : Thread nD τ), p.1) p.2 ≤ 8}

/-- The proof data of the pipeline on core `c`. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => blockOut (iblk V c 0 t) (iblk V c 1 t) (iblk V c 2 t) (iblk V c 3 t) (iblk V c 4 t) (iblk V c 5 t) (iblk V c 6 t) (iblk V c 7 t) (iblk V c 8 t)
  Φ _ := Pipeline.scopedRest (Ix := HIx 1) (Name := ℕ) (U := UU) (Lvl := ℕ) (Val := Elt F) spec1 c
  q _ := fullShare
  owed _ := 0
  recorded _ := lowPairs (F := F) c

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t
    = blockOut (iblk V c 0 t) (iblk V c 1 t) (iblk V c 2 t) (iblk V c 3 t) (iblk V c 4 t) (iblk V c 5 t) (iblk V c 6 t) (iblk V c 7 t) (iblk V c 8 t) := by
  dsimp only [dat]

/-- Each input's current staging buffer holds its block at every point, fetched there or not: unfetched, the block
    index has not moved. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg1.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat V c).Φ t.castSucc ∗ (dat V c).owesAt none t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d)))

def bodyPost (c : Dev nD) (t : Fin cfg1.N) : sProp 𝕄 :=
  iprop((dat V c).Φ t.succ ∗ (dat V c).owesAt none t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t))

/-- The body at any point: the inputs' memrefs hold their blocks, so the body's triple applies; the invariant and
    the core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8]
  rw [show (dat V c).Φ t.succ = (dat V c).Φ t.castSucc from rfl,
    show (dat V c).owesAt none t.succ = (dat V c).owesAt none t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid1.coords t) _ _ _ _ _ _ _ _ _ _ _ _ _ _ _ _ _ _ _ _
    (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dat (F := F) V c) (defs₀ (F := F)) Variants.none none Set.univ := fun t => by
  rw [bigSep_W1, bigSep_W1]
  exact sound_body V c t

end Cert.Proof.ScI

end
-- ==== Proof.Sc.Region.lean ====
/-
  The TensorCore kernel region inside the SparseCore program.

  Between the gather and the return the TensorCore runs one kernel region: the perceptron pipeline over the two
  gathered arrays and the seven prepared weight operands. Entered holding the ten arrays whole, owing nothing, with
  the pipeline's staging cells still unallocated, it comes back with the nine operands as they were and the result
  array at what the pipeline's eight write-backs leave in it, still owing nothing, every recorded wait at or below
  the level it was found at. The region's own protocol (the staging cells' rounds) lives in its own component of
  the ghost state and is allocated at the entry; nothing of the handshakes with the SparseCores is touched.
-/
import proofs.«205169_g39805756899661_cont_8to1_b_81_27_alg».proof.Proof.Sc.Setup
import proofs.«205169_g39805756899661_cont_8to1_b_81_27_alg».proof.Proof.Gen.KernelIdeal.Launch
import proofs.«205169_g39805756899661_cont_8to1_b_81_27_alg».proof.Proof.Gen.KernelIdeal.Skeleton
import proofs.«205169_g39805756899661_cont_8to1_b_81_27_alg».proof.Proof.Gen.KernelIdeal.Points
import proofs.«205169_g39805756899661_cont_8to1_b_81_27_alg».proof.Proof.Sc.RegionData
import Idealize.ShloMosaic.Lib.Pipeline.FrameBody
import Idealize.ShloMosaic.Lib.Pipeline.Regions
import Idealize.ShloMosaic.Lib.Tactic

set_option maxRecDepth 16384

noncomputable section

namespace Cert.Proof.ScI

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The thread state around the region -/

/-- A valuation of one TensorCore's buffers. -/
abbrev Val1 (d : Dev nD) : Type := (b : Ref sig .tc) → Buf (Elt F) ((T d : Thread nD τ).loc b)

/-- Nothing owed, every recorded pair at or below level 8: the TensorCore after its one SparseCore call. -/
def owesLow (d : Dev nD) : sProp 𝕄 :=
  iprop(∃ W, ⌜(K (F := F)).WBelow (T d) W 8⌝ ∗ owes (T d : Thread nD τ) (0 : CellTallies nD τ sig (HIx 1)) W)

/-- The ten arrays the region moves, each whole at the full share: the nine operands at the valuation, the result at `o`. -/
def arrs (d : Dev nD) (Vd : Val1 (F := F) d) (o : Buf (Elt F) ((T d : Thread nD τ).loc main_v10)) : sProp 𝕄 :=
  iprop(((T d : Thread nD τ).loc main_v0_0 ↦{fullShare} Vd main_v0_0) ∗ ((T d : Thread nD τ).loc main_v0_1 ↦{fullShare} Vd main_v0_1)
    ∗ ((T d : Thread nD τ).loc main_v2 ↦{fullShare} Vd main_v2) ∗ ((T d : Thread nD τ).loc main_v4 ↦{fullShare} Vd main_v4)
    ∗ ((T d : Thread nD τ).loc main_v5 ↦{fullShare} Vd main_v5) ∗ ((T d : Thread nD τ).loc main_v6 ↦{fullShare} Vd main_v6)
    ∗ ((T d : Thread nD τ).loc main_v7 ↦{fullShare} Vd main_v7) ∗ ((T d : Thread nD τ).loc main_v8 ↦{fullShare} Vd main_v8)
    ∗ ((T d : Thread nD τ).loc main_v9 ↦{fullShare} Vd main_v9) ∗ ((T d : Thread nD τ).loc main_v10 ↦{fullShare} o))

variable (V : Valn (F := F)) (lv : GSem nD τ sig → HIx 1 → ℕ)

/-- The proof data of the program's one pipeline. -/
def pdats (p : Fin 1) (c : Dev nD) : Dat τ (Elt F) (HIx 1) ℕ UU ℕ (Pipeline.pin (pcfgs (F := F)) adm p) c := dat V c

/-- The result array after the region: what the eight write-backs leave. -/
def outArrAt (c : Dev nD) : Buf (Elt F) ((T c : Thread nD τ).loc main_v10) := (dat V c).arrAt 9 cfg1.N

theorem share_full (c : Dev nD) (w) : (pdats V 0 c).share w = fullShare := (pdats V 0 c).share_full (fun _ => rfl) w

/-- The pipeline's arrays at contents `G`, one by one. -/
theorem arrays_chain (c : Dev nD) (G : (w : Fin cfg1.W) → Buf (Elt F) (((cfg1.win w).arr.view.loc (c : Thread nD τ)))) :
    (pdats V 0 c).arrays G = iprop(((T c : Thread nD τ).loc main_v0_0 ↦{fullShare} G 0) ∗ ((T c : Thread nD τ).loc main_v0_1 ↦{fullShare} G 1)
      ∗ ((T c : Thread nD τ).loc main_v2 ↦{fullShare} G 2) ∗ ((T c : Thread nD τ).loc main_v4 ↦{fullShare} G 3)
      ∗ ((T c : Thread nD τ).loc main_v5 ↦{fullShare} G 4) ∗ ((T c : Thread nD τ).loc main_v6 ↦{fullShare} G 5)
      ∗ ((T c : Thread nD τ).loc main_v7 ↦{fullShare} G 6) ∗ ((T c : Thread nD τ).loc main_v8 ↦{fullShare} G 7)
      ∗ ((T c : Thread nD τ).loc main_v9 ↦{fullShare} G 8) ∗ ((T c : Thread nD τ).loc main_v10 ↦{fullShare} G 9)) := by
  rw [Pipeline.arrays_eq (Pipeline.pin (pcfgs (F := F)) adm) (pdats V) 0 c launch1.arr_whole (share_full V c) G, bigSep_W1]

set_option backward.isDefEq.respectTransparency.types false in
/-- The region over the thread state "the ten arrays and the core's `owes`". Nothing enters the invariant but the scoped
    rest (empty); the kernel has no semaphore of its own. -/
def reg : Pipeline.RegionSeg (pcfgs (F := F)) adm (pdats V) (none : HIx 1) defs₀ 𝒱₀ (K (F := F)).L lv 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L lv 0 fun _ _ => rfl
  pre c := iprop(arrs c (V c) (V c main_v10) ∗ owesLow (F := F) c)
  post c := iprop(arrs c (V c) (outArrAt V c) ∗ owesLow (F := F) c)
  X _ := BI.emp
  Y _ := BI.emp
  Z _ := BI.emp
  hentry c := by
    rw [Pipeline.ownSems0_none, arrays_chain]
    unfold arrs owesLow
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iempintro
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    rw [arrays_chain]
    unfold arrs owesLow
    iintro ⟨Ha, HO, -, -⟩
    imodintro
    isplitl [Ha]
    · rw [show (pdats V 0 c).arrAt 0 (Pipeline.pin (pcfgs (F := F)) adm 0).N = V c main_v0_0 from (dat V c).arrAt_in 0 rfl _,
        show (pdats V 0 c).arrAt 1 (Pipeline.pin (pcfgs (F := F)) adm 0).N = V c main_v0_1 from (dat V c).arrAt_in 1 rfl _,
        show (pdats V 0 c).arrAt 2 (Pipeline.pin (pcfgs (F := F)) adm 0).N = V c main_v2 from (dat V c).arrAt_in 2 rfl _,
        show (pdats V 0 c).arrAt 3 (Pipeline.pin (pcfgs (F := F)) adm 0).N = V c main_v4 from (dat V c).arrAt_in 3 rfl _,
        show (pdats V 0 c).arrAt 4 (Pipeline.pin (pcfgs (F := F)) adm 0).N = V c main_v5 from (dat V c).arrAt_in 4 rfl _,
        show (pdats V 0 c).arrAt 5 (Pipeline.pin (pcfgs (F := F)) adm 0).N = V c main_v6 from (dat V c).arrAt_in 5 rfl _,
        show (pdats V 0 c).arrAt 6 (Pipeline.pin (pcfgs (F := F)) adm 0).N = V c main_v7 from (dat V c).arrAt_in 6 rfl _,
        show (pdats V 0 c).arrAt 7 (Pipeline.pin (pcfgs (F := F)) adm 0).N = V c main_v8 from (dat V c).arrAt_in 7 rfl _,
        show (pdats V 0 c).arrAt 8 (Pipeline.pin (pcfgs (F := F)) adm 0).N = V c main_v9 from (dat V c).arrAt_in 8 rfl _]
      iexact Ha
    unfold Pipeline.Dat.owesAt Pipeline.owesWithin
    icases HO with ⟨%W, %hW, HO⟩
    iexists W; isplitr; swap; (· iexact HO)
    ipureintro
    intro p hp
    rcases hW hp with h | ⟨w, s, rfl⟩
    · exact h
    · exact Nat.zero_le _

end Cert.Proof.ScI

end
-- ==== Proof.Sc.MainPre.lean ====
/-
  @main's text and what the launch deals the TensorCore.

  @main is the gather call, a straight line of nine host operations (slices, transposes and reshapes of the weight
  arrays), the kernel region, and the return. The launch deals the TensorCore its 21 unscoped arrays whole at their
  launch contents; they are taken out of the family one by one.
-/
import proofs.«205169_g39805756899661_cont_8to1_b_81_27_alg».proof.Proof.Sc.Pay
import proofs.«205169_g39805756899661_cont_8to1_b_81_27_alg».proof.Proof.Sc.Ghost
import proofs.«205169_g39805756899661_cont_8to1_b_81_27_alg».proof.Proof.Sc.Region
import Idealize.ShloMosaic.Lib.SparseCore.Launch
import Idealize.ShloMosaic.Lib.StableHlo.Run
import Idealize.ShloMosaic.Lib.Transfers
import Idealize.ShloMosaic.Lib.Tactic

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The nine host operations between the two kernels. -/
def hostOps : List (HloOp τ sig (Elt F)) :=
  [StableHlo.unary main_arg3 main_v1 ((extractStridedSlice S128x64 ![0, 0] · slices_S128x128_S128x64_0_0) : (⟨S128x128, .f32⟩ : BufTy).Contents (Elt F) → (⟨S128x64, .f32⟩ : BufTy).Contents (Elt F)),
   StableHlo.unary main_v1 main_v2 ((transpose S64x128 [1, 0] · transposes_S128x64_S64x128_1_0) : (⟨S128x64, .f32⟩ : BufTy).Contents (Elt F) → (⟨S64x128, .f32⟩ : BufTy).Contents (Elt F)),
   StableHlo.unary main_arg3 main_v3 ((extractStridedSlice S128x64 ![0, 64] · slices_S128x128_S128x64_0_64) : (⟨S128x128, .f32⟩ : BufTy).Contents (Elt F) → (⟨S128x64, .f32⟩ : BufTy).Contents (Elt F)),
   StableHlo.unary main_v3 main_v4 ((transpose S64x128 [1, 0] · transposes_S128x64_S64x128_1_0) : (⟨S128x64, .f32⟩ : BufTy).Contents (Elt F) → (⟨S64x128, .f32⟩ : BufTy).Contents (Elt F)),
   StableHlo.reshape main_arg4 main_v5 rfl shapeCasts_S128_S1x128,
   StableHlo.unary main_arg5 main_v6 ((transpose S128x64 [1, 0] · transposes_S64x128_S128x64_1_0) : (⟨S64x128, .f32⟩ : BufTy).Contents (Elt F) → (⟨S128x64, .f32⟩ : BufTy).Contents (Elt F)),
   StableHlo.reshape main_arg6 main_v7 rfl shapeCasts_S64_S1x64,
   StableHlo.unary main_arg7 main_v8 ((transpose S64x1 [1, 0] · transposes_S1x64_S64x1_1_0) : (⟨S1x64, .f32⟩ : BufTy).Contents (Elt F) → (⟨S64x1, .f32⟩ : BufTy).Contents (Elt F)),
   StableHlo.reshape main_arg8 main_v9 rfl shapeCasts_S1_S1x1]

/-- @main is the gather call, the nine host operations, the kernel region, the return. -/
theorem main_eq (d : Dev nD) :
    main (F := F) d = ((K (F := F)).run d 0 >>= fun _ => (StableHlo.seq (hostOps (F := F)) >>= fun _ =>
      (Prog.lift (.customCall (SparseCore.inner (Pipeline.entry 0)) ()) >>= fun _ => pure ⟨⟩))) := rfl

omit [FloatOps F] in
/-- A family over the elements of a list without repeats is the elements' terms one after the other. -/
theorem bigSep_list {I : Type} [DecidableEq I] (Φ : I → sProp 𝕄) :
    ∀ (l : List I), l.Nodup → bigSep l.toFinset Φ = l.foldr (fun a R => iprop(Φ a ∗ R)) iprop(emp)
  | [], _ => rfl
  | a :: l, h => by
    rw [List.toFinset_cons, SparseCore.bigSep_insert' (by simpa using (List.nodup_cons.mp h).1),
      bigSep_list Φ l (List.nodup_cons.mp h).2]
    rfl

/-- The TensorCore's 21 unscoped arrays. -/
def refs21 : List (Ref sig .tc) := [main_arg0, main_arg1, main_arg2, main_arg3, main_arg4, main_arg5, main_arg6, main_arg7, main_arg8, main_v0_0, main_v0_1, main_v1, main_v2, main_v3, main_v4, main_v5, main_v6, main_v7, main_v8, main_v9, main_v10]
theorem refs21_nodup : refs21.Nodup := by decide
theorem refs21_unscoped : ∀ b ∈ refs21, ¬ b.isScoped := by decide

omit [FloatOps F] in
/-- The TensorCore's unscoped arrays, one by one. -/
theorem unscopedBufs_split (d : Dev nD) (W : (b : Ref sig .tc) → Buf (Elt F) ((d.tc : Thread nD τ).loc b)) :
    (unscopedBufs d W : sProp 𝕄) ⊢ iprop(((T d : Thread nD τ).loc main_arg0 ↦{fullShare} W main_arg0)
      ∗ ((T d : Thread nD τ).loc main_arg1 ↦{fullShare} W main_arg1)
      ∗ ((T d : Thread nD τ).loc main_arg2 ↦{fullShare} W main_arg2)
      ∗ ((T d : Thread nD τ).loc main_arg3 ↦{fullShare} W main_arg3)
      ∗ ((T d : Thread nD τ).loc main_arg4 ↦{fullShare} W main_arg4)
      ∗ ((T d : Thread nD τ).loc main_arg5 ↦{fullShare} W main_arg5)
      ∗ ((T d : Thread nD τ).loc main_arg6 ↦{fullShare} W main_arg6)
      ∗ ((T d : Thread nD τ).loc main_arg7 ↦{fullShare} W main_arg7)
      ∗ ((T d : Thread nD τ).loc main_arg8 ↦{fullShare} W main_arg8)
      ∗ ((T d : Thread nD τ).loc main_v0_0 ↦{fullShare} W main_v0_0)
      ∗ ((T d : Thread nD τ).loc main_v0_1 ↦{fullShare} W main_v0_1)
      ∗ ((T d : Thread nD τ).loc main_v1 ↦{fullShare} W main_v1)
      ∗ ((T d : Thread nD τ).loc main_v2 ↦{fullShare} W main_v2)
      ∗ ((T d : Thread nD τ).loc main_v3 ↦{fullShare} W main_v3)
      ∗ ((T d : Thread nD τ).loc main_v4 ↦{fullShare} W main_v4)
      ∗ ((T d : Thread nD τ).loc main_v5 ↦{fullShare} W main_v5)
      ∗ ((T d : Thread nD τ).loc main_v6 ↦{fullShare} W main_v6)
      ∗ ((T d : Thread nD τ).loc main_v7 ↦{fullShare} W main_v7)
      ∗ ((T d : Thread nD τ).loc main_v8 ↦{fullShare} W main_v8)
      ∗ ((T d : Thread nD τ).loc main_v9 ↦{fullShare} W main_v9)
      ∗ ((T d : Thread nD τ).loc main_v10 ↦{fullShare} W main_v10)
      ∗ emp) := by
  unfold unscopedBufs
  have hsub : refs21.toFinset ⊆ (Finset.univ.filter fun b : Ref sig .tc => ¬ b.isScoped) := by
    intro b hb
    rw [Finset.mem_filter]
    exact ⟨Finset.mem_univ _, refs21_unscoped b (List.mem_toFinset.mp hb)⟩
  refine (bigSep_subset hsub).trans ?_
  rw [bigSep_list _ _ refs21_nodup]
  unfold refs21
  simp only [List.foldr_cons, List.foldr_nil]
  exact BI.Entails.refl _

end Cert.Proof.ScI

end
-- ==== Proof.Sc.CallPay.lean ====
/-
  What the TensorCore hands the gather call and gets back, whole.

  The call's 32 tiles cut the right halves of the two index arrays and the two gathered arrays into their element
  sets, and share the table by 32 read shares split off the full share: so the call is handed the right halves of
  the index arrays, the 32 read shares of the table and the gathered arrays, each whole. Every tile hands back its
  rows of the gathered arrays at one whole-array function — the gather of the table at the index array — so the
  call hands back the two gathered arrays whole at that function.
-/
import proofs.«205169_g39805756899661_cont_8to1_b_81_27_alg».proof.Proof.Sc.Pay
import Idealize.ShloMosaic.Lib.Transfers
import Idealize.ShloMosaic.Lib.Tactic

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ## The grid points, two ways -/

/-- The grid points are the pairs (SparseCore, vector subcore) of the call's grid, -/
def tileEquiv : (Fin ((K (F := F)).nCore 0) × Fin ((K (F := F)).nSub 0)) ≃ grid0.Coords where
  toFun p := tileOf p.1 p.2
  invFun L := (Fin.cast nCore_zero.symm (L 0), Fin.cast nSub_zero.symm (L 1))
  left_inv _ := rfl
  right_inv _ := coords_ext rfl rfl

/-- and are numbered `16 c + s`. -/
def tokEquiv : grid0.Coords ≃ Fin 32 :=
  ({ toFun := fun L => (L 0, L 1), invFun := fun p => tile p.1 p.2, left_inv := fun _ => coords_ext rfl rfl, right_inv := fun _ => rfl } :
    grid0.Coords ≃ Fin 2 × Fin 16).trans finProdFinEquiv

/-- What the call hands its SparseCores is what it hands its 32 tiles; -/
theorem st0_eq (d : Dev nD) : (bigSep Finset.univ fun c : Fin ((K (F := F)).nCore 0) => (P m).st 0 d c)
    = bigSep Finset.univ fun L : grid0.Coords => goT d L fullShare.right (tok L) (iaM m d) (ibM m d) (tbM m d) := by
  show (bigSep Finset.univ fun c : Fin ((K (F := F)).nCore 0) => bigSep Finset.univ fun i : Fin ((K (F := F)).nSub 0) => goB m d c i) = _
  rw [← bigSep_univ_prod (fun p : Fin ((K (F := F)).nCore 0) × Fin ((K (F := F)).nSub 0) => goB m d p.1 p.2),
    bigSep_univ_equiv (tileEquiv (F := F)) (fun L : grid0.Coords => goT d L fullShare.right (tok L) (iaM m d) (ibM m d) (tbM m d))]
  rfl

/-- what they hand back, what the tiles do. -/
theorem dn0_eq (d : Dev nD) : (bigSep Finset.univ fun c : Fin ((K (F := F)).nCore 0) => (P m).dn 0 d c)
    = bigSep Finset.univ fun L : grid0.Coords => tdT d L (iaM m d) (ibM m d) (tbM m d) := by
  show (bigSep Finset.univ fun c : Fin ((K (F := F)).nCore 0) => bigSep Finset.univ fun i : Fin ((K (F := F)).nSub 0) => tdB m d c i) = _
  rw [← bigSep_univ_prod (fun p : Fin ((K (F := F)).nCore 0) × Fin ((K (F := F)).nSub 0) => tdB m d p.1 p.2),
    bigSep_univ_equiv (tileEquiv (F := F)) (fun L : grid0.Coords => tdT d L (iaM m d) (ibM m d) (tbM m d))]
  rfl

omit [FloatOps F] in
/-- The table's 32 read shares are the tiles'. -/
theorem table_toks (d : Dev nD) (f : Buf (Elt F) (locTb d)) :
    (bigSep Finset.univ fun i : Fin 32 => (locTb d ↦{Transfers.shareTok fullShare 32 i} f : sProp 𝕄))
      = bigSep Finset.univ fun L : grid0.Coords => locTb d ↦{tok L} f :=
  bigSep_univ_equiv tokEquiv (fun i : Fin 32 => (locTb d ↦{Transfers.shareTok fullShare 32 i} f : sProp 𝕄))

omit [FloatOps F] in
/-- A buffer's elements held at given contents are held at some contents. -/
theorem pointsTo_some {ℓ : Loc nD τ sig} {S : Finset (Idx ℓ)} {q : PosShare TreeShare} (f : Buf (Elt F) ℓ) :
    (ℓ ↦[S]{q} f : sProp 𝕄) ⊢ iprop(∃ g, ℓ ↦[S]{q} g) := by
  iintro H; iexists f; iexact H

/-- THE CALL'S OPERANDS, from the arrays whole. -/
theorem st0_intro (d : Dev nD) (fa : Buf (Elt F) (locGa d)) (fb : Buf (Elt F) (locGb d)) :
    iprop((locIa d ↦{fullShare.right} m (locIa d)) ∗ (locIb d ↦{fullShare.right} m (locIb d))
        ∗ (bigSep Finset.univ fun i : Fin 32 => locTb d ↦{Transfers.shareTok fullShare 32 i} m (locTb d))
        ∗ (locGa d ↦{fullShare} fa) ∗ (locGb d ↦{fullShare} fb))
      ⊢ (bigSep Finset.univ fun c : Fin ((K (F := F)).nCore 0) => (P m).st 0 d c : sProp 𝕄) := by
  have hga : (bigSep Finset.univ fun L : grid0.Coords => (locGa d ↦[tileRowSet L]{fullShare} fa : sProp 𝕄))
      ⊢ bigSep Finset.univ fun L : grid0.Coords => iprop(∃ f, locGa d ↦[tileRowSet L]{fullShare} f) :=
    bigSep_mono fun L _ => pointsTo_some fa
  have hgb : (bigSep Finset.univ fun L : grid0.Coords => (locGb d ↦[tileRowSet L]{fullShare} fb : sProp 𝕄))
      ⊢ bigSep Finset.univ fun L : grid0.Coords => iprop(∃ f, locGb d ↦[tileRowSet L]{fullShare} f) :=
    bigSep_mono fun L _ => pointsTo_some fb
  rw [st0_eq, pts_tiles_arg0 d fullShare.right, pts_tiles_arg1 d fullShare.right, table_toks, pts_tiles_v0_0 d fullShare, pts_tiles_v0_1 d fullShare]
  unfold goT
  rw [bigSep_sep', bigSep_sep', bigSep_sep', bigSep_sep']
  iintro ⟨Ha, Hb, Ht, Hga, Hgb⟩
  isplitl [Ha]; · iexact Ha
  isplitl [Hb]; · iexact Hb
  isplitl [Ht]; · iexact Ht
  isplitl [Hga]
  · iapply hga; iexact Hga
  · iapply hgb; iexact Hgb

/-- THE CALL'S RESULTS, whole: the two gathered arrays at the gather of the table at each index array. -/
theorem dn0_elim (d : Dev nD) :
    (bigSep Finset.univ fun c : Fin ((K (F := F)).nCore 0) => (P m).dn 0 d c : sProp 𝕄)
      ⊢ iprop((locGa d ↦{fullShare} gath (tbM m d) (iaM m d)) ∗ (locGb d ↦{fullShare} gath (tbM m d) (ibM m d))) := by
  rw [dn0_eq, pts_tiles_v0_0 d fullShare, pts_tiles_v0_1 d fullShare]
  unfold tdT
  rw [bigSep_sep']

end Cert.Proof.ScI

end
-- ==== Proof.Sc.Main.lean ====
/-
  @main on the TensorCore.

  The TensorCore splits each index array in two halves of the full share and the table in 32 read shares and a
  remainder; the right halves, the read shares and the two gathered arrays go to the gather call, which hands the
  gathered arrays back whole at the gather of the table at each index array. The nine host operations run over the
  weight arrays and their results. The kernel region is entered with the gathered arrays and the seven prepared
  operands at those contents and the result array at whatever it holds, and comes back with the result array at
  the region's result. What is left for the claim: the nine argument arrays, each under the share the TensorCore
  kept, at their launch contents, and the result array.
-/
import proofs.«205169_g39805756899661_cont_8to1_b_81_27_alg».proof.Proof.Sc.Pay
import proofs.«205169_g39805756899661_cont_8to1_b_81_27_alg».proof.Proof.Sc.MainPre
import proofs.«205169_g39805756899661_cont_8to1_b_81_27_alg».proof.Proof.Sc.CallPay
import proofs.«205169_g39805756899661_cont_8to1_b_81_27_alg».proof.Proof.Sc.Ghost
import proofs.«205169_g39805756899661_cont_8to1_b_81_27_alg».proof.Proof.Sc.Region
import Idealize.ShloMosaic.Lib.SparseCore.Launch
import Idealize.ShloMosaic.Lib.StableHlo.Run
import Idealize.ShloMosaic.Lib.Transfers
import Idealize.ShloMosaic.Lib.Tactic

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The kernel region's rule, as a hypothesis -/

/-- The kernel region's rule over a result array `out`, a function of the TensorCore's valuation at the region's entry. -/
def RegionRule (out : (d : Dev nD) → Val1 (F := F) d → Buf (Elt F) ((T d : Thread nD τ).loc main_v10)) : Prop :=
  ∀ (lv : GSem nD τ sig → HIx 1 → ℕ) (d : Dev nD) (Vd : Val1 (F := F) d) (Φ : PUnit → sProp 𝕄),
    iprop(levAts (K (F := F)).L lv
        ∗ Pipeline.cellsGhost cfgs (EP (F := F)) 0 d ∗ Pipeline.toksInit cfgs (EP (F := F)) 0 d
        ∗ boundary (T d : Thread nD τ) ∗ arrs d Vd (Vd main_v10) ∗ owesLow (F := F) d
        ∗ (iprop(boundary (T d : Thread nD τ) ∗ arrs d Vd (out d Vd) ∗ owesLow (F := F) d) -∗ Φ ⟨⟩))
      ⊢ wp frame (wpE ((K (F := F)).defs (D (F := F))) 𝒱 (T d) none) Set.univ
          (Prog.lift (.customCall (SparseCore.inner (Pipeline.entry 0)) ())) Φ

/-! ## The valuations -/

/-- The launch valuation of device `d`, -/
def V0 (d : Dev nD) : Valuation τ sig (Elt F) := fun b => m (d, b)
/-- the valuation after the nine host operations, -/
def Vh (d : Dev nD) : Valuation τ sig (Elt F) := StableHlo.after (hostOps (F := F)) (V0 m d)
/-- and the TensorCore's valuation at the region's entry: the gathered arrays at the gather of the table at each
    index array, every other array as the host operations left it. -/
def Vd (d : Dev nD) : Val1 (F := F) d :=
  Function.update (Function.update (fun b => Vh m d (Proc.devRef .tc b)) main_v0_0 (gath (tbM m d) (iaM m d)))
    main_v0_1 (gath (tbM m d) (ibM m d))

theorem Vd_v0_0 (d : Dev nD) : Vd m d main_v0_0 = gath (tbM m d) (iaM m d) := by
  unfold Vd; rw [Function.update_of_ne (by decide), Function.update_self]
theorem Vd_v0_1 (d : Dev nD) : Vd m d main_v0_1 = gath (tbM m d) (ibM m d) := by
  unfold Vd; rw [Function.update_self]
theorem Vd_other (d : Dev nD) (b : Ref sig .tc) (h0 : b ≠ main_v0_0) (h1 : b ≠ main_v0_1) :
    Vd m d b = Vh m d (Proc.devRef .tc b) := by
  unfold Vd; rw [Function.update_of_ne h1, Function.update_of_ne h0]

/-- The arrays the host operations write. -/
def hostWrites : List (Ref sig .tc) := [main_v1, main_v2, main_v3, main_v4, main_v5, main_v6, main_v7, main_v8, main_v9]

theorem hostOps_writes : (hostOps (F := F)).Forall fun op => op.writes ⊆ (hostWrites.map (Proc.devRef (τ := τ) .tc)).toFinset := by
  have h : ∀ y : Ref sig .tc, y ∈ hostWrites →
      ({Proc.devRef .tc y} : Finset (DevRef τ sig)) ⊆ (hostWrites.map (Proc.devRef (τ := τ) .tc)).toFinset :=
    fun y hy => Finset.singleton_subset_iff.mpr (List.mem_toFinset.mpr (List.mem_map_of_mem hy))
  simp only [hostOps, List.forall_cons, List.Forall]
  exact ⟨h main_v1 (by decide), h main_v2 (by decide), h main_v3 (by decide), h main_v4 (by decide), h main_v5 (by decide),
    h main_v6 (by decide), h main_v7 (by decide), h main_v8 (by decide), h main_v9 (by decide)⟩

/-- An array the host operations do not write keeps its launch contents. -/
theorem Vh_of_not_written (d : Dev nD) (r : Ref sig .tc) (hr : r ∉ hostWrites) :
    Vh m d (Proc.devRef .tc r) = V0 m d (Proc.devRef .tc r) :=
  StableHlo.after_of_writes_sub (hostOps (F := F)) (V0 m d) hostOps_writes hr

/-! ## The arrays the host operations run over -/

/-- The weight arrays and the host operations' results. -/
def refs15 : List (Ref sig .tc) := [main_arg3, main_arg4, main_arg5, main_arg6, main_arg7, main_arg8, main_v1, main_v2, main_v3, main_v4, main_v5, main_v6, main_v7, main_v8, main_v9]
theorem refs15_nodup : refs15.Nodup := by decide
def S15 : Finset (DevRef τ sig) := (refs15.map (Proc.devRef (τ := τ) .tc)).toFinset

omit [FloatOps F] in
theorem held_S15 (d : Dev nD) (W : Valuation τ sig (Elt F)) :
    (held (T d) S15 W : sProp 𝕄) = iprop(((T d : Thread nD τ).loc main_arg3 ↦{fullShare} W (Proc.devRef .tc main_arg3))
      ∗ ((T d : Thread nD τ).loc main_arg4 ↦{fullShare} W (Proc.devRef .tc main_arg4))
      ∗ ((T d : Thread nD τ).loc main_arg5 ↦{fullShare} W (Proc.devRef .tc main_arg5))
      ∗ ((T d : Thread nD τ).loc main_arg6 ↦{fullShare} W (Proc.devRef .tc main_arg6))
      ∗ ((T d : Thread nD τ).loc main_arg7 ↦{fullShare} W (Proc.devRef .tc main_arg7))
      ∗ ((T d : Thread nD τ).loc main_arg8 ↦{fullShare} W (Proc.devRef .tc main_arg8))
      ∗ ((T d : Thread nD τ).loc main_v1 ↦{fullShare} W (Proc.devRef .tc main_v1))
      ∗ ((T d : Thread nD τ).loc main_v2 ↦{fullShare} W (Proc.devRef .tc main_v2))
      ∗ ((T d : Thread nD τ).loc main_v3 ↦{fullShare} W (Proc.devRef .tc main_v3))
      ∗ ((T d : Thread nD τ).loc main_v4 ↦{fullShare} W (Proc.devRef .tc main_v4))
      ∗ ((T d : Thread nD τ).loc main_v5 ↦{fullShare} W (Proc.devRef .tc main_v5))
      ∗ ((T d : Thread nD τ).loc main_v6 ↦{fullShare} W (Proc.devRef .tc main_v6))
      ∗ ((T d : Thread nD τ).loc main_v7 ↦{fullShare} W (Proc.devRef .tc main_v7))
      ∗ ((T d : Thread nD τ).loc main_v8 ↦{fullShare} W (Proc.devRef .tc main_v8))
      ∗ ((T d : Thread nD τ).loc main_v9 ↦{fullShare} W (Proc.devRef .tc main_v9))
      ∗ emp) := by
  unfold held S15
  rw [bigSep_list _ _ (List.Nodup.map (Proc.devRef_injective _) refs15_nodup)]
  unfold refs15
  simp only [List.map_cons, List.map_nil, List.foldr_cons, List.foldr_nil]

omit [FloatOps F] in
theorem pair_sub {a b : Ref sig .tc} (ha : a ∈ refs15) (hb : b ∈ refs15) :
    ({Proc.devRef .tc a, Proc.devRef .tc b} : Finset (DevRef τ sig)) ⊆ S15 := by
  intro x hx
  rcases Finset.mem_insert.mp hx with rfl | hx
  · exact List.mem_toFinset.mpr (List.mem_map_of_mem ha)
  · rw [Finset.mem_singleton.mp hx]; exact List.mem_toFinset.mpr (List.mem_map_of_mem hb)

theorem hostOps_bufs : ∀ op ∈ hostOps (F := F), op.bufs ⊆ S15 := by
  intro op hop
  simp only [hostOps, List.mem_cons, List.not_mem_nil, or_false] at hop
  rcases hop with rfl | rfl | rfl | rfl | rfl | rfl | rfl | rfl | rfl
  · exact pair_sub (a := main_arg3) (b := main_v1) (by decide) (by decide)
  · exact pair_sub (a := main_v1) (b := main_v2) (by decide) (by decide)
  · exact pair_sub (a := main_arg3) (b := main_v3) (by decide) (by decide)
  · exact pair_sub (a := main_v3) (b := main_v4) (by decide) (by decide)
  · exact pair_sub (a := main_arg4) (b := main_v5) (by decide) (by decide)
  · exact pair_sub (a := main_arg5) (b := main_v6) (by decide) (by decide)
  · exact pair_sub (a := main_arg6) (b := main_v7) (by decide) (by decide)
  · exact pair_sub (a := main_arg7) (b := main_v8) (by decide) (by decide)
  · exact pair_sub (a := main_arg8) (b := main_v9) (by decide) (by decide)

theorem hostOps_fresh : ∀ op ∈ hostOps (F := F), op.fresh = ∅ := by
  intro op hop
  simp only [hostOps, List.mem_cons, List.not_mem_nil, or_false] at hop
  rcases hop with rfl | rfl | rfl | rfl | rfl | rfl | rfl | rfl | rfl <;> rfl

/-! ## What is left for the claim -/

/-- The nine argument arrays, each under the share the TensorCore kept, at their launch contents, and the result
    array at the region's result. -/
def FIN (out : (d : Dev nD) → Val1 (F := F) d → Buf (Elt F) ((T d : Thread nD τ).loc main_v10)) (d : Dev nD) : sProp 𝕄 :=
  iprop((locIa d ↦{fullShare.left} m (locIa d)) ∗ (locIb d ↦{fullShare.left} m (locIb d))
    ∗ (locTb d ↦{Transfers.shareDrop fullShare 32} m (locTb d))
    ∗ ((T d : Thread nD τ).loc main_arg3 ↦{fullShare} m ((T d : Thread nD τ).loc main_arg3))
    ∗ ((T d : Thread nD τ).loc main_arg4 ↦{fullShare} m ((T d : Thread nD τ).loc main_arg4))
    ∗ ((T d : Thread nD τ).loc main_arg5 ↦{fullShare} m ((T d : Thread nD τ).loc main_arg5))
    ∗ ((T d : Thread nD τ).loc main_arg6 ↦{fullShare} m ((T d : Thread nD τ).loc main_arg6))
    ∗ ((T d : Thread nD τ).loc main_arg7 ↦{fullShare} m ((T d : Thread nD τ).loc main_arg7))
    ∗ ((T d : Thread nD τ).loc main_arg8 ↦{fullShare} m ((T d : Thread nD τ).loc main_arg8))
    ∗ ((T d : Thread nD τ).loc main_v10 ↦{fullShare} out d (Vd m d)))

omit [FloatOps F] in
/-- After its one call the TensorCore owes nothing: that part of its handshake state, taken out and put back. -/
theorem tcSt_one_elim (d : Dev nD) :
    ((K (F := F)).tcSt EH d 1 : sProp 𝕄) ⊢ iprop(owesLow (F := F) d ∗ (owesLow (F := F) d -∗ (K (F := F)).tcSt EH d 1)) := by
  unfold SparseCore.Cfg.tcSt owesLow
  rw [(K (F := F)).Otc_end d le_rfl]
  iintro ⟨HO, Hrest⟩
  isplitl [HO]; · iexact HO
  iintro HO
  isplitl [HO]; · iexact HO
  iexact Hrest

set_option backward.isDefEq.respectTransparency.types false in
/-- @MAIN on device `d`'s TensorCore. -/
theorem hmain {out : (d : Dev nD) → Val1 (F := F) d → Buf (Elt F) ((T d : Thread nD τ).loc main_v10)}
    (hregion : RegionRule (F := F) out) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m out d) := by
  unfold SparseCore.Cfg.tcRes G
  rw [main_eq, wp_bind]
  iintro ⟨#Hctx, Hst, ⟨Hb, Hu, -, -⟩, Hcg, Hti⟩
  ihave Hu' := (unscopedBufs_split d _) $$ Hu
  icases Hu' with ⟨Ha0, Ha1, Ha2, Ha3, Ha4, Ha5, Ha6, Ha7, Ha8, Hg0, Hg1, Hv1, Hv2, Hv3, Hv4, Hv5, Hv6, Hv7, Hv8, Hv9, Hv10, -⟩
  -- the index arrays in halves, the table in 32 read shares and a remainder
  ihave Ha0' := (pointsTo_share (PosShare.mem_left_op_right fullShare)).1 $$ Ha0
  icases Ha0' with ⟨Ha0l, Ha0r⟩
  ihave Ha1' := (pointsTo_share (PosShare.mem_left_op_right fullShare)).1 $$ Ha1
  icases Ha1' with ⟨Ha1l, Ha1r⟩
  ihave Ha2' := (Transfers.pointsTo_toks_split fullShare 32) $$ Ha2
  icases Ha2' with ⟨Ha2d, Ha2t⟩
  -- the gather call
  iapply ((K (F := F)).wp_run (D (F := F)) 𝒱 (EH := EH) (P := P m) κ d 0) $$ [Hst Ha0r Ha1r Ha2t Hg0 Hg1 Hb Ha0l Ha1l Ha2d Ha3 Ha4 Ha5 Ha6 Ha7 Ha8 Hv1 Hv2 Hv3 Hv4 Hv5 Hv6 Hv7 Hv8 Hv9 Hv10 Hcg Hti]
  isplitr; · iexact Hctx
  isplitl [Hst]; · iexact Hst
  isplitl [Ha0r Ha1r Ha2t Hg0 Hg1]
  · iapply (st0_intro m d _ _)
    isplitl [Ha0r]; · iexact Ha0r
    isplitl [Ha1r]; · iexact Ha1r
    isplitl [Ha2t]; · iexact Ha2t
    isplitl [Hg0]; · iexact Hg0
    iexact Hg1
  iintro ⟨Hst, Hdn⟩
  ihave Hdn' := (dn0_elim m d) $$ Hdn
  icases Hdn' with ⟨Hg0, Hg1⟩
  -- the nine host operations
  iapply (StableHlo.wp_seq 𝒱 none Set.univ d S15 _ (hostOps (F := F)) hostOps_bufs hostOps_fresh (V0 m d)) $$ [Hb Ha3 Ha4 Ha5 Ha6 Ha7 Ha8 Hv1 Hv2 Hv3 Hv4 Hv5 Hv6 Hv7 Hv8 Hv9]
  · isplitl [Hb]; · iexact Hb
    rw [held_S15]
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    iempintro
  iintro ⟨Hb, Hheld⟩
  ihave Hheld' := (Entails.of_eq (show (held (d.tc : Thread nD τ) S15 (StableHlo.after (hostOps (F := F)) (V0 m d)) : sProp 𝕄)
    = held (SparseCore.T d) S15 (Vh m d) from rfl)) $$ Hheld
  ihave Hh := (Entails.of_eq (held_S15 (F := F) d (Vh m d))) $$ Hheld'
  icases Hh with ⟨Ha3, Ha4, Ha5, Ha6, Ha7, Ha8, Hv1, Hv2, Hv3, Hv4, Hv5, Hv6, Hv7, Hv8, Hv9, -⟩
  -- the kernel region
  rw [wp_bind]
  ihave Hst1 := (Entails.of_eq (show ((K (F := F)).tcSt EH d ((0 : Fin 1).val + 1) : sProp 𝕄) = (K (F := F)).tcSt EH d 1 from rfl)) $$ Hst
  ihave Hst' := (tcSt_one_elim (F := F) d) $$ Hst1
  icases Hst' with ⟨Ho, Hback⟩
  iapply (hregion (K (F := F)).lev d (Vd m d) _) $$ [Hcg Hti Hb Hg0 Hg1 Hv2 Hv4 Hv5 Hv6 Hv7 Hv8 Hv9 Hv10 Ho Hback Ha0l Ha1l Ha2d Ha3 Ha4 Ha5 Ha6 Ha7 Ha8]
  isplitr; · iapply ((K (F := F)).ctx_levAts (EH := EH) (P := P m) κ); iexact Hctx
  isplitl [Hcg]; · iexact Hcg
  isplitl [Hti]; · iexact Hti
  isplitl [Hb]; · iexact Hb
  isplitl [Hg0 Hg1 Hv2 Hv4 Hv5 Hv6 Hv7 Hv8 Hv9 Hv10]
  · unfold arrs
    rw [Vd_v0_0, Vd_v0_1, Vd_other m d main_v2 (by decide) (by decide), Vd_other m d main_v4 (by decide) (by decide),
      Vd_other m d main_v5 (by decide) (by decide), Vd_other m d main_v6 (by decide) (by decide),
      Vd_other m d main_v7 (by decide) (by decide), Vd_other m d main_v8 (by decide) (by decide),
      Vd_other m d main_v9 (by decide) (by decide), Vd_other m d main_v10 (by decide) (by decide),
      Vh_of_not_written m d main_v10 (by decide)]
    isplitl [Hg0]; · iexact Hg0
    isplitl [Hg1]; · iexact Hg1
    isplitl [Hv2]; · iexact Hv2
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    iexact Hv10
  isplitl [Ho]; · iexact Ho
  iintro ⟨Hb, Ha, Ho⟩
  rw [wp_pure]
  imodintro
  isplitl [Ho Hback]; · iapply Hback; iexact Ho
  unfold FIN arrs
  icases Ha with ⟨-, -, -, -, -, -, -, -, -, Hv10⟩
  rw [Vh_of_not_written m d main_arg3 (by decide), Vh_of_not_written m d main_arg4 (by decide), Vh_of_not_written m d main_arg5 (by decide),
    Vh_of_not_written m d main_arg6 (by decide), Vh_of_not_written m d main_arg7 (by decide), Vh_of_not_written m d main_arg8 (by decide)]
  isplitl [Ha0l]; · iexact Ha0l
  isplitl [Ha1l]; · iexact Ha1l
  isplitl [Ha2d]; · iexact Ha2d
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  iexact Hv10

end Cert.Proof.ScI

end
-- ==== Proof.Sc.Launch.lean ====
/-
  The program's run.

  The SparseCore launch theorem, applied: the tile's obligation from the tile's body, the identity split of a
  SparseCore's operands among its tiles, the launch element, @main on the TensorCore, and the final assertions —
  the points-tos the TensorCore is left with pin the final memory's contents at every share, so the nine argument
  arrays end at their launch contents and the result array at the region's result.
-/
import proofs.«205169_g39805756899661_cont_8to1_b_81_27_alg».proof.Proof.Sc.Pay
import proofs.«205169_g39805756899661_cont_8to1_b_81_27_alg».proof.Proof.Sc.TileObl
import proofs.«205169_g39805756899661_cont_8to1_b_81_27_alg».proof.Proof.Sc.Main
import proofs.«205169_g39805756899661_cont_8to1_b_81_27_alg».proof.Proof.Sc.Ghost
import proofs.«205169_g39805756899661_cont_8to1_b_81_27_alg».proof.Proof.Sc.Region
import Idealize.ShloMosaic.Lib.SparseCore.Launch
import Idealize.ShloMosaic.Lib.StableHlo.Run
import Idealize.ShloMosaic.Lib.Transfers
import Idealize.ShloMosaic.Lib.Tactic

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The final assertions read the claim off the final memory -/

/-- What device `d`'s TensorCore's final assertion says of the final memory. -/
def fq (out : (d : Dev nD) → Val1 (F := F) d → Buf (Elt F) ((T d : Thread nD τ).loc main_v10)) (d : Dev nD)
    (s' : Phys nD τ sig (Elt F)) : Prop :=
  s'.mem.mem ((T d : Thread nD τ).loc main_v10) = out d (Vd m d)
    ∧ s'.mem.mem ((T d : Thread nD τ).loc main_arg0) = m ((T d : Thread nD τ).loc main_arg0)
    ∧ s'.mem.mem ((T d : Thread nD τ).loc main_arg1) = m ((T d : Thread nD τ).loc main_arg1)
    ∧ s'.mem.mem ((T d : Thread nD τ).loc main_arg2) = m ((T d : Thread nD τ).loc main_arg2)
    ∧ s'.mem.mem ((T d : Thread nD τ).loc main_arg3) = m ((T d : Thread nD τ).loc main_arg3)
    ∧ s'.mem.mem ((T d : Thread nD τ).loc main_arg4) = m ((T d : Thread nD τ).loc main_arg4)
    ∧ s'.mem.mem ((T d : Thread nD τ).loc main_arg5) = m ((T d : Thread nD τ).loc main_arg5)
    ∧ s'.mem.mem ((T d : Thread nD τ).loc main_arg6) = m ((T d : Thread nD τ).loc main_arg6)
    ∧ s'.mem.mem ((T d : Thread nD τ).loc main_arg7) = m ((T d : Thread nD τ).loc main_arg7)
    ∧ s'.mem.mem ((T d : Thread nD τ).loc main_arg8) = m ((T d : Thread nD τ).loc main_arg8)

omit [FloatOps F] in
/-- A buffer held whole at any share pins the final memory's contents of it. -/
theorem SI_agree {ℓ : Loc nD τ sig} {q : PosShare TreeShare} {f : Buf (Elt F) ℓ} (s' : Phys nD τ sig (Elt F)) :
    iprop(SI s' ∗ ℓ ↦{q} f) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := q) (f := f))) $$ [HSI Hp]
  · isplitl [HSI] <;> iassumption
  icases H with ⟨%h, HSI, -⟩
  isplitr
  · ipureintro; exact funext fun i => h i (Finset.mem_univ i)
  iexact HSI

theorem hfin (out : (d : Dev nD) → Val1 (F := F) d → Buf (Elt F) ((T d : Thread nD τ).loc main_v10)) (d : Dev nD)
    (s' : Phys nD τ sig (Elt F)) : iprop(FIN m out d ∗ SI s') ⊢ (⌜fq m out d s'⌝ : sProp 𝕄) := by
  unfold FIN
  iintro ⟨⟨H0, H1, H2, H3, H4, H5, H6, H7, H8, H10⟩, HSI⟩
  ihave H := (SI_agree (F := F) s') $$ [HSI H0]
  · isplitl [HSI] <;> iassumption
  icases H with ⟨%h0, HSI⟩
  ihave H := (SI_agree (F := F) s') $$ [HSI H1]
  · isplitl [HSI] <;> iassumption
  icases H with ⟨%h1, HSI⟩
  ihave H := (SI_agree (F := F) s') $$ [HSI H2]
  · isplitl [HSI] <;> iassumption
  icases H with ⟨%h2, HSI⟩
  ihave H := (SI_agree (F := F) s') $$ [HSI H3]
  · isplitl [HSI] <;> iassumption
  icases H with ⟨%h3, HSI⟩
  ihave H := (SI_agree (F := F) s') $$ [HSI H4]
  · isplitl [HSI] <;> iassumption
  icases H with ⟨%h4, HSI⟩
  ihave H := (SI_agree (F := F) s') $$ [HSI H5]
  · isplitl [HSI] <;> iassumption
  icases H with ⟨%h5, HSI⟩
  ihave H := (SI_agree (F := F) s') $$ [HSI H6]
  · isplitl [HSI] <;> iassumption
  icases H with ⟨%h6, HSI⟩
  ihave H := (SI_agree (F := F) s') $$ [HSI H7]
  · isplitl [HSI] <;> iassumption
  icases H with ⟨%h7, HSI⟩
  ihave H := (SI_agree (F := F) s') $$ [HSI H8]
  · isplitl [HSI] <;> iassumption
  icases H with ⟨%h8, HSI⟩
  ihave H := (SI_agree (F := F) s') $$ [HSI H10]
  · isplitl [HSI] <;> iassumption
  icases H with ⟨%h10, HSI⟩
  ipureintro; exact ⟨h10, h0, h1, h2, h3, h4, h5, h6, h7, h8⟩

/-! ## The run -/

/-- The claim: on every device the result array ends at the region's result and the nine argument arrays unchanged. -/
def QC (out : (d : Dev nD) → Val1 (F := F) d → Buf (Elt F) ((T d : Thread nD τ).loc main_v10)) :
    PUnit × MemSt nD τ sig (Elt F) → Prop := fun r => ∀ c : Dev nD,
  r.2.mem ((c.tc : Thread nD τ).loc main_v10) = out c (Vd m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)

/-- THE PROGRAM'S RUN, from the tile's body, the kernel region's rule and the precondition on the two index arrays. -/
theorem run_main [∀ e, Nonempty (Elt F e)]
    {out : (d : Dev nD) → Val1 (F := F) d → Buf (Elt F) ((T d : Thread nD τ).loc main_v10)}
    (hbody : TileBody (F := F)) (hreg : RegionRule (F := F) out)
    (hin : ∀ d : Dev nD, Cert.Spec.InRange (iaM m d) ∧ Cert.Spec.InRange (ibM m d)) :
    θ_run (Cert.KernelIdeal.defs (F := F)) (Cert.KernelIdeal.threads (F := F)) ⟨m, fun _ => 0, ρ⟩ (QC m out) :=
  SparseCore.Cfg.θ_run_sc (K := K (F := F)) (D := D (F := F)) (𝒱 := 𝒱) (EH := EH) (P := P m) facts v₀
    (fun q hq => match q with | 0 => nomatch hq)
    (fun q _ => match q with | 0 => tileObl m hbody hin)
    (fun q _ => match q with | 0 => SparseCore.Cfg.VecSplit.of_plain (vecSplit m))
    m ρ main (fun d => G (F := F) d) (FIN m out) (u₀ (F := F)) (sep_elim_left.trans (hu₀ m)) (hmain m ρ hreg) (fq m out) (hfin m out)
    (QC m out) (fun _ h => h)

end Cert.Proof.ScI

end
-- ==== Proof.Sc.TileCore.lean ====
/-
  The tile's obligation over its resources one by one: the form the body is run in. The launch's form (TileSpec's
  TileBody) packs the two scratch buffers and the five DMA semaphores into the subcore's scoped storage.
-/
import proofs.«205169_g39805756899661_cont_8to1_b_81_27_alg».proof.Proof.Sc.TileSpec
import proofs.«205169_g39805756899661_cont_8to1_b_81_27_alg».proof.Proof.Gen.KernelIdeal.Skeleton
import Idealize.ShloMosaic.Lib.SparseCore.Launch
import Idealize.ShloMosaic.Lib.Batch
import Idealize.ShloMosaic.Lib.StableHlo.Run
import Idealize.ShloMosaic.Lib.Pipeline.Kit
import Idealize.ShloMosaic.Lib.Tactic
import Idealize.ShloMosaic.Lib.Ring
import proofs.«205169_g39805756899661_cont_8to1_b_81_27_alg».proof.Proof.Spec

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iaW" => (Memref.whole Cert.KernelIdeal.main_arg0_scv : Memref Cert.KernelIdeal.sig Kind.scVector Space.hbm Cert.KernelIdeal.S16384 EltTy.i32)
local notation "ibW" => (Memref.whole Cert.KernelIdeal.main_arg1_scv : Memref Cert.KernelIdeal.sig Kind.scVector Space.hbm Cert.KernelIdeal.S16384 EltTy.i32)
local notation "tbW" => (Memref.whole Cert.KernelIdeal.main_arg2_scv : Memref Cert.KernelIdeal.sig Kind.scVector Space.hbm Cert.KernelIdeal.S1000000x64 EltTy.f32)
local notation "oaW" => (Memref.whole Cert.KernelIdeal.main_v0_0_scv : Memref Cert.KernelIdeal.sig Kind.scVector Space.hbm Cert.KernelIdeal.S16384x64 EltTy.f32)
local notation "obW" => (Memref.whole Cert.KernelIdeal.main_v0_1_scv : Memref Cert.KernelIdeal.sig Kind.scVector Space.hbm Cert.KernelIdeal.S16384x64 EltTy.f32)
local notation "sIW" => (Memref.whole Cert.KernelIdeal.cc0_scratch0 : Memref Cert.KernelIdeal.sig Kind.scVector Space.vmem Cert.KernelIdeal.S512 EltTy.i32)
local notation "sRW" => (Memref.whole Cert.KernelIdeal.cc0_scratch1 : Memref Cert.KernelIdeal.sig Kind.scVector Space.vmem Cert.KernelIdeal.S512x64 EltTy.f32)

variable [FloatOps F]

/-- From the read shares, the tile's rows of the gathered arrays, the two scratch buffers whole, the five semaphores
    at zero, what the tile owes and the evidence that its waits are admissible, the gather kernel's body runs to the
    gathered rows, the scratch buffers at some contents, the semaphores at zero, owing the same. -/
def TileCore : Prop :=
  ∀ (d : Dev nD) (L : grid0.Coords) (qi q : PosShare TreeShare) (ia ib : S16384.Idx → BitVec 32) (tb : S1000000x64.Idx → Elt F .f32)
    (_ : Cert.Spec.InRange ia) (_ : Cert.Spec.InRange ib)
    (fa : Buf (Elt F) ((oaSl L).view.loc (V d (cV L) (jV L)))) (fb : Buf (Elt F) ((obSl L).view.loc (V d (cV L) (jV L))))
    (fs : Buf (Elt F) ((sIW).view.loc (V d (cV L) (jV L)))) (fr : Buf (Elt F) ((sRW).view.loc (V d (cV L) (jV L))))
    (O : CellTallies nD τ sig (HIx 1)) (W : Waits sig (HIx 1)),
    (iprop(Transfers.MayWaits (V d (cV L) (jV L)) (none : HIx 1) O
        ∗ ((iaSl L).view.loc (V d (cV L) (jV L)) ↦[(iaSl L).view.set]{qi} ia)
        ∗ ((ibSl L).view.loc (V d (cV L) (jV L)) ↦[(ibSl L).view.set]{qi} ib)
        ∗ ((tbW).view.loc (V d (cV L) (jV L)) ↦{q} tb)
        ∗ ((oaSl L).view.loc (V d (cV L) (jV L)) ↦[(oaSl L).view.set]{fullShare} fa)
        ∗ ((obSl L).view.loc (V d (cV L) (jV L)) ↦[(obSl L).view.set]{fullShare} fb)
        ∗ ((sIW).view.loc (V d (cV L) (jV L)) ↦{fullShare} fs)
        ∗ ((sRW).view.loc (V d (cV L) (jV L)) ↦{fullShare} fr)
        ∗ semVal (V d (cV L) (jV L), SemLoc.dma cc0_scratch2.sem) 0
        ∗ semVal (V d (cV L) (jV L), SemLoc.dma cc0_scoped0.sem) 0
        ∗ semVal (V d (cV L) (jV L), SemLoc.dma cc0_scoped1.sem) 0
        ∗ semVal (V d (cV L) (jV L), SemLoc.dma cc0_scoped2.sem) 0
        ∗ semVal (V d (cV L) (jV L), SemLoc.dma cc0_scoped3.sem) 0
        ∗ owes (V d (cV L) (jV L)) O W) : sProp 𝕄)
      ⊢ wp frame (wpE (defs₀ (F := F)) 𝒱₀ (V d (cV L) (jV L)) none) Set.univ
          (cc0_gather_kernel L iaW (Memref.isWhole_whole _) ibW (Memref.isWhole_whole _) tbW (Memref.isWhole_whole _) oaW (Memref.isWhole_whole _) obW (Memref.isWhole_whole _)
            sIW (Memref.isWhole_whole _) sRW (Memref.isWhole_whole _) cc0_scratch2 cc0_scoped0 cc0_scoped1 cc0_scoped2 cc0_scoped3)
          fun _ => iprop(((oaSl L).view.loc (V d (cV L) (jV L)) ↦[(oaSl L).view.set]{fullShare} gath tb ia)
            ∗ ((obSl L).view.loc (V d (cV L) (jV L)) ↦[(obSl L).view.set]{fullShare} gath tb ib)
            ∗ (∃ f, (sIW).view.loc (V d (cV L) (jV L)) ↦{fullShare} f)
            ∗ (∃ f, (sRW).view.loc (V d (cV L) (jV L)) ↦{fullShare} f)
            ∗ semVal (V d (cV L) (jV L), SemLoc.dma cc0_scratch2.sem) 0
            ∗ semVal (V d (cV L) (jV L), SemLoc.dma cc0_scoped0.sem) 0
            ∗ semVal (V d (cV L) (jV L), SemLoc.dma cc0_scoped1.sem) 0
            ∗ semVal (V d (cV L) (jV L), SemLoc.dma cc0_scoped2.sem) 0
            ∗ semVal (V d (cV L) (jV L), SemLoc.dma cc0_scoped3.sem) 0
            ∗ ∃ W', ⌜∀ p ∈ W', p ∈ W ∨ p.2 = none⌝ ∗ owes (V d (cV L) (jV L)) O W')

end Cert.Proof.ScI

end
-- ==== Proof.Sc.TileWrap.lean ====
/-
  The tile's obligation in the launch's form, from its obligation over its resources one by one.

  The launch hands a vector subcore its scoped storage as two packed propositions: every scoped buffer at some contents,
  every scoped semaphore at zero.  The body names two of those buffers (the index scratch and the row scratch) and five of
  those semaphores; the packed propositions are those named pieces and the rest, the body runs on the named pieces, and
  the pieces and the untouched rest pack again.  The evidence that the subcore's waits are admissible comes from the
  cells' levels, which are persistent.
-/
import proofs.«205169_g39805756899661_cont_8to1_b_81_27_alg».proof.Proof.Sc.TileCore

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iaW" => (Memref.whole Cert.KernelIdeal.main_arg0_scv : Memref Cert.KernelIdeal.sig Kind.scVector Space.hbm Cert.KernelIdeal.S16384 EltTy.i32)
local notation "ibW" => (Memref.whole Cert.KernelIdeal.main_arg1_scv : Memref Cert.KernelIdeal.sig Kind.scVector Space.hbm Cert.KernelIdeal.S16384 EltTy.i32)
local notation "tbW" => (Memref.whole Cert.KernelIdeal.main_arg2_scv : Memref Cert.KernelIdeal.sig Kind.scVector Space.hbm Cert.KernelIdeal.S1000000x64 EltTy.f32)
local notation "oaW" => (Memref.whole Cert.KernelIdeal.main_v0_0_scv : Memref Cert.KernelIdeal.sig Kind.scVector Space.hbm Cert.KernelIdeal.S16384x64 EltTy.f32)
local notation "obW" => (Memref.whole Cert.KernelIdeal.main_v0_1_scv : Memref Cert.KernelIdeal.sig Kind.scVector Space.hbm Cert.KernelIdeal.S16384x64 EltTy.f32)
local notation "sIW" => (Memref.whole Cert.KernelIdeal.cc0_scratch0 : Memref Cert.KernelIdeal.sig Kind.scVector Space.vmem Cert.KernelIdeal.S512 EltTy.i32)
local notation "sRW" => (Memref.whole Cert.KernelIdeal.cc0_scratch1 : Memref Cert.KernelIdeal.sig Kind.scVector Space.vmem Cert.KernelIdeal.S512x64 EltTy.f32)

variable [FloatOps F]

section Wrap
variable (d : Dev nD) (L : grid0.Coords)

/-- The five cells of the subcore's DMA semaphores the body names. -/
abbrev cellW : GSem nD τ sig := (V d (cV L) (jV L), SemLoc.dma cc0_scratch2.sem)
abbrev cell0 : GSem nD τ sig := (V d (cV L) (jV L), SemLoc.dma cc0_scoped0.sem)
abbrev cell1 : GSem nD τ sig := (V d (cV L) (jV L), SemLoc.dma cc0_scoped1.sem)
abbrev cell2 : GSem nD τ sig := (V d (cV L) (jV L), SemLoc.dma cc0_scoped2.sem)
abbrev cell3 : GSem nD τ sig := (V d (cV L) (jV L), SemLoc.dma cc0_scoped3.sem)

/-- Cells of one thread on different DMA semaphores are different cells. -/
theorem cell_ne {thr : Thread nD τ} {a b : DmaSem sig} (h : a ≠ b) :
    ((thr, SemLoc.dma a) : GSem nD τ sig) ≠ (thr, SemLoc.dma b) :=
  fun e => h (SemLoc.dma.inj (Prod.mk.inj e).2)

omit [FloatOps F] in
/-- The subcore's scoped semaphores at zero are the five the body names and the rest. -/
theorem ownSems0_V :
    (ownSems0 (V d (cV L) (jV L)) : sProp 𝕄)
      = iprop(semVal (cellW d L) 0 ∗ semVal (cell0 d L) 0 ∗ semVal (cell1 d L) 0 ∗ semVal (cell2 d L) 0 ∗ semVal (cell3 d L) 0
          ∗ bigSep ((((((ownCells (V d (cV L) (jV L))).erase (cellW d L)).erase (cell0 d L)).erase (cell1 d L)).erase (cell2 d L)).erase (cell3 d L))
              fun g => semVal g 0) := by
  unfold SparseCore.Cfg.ownSems0
  have mW : cellW d L ∈ ownCells (V d (cV L) (jV L)) := (mem_ownCells (g := cellW d L)).mpr ⟨rfl, by
    show (SemLoc.dma cc0_scratch2.sem : SemLoc sig).isScoped .scVector = true; decide⟩
  have m0 : cell0 d L ∈ ownCells (V d (cV L) (jV L)) := (mem_ownCells (g := cell0 d L)).mpr ⟨rfl, by
    show (SemLoc.dma cc0_scoped0.sem : SemLoc sig).isScoped .scVector = true; decide⟩
  have m1 : cell1 d L ∈ ownCells (V d (cV L) (jV L)) := (mem_ownCells (g := cell1 d L)).mpr ⟨rfl, by
    show (SemLoc.dma cc0_scoped1.sem : SemLoc sig).isScoped .scVector = true; decide⟩
  have m2 : cell2 d L ∈ ownCells (V d (cV L) (jV L)) := (mem_ownCells (g := cell2 d L)).mpr ⟨rfl, by
    show (SemLoc.dma cc0_scoped2.sem : SemLoc sig).isScoped .scVector = true; decide⟩
  have m3 : cell3 d L ∈ ownCells (V d (cV L) (jV L)) := (mem_ownCells (g := cell3 d L)).mpr ⟨rfl, by
    show (SemLoc.dma cc0_scoped3.sem : SemLoc sig).isScoped .scVector = true; decide⟩
  have n0W : cell0 d L ≠ cellW d L := cell_ne (by decide)
  have n1W : cell1 d L ≠ cellW d L := cell_ne (by decide)
  have n2W : cell2 d L ≠ cellW d L := cell_ne (by decide)
  have n3W : cell3 d L ≠ cellW d L := cell_ne (by decide)
  have n10 : cell1 d L ≠ cell0 d L := cell_ne (by decide)
  have n20 : cell2 d L ≠ cell0 d L := cell_ne (by decide)
  have n30 : cell3 d L ≠ cell0 d L := cell_ne (by decide)
  have n21 : cell2 d L ≠ cell1 d L := cell_ne (by decide)
  have n31 : cell3 d L ≠ cell1 d L := cell_ne (by decide)
  have n32 : cell3 d L ≠ cell2 d L := cell_ne (by decide)
  rw [SparseCore.bigSep_erase' mW,
    SparseCore.bigSep_erase' (Finset.mem_erase.mpr ⟨n0W, m0⟩),
    SparseCore.bigSep_erase' (Finset.mem_erase.mpr ⟨n10, Finset.mem_erase.mpr ⟨n1W, m1⟩⟩),
    SparseCore.bigSep_erase' (Finset.mem_erase.mpr ⟨n21, Finset.mem_erase.mpr ⟨n20, Finset.mem_erase.mpr ⟨n2W, m2⟩⟩⟩),
    SparseCore.bigSep_erase' (Finset.mem_erase.mpr ⟨n32, Finset.mem_erase.mpr ⟨n31, Finset.mem_erase.mpr ⟨n30, Finset.mem_erase.mpr ⟨n3W, m3⟩⟩⟩⟩)]

omit [FloatOps F] in
/-- The subcore's own buffers at some contents are the two scratch buffers the body names and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The tile's obligation as the launch needs it follows from its obligation over its resources one by one. -/
theorem tileBody_of_core (hF : (K (F := F)).Facts) : TileCore (F := F) → TileBody (F := F) := by
  intro hcore d L qi q ia ib tb hia hib O W hO
  rw [(K (F := F)).scopedBufs_V hF d (cV L) (jV L), SparseCore.Cfg.scopedSems0_V (Val := Elt F) d (cV L) (jV L), ownSems0_V, ownBufs_V]
  unfold tileGo tileTd
  iintro ⟨#Hlv, ⟨Hia, Hib, Htb, ⟨%fa, Hoa⟩, ⟨%fb, Hob⟩⟩, ⟨⟨%fs, Hs⟩, ⟨%fr, Hr⟩, Hbufs⟩, ⟨HcW, Hc0, Hc1, Hc2, Hc3, Hsems⟩, HO⟩
  ihave Hmw := ((K (F := F)).mayWaits_none (thr := V d (cV L) (jV L)) hO) $$ Hlv
  ihave Hwp := (hcore d L qi q ia ib tb hia hib fa fb fs fr O W) $$ [Hmw Hia Hib Htb Hoa Hob Hs Hr HcW Hc0 Hc1 Hc2 Hc3 HO]
  · isplitl [Hmw]; · iexact Hmw
    isplitl [Hia]; · iexact Hia
    isplitl [Hib]; · iexact Hib
    isplitl [Htb]; · iexact Htb
    isplitl [Hoa]; · iexact Hoa
    isplitl [Hob]; · iexact Hob
    isplitl [Hs]; · iexact Hs
    isplitl [Hr]; · iexact Hr
    isplitl [HcW]; · iexact HcW
    isplitl [Hc0]; · iexact Hc0
    isplitl [Hc1]; · iexact Hc1
    isplitl [Hc2]; · iexact Hc2
    isplitl [Hc3]; · iexact Hc3
    iexact HO
  iapply (wp_wand_r frame _ _) $$ [Hwp Hbufs Hsems]
  isplitl [Hwp]; · iexact Hwp
  iintro %_ ⟨Hoa, Hob, ⟨%fs', Hs⟩, ⟨%fr', Hr⟩, HcW, Hc0, Hc1, Hc2, Hc3, HO⟩
  isplitl [Hoa Hob]
  · isplitl [Hoa]; · iexact Hoa
    iexact Hob
  isplitl [Hs Hr Hbufs]
  · isplitl [Hs]; · iexists fs'; iexact Hs
    isplitl [Hr]; · iexists fr'; iexact Hr
    iexact Hbufs
  isplitl [HcW Hc0 Hc1 Hc2 Hc3 Hsems]
  · isplitl [HcW]; · iexact HcW
    isplitl [Hc0]; · iexact Hc0
    isplitl [Hc1]; · iexact Hc1
    isplitl [Hc2]; · iexact Hc2
    isplitl [Hc3]; · iexact Hc3
    iexact Hsems
  iexact HO

end Wrap

end Cert.Proof.ScI

end
-- ==== Proof.Sc.RegionWp.lean ====
/-
  The kernel region's rule, as the SparseCore program's @main meets it.

  The line of @main that calls the perceptron kernel is the region of the TensorCore program lifted to the SparseCore
  program's label table. Its rule is the region rule of the pipeline library at the thread state of Region.lean,
  transported along the lifting.
-/
import proofs.«205169_g39805756899661_cont_8to1_b_81_27_alg».proof.Proof.Sc.Setup
import proofs.«205169_g39805756899661_cont_8to1_b_81_27_alg».proof.Proof.Gen.KernelIdeal.Launch
import proofs.«205169_g39805756899661_cont_8to1_b_81_27_alg».proof.Proof.Gen.KernelIdeal.Skeleton
import proofs.«205169_g39805756899661_cont_8to1_b_81_27_alg».proof.Proof.Gen.KernelIdeal.Points
import proofs.«205169_g39805756899661_cont_8to1_b_81_27_alg».proof.Proof.Sc.Region
import Idealize.ShloMosaic.Lib.Pipeline.FrameBody
import Idealize.ShloMosaic.Lib.Pipeline.Regions
import Idealize.ShloMosaic.Lib.Tactic

set_option Elab.async false
set_option maxRecDepth 16384

noncomputable section

namespace Cert.Proof.ScI

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (lv : GSem nD τ sig → HIx 1 → ℕ)

/-- The result array after the region, from one TensorCore's valuation at its entry. -/
def outArr (d : Dev nD) (Vd : Val1 (F := F) d) : Buf (Elt F) ((T d : Thread nD τ).loc main_v10) := outArrAt (fun _ => Vd) d

/-- The kernel's call in the TensorCore program's own label table. -/
abbrev entryCall : Prog (TpuEff nD τ sig (Elt F) (ΛP (F := F)) Proc.tc) PUnit :=
  .op (.customCall (Pipeline.entry 0) ()) Prog.ret

/-- Lifted to the SparseCore program's label table it is the line of @main. -/
theorem lift_entryCall :
    (SparseCore.liftProg (Q := 1) (entryCall (F := F)) : Prog (TpuEff nD τ sig (Elt F) (SparseCore.Sig (ΛP (F := F)) 1) Proc.tc) PUnit)
      = Prog.lift (.customCall (SparseCore.inner (Pipeline.entry 0)) ()) := rfl

set_option backward.isDefEq.respectTransparency.types false in
/-- The region rule of the pipeline library at this thread state, in the TensorCore program's own label table. -/
theorem region_wp_inner [∀ e, Nonempty (Elt F e)] (d : Dev nD) (Vd : Val1 (F := F) d) (Φ : PUnit → sProp 𝕄) :
    iprop(levAts (K (F := F)).L lv
        ∗ Pipeline.cellsGhost cfgs (EP (F := F)) 0 d ∗ Pipeline.toksInit cfgs (EP (F := F)) 0 d
        ∗ boundary (T d : Thread nD τ) ∗ arrs d Vd (Vd main_v10) ∗ owesLow (F := F) d
        ∗ (iprop(boundary (T d : Thread nD τ) ∗ arrs d Vd (outArr d Vd) ∗ owesLow (F := F) d) -∗ Φ ⟨⟩))
      ⊢ wp frame (wpE (D (F := F)) 𝒱 (T d) none) Set.univ (entryCall (F := F)) Φ := by
  iintro ⟨Hlev, Hg, Ht, Hb, Ha, Ho, Hk⟩
  iapply (Pipeline.RegionSeg.wp (pcfgs (F := F)) adm (pdats (fun _ => Vd)) (none : HIx 1) cellOf_inj (EP (F := F)) defs₀ 𝒱₀ (K (F := F)).L lv
    (reg (fun _ => Vd) lv) d none (fun _ h => by cases h) Prog.ret Φ)
  rw [show (reg (fun _ => Vd) lv).post d = iprop(arrs d Vd (outArr d Vd) ∗ owesLow (F := F) d) from rfl,
    show (reg (fun _ => Vd) lv).pre d = iprop(arrs d Vd (Vd main_v10) ∗ owesLow (F := F) d) from rfl]
  isplitl [Hk]
  · iintro ⟨Hb, Ha, Ho⟩
    rw [wp_ret]
    imodintro
    iapply Hk
    isplitl [Hb]; · iexact Hb
    isplitl [Ha]; · iexact Ha
    iexact Ho
  isplitl [Hb]; · iexact Hb
  isplitl [Ha Ho]
  · isplitl [Ha]; · iexact Ha
    iexact Ho
  isplitl [Hlev]; · iexact Hlev
  isplitl [Hg]; · iexact Hg
  iexact Ht

/-- **The region.** From the level facts, the pipeline's share of the launch's ghost state on this core, the region
    boundary, the ten arrays whole and the core owing nothing, the call of the perceptron kernel runs to the
    continuation holding the boundary, the nine operands as they were, the result at `outArr`, and the core owing
    nothing. -/
theorem region_wp [∀ e, Nonempty (Elt F e)] (d : Dev nD) (Vd : Val1 (F := F) d) (Φ : PUnit → sProp 𝕄) :
    iprop(levAts (K (F := F)).L lv
        ∗ Pipeline.cellsGhost cfgs (EP (F := F)) 0 d ∗ Pipeline.toksInit cfgs (EP (F := F)) 0 d
        ∗ boundary (T d : Thread nD τ) ∗ arrs d Vd (Vd main_v10) ∗ owesLow (F := F) d
        ∗ (iprop(boundary (T d : Thread nD τ) ∗ arrs d Vd (outArr d Vd) ∗ owesLow (F := F) d) -∗ Φ ⟨⟩))
      ⊢ wp frame (wpE ((K (F := F)).defs (D (F := F))) 𝒱 (T d) none) Set.univ
          (Prog.lift (.customCall (SparseCore.inner (Pipeline.entry 0)) ())) Φ := by
  rw [← lift_entryCall]
  exact (region_wp_inner lv d Vd Φ).trans ((K (F := F)).wp_liftProg (D (F := F)) 𝒱 (T d) Set.univ none (entryCall (F := F)) Φ)

/-- info: 'Cert.Proof.ScI.region_wp' depends on axioms: [propext, Classical.choice, Quot.sound] -/
#guard_msgs in #print axioms region_wp

end Cert.Proof.ScI

end
-- ==== Proof.Sc.RegionValue.lean ====
/-
  The result array after the region, in closed form.

  Point t of the grid writes block row t of the result, rows [2048 t, 2048 t + 2048), and what it writes is the
  body's term of block row t of the two gathered arrays and of the seven weight operands whole. The eight block rows
  tile the 16384 rows, so the array ends holding, at row r, the body's term of block row r / 2048 read at row
  r % 2048 of the block.
-/
import proofs.«205169_g39805756899661_cont_8to1_b_81_27_alg».proof.Proof.Sc.Setup
import proofs.«205169_g39805756899661_cont_8to1_b_81_27_alg».proof.Proof.Gen.KernelIdeal.Launch
import proofs.«205169_g39805756899661_cont_8to1_b_81_27_alg».proof.Proof.Gen.KernelIdeal.Skeleton
import proofs.«205169_g39805756899661_cont_8to1_b_81_27_alg».proof.Proof.Gen.KernelIdeal.Points
import proofs.«205169_g39805756899661_cont_8to1_b_81_27_alg».proof.Proof.Sc.Region
import Idealize.ShloMosaic.Lib.Pipeline.Value
import Idealize.ShloMosaic.Lib.ValueIdx
import Idealize.ShloMosaic.Lib.Pipeline.FrameBody
import Idealize.ShloMosaic.Lib.Pipeline.Regions
import Idealize.ShloMosaic.Lib.Tactic

set_option maxRecDepth 16384

noncomputable section

namespace Cert.Proof.ScI

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

/-! ## The closed form -/

/-- Block row `b` of a [16384, 64] array: its rows [2048 b, 2048 b + 2048). -/
def rowBlock (A : Vec F S16384x64 .f32) (b : Fin 8) : Vec F S2048x64 .f32 :=
  fun y => A (ix2 (⟨b.val * 2048 + (y 0).val, by have := idx2_lt0 y; have := b.isLt; omega⟩ : Fin 16384) (⟨(y 1).val, idx2_lt1 y⟩ : Fin 64))

/-- The block row a row of the result lies in, and the row's place in it. -/
def blkOf (i : S16384x1.Idx) : Fin 8 := ⟨(i 0).val / 2048, by have := idx2_lt0 i; omega⟩
def rowIn (i : S16384x1.Idx) : Fin 2048 := ⟨(i 0).val % 2048, by omega⟩

/-- The result array as one function of the nine operand arrays. -/
def outFn (A B : Vec F S16384x64 .f32) (w1a w1b : Vec F S64x128 .f32) (b1r : Vec F S1x128 .f32)
    (w2t : Vec F S128x64 .f32) (b2r : Vec F S1x64 .f32) (w3t : Vec F S64x1 .f32) (b3r : Vec F S1x1 .f32) : Vec F S16384x1 .f32 :=
  fun i => k1_pay1 (rowBlock A (blkOf i)) w1a (rowBlock B (blkOf i)) w1b b1r w2t b2r w3t b3r (ix2 (rowIn i) (⟨(i 1).val, idx2_lt1 i⟩ : Fin 1))

/-- Row `2048 b + p` of the result is the body's term of block row `b`, read at row `p`. -/
theorem outFn_apply (A B : Vec F S16384x64 .f32) (w1a w1b : Vec F S64x128 .f32) (b1r : Vec F S1x128 .f32)
    (w2t : Vec F S128x64 .f32) (b2r : Vec F S1x64 .f32) (w3t : Vec F S64x1 .f32) (b3r : Vec F S1x1 .f32)
    (b : Fin 8) (p : Fin 2048) (u : Fin 1) (h : b.val * 2048 + p.val < 16384 := by omega) :
    outFn A B w1a w1b b1r w2t b2r w3t b3r (ix2 (⟨b.val * 2048 + p.val, h⟩ : Fin 16384) u)
      = k1_pay1 (rowBlock A b) w1a (rowBlock B b) w1b b1r w2t b2r w3t b3r (ix2 p u) := by
  have hb : blkOf (ix2 (⟨b.val * 2048 + p.val, h⟩ : Fin 16384) u) = b := Fin.ext (by show (b.val * 2048 + p.val) / 2048 = b.val; omega)
  have hp : rowIn (ix2 (⟨b.val * 2048 + p.val, h⟩ : Fin 16384) u) = p := Fin.ext (by show (b.val * 2048 + p.val) % 2048 = p.val; omega)
  unfold outFn
  rw [hb, hp]

/-! ## What each point writes back -/

theorem hz2 : (![0, 0] : Fin 2 → Nat) = fun _ => 0 := funext fun a => by fin_cases a <;> rfl

/-- The printed index maps, decided over the grid: the two row windows move with the result's, one block row per
    point; the weight windows stay. -/
theorem idx_facts : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) ≤ 7 ∧ win1_9.index t (1 : Fin 2) = 0 :=
  (by decide +kernel : ∀ t : Fin grid1.N, _)

/-- Every block row is some point's. -/
theorem idx_onto : ∀ q0 : Fin 8, ∃ t : Fin cfg1.N, win1_9.index t = ![q0.val, 0] :=
  (by decide +kernel : ∀ q0 : Fin 8, ∃ t : Fin grid1.N, win1_9.index t = ![q0.val, 0])

variable (V : Valn (F := F))

/-- A row window's block at point `t` is the block row the result's window is at. -/
theorem iblk_0 (c : Dev nD) (t : Fin cfg1.N) :
    iblk V c 0 t = rowBlock (V c main_v0_0) ⟨win1_9.index t (0 : Fin 2), by have := (idx_facts t).2.2.2.2.2.2.2.2.2.2.2.2.2.2.2.2.2.2.1; omega⟩ := by
  obtain ⟨e0, e1, -⟩ := idx_facts t
  funext y
  show V c main_v0_0 (((cfg1.win 0).blk t).view.emb y) = V c main_v0_0 _
  congr 1
  funext a; apply Fin.ext
  match a with
  | ⟨0, _⟩ => show win1_0.index t (0 : Fin 2) * 2048 + 1 * (y 0).val = win1_9.index t (0 : Fin 2) * 2048 + (y 0).val; omega
  | ⟨1, _⟩ => show win1_0.index t (1 : Fin 2) * 64 + 1 * (y 1).val = (y 1).val; omega

theorem iblk_1 (c : Dev nD) (t : Fin cfg1.N) :
    iblk V c 1 t = rowBlock (V c main_v0_1) ⟨win1_9.index t (0 : Fin 2), by have := (idx_facts t).2.2.2.2.2.2.2.2.2.2.2.2.2.2.2.2.2.2.1; omega⟩ := by
  obtain ⟨-, -, e0, e1, -⟩ := idx_facts t
  funext y
  show V c main_v0_1 (((cfg1.win 1).blk t).view.emb y) = V c main_v0_1 _
  congr 1
  funext a; apply Fin.ext
  match a with
  | ⟨0, _⟩ => show win1_1.index t (0 : Fin 2) * 2048 + 1 * (y 0).val = win1_9.index t (0 : Fin 2) * 2048 + (y 0).val; omega
  | ⟨1, _⟩ => show win1_1.index t (1 : Fin 2) * 64 + 1 * (y 1).val = (y 1).val; omega

/-- A weight window's block at any point is its whole array. -/
theorem iblk_2 (c : Dev nD) (t : Fin cfg1.N) : iblk V c 2 t = V c main_v2 := by
  have e := idx_facts t
  funext y
  show V c main_v2 (((cfg1.win 2).blk t).view.emb y) = V c main_v2 y
  congr 1
  funext a; apply Fin.ext
  match a with
  | ⟨0, _⟩ => show win1_2.index t (0 : Fin 2) * 64 + 1 * (y 0).val = (y 0).val; omega
  | ⟨1, _⟩ => show win1_2.index t (1 : Fin 2) * 128 + 1 * (y 1).val = (y 1).val; omega

theorem iblk_3 (c : Dev nD) (t : Fin cfg1.N) : iblk V c 3 t = V c main_v4 := by
  have e := idx_facts t
  funext y
  show V c main_v4 (((cfg1.win 3).blk t).view.emb y) = V c main_v4 y
  congr 1
  funext a; apply Fin.ext
  match a with
  | ⟨0, _⟩ => show win1_3.index t (0 : Fin 2) * 64 + 1 * (y 0).val = (y 0).val; omega
  | ⟨1, _⟩ => show win1_3.index t (1 : Fin 2) * 128 + 1 * (y 1).val = (y 1).val; omega

theorem iblk_4 (c : Dev nD) (t : Fin cfg1.N) : iblk V c 4 t = V c main_v5 := by
  have e := idx_facts t
  funext y
  show V c main_v5 (((cfg1.win 4).blk t).view.emb y) = V c main_v5 y
  congr 1
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem iblk_5 (c : Dev nD) (t : Fin cfg1.N) : iblk V c 5 t = V c main_v6 := by
  have e := idx_facts t
  funext y
  show V c main_v6 (((cfg1.win 5).blk t).view.emb y) = V c main_v6 y
  congr 1
  funext a; apply Fin.ext
  match a with
  | ⟨0, _⟩ => show win1_5.index t (0 : Fin 2) * 128 + 1 * (y 0).val = (y 0).val; omega
  | ⟨1, _⟩ => show win1_5.index t (1 : Fin 2) * 64 + 1 * (y 1).val = (y 1).val; omega

theorem iblk_6 (c : Dev nD) (t : Fin cfg1.N) : iblk V c 6 t = V c main_v7 := by
  have e := idx_facts t
  funext y
  show V c main_v7 (((cfg1.win 6).blk t).view.emb y) = V c main_v7 y
  congr 1
  funext a; apply Fin.ext
  match a with
  | ⟨0, _⟩ => show win1_6.index t (0 : Fin 2) * 1 + 1 * (y 0).val = (y 0).val; omega
  | ⟨1, _⟩ => show win1_6.index t (1 : Fin 2) * 64 + 1 * (y 1).val = (y 1).val; omega

theorem iblk_7 (c : Dev nD) (t : Fin cfg1.N) : iblk V c 7 t = V c main_v8 := by
  have e := idx_facts t
  funext y
  show V c main_v8 (((cfg1.win 7).blk t).view.emb y) = V c main_v8 y
  congr 1
  funext a; apply Fin.ext
  match a with
  | ⟨0, _⟩ => show win1_7.index t (0 : Fin 2) * 64 + 1 * (y 0).val = (y 0).val; omega
  | ⟨1, _⟩ => show win1_7.index t (1 : Fin 2) * 1 + 1 * (y 1).val = (y 1).val; omega

theorem iblk_8 (c : Dev nD) (t : Fin cfg1.N) : iblk V c 8 t = V c main_v9 := by
  have e := idx_facts t
  funext y
  show V c main_v9 (((cfg1.win 8).blk t).view.emb y) = V c main_v9 y
  congr 1
  funext a; apply Fin.ext
  match a with
  | ⟨0, _⟩ => show win1_8.index t (0 : Fin 2) * 1 + 1 * (y 0).val = (y 0).val; omega
  | ⟨1, _⟩ => show win1_8.index t (1 : Fin 2) * 1 + 1 * (y 1).val = (y 1).val; omega

/-- The block row the result's window is at, as a block row's number. -/
def blkAt (t : Fin cfg1.N) : Fin 8 := ⟨win1_9.index t (0 : Fin 2), by have := (idx_facts t).2.2.2.2.2.2.2.2.2.2.2.2.2.2.2.2.2.2.1; omega⟩

/-- WHAT POINT `t` WRITES BACK is block `t` of `outFn` of the operand arrays as the region finds them. -/
theorem flushed_eq (c : Dev nD) (t : Fin cfg1.N) :
    (dat V c).flushed 9 t = ((cfg1.win 9).blk t).view.read (Elt F)
      (outFn (V c main_v0_0) (V c main_v0_1) (V c main_v2) (V c main_v4) (V c main_v5) (V c main_v6) (V c main_v7) (V c main_v8) (V c main_v9)) := by
  show (cfg1.win 9).cut (grid1.coords t) ((dat V c).after 9 t) = _
  rw [after_9]
  unfold blockOut
  rw [View.canon_unit_zero hz2]
  simp only [View.ld_unit_zero (S := S2048x64) hz2, View.ld_unit_zero (S := S64x128) hz2, View.ld_unit_zero (S := S1x128) hz2,
    View.ld_unit_zero (S := S128x64) hz2, View.ld_unit_zero (S := S1x64) hz2, View.ld_unit_zero (S := S64x1) hz2, View.ld_unit_zero (S := S1x1) hz2]
  rw [iblk_0, iblk_1, iblk_2, iblk_3, iblk_4, iblk_5, iblk_6, iblk_7, iblk_8]
  have e := idx_facts t
  funext j
  have hj0 := idx2_lt0 j
  have hj1 := idx2_lt1 j
  have hemb : ((cfg1.win 9).blk t).view.emb j
      = ix2 (⟨(blkAt t).val * 2048 + (⟨(j 0).val, hj0⟩ : Fin 2048).val, by have := (blkAt t).isLt; omega⟩ : Fin 16384) (⟨(j 1).val, hj1⟩ : Fin 1) := by
    funext a; apply Fin.ext
    match a with
    | ⟨0, _⟩ => show win1_9.index t (0 : Fin 2) * 2048 + 1 * (j 0).val = win1_9.index t (0 : Fin 2) * 2048 + (j 0).val; omega
    | ⟨1, _⟩ => show win1_9.index t (1 : Fin 2) * 1 + 1 * (j 1).val = (j 1).val; omega
  show k1_pay1 (rowBlock (V c main_v0_0) (blkAt t)) (V c main_v2) (rowBlock (V c main_v0_1) (blkAt t)) (V c main_v4) (V c main_v5) (V c main_v6) (V c main_v7) (V c main_v8) (V c main_v9) j
    = outFn (V c main_v0_0) (V c main_v0_1) (V c main_v2) (V c main_v4) (V c main_v5) (V c main_v6) (V c main_v7) (V c main_v8) (V c main_v9) (((cfg1.win 9).blk t).view.emb j)
  rw [hemb, outFn_apply]
  congr 1
  exact eq_ix2 j

/-- A row of the result is in point `t`'s block iff each coordinate is in the block's range on its axis. -/
theorem mem_blk (t : Fin cfg1.N) (i : S16384x1.Idx) :
    i ∈ ((cfg1.win 9).blk t).view.set ↔ ∀ a : Fin 2, win1_9.index t a * S2048x1.size a ≤ (i a).val ∧ (i a).val < win1_9.index t a * S2048x1.size a + S2048x1.size a := by
  show i ∈ ((View.whole main_v10).slice (win1_9.rect t)).set ↔ _
  rw [View.set_slice_whole, Rect.mem_set_unit]
  exact Iff.rfl

/-- Every row of the result is in some point's block: row `r` in that of the point at block row `r / 2048`. -/
theorem cover (i : S16384x1.Idx) : ∃ t : Fin cfg1.N, (cfg1.win 9).flush t = true ∧ i ∈ ((cfg1.win 9).blk t).view.set := by
  have hi0 := idx2_lt0 i
  have hi1 := idx2_lt1 i
  obtain ⟨t, ht⟩ := idx_onto ⟨(i 0).val / 2048, by omega⟩
  have q0 : win1_9.index t (0 : Fin 2) = (i 0).val / 2048 := congrFun ht 0
  have q1 : win1_9.index t (1 : Fin 2) = 0 := congrFun ht 1
  refine ⟨t, flush1_9 t, ?_⟩
  rw [mem_blk]
  intro a
  match a with
  | ⟨0, _⟩ => show win1_9.index t (0 : Fin 2) * 2048 ≤ (i 0).val ∧ (i 0).val < win1_9.index t (0 : Fin 2) * 2048 + 2048; omega
  | ⟨1, _⟩ => show win1_9.index t (1 : Fin 2) * 1 ≤ (i 1).val ∧ (i 1).val < win1_9.index t (1 : Fin 2) * 1 + 1; omega

/-- THE RESULT ARRAY after the region is `outFn` of the operand arrays as the region finds them. -/
theorem outArrAt_eq (c : Dev nD) :
    outArrAt V c = outFn (V c main_v0_0) (V c main_v0_1) (V c main_v2) (V c main_v4) (V c main_v5) (V c main_v6) (V c main_v7) (V c main_v8) (V c main_v9) :=
  (dat V c).arrAt_eq_of_cover 9 _ (fun t _ => flushed_eq V c t) cover

end Cert.Proof.ScI

end
-- ==== Proof.Sc.RegionOut.lean ====
/-
  The kernel region's rule with the result array in closed form.
-/
import proofs.«205169_g39805756899661_cont_8to1_b_81_27_alg».proof.Proof.Sc.Setup
import proofs.«205169_g39805756899661_cont_8to1_b_81_27_alg».proof.Proof.Gen.KernelIdeal.Launch
import proofs.«205169_g39805756899661_cont_8to1_b_81_27_alg».proof.Proof.Gen.KernelIdeal.Skeleton
import proofs.«205169_g39805756899661_cont_8to1_b_81_27_alg».proof.Proof.Gen.KernelIdeal.Points
import proofs.«205169_g39805756899661_cont_8to1_b_81_27_alg».proof.Proof.Sc.RegionWp
import proofs.«205169_g39805756899661_cont_8to1_b_81_27_alg».proof.Proof.Sc.RegionValue
import Idealize.ShloMosaic.Lib.Pipeline.FrameBody
import Idealize.ShloMosaic.Lib.Pipeline.Regions
import Idealize.ShloMosaic.Lib.Tactic

set_option Elab.async false
set_option maxRecDepth 16384

noncomputable section

namespace Cert.Proof.ScI

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (lv : GSem nD τ sig → HIx 1 → ℕ)

/-- The result array after the region, as one function of the nine operand arrays at the region's entry. -/
theorem outArr_eq (d : Dev nD) (Vd : Val1 (F := F) d) :
    outArr d Vd = outFn (Vd main_v0_0) (Vd main_v0_1) (Vd main_v2) (Vd main_v4) (Vd main_v5) (Vd main_v6) (Vd main_v7) (Vd main_v8) (Vd main_v9) :=
  outArrAt_eq (fun _ => Vd) d

/-- **The region, with its value.** As `region_wp`, the result array named: row `r` holds the body's term of block row
    `r / 2048` of the two gathered arrays and the seven weight operands, read at row `r % 2048` (`outFn`, `outFn_apply`). -/
theorem region_wp_value [∀ e, Nonempty (Elt F e)] (d : Dev nD) (Vd : Val1 (F := F) d) (Φ : PUnit → sProp 𝕄) :
    iprop(levAts (K (F := F)).L lv
        ∗ Pipeline.cellsGhost cfgs (EP (F := F)) 0 d ∗ Pipeline.toksInit cfgs (EP (F := F)) 0 d
        ∗ boundary (T d : Thread nD τ) ∗ arrs d Vd (Vd main_v10) ∗ owesLow (F := F) d
        ∗ (iprop(boundary (T d : Thread nD τ)
            ∗ arrs d Vd (outFn (Vd main_v0_0) (Vd main_v0_1) (Vd main_v2) (Vd main_v4) (Vd main_v5) (Vd main_v6) (Vd main_v7) (Vd main_v8) (Vd main_v9))
            ∗ owesLow (F := F) d) -∗ Φ ⟨⟩))
      ⊢ wp frame (wpE ((K (F := F)).defs (D (F := F))) 𝒱 (T d) none) Set.univ
          (Prog.lift (.customCall (SparseCore.inner (Pipeline.entry 0)) ())) Φ := by
  rw [← outArr_eq]
  exact region_wp lv d Vd Φ

/-- info: 'Cert.Proof.ScI.region_wp_value' depends on axioms: [propext, Classical.choice, Quot.sound] -/
#guard_msgs in #print axioms region_wp_value

end Cert.Proof.ScI

end
-- ==== Proof.Sc.HostVals.lean ====
/-
  What the nine host operations leave in the arrays.

  Each of the seven weight operands the kernel region reads is one or two host operations of one argument array:
  a slice then a transpose, a transpose, or a reshape. The gathered arrays, the result array and the arguments are
  written by none of the nine.
-/
import proofs.«205169_g39805756899661_cont_8to1_b_81_27_alg».proof.KernelIdeal
import proofs.«205169_g39805756899661_cont_8to1_b_81_27_alg».proof.Proof.Gen.KernelIdeal
import Idealize.ShloMosaic.Lib.StableHlo.Run

noncomputable section

namespace Cert.Proof.ScI

open Cert.KernelIdeal Cert.KernelIdeal.Facts₀
open Idealize.ShloMosaic Idealize.ShloMosaic.StableHlo

variable {F : FTy → Type} [FloatOps F]

/-- The nine host operations between the two kernels, in @main's order. -/
def hostOpsLine : List (HloOp τ sig (Elt F)) :=
  [StableHlo.unary main_arg3 main_v1 ((extractStridedSlice S128x64 ![0, 0] · slices_S128x128_S128x64_0_0) : (⟨S128x128, .f32⟩ : BufTy).Contents (Elt F) → (⟨S128x64, .f32⟩ : BufTy).Contents (Elt F)),
   StableHlo.unary main_v1 main_v2 ((transpose S64x128 [1, 0] · transposes_S128x64_S64x128_1_0) : (⟨S128x64, .f32⟩ : BufTy).Contents (Elt F) → (⟨S64x128, .f32⟩ : BufTy).Contents (Elt F)),
   StableHlo.unary main_arg3 main_v3 ((extractStridedSlice S128x64 ![0, 64] · slices_S128x128_S128x64_0_64) : (⟨S128x128, .f32⟩ : BufTy).Contents (Elt F) → (⟨S128x64, .f32⟩ : BufTy).Contents (Elt F)),
   StableHlo.unary main_v3 main_v4 ((transpose S64x128 [1, 0] · transposes_S128x64_S64x128_1_0) : (⟨S128x64, .f32⟩ : BufTy).Contents (Elt F) → (⟨S64x128, .f32⟩ : BufTy).Contents (Elt F)),
   StableHlo.reshape main_arg4 main_v5 rfl shapeCasts_S128_S1x128,
   StableHlo.unary main_arg5 main_v6 ((transpose S128x64 [1, 0] · transposes_S64x128_S128x64_1_0) : (⟨S64x128, .f32⟩ : BufTy).Contents (Elt F) → (⟨S128x64, .f32⟩ : BufTy).Contents (Elt F)),
   StableHlo.reshape main_arg6 main_v7 rfl shapeCasts_S64_S1x64,
   StableHlo.unary main_arg7 main_v8 ((transpose S64x1 [1, 0] · transposes_S1x64_S64x1_1_0) : (⟨S1x64, .f32⟩ : BufTy).Contents (Elt F) → (⟨S64x1, .f32⟩ : BufTy).Contents (Elt F)),
   StableHlo.reshape main_arg8 main_v9 rfl shapeCasts_S1_S1x1]

variable (V : Valuation τ sig (Elt F))

/-! ## The seven weight operands -/

theorem after_main_v2 : StableHlo.after (hostOpsLine (F := F)) V (Proc.devRef .tc main_v2)
    = transpose S64x128 [1, 0] (extractStridedSlice S128x64 ![0, 0] (V (Proc.devRef .tc main_arg3)) slices_S128x128_S128x64_0_0) transposes_S128x64_S64x128_1_0 := by
  unfold hostOpsLine
  after_results

theorem after_main_v4 : StableHlo.after (hostOpsLine (F := F)) V (Proc.devRef .tc main_v4)
    = transpose S64x128 [1, 0] (extractStridedSlice S128x64 ![0, 64] (V (Proc.devRef .tc main_arg3)) slices_S128x128_S128x64_0_64) transposes_S128x64_S64x128_1_0 := by
  unfold hostOpsLine
  after_results

theorem after_main_v5 : StableHlo.after (hostOpsLine (F := F)) V (Proc.devRef .tc main_v5)
    = shapeCast S1x128 (V (Proc.devRef .tc main_arg4)) shapeCasts_S128_S1x128 := by
  unfold hostOpsLine
  after_results
  rfl

theorem after_main_v6 : StableHlo.after (hostOpsLine (F := F)) V (Proc.devRef .tc main_v6)
    = transpose S128x64 [1, 0] (V (Proc.devRef .tc main_arg5)) transposes_S64x128_S128x64_1_0 := by
  unfold hostOpsLine
  after_results

theorem after_main_v7 : StableHlo.after (hostOpsLine (F := F)) V (Proc.devRef .tc main_v7)
    = shapeCast S1x64 (V (Proc.devRef .tc main_arg6)) shapeCasts_S64_S1x64 := by
  unfold hostOpsLine
  after_results
  rfl

theorem after_main_v8 : StableHlo.after (hostOpsLine (F := F)) V (Proc.devRef .tc main_v8)
    = transpose S64x1 [1, 0] (V (Proc.devRef .tc main_arg7)) transposes_S1x64_S64x1_1_0 := by
  unfold hostOpsLine
  after_results

theorem after_main_v9 : StableHlo.after (hostOpsLine (F := F)) V (Proc.devRef .tc main_v9)
    = shapeCast S1x1 (V (Proc.devRef .tc main_arg8)) shapeCasts_S1_S1x1 := by
  unfold hostOpsLine
  after_results
  rfl

/-! ## What none of the nine writes -/

theorem after_main_v0_0 : StableHlo.after (hostOpsLine (F := F)) V (Proc.devRef .tc main_v0_0)
    = V (Proc.devRef .tc main_v0_0) := by
  unfold hostOpsLine
  after_results

theorem after_main_v0_1 : StableHlo.after (hostOpsLine (F := F)) V (Proc.devRef .tc main_v0_1)
    = V (Proc.devRef .tc main_v0_1) := by
  unfold hostOpsLine
  after_results

theorem after_main_v10 : StableHlo.after (hostOpsLine (F := F)) V (Proc.devRef .tc main_v10)
    = V (Proc.devRef .tc main_v10) := by
  unfold hostOpsLine
  after_results

theorem after_main_arg0 : StableHlo.after (hostOpsLine (F := F)) V (Proc.devRef .tc main_arg0)
    = V (Proc.devRef .tc main_arg0) := by
  unfold hostOpsLine
  after_results

theorem after_main_arg1 : StableHlo.after (hostOpsLine (F := F)) V (Proc.devRef .tc main_arg1)
    = V (Proc.devRef .tc main_arg1) := by
  unfold hostOpsLine
  after_results

theorem after_main_arg2 : StableHlo.after (hostOpsLine (F := F)) V (Proc.devRef .tc main_arg2)
    = V (Proc.devRef .tc main_arg2) := by
  unfold hostOpsLine
  after_results

theorem after_main_arg3 : StableHlo.after (hostOpsLine (F := F)) V (Proc.devRef .tc main_arg3)
    = V (Proc.devRef .tc main_arg3) := by
  unfold hostOpsLine
  after_results

theorem after_main_arg4 : StableHlo.after (hostOpsLine (F := F)) V (Proc.devRef .tc main_arg4)
    = V (Proc.devRef .tc main_arg4) := by
  unfold hostOpsLine
  after_results

theorem after_main_arg5 : StableHlo.after (hostOpsLine (F := F)) V (Proc.devRef .tc main_arg5)
    = V (Proc.devRef .tc main_arg5) := by
  unfold hostOpsLine
  after_results

theorem after_main_arg6 : StableHlo.after (hostOpsLine (F := F)) V (Proc.devRef .tc main_arg6)
    = V (Proc.devRef .tc main_arg6) := by
  unfold hostOpsLine
  after_results

theorem after_main_arg7 : StableHlo.after (hostOpsLine (F := F)) V (Proc.devRef .tc main_arg7)
    = V (Proc.devRef .tc main_arg7) := by
  unfold hostOpsLine
  after_results

theorem after_main_arg8 : StableHlo.after (hostOpsLine (F := F)) V (Proc.devRef .tc main_arg8)
    = V (Proc.devRef .tc main_arg8) := by
  unfold hostOpsLine
  after_results

end Cert.Proof.ScI

end
-- ==== Proof.Sc.RegionRule.lean ====
/-
  The kernel region's rule as the program's run takes it, and the host operations' two spellings.
-/
import proofs.«205169_g39805756899661_cont_8to1_b_81_27_alg».proof.Proof.Sc.Main
import proofs.«205169_g39805756899661_cont_8to1_b_81_27_alg».proof.Proof.Sc.RegionOut
import proofs.«205169_g39805756899661_cont_8to1_b_81_27_alg».proof.Proof.Sc.HostVals

set_option Elab.async false

noncomputable section

namespace Cert.Proof.ScI

open Cert.KernelIdeal Cert.KernelIdeal.Gen
open Idealize.ShloMosaic Idealize.ShloMosaic.TcCoe
open Idealize.ShloMosaic.SparseCore (T)
open Idealize.ShloMosaic.SparseCore.Cfg (HIx)
open Idealize.SL Idealize.SL.Sem

variable {F : FTy → Type} [FloatOps F]

/-- The nine host operations, either spelling. -/
theorem hostOps_eq : hostOps (F := F) = hostOpsLine := rfl

/-- The kernel region's rule, at the result array the pipeline's write-backs leave. -/
theorem region_rule [∀ e, Nonempty (Elt F e)] : RegionRule (F := F) (fun d Vd => outArr d Vd) :=
  fun lv d Vd Φ => region_wp lv d Vd Φ

end Cert.Proof.ScI

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.MlpBlock.lean ====
/-
  The perceptron body's arithmetic, read at one row of a 2048-row block.

  The body is one pure term: three matrix products into the zero splat, each followed by the addition of a
  bias row broadcast over the 2048 rows, the first two by a maximum with zero and the last by the logistic
  function.  The first product is split in two: the block of first rows against the transposed left half of
  W1 plus the block of second rows against the transposed right half.  The host prepares the weight operands
  by slicing, transposing and reshaping the argument arrays; read at an index each is an entry of the argument.
  Entry (p, 0) of the body's result is the specification's perceptron of row p of the two blocks.  Nothing is
  re-associated or distributed, so nothing needs to be finite.
-/
import proofs.«205169_g39805756899661_cont_8to1_b_81_27_alg».proof.Proof.Gen.KernelIdeal.Skeleton
import proofs.«205169_g39805756899661_cont_8to1_b_81_27_alg».proof.Proof.Spec
import proofs.«205169_g39805756899661_cont_8to1_b_81_27_alg».proof.Proof.LibPlainMatmul
import Idealize.ShloMosaic.Lib.ValueLayout

noncomputable section

namespace Cert.Proof.MlpBlock

open Idealize.ShloMosaic Idealize.ShloMosaic.ValueIdx
open Cert.KernelIdeal Cert.KernelIdeal.Facts₀

/-! ## The operands the host prepares, as terms of the argument arrays -/

/-- The transposed left half of the first layer's weights: [64, 128], entry (k, n) is W1 (n, k). -/
def w1a (W1 : FVec Ideal S128x128 .f32) : FVec Ideal S64x128 .f32 :=
  transpose S64x128 [1, 0] (extractStridedSlice S128x64 ![0, 0] W1 slices_S128x128_S128x64_0_0) transposes_S128x64_S64x128_1_0

/-- The transposed right half of the first layer's weights: [64, 128], entry (k, n) is W1 (n, 64 + k). -/
def w1b (W1 : FVec Ideal S128x128 .f32) : FVec Ideal S64x128 .f32 :=
  transpose S64x128 [1, 0] (extractStridedSlice S128x64 ![0, 64] W1 slices_S128x128_S128x64_0_64) transposes_S128x64_S64x128_1_0

/-- The first layer's bias as one row [1, 128]. -/
def b1row (b1 : FVec Ideal S128 .f32) : FVec Ideal S1x128 .f32 := shapeCast S1x128 b1 shapeCasts_S128_S1x128

/-- The second layer's weights transposed: [128, 64], entry (n, j) is W2 (j, n). -/
def w2t (W2 : FVec Ideal S64x128 .f32) : FVec Ideal S128x64 .f32 :=
  transpose S128x64 [1, 0] W2 transposes_S64x128_S128x64_1_0

/-- The second layer's bias as one row [1, 64]. -/
def b2row (b2 : FVec Ideal S64 .f32) : FVec Ideal S1x64 .f32 := shapeCast S1x64 b2 shapeCasts_S64_S1x64

/-- The output layer's weights transposed: [64, 1], entry (j, 0) is W3 (0, j). -/
def w3t (W3 : FVec Ideal S1x64 .f32) : FVec Ideal S64x1 .f32 :=
  transpose S64x1 [1, 0] W3 transposes_S1x64_S64x1_1_0

/-- The output layer's bias as one cell [1, 1]. -/
def b3cell (b3 : FVec Ideal S1 .f32) : FVec Ideal S1x1 .f32 := shapeCast S1x1 b3 shapeCasts_S1_S1x1

/-! ## Each operand read at an index -/

theorem w1a_apply (W1 : FVec Ideal S128x128 .f32) (k : Fin 64) (n : Fin 128) :
    w1a W1 (ix2 k n) = W1 (ix2 n (⟨k.val, by omega⟩ : Fin 128)) := by
  unfold w1a
  rw [transpose_ix2_apply]
  exact slice2_axis1_apply 0 W1 _ n k _ (Nat.zero_add _).symm

theorem w1b_apply (W1 : FVec Ideal S128x128 .f32) (k : Fin 64) (n : Fin 128) :
    w1b W1 (ix2 k n) = W1 (ix2 n (⟨64 + k.val, by omega⟩ : Fin 128)) := by
  unfold w1b
  rw [transpose_ix2_apply]
  exact slice2_axis1_apply 64 W1 _ n k _ rfl

theorem b1row_apply (b1 : FVec Ideal S128 .f32) (u : Fin 1) (n : Fin 128) : b1row b1 (ix2 u n) = b1 (ix1 n) :=
  shapeCast_a_1a_apply b1 _ u n

theorem w2t_apply (W2 : FVec Ideal S64x128 .f32) (n : Fin 128) (j : Fin 64) : w2t W2 (ix2 n j) = W2 (ix2 j n) :=
  transpose_ix2_apply W2 _ n j

theorem b2row_apply (b2 : FVec Ideal S64 .f32) (u : Fin 1) (j : Fin 64) : b2row b2 (ix2 u j) = b2 (ix1 j) :=
  shapeCast_a_1a_apply b2 _ u j

theorem w3t_apply (W3 : FVec Ideal S1x64 .f32) (j : Fin 64) (u : Fin 1) : w3t W3 (ix2 j u) = W3 (ix2 u j) :=
  transpose_ix2_apply W3 _ j u

theorem b3cell_apply (b3 : FVec Ideal S1 .f32) (u v : Fin 1) : b3cell b3 (ix2 u v) = b3 (ix1 v) :=
  shapeCast_a_1a_apply b3 _ u v

/-! ## The three products into the zero splat, at an entry -/

/-- A [2048, 64] block against a [64, 128] operand. -/
theorem prod1_apply (l : FVec Ideal S2048x64 .f32) (r : FVec Ideal S64x128 .f32) (p : Fin 2048) (n : Fin 128) :
    matmul dot_S2048x64_S64x128_S2048x128_1_0_0_1_n_n none l r (constant S2048x128 .f32 0x00000000#32) (ix2 p n)
      = ∑ k : Fin 64, l (ix2 p k) * r (ix2 k n) :=
  Cert.PlainMatmul.matmul_zero_apply dot_S2048x64_S64x128_S2048x128_1_0_0_1_n_n_wf none l r p n

/-- A [2048, 128] block against a [128, 64] operand. -/
theorem prod2_apply (l : FVec Ideal S2048x128 .f32) (r : FVec Ideal S128x64 .f32) (p : Fin 2048) (j : Fin 64) :
    matmul dot_S2048x128_S128x64_S2048x64_1_0_0_1_n_n none l r (constant S2048x64 .f32 0x00000000#32) (ix2 p j)
      = ∑ n : Fin 128, l (ix2 p n) * r (ix2 n j) :=
  Cert.PlainMatmul.matmul_zero_apply dot_S2048x128_S128x64_S2048x64_1_0_0_1_n_n_wf none l r p j

/-- A [2048, 64] block against a [64, 1] operand. -/
theorem prod3_apply (l : FVec Ideal S2048x64 .f32) (r : FVec Ideal S64x1 .f32) (p : Fin 2048) (u : Fin 1) :
    matmul dot_S2048x64_S64x1_S2048x1_1_0_0_1_n_n none l r (constant S2048x1 .f32 0x00000000#32) (ix2 p u)
      = ∑ j : Fin 64, l (ix2 p j) * r (ix2 j u) :=
  Cert.PlainMatmul.matmul_zero_apply dot_S2048x64_S64x1_S2048x1_1_0_0_1_n_n_wf none l r p u

/-! ## The three layers at row p of a block -/

/-- Unit n of the first hidden layer at row p: the two half products, the bias row, the maximum with zero. -/
theorem hidden1_apply (A B : FVec Ideal S2048x64 .f32) (W1 : FVec Ideal S128x128 .f32) (b1 : FVec Ideal S128 .f32)
    (hA hB : S2048x64.ShapeCasts S2048x64) (hWa hWb : S64x128.ShapeCasts S64x128) (hc : S1x128.ShapeCasts S1x128)
    (p : Fin 2048) (n : Fin 128) :
    maximumf
      (addf
        (addf
          (matmul dot_S2048x64_S64x128_S2048x128_1_0_0_1_n_n none (shapeCast S2048x64 A hA) (shapeCast S64x128 (w1a W1) hWa)
            (constant S2048x128 .f32 0x00000000#32))
          (matmul dot_S2048x64_S64x128_S2048x128_1_0_0_1_n_n none (shapeCast S2048x64 B hB) (shapeCast S64x128 (w1b W1) hWb)
            (constant S2048x128 .f32 0x00000000#32)))
        (broadcastTo S2048x128 (shapeCast S1x128 (b1row b1) hc) broadcasts_S1x128_S2048x128))
      (broadcast S2048x128 (Scalar.ofBits (F := Ideal) .f32 0x00000000#32)) (ix2 p n)
    = Cert.Spec.hidden1 (fun k => A (ix2 p k)) (fun k => B (ix2 p k)) W1 b1 n := by
  rw [shapeCast_self A, shapeCast_self B, shapeCast_self (w1a W1), shapeCast_self (w1b W1), shapeCast_self (b1row b1)]
  rw [maximumf_apply, addf_apply, addf_apply, broadcast_apply, prod1_apply, prod1_apply, broadcastTo_1b_ab_apply,
    b1row_apply]
  unfold Cert.Spec.hidden1
  simp only [w1a_apply, w1b_apply]
  exact congrArg (max _) Ideal.ofBits_zero_f32

/-- Unit j of the second hidden layer at row p, for any block whose row p is h. -/
theorem hidden2_apply (H1 : FVec Ideal S2048x128 .f32) (W2 : FVec Ideal S64x128 .f32) (b2 : FVec Ideal S64 .f32)
    (hW : S128x64.ShapeCasts S128x64) (hc : S1x64.ShapeCasts S1x64)
    (p : Fin 2048) (h : Fin 128 → EReal) (hH : ∀ n, H1 (ix2 p n) = h n) (j : Fin 64) :
    maximumf
      (addf
        (matmul dot_S2048x128_S128x64_S2048x64_1_0_0_1_n_n none H1 (shapeCast S128x64 (w2t W2) hW)
          (constant S2048x64 .f32 0x00000000#32))
        (broadcastTo S2048x64 (shapeCast S1x64 (b2row b2) hc) broadcasts_S1x64_S2048x64))
      (broadcast S2048x64 (Scalar.ofBits (F := Ideal) .f32 0x00000000#32)) (ix2 p j)
    = Cert.Spec.hidden2 h W2 b2 j := by
  rw [shapeCast_self (w2t W2), shapeCast_self (b2row b2)]
  rw [maximumf_apply, addf_apply, broadcast_apply, prod2_apply, broadcastTo_1b_ab_apply, b2row_apply]
  unfold Cert.Spec.hidden2
  simp only [w2t_apply, hH]
  exact congrArg (max _) Ideal.ofBits_zero_f32

/-- The output at row p, for any block whose row p is h: the product, the bias cell, the logistic function. -/
theorem out_apply (H2 : FVec Ideal S2048x64 .f32) (W3 : FVec Ideal S1x64 .f32) (b3 : FVec Ideal S1 .f32)
    (hW : S64x1.ShapeCasts S64x1) (hc : S1x1.ShapeCasts S1x1)
    (p : Fin 2048) (h : Fin 64 → EReal) (hH : ∀ j, H2 (ix2 p j) = h j) :
    logistic
      (addf
        (matmul dot_S2048x64_S64x1_S2048x1_1_0_0_1_n_n none H2 (shapeCast S64x1 (w3t W3) hW)
          (constant S2048x1 .f32 0x00000000#32))
        (broadcastTo S2048x1 (shapeCast S1x1 (b3cell b3) hc) broadcasts_S1x1_S2048x1)) (ix2 p (0 : Fin 1))
    = Ideal.logistic ((∑ j : Fin 64, h j * W3 (ix2 (0 : Fin 1) j)) + b3 (ix1 (0 : Fin 1))) := by
  rw [shapeCast_self (w3t W3), shapeCast_self (b3cell b3)]
  show Ideal.logistic (_ + _) = _
  rw [prod3_apply, broadcastTo_1b_ab_apply, b3cell_apply]
  simp only [w3t_apply, hH]

/-! ## The body's result at row p -/

/-- Entry (p, 0) of the perceptron body on two blocks and the host's operands is the specification's perceptron of
    row p of the two blocks. -/
theorem pay_apply (A B : FVec Ideal S2048x64 .f32) (W1 : FVec Ideal S128x128 .f32) (b1 : FVec Ideal S128 .f32)
    (W2 : FVec Ideal S64x128 .f32) (b2 : FVec Ideal S64 .f32) (W3 : FVec Ideal S1x64 .f32) (b3 : FVec Ideal S1 .f32)
    (p : Fin 2048) :
    Cert.KernelIdeal.Gen.k1_pay1 (F := Ideal) A (w1a W1) B (w1b W1) (b1row b1) (w2t W2) (b2row b2) (w3t W3) (b3cell b3)
        (ix2 p (0 : Fin 1))
      = Cert.Spec.mlp (fun k => A (ix2 p k)) (fun k => B (ix2 p k)) W1 b1 W2 b2 W3 b3 := by
  unfold Cert.KernelIdeal.Gen.k1_pay1 Cert.Spec.mlp
  exact out_apply _ W3 b3 _ _ p _ fun j =>
    hidden2_apply _ W2 b2 _ _ p _ (fun n => hidden1_apply A B W1 b1 _ _ _ _ _ p n) j

end Cert.Proof.MlpBlock

end
-- ==== Proof.KernelOut.lean ====
/-
  The perceptron body applied block by block, as one [16384, 1] array, and that array against the specification.

  DEFINED here: the array whose block t (rows [2048·t, 2048·t + 2048)) is the perceptron body's result on
  block t of two [16384, 64] arrays.  PROVED here: row r lies in block r / 2048 at row r mod 2048 of the block,
  and 2048·(r / 2048) + r mod 2048 = r, so entry (r, 0) of that array is the specification's perceptron of row r
  of the two arrays; when the two arrays hold the table rows the two index arrays name, it is the
  specification's result array.  This module is pure: it says nothing of any program's run, and that a run
  leaves this array is a statement about the run, made where the run is read.
-/
import proofs.«205169_g39805756899661_cont_8to1_b_81_27_alg».proof.Proof.MlpBlock
import proofs.«205169_g39805756899661_cont_8to1_b_81_27_alg».proof.Proof.Spec

noncomputable section

namespace Cert.Proof.KernelOut

open Idealize.ShloMosaic Idealize.ShloMosaic.ValueIdx
open Cert.KernelIdeal
open Cert.Proof.MlpBlock

/-- Block t of a [16384, 64] array: its rows [2048·t, 2048·t + 2048). -/
def blockRows (X : FVec Ideal S16384x64 .f32) (t : Fin 8) : FVec Ideal S2048x64 .f32 :=
  fun y => X (ix2 (⟨2048 * t.val + (y 0 : Fin 2048).val, by have h : (y 0).val < 2048 := (y 0).isLt; have := t.isLt; omega⟩ : Fin 16384)
    (y 1 : Fin 64))

/-- Row r of the array is row r mod 2048 of block r / 2048. -/
theorem blockRows_row (X : FVec Ideal S16384x64 .f32) (r : Fin 16384) (k : Fin 64)
    (h1 : r.val / 2048 < 8) (h2 : r.val % 2048 < 2048) :
    blockRows X ⟨r.val / 2048, h1⟩ (ix2 (⟨r.val % 2048, h2⟩ : Fin 2048) k) = X (ix2 r k) :=
  congrArg X (congrArg₂ ix2 (Fin.ext (Nat.div_add_mod r.val 2048)) rfl)

/-- The blockwise array: at row r the perceptron body on block r / 2048 of the two arrays, read at row r mod 2048. -/
def kernelOut (A B : FVec Ideal S16384x64 .f32) (W1 : FVec Ideal S128x128 .f32) (b1 : FVec Ideal S128 .f32)
    (W2 : FVec Ideal S64x128 .f32) (b2 : FVec Ideal S64 .f32) (W3 : FVec Ideal S1x64 .f32) (b3 : FVec Ideal S1 .f32) :
    FVec Ideal S16384x1 .f32 :=
  fun j =>
    Cert.KernelIdeal.Gen.k1_pay1 (F := Ideal)
      (blockRows A ⟨(j 0 : Fin 16384).val / 2048, by have h : (j 0).val < 16384 := (j 0).isLt; omega⟩) (w1a W1)
      (blockRows B ⟨(j 0 : Fin 16384).val / 2048, by have h : (j 0).val < 16384 := (j 0).isLt; omega⟩) (w1b W1)
      (b1row b1) (w2t W2) (b2row b2) (w3t W3) (b3cell b3)
      (ix2 (⟨(j 0 : Fin 16384).val % 2048, Nat.mod_lt _ (by decide)⟩ : Fin 2048) (0 : Fin 1))

/-- Entry (r, 0) of the blockwise array is the perceptron of row r of the two arrays. -/
theorem kernelOut_apply (A B : FVec Ideal S16384x64 .f32) (W1 : FVec Ideal S128x128 .f32) (b1 : FVec Ideal S128 .f32)
    (W2 : FVec Ideal S64x128 .f32) (b2 : FVec Ideal S64 .f32) (W3 : FVec Ideal S1x64 .f32) (b3 : FVec Ideal S1 .f32)
    (r : Fin 16384) (u : Fin 1) :
    kernelOut A B W1 b1 W2 b2 W3 b3 (ix2 r u)
      = Cert.Spec.mlp (fun k => A (ix2 r k)) (fun k => B (ix2 r k)) W1 b1 W2 b2 W3 b3 := by
  unfold kernelOut
  refine (pay_apply _ _ W1 b1 W2 b2 W3 b3 _).trans ?_
  have eA : (fun k : Fin 64 => blockRows A ⟨r.val / 2048, by have := r.isLt; omega⟩
      (ix2 (⟨r.val % 2048, Nat.mod_lt _ (by decide)⟩ : Fin 2048) k)) = fun k => A (ix2 r k) :=
    funext fun k => blockRows_row A r k _ _
  have eB : (fun k : Fin 64 => blockRows B ⟨r.val / 2048, by have := r.isLt; omega⟩
      (ix2 (⟨r.val % 2048, Nat.mod_lt _ (by decide)⟩ : Fin 2048) k)) = fun k => B (ix2 r k) :=
    funext fun k => blockRows_row B r k _ _
  exact congrArg₂ (fun a b => Cert.Spec.mlp a b W1 b1 W2 b2 W3 b3) eA eB

/-- When the two arrays hold the table rows the index arrays name, the blockwise array is the specification's result. -/
theorem kernelOut_eq_spec (ia ib : IVec S16384 32) (table : FVec Ideal S1000000x64 .f32)
    (A B : FVec Ideal S16384x64 .f32) (W1 : FVec Ideal S128x128 .f32) (b1 : FVec Ideal S128 .f32)
    (W2 : FVec Ideal S64x128 .f32) (b2 : FVec Ideal S64 .f32) (W3 : FVec Ideal S1x64 .f32) (b3 : FVec Ideal S1 .f32)
    (hA : ∀ (r : Fin 16384) (k : Fin 64), A (ix2 r k) = Cert.Spec.emb table ia r k)
    (hB : ∀ (r : Fin 16384) (k : Fin 64), B (ix2 r k) = Cert.Spec.emb table ib r k) :
    kernelOut A B W1 b1 W2 b2 W3 b3 = Cert.Spec.out ia ib table W1 b1 W2 b2 W3 b3 := by
  funext j
  obtain ⟨r, u, rfl⟩ : ∃ (r : Fin 16384) (u : Fin 1), j = ix2 r u := ⟨j 0, j 1, eq_ix2 j⟩
  rw [kernelOut_apply]
  unfold Cert.Spec.out
  exact congrArg₂ (fun a b => Cert.Spec.mlp a b W1 b1 W2 b2 W3 b3) (funext fun k => hA r k) (funext fun k => hB r k)

end Cert.Proof.KernelOut

end
-- ==== Proof.ScIdeal.Bridge.lean ====
/-
  The region's result array at the ideal values is the blockwise perceptron array.

  The two descriptions of "block row t of a [16384, 64] array" differ in the order of one product, and the two
  descriptions of the result array in how the one column's index is written; both are the same function.
-/
import proofs.«205169_g39805756899661_cont_8to1_b_81_27_alg».proof.Proof.Sc.RegionOut
import proofs.«205169_g39805756899661_cont_8to1_b_81_27_alg».proof.Proof.KernelOut

noncomputable section

namespace Cert.Proof.ScI

open Cert.KernelIdeal Cert.KernelIdeal.Gen
open Idealize.ShloMosaic Idealize.ShloMosaic.ValueIdx
open Cert.Proof.MlpBlock Cert.Proof.KernelOut

/-- Block row `t`, either way of writing its first row's number. -/
theorem rowBlock_eq_blockRows (X : FVec Ideal S16384x64 .f32) (t : Fin 8) : rowBlock (F := Ideal) X t = blockRows X t := by
  funext y
  unfold rowBlock blockRows
  exact congrArg X (congrArg₂ ix2 (Fin.ext (by show t.val * 2048 + (y 0).val = 2048 * t.val + (y 0).val; omega)) (Fin.ext rfl))

/-- At the ideal values, with the seven weight operands the host prepares, the region's result array is the blockwise
    perceptron array. -/
theorem outFn_eq_kernelOut (A B : FVec Ideal S16384x64 .f32) (W1 : FVec Ideal S128x128 .f32) (b1 : FVec Ideal S128 .f32)
    (W2 : FVec Ideal S64x128 .f32) (b2 : FVec Ideal S64 .f32) (W3 : FVec Ideal S1x64 .f32) (b3 : FVec Ideal S1 .f32) :
    outFn (F := Ideal) A B (w1a W1) (w1b W1) (b1row b1) (w2t W2) (b2row b2) (w3t W3) (b3cell b3)
      = kernelOut A B W1 b1 W2 b2 W3 b3 := by
  funext j
  have h1 : (⟨(j 1).val, idx2_lt1 j⟩ : Fin 1) = 0 := Subsingleton.elim _ _
  unfold outFn kernelOut
  rw [rowBlock_eq_blockRows, rowBlock_eq_blockRows, h1]
  rfl

end Cert.Proof.ScI

end
-- ==== Proof.RefTerm.lean ====
/-
  The reference program's result as one pure term of its nine argument arrays: the printed operations
  composed in their own spelling, grouped by what they compute.

  `take table idx` is the outlined row lookup. An index word below zero is shifted up by the table's height
  (`wrapIdx`), the word is laid out as a one-column array (`idxCol`) and used as the start of a one-row,
  64-wide window of the table (`Host.gather`); a row whose shifted word is outside `[0, 999999]`
  (`inBounds` is the conjunction, over the single column, of the two comparisons) is replaced by the
  not-a-number constant. The three layers are a contraction against the transposed weight matrix, the bias
  broadcast over the rows, and the maximum with zero; the last layer's value `x` goes through
  `1 / (1 + exp (-x))`.
-/
import proofs.«205169_g39805756899661_cont_8to1_b_81_27_alg».proof.ReferenceIdeal
import Idealize.ShloMosaic.PureOps.Ideal

noncomputable section

namespace Cert.Proof.RefTerm

open Idealize.ShloMosaic Idealize.SL.Sem Cert.ReferenceIdeal Cert.ReferenceIdeal.Facts₀

variable [Cert.ReferenceIdeal.Facts]

/-- The index words with the negative ones shifted up by the table's height: the outlined `where`,
    `select (idx < 0) (idx + 1000000) idx`. -/
def wrapIdx (idx : IVec S16384 32) : IVec S16384 32 :=
  select
    (cmpi .slt idx (broadcastInDim S16384 ![] bcast_S_S16384 (constantI S_ 32 0#32)))
    (addi idx (broadcastInDim S16384 ![] bcast_S_S16384 (constantI S_ 32 1000000#32)))
    idx

/-- The shifted index words as a one-column array: the start indices of the gather. -/
def idxCol (idx : IVec S16384 32) : IVec S16384x1 32 :=
  broadcastInDim S16384x1 ![0] bcast_S16384_S16384x1_0 (wrapIdx idx)

/-- Per row, whether the shifted index word lies in `[0, 999999]`: the two signed comparisons, their
    conjunction, and its reduction by `and` (from `true`) over the single column. -/
def inBounds (idx : IVec S16384 32) : IVec S16384 1 :=
  Host.reduce IntOp.andi
    (andi
      (cmpi .sge (idxCol idx) (broadcastInDim S16384x1 ![] bcast_S_S16384x1 (constantI S_ 32 0#32)))
      (cmpi .sle (idxCol idx)
        (broadcastInDim S16384x1 ![0, 1] bcast_S1x1_S16384x1_0_1
          (broadcastInDim S1x1 ![1] bcast_S1_S1x1_1 (constantI S1 32 999999#32)))))
    (constantI S_ 1 1#1) reducesTo_S16384x1_S16384_d1 h_S_

/-- The outlined row lookup: row `r` is the table row the shifted index word of `r` names where that word
    is in bounds, and the not-a-number constant elsewhere. -/
def take (table : FVec Ideal S1000000x64 .f32) (idx : IVec S16384 32) : FVec Ideal S16384x64 .f32 :=
  select
    (broadcastInDim S16384x64 ![0] bcast_S16384_S16384x64_0 (inBounds idx))
    (Host.gather gather_S1000000x64_S16384x1_S16384x64_1_0_n_n_0_1_164 table (idxCol idx))
    (broadcastInDim S16384x64 ![] bcast_S_S16384x64 (constant (F := Ideal) S_ .f32 0x7FC00000#32))

/-- The outlined rectifier on `[16384, 128]`: the maximum with the zero constant broadcast. -/
def relu128 (x : FVec Ideal S16384x128 .f32) : FVec Ideal S16384x128 .f32 :=
  maximumf x (broadcastInDim S16384x128 ![] bcast_S_S16384x128 (constant (F := Ideal) S_ .f32 0x00000000#32))

/-- The outlined rectifier on `[16384, 64]`. -/
def relu64 (x : FVec Ideal S16384x64 .f32) : FVec Ideal S16384x64 .f32 :=
  maximumf x (broadcastInDim S16384x64 ![] bcast_S_S16384x64 (constant (F := Ideal) S_ .f32 0x00000000#32))

/-- The two looked-up rows side by side: `[16384, 128]`. -/
def pair (a b : FVec Ideal S16384x64 .f32) : FVec Ideal S16384x128 .f32 :=
  concatenate S16384x128 1 [⟨S16384x64, a⟩, ⟨S16384x64, b⟩] concatenates_S16384x64_S16384x64_S16384x128_d1

/-- The first layer before its rectifier: `x · W1ᵀ + b1`. -/
def pre1 (x : FVec Ideal S16384x128 .f32) (W1 : FVec Ideal S128x128 .f32) (b1 : FVec Ideal S128 .f32) :
    FVec Ideal S16384x128 .f32 :=
  addf
    (Host.dotGeneral (F := Ideal) dot_S16384x128_S128x128_S16384x128_1_0_0_1_n_n none x
      (transpose S128x128 [1, 0] W1 transposes_S128x128_S128x128_1_0))
    (broadcastInDim S16384x128 ![0, 1] bcast_S1x128_S16384x128_0_1 (broadcastInDim S1x128 ![1] bcast_S128_S1x128_1 b1))

/-- The second layer before its rectifier: `h · W2ᵀ + b2`. -/
def pre2 (h : FVec Ideal S16384x128 .f32) (W2 : FVec Ideal S64x128 .f32) (b2 : FVec Ideal S64 .f32) :
    FVec Ideal S16384x64 .f32 :=
  addf
    (Host.dotGeneral (F := Ideal) dot_S16384x128_S128x64_S16384x64_1_0_0_1_n_n none h
      (transpose S128x64 [1, 0] W2 transposes_S64x128_S128x64_1_0))
    (broadcastInDim S16384x64 ![0, 1] bcast_S1x64_S16384x64_0_1 (broadcastInDim S1x64 ![1] bcast_S64_S1x64_1 b2))

/-- The output layer's argument: `h · W3ᵀ + b3`. -/
def pre3 (h : FVec Ideal S16384x64 .f32) (W3 : FVec Ideal S1x64 .f32) (b3 : FVec Ideal S1 .f32) :
    FVec Ideal S16384x1 .f32 :=
  addf
    (Host.dotGeneral (F := Ideal) dot_S16384x64_S64x1_S16384x1_1_0_0_1_n_n none h
      (transpose S64x1 [1, 0] W3 transposes_S1x64_S64x1_1_0))
    (broadcastInDim S16384x1 ![0, 1] bcast_S1x1_S16384x1_0_1 (broadcastInDim S1x1 ![1] bcast_S1_S1x1_1 b3))

/-- The logistic function as the reference spells it: `1 / (1 + exp (-x))`, each `1` a broadcast constant. -/
def sigmoid (x : FVec Ideal S16384x1 .f32) : FVec Ideal S16384x1 .f32 :=
  Host.divf
    (broadcastInDim S16384x1 ![] bcast_S_S16384x1 (constant (F := Ideal) S_ .f32 0x3F800000#32))
    (addf
      (broadcastInDim S16384x1 ![] bcast_S_S16384x1 (constant (F := Ideal) S_ .f32 0x3F800000#32))
      (Host.exp (Host.negf x)))

/-- The reference's result buffer as a function of the nine argument arrays. -/
def refTerm (ia ib : IVec S16384 32) (table : FVec Ideal S1000000x64 .f32)
    (W1 : FVec Ideal S128x128 .f32) (b1 : FVec Ideal S128 .f32)
    (W2 : FVec Ideal S64x128 .f32) (b2 : FVec Ideal S64 .f32)
    (W3 : FVec Ideal S1x64 .f32) (b3 : FVec Ideal S1 .f32) : FVec Ideal S16384x1 .f32 :=
  sigmoid (pre3 (relu64 (pre2 (relu128 (pre1 (pair (take table ia) (take table ib)) W1 b1)) W2 b2)) W3 b3)

end Cert.Proof.RefTerm

end
-- ==== Proof.RefRun.lean ====
/-
  The reference program's run, read back. The reference's entry function calls four outlined functions
  (the row lookup twice, each calling the outlined `where`; the two rectifiers). With each call replaced by
  the callee's operations over that call's own buffers, the entry function is one straight line of 76 host
  operations, each writing one buffer of its own. Run from any memory with zero counters, every weakly fair
  execution terminates; each buffer ends at the fold of the operations over the launch contents, which at
  the result buffer is `RefTerm.refTerm` of the nine argument arrays, and at each argument buffer is what
  was there (no operation writes an argument).
-/
import proofs.«205169_g39805756899661_cont_8to1_b_81_27_alg».proof.Defs
import proofs.«205169_g39805756899661_cont_8to1_b_81_27_alg».proof.Proof.RefTerm
import Idealize.ShloMosaic.Lib.StableHlo.Run

noncomputable section

namespace Cert.Proof.RefRun

open Cert.ReferenceIdeal Cert.ReferenceIdeal.Facts₀ Idealize.ShloMosaic Idealize.ShloMosaic.TcCoe Idealize.SL.Sem
  Idealize.ShloMosaic.StableHlo

variable [Cert.ReferenceIdeal.Facts]

section AnyFloat

variable {F : FTy → Type} [FloatOps F]

/-- The entry function's 76 operations in order, each call unfolded at its site: the first row lookup's 23
    (the seventh of them the outlined `where`'s select) over the first call's buffers, the second's 23 over
    the second call's, the concatenation and the first layer's six, the first rectifier's three, the second
    layer's five, the second rectifier's three, the output layer's five, and the logistic function's eight. -/
abbrev ops : List (HloOp τ sig (Elt F)) :=
  [ StableHlo.TRef.nullary main_call0.c (constantI S_ 32 0#32),
    StableHlo.TRef.unary main_call0.c main_call0.v0 (broadcastInDim S16384 ![] bcast_S_S16384),
    StableHlo.TRef.binary (.of main_arg0 : TRef sig ⟨S16384, .i32⟩) main_call0.v0 main_call0.v1 (cmpi .slt),
    StableHlo.TRef.nullary main_call0.c_0 (constantI S_ 32 1000000#32),
    StableHlo.TRef.unary main_call0.c_0 main_call0.v2 (broadcastInDim S16384 ![] bcast_S_S16384),
    StableHlo.TRef.binary (.of main_arg0 : TRef sig ⟨S16384, .i32⟩) main_call0.v2 main_call0.v3 addi,
    StableHlo.TRef.ternary main_call0.v1 main_call0.v3 (.of main_arg0 : TRef sig ⟨S16384, .i32⟩) main_call0.call0.v0 select,
    StableHlo.TRef.unary main_call0.call0.v0 main_call0.v5 (broadcastInDim S16384x1 ![0] bcast_S16384_S16384x1_0),
    StableHlo.TRef.nullary main_call0.c_1 (constantI S1 32 999999#32),
    StableHlo.TRef.nullary main_call0.c_2 (constantI S_ 32 0#32),
    StableHlo.TRef.unary main_call0.c_2 main_call0.v6 (broadcastInDim S16384x1 ![] bcast_S_S16384x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S16384x1 ![0, 1] bcast_S1x1_S16384x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x1_S16384_d1 h_S_),
    StableHlo.TRef.binary (.of main_arg2 : TRef sig ⟨S1000000x64, .f32⟩) main_call0.v5 main_call0.v13 (fun x i => Host.gather gather_S1000000x64_S16384x1_S16384x64_1_0_n_n_0_1_164 x i),
    StableHlo.TRef.unary main_call0.v12 main_call0.v14 (broadcastInDim S16384x64 ![0] bcast_S16384_S16384x64_0),
    StableHlo.TRef.nullary main_call0.cst (constant S_ .f32 0x7FC00000#32),
    StableHlo.TRef.unary main_call0.cst main_call0.v15 (broadcastInDim S16384x64 ![] bcast_S_S16384x64),
    StableHlo.TRef.ternary main_call0.v14 main_call0.v13 main_call0.v15 main_call0.v16 select,
    StableHlo.TRef.nullary main_call1.c (constantI S_ 32 0#32),
    StableHlo.TRef.unary main_call1.c main_call1.v0 (broadcastInDim S16384 ![] bcast_S_S16384),
    StableHlo.TRef.binary (.of main_arg1 : TRef sig ⟨S16384, .i32⟩) main_call1.v0 main_call1.v1 (cmpi .slt),
    StableHlo.TRef.nullary main_call1.c_0 (constantI S_ 32 1000000#32),
    StableHlo.TRef.unary main_call1.c_0 main_call1.v2 (broadcastInDim S16384 ![] bcast_S_S16384),
    StableHlo.TRef.binary (.of main_arg1 : TRef sig ⟨S16384, .i32⟩) main_call1.v2 main_call1.v3 addi,
    StableHlo.TRef.ternary main_call1.v1 main_call1.v3 (.of main_arg1 : TRef sig ⟨S16384, .i32⟩) main_call1.call0.v0 select,
    StableHlo.TRef.unary main_call1.call0.v0 main_call1.v5 (broadcastInDim S16384x1 ![0] bcast_S16384_S16384x1_0),
    StableHlo.TRef.nullary main_call1.c_1 (constantI S1 32 999999#32),
    StableHlo.TRef.nullary main_call1.c_2 (constantI S_ 32 0#32),
    StableHlo.TRef.unary main_call1.c_2 main_call1.v6 (broadcastInDim S16384x1 ![] bcast_S_S16384x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S16384x1 ![0, 1] bcast_S1x1_S16384x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x1_S16384_d1 h_S_),
    StableHlo.TRef.binary (.of main_arg2 : TRef sig ⟨S1000000x64, .f32⟩) main_call1.v5 main_call1.v13 (fun x i => Host.gather gather_S1000000x64_S16384x1_S16384x64_1_0_n_n_0_1_164 x i),
    StableHlo.TRef.unary main_call1.v12 main_call1.v14 (broadcastInDim S16384x64 ![0] bcast_S16384_S16384x64_0),
    StableHlo.TRef.nullary main_call1.cst (constant S_ .f32 0x7FC00000#32),
    StableHlo.TRef.unary main_call1.cst main_call1.v15 (broadcastInDim S16384x64 ![] bcast_S_S16384x64),
    StableHlo.TRef.ternary main_call1.v14 main_call1.v13 main_call1.v15 main_call1.v16 select,
    StableHlo.binary main_v0 main_v1 main_v2 ((fun a b => concatenate S16384x128 1 [⟨S16384x64, a⟩, ⟨S16384x64, b⟩] concatenates_S16384x64_S16384x64_S16384x128_d1) : (⟨S16384x64, .f32⟩ : BufTy).Contents (Elt F) → (⟨S16384x64, .f32⟩ : BufTy).Contents (Elt F) → (⟨S16384x128, .f32⟩ : BufTy).Contents (Elt F)),
    StableHlo.unary main_arg3 main_v3 ((transpose S128x128 [1, 0] · transposes_S128x128_S128x128_1_0) : (⟨S128x128, .f32⟩ : BufTy).Contents (Elt F) → (⟨S128x128, .f32⟩ : BufTy).Contents (Elt F)),
    StableHlo.binary main_v2 main_v3 main_v4 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    StableHlo.unary main_arg4 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S16384x128 ![0, 1] bcast_S1x128_S16384x128_0_1 : (⟨S1x128, .f32⟩ : BufTy).Contents (Elt F) → (⟨S16384x128, .f32⟩ : BufTy).Contents (Elt F)),
    StableHlo.binary main_v4 main_v6 main_v7 (addf : (⟨S16384x128, .f32⟩ : BufTy).Contents (Elt F) → (⟨S16384x128, .f32⟩ : BufTy).Contents (Elt F) → (⟨S16384x128, .f32⟩ : BufTy).Contents (Elt F)),
    StableHlo.TRef.nullary main_call2.cst (constant S_ .f32 0x00000000#32),
    StableHlo.TRef.unary main_call2.cst main_call2.v0 (broadcastInDim S16384x128 ![] bcast_S_S16384x128),
    StableHlo.TRef.binary (.of main_v7 : TRef sig ⟨S16384x128, .f32⟩) main_call2.v0 main_call2.v1 maximumf,
    StableHlo.unary main_arg5 main_v9 ((transpose S128x64 [1, 0] · transposes_S64x128_S128x64_1_0) : (⟨S64x128, .f32⟩ : BufTy).Contents (Elt F) → (⟨S128x64, .f32⟩ : BufTy).Contents (Elt F)),
    StableHlo.binary main_v8 main_v9 main_v10 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    StableHlo.unary main_arg6 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S16384x64 ![0, 1] bcast_S1x64_S16384x64_0_1 : (⟨S1x64, .f32⟩ : BufTy).Contents (Elt F) → (⟨S16384x64, .f32⟩ : BufTy).Contents (Elt F)),
    StableHlo.binary main_v10 main_v12 main_v13 (addf : (⟨S16384x64, .f32⟩ : BufTy).Contents (Elt F) → (⟨S16384x64, .f32⟩ : BufTy).Contents (Elt F) → (⟨S16384x64, .f32⟩ : BufTy).Contents (Elt F)),
    StableHlo.TRef.nullary main_call3.cst (constant S_ .f32 0x00000000#32),
    StableHlo.TRef.unary main_call3.cst main_call3.v0 (broadcastInDim S16384x64 ![] bcast_S_S16384x64),
    StableHlo.TRef.binary (.of main_v13 : TRef sig ⟨S16384x64, .f32⟩) main_call3.v0 main_call3.v1 maximumf,
    StableHlo.unary main_arg7 main_v15 ((transpose S64x1 [1, 0] · transposes_S1x64_S64x1_1_0) : (⟨S1x64, .f32⟩ : BufTy).Contents (Elt F) → (⟨S64x1, .f32⟩ : BufTy).Contents (Elt F)),
    StableHlo.binary main_v14 main_v15 main_v16 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    StableHlo.unary main_arg8 main_v17 (broadcastInDim S1x1 ![1] bcast_S1_S1x1_1 : (⟨S1, .f32⟩ : BufTy).Contents (Elt F) → (⟨S1x1, .f32⟩ : BufTy).Contents (Elt F)),
    StableHlo.unary main_v17 main_v18 (broadcastInDim S16384x1 ![0, 1] bcast_S1x1_S16384x1_0_1 : (⟨S1x1, .f32⟩ : BufTy).Contents (Elt F) → (⟨S16384x1, .f32⟩ : BufTy).Contents (Elt F)),
    StableHlo.binary main_v16 main_v18 main_v19 (addf : (⟨S16384x1, .f32⟩ : BufTy).Contents (Elt F) → (⟨S16384x1, .f32⟩ : BufTy).Contents (Elt F) → (⟨S16384x1, .f32⟩ : BufTy).Contents (Elt F)),
    StableHlo.unary main_v19 main_v20 (Host.negf : (⟨S16384x1, .f32⟩ : BufTy).Contents (Elt F) → (⟨S16384x1, .f32⟩ : BufTy).Contents (Elt F)),
    StableHlo.unary main_v20 main_v21 (Host.exp : (⟨S16384x1, .f32⟩ : BufTy).Contents (Elt F) → (⟨S16384x1, .f32⟩ : BufTy).Contents (Elt F)),
    StableHlo.nullary main_cst (constant S_ .f32 0x3F800000#32),
    StableHlo.unary main_cst main_v22 (broadcastInDim S16384x1 ![] bcast_S_S16384x1 : (⟨S_, .f32⟩ : BufTy).Contents (Elt F) → (⟨S16384x1, .f32⟩ : BufTy).Contents (Elt F)),
    StableHlo.binary main_v22 main_v21 main_v23 (addf : (⟨S16384x1, .f32⟩ : BufTy).Contents (Elt F) → (⟨S16384x1, .f32⟩ : BufTy).Contents (Elt F) → (⟨S16384x1, .f32⟩ : BufTy).Contents (Elt F)),
    StableHlo.nullary main_cst_0 (constant S_ .f32 0x3F800000#32),
    StableHlo.unary main_cst_0 main_v24 (broadcastInDim S16384x1 ![] bcast_S_S16384x1 : (⟨S_, .f32⟩ : BufTy).Contents (Elt F) → (⟨S16384x1, .f32⟩ : BufTy).Contents (Elt F)),
    StableHlo.binary main_v24 main_v23 main_v25 (Host.divf : (⟨S16384x1, .f32⟩ : BufTy).Contents (Elt F) → (⟨S16384x1, .f32⟩ : BufTy).Contents (Elt F) → (⟨S16384x1, .f32⟩ : BufTy).Contents (Elt F)) ]

set_option maxRecDepth 16384 in
/-- The entry function is that straight line, by computation: sequencing grafts the rest of the program onto
    the end of each outlined function's chain of steps, the outlined functions unfold at their calls and the
    buffer records at their fields, and both sides are the same chain of `hlo` steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- From any memory with zero counters every weakly fair execution of the entry function terminates, each
    buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The two row lookups' 46 operations. -/
abbrev opsLookup : List (HloOp τ sig (Elt F)) :=
  [ StableHlo.TRef.nullary main_call0.c (constantI S_ 32 0#32),
    StableHlo.TRef.unary main_call0.c main_call0.v0 (broadcastInDim S16384 ![] bcast_S_S16384),
    StableHlo.TRef.binary (.of main_arg0 : TRef sig ⟨S16384, .i32⟩) main_call0.v0 main_call0.v1 (cmpi .slt),
    StableHlo.TRef.nullary main_call0.c_0 (constantI S_ 32 1000000#32),
    StableHlo.TRef.unary main_call0.c_0 main_call0.v2 (broadcastInDim S16384 ![] bcast_S_S16384),
    StableHlo.TRef.binary (.of main_arg0 : TRef sig ⟨S16384, .i32⟩) main_call0.v2 main_call0.v3 addi,
    StableHlo.TRef.ternary main_call0.v1 main_call0.v3 (.of main_arg0 : TRef sig ⟨S16384, .i32⟩) main_call0.call0.v0 select,
    StableHlo.TRef.unary main_call0.call0.v0 main_call0.v5 (broadcastInDim S16384x1 ![0] bcast_S16384_S16384x1_0),
    StableHlo.TRef.nullary main_call0.c_1 (constantI S1 32 999999#32),
    StableHlo.TRef.nullary main_call0.c_2 (constantI S_ 32 0#32),
    StableHlo.TRef.unary main_call0.c_2 main_call0.v6 (broadcastInDim S16384x1 ![] bcast_S_S16384x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S16384x1 ![0, 1] bcast_S1x1_S16384x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x1_S16384_d1 h_S_),
    StableHlo.TRef.binary (.of main_arg2 : TRef sig ⟨S1000000x64, .f32⟩) main_call0.v5 main_call0.v13 (fun x i => Host.gather gather_S1000000x64_S16384x1_S16384x64_1_0_n_n_0_1_164 x i),
    StableHlo.TRef.unary main_call0.v12 main_call0.v14 (broadcastInDim S16384x64 ![0] bcast_S16384_S16384x64_0),
    StableHlo.TRef.nullary main_call0.cst (constant S_ .f32 0x7FC00000#32),
    StableHlo.TRef.unary main_call0.cst main_call0.v15 (broadcastInDim S16384x64 ![] bcast_S_S16384x64),
    StableHlo.TRef.ternary main_call0.v14 main_call0.v13 main_call0.v15 main_call0.v16 select,
    StableHlo.TRef.nullary main_call1.c (constantI S_ 32 0#32),
    StableHlo.TRef.unary main_call1.c main_call1.v0 (broadcastInDim S16384 ![] bcast_S_S16384),
    StableHlo.TRef.binary (.of main_arg1 : TRef sig ⟨S16384, .i32⟩) main_call1.v0 main_call1.v1 (cmpi .slt),
    StableHlo.TRef.nullary main_call1.c_0 (constantI S_ 32 1000000#32),
    StableHlo.TRef.unary main_call1.c_0 main_call1.v2 (broadcastInDim S16384 ![] bcast_S_S16384),
    StableHlo.TRef.binary (.of main_arg1 : TRef sig ⟨S16384, .i32⟩) main_call1.v2 main_call1.v3 addi,
    StableHlo.TRef.ternary main_call1.v1 main_call1.v3 (.of main_arg1 : TRef sig ⟨S16384, .i32⟩) main_call1.call0.v0 select,
    StableHlo.TRef.unary main_call1.call0.v0 main_call1.v5 (broadcastInDim S16384x1 ![0] bcast_S16384_S16384x1_0),
    StableHlo.TRef.nullary main_call1.c_1 (constantI S1 32 999999#32),
    StableHlo.TRef.nullary main_call1.c_2 (constantI S_ 32 0#32),
    StableHlo.TRef.unary main_call1.c_2 main_call1.v6 (broadcastInDim S16384x1 ![] bcast_S_S16384x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S16384x1 ![0, 1] bcast_S1x1_S16384x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x1_S16384_d1 h_S_),
    StableHlo.TRef.binary (.of main_arg2 : TRef sig ⟨S1000000x64, .f32⟩) main_call1.v5 main_call1.v13 (fun x i => Host.gather gather_S1000000x64_S16384x1_S16384x64_1_0_n_n_0_1_164 x i),
    StableHlo.TRef.unary main_call1.v12 main_call1.v14 (broadcastInDim S16384x64 ![0] bcast_S16384_S16384x64_0),
    StableHlo.TRef.nullary main_call1.cst (constant S_ .f32 0x7FC00000#32),
    StableHlo.TRef.unary main_call1.cst main_call1.v15 (broadcastInDim S16384x64 ![] bcast_S_S16384x64),
    StableHlo.TRef.ternary main_call1.v14 main_call1.v13 main_call1.v15 main_call1.v16 select ]

/-- The 30 operations after the lookups: the concatenation, the three layers and the logistic function. -/
abbrev opsLayers : List (HloOp τ sig (Elt F)) :=
  [ StableHlo.binary main_v0 main_v1 main_v2 ((fun a b => concatenate S16384x128 1 [⟨S16384x64, a⟩, ⟨S16384x64, b⟩] concatenates_S16384x64_S16384x64_S16384x128_d1) : (⟨S16384x64, .f32⟩ : BufTy).Contents (Elt F) → (⟨S16384x64, .f32⟩ : BufTy).Contents (Elt F) → (⟨S16384x128, .f32⟩ : BufTy).Contents (Elt F)),
    StableHlo.unary main_arg3 main_v3 ((transpose S128x128 [1, 0] · transposes_S128x128_S128x128_1_0) : (⟨S128x128, .f32⟩ : BufTy).Contents (Elt F) → (⟨S128x128, .f32⟩ : BufTy).Contents (Elt F)),
    StableHlo.binary main_v2 main_v3 main_v4 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    StableHlo.unary main_arg4 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S16384x128 ![0, 1] bcast_S1x128_S16384x128_0_1 : (⟨S1x128, .f32⟩ : BufTy).Contents (Elt F) → (⟨S16384x128, .f32⟩ : BufTy).Contents (Elt F)),
    StableHlo.binary main_v4 main_v6 main_v7 (addf : (⟨S16384x128, .f32⟩ : BufTy).Contents (Elt F) → (⟨S16384x128, .f32⟩ : BufTy).Contents (Elt F) → (⟨S16384x128, .f32⟩ : BufTy).Contents (Elt F)),
    StableHlo.TRef.nullary main_call2.cst (constant S_ .f32 0x00000000#32),
    StableHlo.TRef.unary main_call2.cst main_call2.v0 (broadcastInDim S16384x128 ![] bcast_S_S16384x128),
    StableHlo.TRef.binary (.of main_v7 : TRef sig ⟨S16384x128, .f32⟩) main_call2.v0 main_call2.v1 maximumf,
    StableHlo.unary main_arg5 main_v9 ((transpose S128x64 [1, 0] · transposes_S64x128_S128x64_1_0) : (⟨S64x128, .f32⟩ : BufTy).Contents (Elt F) → (⟨S128x64, .f32⟩ : BufTy).Contents (Elt F)),
    StableHlo.binary main_v8 main_v9 main_v10 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    StableHlo.unary main_arg6 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S16384x64 ![0, 1] bcast_S1x64_S16384x64_0_1 : (⟨S1x64, .f32⟩ : BufTy).Contents (Elt F) → (⟨S16384x64, .f32⟩ : BufTy).Contents (Elt F)),
    StableHlo.binary main_v10 main_v12 main_v13 (addf : (⟨S16384x64, .f32⟩ : BufTy).Contents (Elt F) → (⟨S16384x64, .f32⟩ : BufTy).Contents (Elt F) → (⟨S16384x64, .f32⟩ : BufTy).Contents (Elt F)),
    StableHlo.TRef.nullary main_call3.cst (constant S_ .f32 0x00000000#32),
    StableHlo.TRef.unary main_call3.cst main_call3.v0 (broadcastInDim S16384x64 ![] bcast_S_S16384x64),
    StableHlo.TRef.binary (.of main_v13 : TRef sig ⟨S16384x64, .f32⟩) main_call3.v0 main_call3.v1 maximumf,
    StableHlo.unary main_arg7 main_v15 ((transpose S64x1 [1, 0] · transposes_S1x64_S64x1_1_0) : (⟨S1x64, .f32⟩ : BufTy).Contents (Elt F) → (⟨S64x1, .f32⟩ : BufTy).Contents (Elt F)),
    StableHlo.binary main_v14 main_v15 main_v16 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    StableHlo.unary main_arg8 main_v17 (broadcastInDim S1x1 ![1] bcast_S1_S1x1_1 : (⟨S1, .f32⟩ : BufTy).Contents (Elt F) → (⟨S1x1, .f32⟩ : BufTy).Contents (Elt F)),
    StableHlo.unary main_v17 main_v18 (broadcastInDim S16384x1 ![0, 1] bcast_S1x1_S16384x1_0_1 : (⟨S1x1, .f32⟩ : BufTy).Contents (Elt F) → (⟨S16384x1, .f32⟩ : BufTy).Contents (Elt F)),
    StableHlo.binary main_v16 main_v18 main_v19 (addf : (⟨S16384x1, .f32⟩ : BufTy).Contents (Elt F) → (⟨S16384x1, .f32⟩ : BufTy).Contents (Elt F) → (⟨S16384x1, .f32⟩ : BufTy).Contents (Elt F)),
    StableHlo.unary main_v19 main_v20 (Host.negf : (⟨S16384x1, .f32⟩ : BufTy).Contents (Elt F) → (⟨S16384x1, .f32⟩ : BufTy).Contents (Elt F)),
    StableHlo.unary main_v20 main_v21 (Host.exp : (⟨S16384x1, .f32⟩ : BufTy).Contents (Elt F) → (⟨S16384x1, .f32⟩ : BufTy).Contents (Elt F)),
    StableHlo.nullary main_cst (constant S_ .f32 0x3F800000#32),
    StableHlo.unary main_cst main_v22 (broadcastInDim S16384x1 ![] bcast_S_S16384x1 : (⟨S_, .f32⟩ : BufTy).Contents (Elt F) → (⟨S16384x1, .f32⟩ : BufTy).Contents (Elt F)),
    StableHlo.binary main_v22 main_v21 main_v23 (addf : (⟨S16384x1, .f32⟩ : BufTy).Contents (Elt F) → (⟨S16384x1, .f32⟩ : BufTy).Contents (Elt F) → (⟨S16384x1, .f32⟩ : BufTy).Contents (Elt F)),
    StableHlo.nullary main_cst_0 (constant S_ .f32 0x3F800000#32),
    StableHlo.unary main_cst_0 main_v24 (broadcastInDim S16384x1 ![] bcast_S_S16384x1 : (⟨S_, .f32⟩ : BufTy).Contents (Elt F) → (⟨S16384x1, .f32⟩ : BufTy).Contents (Elt F)),
    StableHlo.binary main_v24 main_v23 main_v25 (Host.divf : (⟨S16384x1, .f32⟩ : BufTy).Contents (Elt F) → (⟨S16384x1, .f32⟩ : BufTy).Contents (Elt F) → (⟨S16384x1, .f32⟩ : BufTy).Contents (Elt F)) ]

theorem ops_split : (ops : List (HloOp τ sig (Elt F))) = opsLookup ++ opsLayers := rfl

/-- Running two lines one after the other folds the second from where the first ends. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end AnyFloat

section AtIdeal

-- the lookup's array operations are kept folded while the two sides are compared: the comparison is argument by
-- argument, through the typed references' transports (the identity at these literal references), and never looks
-- inside an operation, whose body is a search over the operand's elements
attribute [local irreducible] Host.reduce Host.gather select cmpi andi addi broadcastInDim constantI constant in
/-- After the lookups the first lookup's result buffer holds the looked-up rows of the first index array. -/
theorem lookup_v0 (V : Valuation τ sig (Elt Ideal)) :
    after (opsLookup (F := Ideal)) V (main_v0 : DevRef τ sig)
      = RefTerm.take (V (main_arg2 : DevRef τ sig)) (V (main_arg0 : DevRef τ sig)) := by
  after_results_simp
  rfl

attribute [local irreducible] Host.reduce Host.gather select cmpi andi addi broadcastInDim constantI constant in
/-- And the second's those of the second index array. -/
theorem lookup_v1 (V : Valuation τ sig (Elt Ideal)) :
    after (opsLookup (F := Ideal)) V (main_v1 : DevRef τ sig)
      = RefTerm.take (V (main_arg2 : DevRef τ sig)) (V (main_arg1 : DevRef τ sig)) := by
  after_results_simp
  rfl

/-- The lookups write none of the weight and bias buffers. -/
theorem lookup_arg3 (V : Valuation τ sig (Elt Ideal)) :
    after (opsLookup (F := Ideal)) V (main_arg3 : DevRef τ sig) = V (main_arg3 : DevRef τ sig) := by
  after_results_simp
theorem lookup_arg4 (V : Valuation τ sig (Elt Ideal)) :
    after (opsLookup (F := Ideal)) V (main_arg4 : DevRef τ sig) = V (main_arg4 : DevRef τ sig) := by
  after_results_simp
theorem lookup_arg5 (V : Valuation τ sig (Elt Ideal)) :
    after (opsLookup (F := Ideal)) V (main_arg5 : DevRef τ sig) = V (main_arg5 : DevRef τ sig) := by
  after_results_simp
theorem lookup_arg6 (V : Valuation τ sig (Elt Ideal)) :
    after (opsLookup (F := Ideal)) V (main_arg6 : DevRef τ sig) = V (main_arg6 : DevRef τ sig) := by
  after_results_simp
theorem lookup_arg7 (V : Valuation τ sig (Elt Ideal)) :
    after (opsLookup (F := Ideal)) V (main_arg7 : DevRef τ sig) = V (main_arg7 : DevRef τ sig) := by
  after_results_simp
theorem lookup_arg8 (V : Valuation τ sig (Elt Ideal)) :
    after (opsLookup (F := Ideal)) V (main_arg8 : DevRef τ sig) = V (main_arg8 : DevRef τ sig) := by
  after_results_simp

/-- After the remaining operations the result buffer holds the three layers and the logistic function of the
    two lookup results and the weights and biases. -/
theorem layers_v25 (W : Valuation τ sig (Elt Ideal)) :
    after (opsLayers (F := Ideal)) W (main_v25 : DevRef τ sig)
      = RefTerm.sigmoid (RefTerm.pre3 (RefTerm.relu64 (RefTerm.pre2 (RefTerm.relu128 (RefTerm.pre1
          (RefTerm.pair (W (main_v0 : DevRef τ sig)) (W (main_v1 : DevRef τ sig)))
          (W (main_arg3 : DevRef τ sig)) (W (main_arg4 : DevRef τ sig)))) (W (main_arg5 : DevRef τ sig)) (W (main_arg6 : DevRef τ sig)))) (W (main_arg7 : DevRef τ sig)) (W (main_arg8 : DevRef τ sig))) := by
  after_results_simp
  rfl

/-- The fold at the result buffer is the reference's term of the argument buffers' contents. -/
theorem out_eq (V : Valuation τ sig (Elt Ideal)) :
    after (ops (F := Ideal)) V (main_v25 : DevRef τ sig)
      = RefTerm.refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [ops_split, after_append, layers_v25, lookup_v0, lookup_v1, lookup_arg3, lookup_arg4, lookup_arg5, lookup_arg6,
    lookup_arg7, lookup_arg8]
  rfl

/-- No operation writes an argument buffer. -/
theorem arg0_eq (V : Valuation τ sig (Elt Ideal)) :
    after (ops (F := Ideal)) V (main_arg0 : DevRef τ sig) = V (main_arg0 : DevRef τ sig) := by
  after_results_simp
theorem arg1_eq (V : Valuation τ sig (Elt Ideal)) :
    after (ops (F := Ideal)) V (main_arg1 : DevRef τ sig) = V (main_arg1 : DevRef τ sig) := by
  after_results_simp
theorem arg2_eq (V : Valuation τ sig (Elt Ideal)) :
    after (ops (F := Ideal)) V (main_arg2 : DevRef τ sig) = V (main_arg2 : DevRef τ sig) := by
  after_results_simp
theorem arg3_eq (V : Valuation τ sig (Elt Ideal)) :
    after (ops (F := Ideal)) V (main_arg3 : DevRef τ sig) = V (main_arg3 : DevRef τ sig) := by
  after_results_simp
theorem arg4_eq (V : Valuation τ sig (Elt Ideal)) :
    after (ops (F := Ideal)) V (main_arg4 : DevRef τ sig) = V (main_arg4 : DevRef τ sig) := by
  after_results_simp
theorem arg5_eq (V : Valuation τ sig (Elt Ideal)) :
    after (ops (F := Ideal)) V (main_arg5 : DevRef τ sig) = V (main_arg5 : DevRef τ sig) := by
  after_results_simp
theorem arg6_eq (V : Valuation τ sig (Elt Ideal)) :
    after (ops (F := Ideal)) V (main_arg6 : DevRef τ sig) = V (main_arg6 : DevRef τ sig) := by
  after_results_simp
theorem arg7_eq (V : Valuation τ sig (Elt Ideal)) :
    after (ops (F := Ideal)) V (main_arg7 : DevRef τ sig) = V (main_arg7 : DevRef τ sig) := by
  after_results_simp
theorem arg8_eq (V : Valuation τ sig (Elt Ideal)) :
    after (ops (F := Ideal)) V (main_arg8 : DevRef τ sig) = V (main_arg8 : DevRef τ sig) := by
  after_results_simp

/-- On every device, from any memory with zero counters: every weakly fair execution of the reference's entry
    function terminates with the result buffer at the reference's term of the arguments' launch contents, and
    the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v25) = RefTerm.refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v25).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_fold m g)

/-- The reference runs and its argument arrays end unchanged: the run's second half, under any precondition. -/
theorem frame [Cert.Pre_input_domain.Facts] : Cert.frame_ReferenceIdeal :=
  fun m ρ _ => (θ_run Cert.ReferenceIdeal.defs _ _).mono (fun _ h c => (h c).2) (run m ρ)

end AtIdeal

end Cert.Proof.RefRun

end
-- ==== Proof.LibTakeRows2.lean ====
/-
  Rows taken out of a table by a column of row numbers. A gather whose operand is a table of `N` rows of `D`
  entries, whose start indices are an `R × 1` array of row numbers (one per result row, on a trailing unit axis
  that is the index vector's) and whose slices are whole rows — a lookup of whole rows by a flat array of row
  numbers — reads, at `(r, k)`, entry `k` of the row the start index at `(r, 0)` names: the index
  read as a signed integer and clamped into `[0, N − 1]`. When the word already lies in that range, read unsigned,
  the clamp is the identity.
-/
import Idealize.ShloMosaic.Lib.ValueIdx
import Idealize.ShloMosaic.PureOps

noncomputable section

namespace Cert.LibTakeRows2

open Idealize.ShloMosaic Idealize.ShloMosaic.ValueIdx

variable {α : Type}

/-- The dimension numbers of a gather of whole rows at a column of start indices: the result's last axis runs
    along a row (the one offset axis), the table's row axis is collapsed and is the one axis a start index names,
    and the start indices carry their single component on a trailing unit axis. -/
abbrev rowsDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- THE GATHER OF ROWS READ AT `(r, k)`: entry `k` of the table's row at the start index `idx[r, 0]`, read
    signed and clamped into `[0, N − 1]`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (k : Fin D) :
    Host.gather (rowsDims N D R wf) x idx (ix2 r k)
      = x (ix2 ⟨min (idx (ix2 r (0 : Fin 1))).toInt.toNat (N - 1), by omega⟩ k) := by
  unfold Host.gather
  congr 1
  funext a
  refine Fin.ext ?_
  match a with
  | ⟨0, _⟩ =>
    show (rowsDims N D R wf).start (ix2 r k) idx 0 + (rowsDims N D R wf).batchCoord (ix2 r k) 0
        + (rowsDims N D R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D R wf).startIndexMap from List.mem_singleton.mpr rfl)]
    have hsi : (rowsDims N D R wf).siIdx (ix2 r k) ⟨List.idxOf (0 : Fin 2) (rowsDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N D R wf).start (ix2 r k) idx 1 + (rowsDims N D R wf).batchCoord (ix2 r k) 1
        + (rowsDims N D R wf).offCoord (ix2 r k) 1 = k.val
    rw [GatherDims.batchCoord_eq_zero _ _ _ List.not_mem_nil]
    unfold GatherDims.start
    rw [dif_neg (show (1 : Fin 2) ∉ (rowsDims N D R wf).startIndexMap from (by decide : (1 : Fin 2) ∉ ([0] : List (Fin 2))))]
    unfold GatherDims.offCoord
    rw [dif_pos (show (1 : Fin 2) ∈ (rowsDims N D R wf).sKept from
      (GatherDims.mem_sKept _ _).mpr ⟨(by decide : (1 : Fin 2) ∉ ([0] : List (Fin 2))), List.not_mem_nil⟩)]
    simp only [Nat.zero_add, Nat.add_zero]
    rfl

/-- A 32-bit word whose unsigned value is below `N ≤ 2³¹` is non-negative read signed, and is its own clamp into
    `[0, N − 1]`. -/
theorem clamp_of_lt {N : Nat} (hN : N ≤ 2147483648) (v : BitVec 32) (h : v.toNat < N) :
    min v.toInt.toNat (N - 1) = v.toNat := by
  have e : v.toInt = (v.toNat : Int) := by
    rw [BitVec.toInt_eq_toNat_cond]
    rw [if_pos (by omega)]
  rw [e]
  omega

end Cert.LibTakeRows2

end
-- ==== Proof.LibAllOnes.lean ====
/-
  A conjunction that comes out true. A one-operand reduce by `and` over one-bit words, started from a true
  initial value, is true at every result index when every element of the operand is true: the fold meets
  only ones. (The converse direction, from a true result to true elements, is the library's.)
-/
import Idealize.ShloMosaic.PureOps
import Idealize.ShloMosaic.PureOps.Reduce

noncomputable section

namespace Cert.LibAllOnes

open Idealize.ShloMosaic

/-- A left fold by `and` from one over a list whose every element is one is one. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (by simp), show IntOp.andi (1#1 : BitVec 1) 1#1 = 1#1 from by decide]
    exact foldl_andi_one f l fun n hn => h n (List.mem_cons_of_mem _ hn)

/-- A reduce by `and` from a true initial value over an operand that is true everywhere is true everywhere. -/
theorem reduce_andi_of_all {s t u : Shape} {axes : List (Fin s.rank)} (x : s.Idx → BitVec 1) (init : u.Idx → BitVec 1)
    (h : s.ReducesTo axes t) (hu : 0 < u.numel) (j : t.Idx)
    (hi : init (Shape.Idx.first hu) = 1#1) (hx : ∀ i, x i = 1#1) : Host.reduce IntOp.andi x init h hu j = 1#1 := by
  rw [Host.reduce_eq_foldl, hi]
  exact foldl_andi_one x _ fun n _ => hx n

end Cert.LibAllOnes

end
-- ==== Proof.TakeRows.lean ====
/-
  The reference's row lookup read at an entry. Under the precondition every index word is, read unsigned, below
  the table's height 1000000, hence non-negative read signed and at most 999999. So the shift of negative words
  changes nothing, both comparisons of the bounds check are true on every row and their conjunction reduces to
  true, the gather's clamp into `[0, 999999]` is the identity, and the select keeps the gathered row: entry
  `(r, k)` of the lookup is entry `k` of the table row that word `r` names.
-/
import proofs.«205169_g39805756899661_cont_8to1_b_81_27_alg».proof.Proof.RefTerm
import proofs.«205169_g39805756899661_cont_8to1_b_81_27_alg».proof.Proof.Spec
import proofs.«205169_g39805756899661_cont_8to1_b_81_27_alg».proof.Proof.LibTakeRows2
import proofs.«205169_g39805756899661_cont_8to1_b_81_27_alg».proof.Proof.LibAllOnes
import Idealize.ShloMosaic.Lib.IdealHost
import Idealize.ShloMosaic.Lib.Pipeline.Value

noncomputable section

namespace Cert.Proof.TakeRows

open Idealize.ShloMosaic Idealize.ShloMosaic.ValueIdx Cert.ReferenceIdeal Cert.ReferenceIdeal.Facts₀ Cert.Proof

/-! ## Words below the table's height -/

/-- Such a word is its unsigned value when read signed. -/
theorem toInt_of_lt {v : BitVec 32} (h : v.toNat < 1000000) : v.toInt = (v.toNat : Int) := by
  rw [BitVec.toInt_eq_toNat_cond, if_pos (by omega)]

/-- It is not below zero. -/
theorem cmpi_slt_zero {v : BitVec 32} (h : v.toNat < 1000000) : IntOp.cmpi .slt v 0#32 = 0#1 := by
  have e : v.slt 0#32 = false := by
    unfold BitVec.slt
    rw [toInt_of_lt h]
    exact decide_eq_false (by have : (0#32 : BitVec 32).toInt = 0 := rfl; omega)
  show BitVec.ofBool (v.slt 0#32) = 0#1
  rw [e]; rfl

/-- It is at least zero. -/
theorem cmpi_sge_zero {v : BitVec 32} (h : v.toNat < 1000000) : IntOp.cmpi .sge v 0#32 = 1#1 := by
  have e : (0#32 : BitVec 32).sle v = true := by
    unfold BitVec.sle
    rw [toInt_of_lt h]
    exact decide_eq_true (by have : (0#32 : BitVec 32).toInt = 0 := rfl; omega)
  show BitVec.ofBool ((0#32 : BitVec 32).sle v) = 1#1
  rw [e]; rfl

/-- It is at most the last row's number. -/
theorem cmpi_sle_max {v : BitVec 32} (h : v.toNat < 1000000) : IntOp.cmpi .sle v 999999#32 = 1#1 := by
  have e : v.sle 999999#32 = true := by
    unfold BitVec.sle
    rw [toInt_of_lt h]
    exact decide_eq_true (by have : (999999#32 : BitVec 32).toInt = 999999 := by decide
                             omega)
  show BitVec.ofBool (v.sle 999999#32) = 1#1
  rw [e]; rfl

/-! ## The lookup's pieces -/

variable [Cert.ReferenceIdeal.Facts]

/-- No word is negative, so the shift of the negative ones is the identity. -/
theorem wrapIdx_eq (idx : IVec S16384 32) (h : Spec.InRange idx) : RefTerm.wrapIdx idx = idx := by
  funext i
  obtain ⟨r, rfl⟩ : ∃ r : Fin 16384, i = ix1 r := ⟨i 0, eq_ix1 i⟩
  unfold RefTerm.wrapIdx
  rw [select_apply]
  have e : cmpi .slt idx (broadcastInDim S16384 ![] bcast_S_S16384 (constantI S_ 32 0#32)) (ix1 r) = 0#1 :=
    cmpi_slt_zero (h r)
  rw [e, select_zero]

/-- The one-column array of start indices at row `r` is word `r`. -/
theorem idxCol_apply (idx : IVec S16384 32) (h : Spec.InRange idx) (r : Fin 16384) (c : Fin 1) :
    RefTerm.idxCol idx (ix2 r c) = idx (ix1 r) := by
  unfold RefTerm.idxCol
  rw [wrapIdx_eq idx h]
  exact broadcastInDim_apply _ _ _ _ (ix1 r) (fun a => match a with | ⟨0, _⟩ => rfl)

/-- Every row passes the bounds check. -/
theorem inBounds_eq (idx : IVec S16384 32) (h : Spec.InRange idx) (j : S16384.Idx) : RefTerm.inBounds idx j = 1#1 := by
  unfold RefTerm.inBounds
  refine LibAllOnes.reduce_andi_of_all _ _ _ _ j rfl (fun i => ?_)
  obtain ⟨r, c, rfl⟩ : ∃ (r : Fin 16384) (c : Fin 1), i = ix2 r c := ⟨i 0, i 1, eq_ix2 i⟩
  have hv : (RefTerm.idxCol idx (ix2 r c)).toNat < 1000000 := by rw [idxCol_apply idx h]; exact h r
  show IntOp.andi (IntOp.cmpi .sge (RefTerm.idxCol idx (ix2 r c)) 0#32)
      (IntOp.cmpi .sle (RefTerm.idxCol idx (ix2 r c)) 999999#32) = 1#1
  rw [cmpi_sge_zero hv, cmpi_sle_max hv]; rfl

/-- The gather at `(r, k)` is entry `k` of the table row that word `r` names. -/
theorem gather_apply (table : FVec Ideal S1000000x64 .f32) (idx : IVec S16384 32) (h : Spec.InRange idx)
    (r : Fin 16384) (k : Fin 64) :
    Host.gather gather_S1000000x64_S16384x1_S16384x64_1_0_n_n_0_1_164 table (RefTerm.idxCol idx) (ix2 r k)
      = Spec.emb table idx r k := by
  refine (LibTakeRows2.gather_rows_apply (N := 1000000) (D := 64) (R := 16384) (by decide)
    gather_S1000000x64_S16384x1_S16384x64_1_0_n_n_0_1_164_wf table (RefTerm.idxCol idx) r k).trans ?_
  show table _ = table (ix2 (Spec.rowOf (idx (ix1 r))) k)
  congr 2
  refine Fin.ext ?_
  show min (RefTerm.idxCol idx (ix2 r (0 : Fin 1))).toInt.toNat (1000000 - 1) = (Spec.rowOf (idx (ix1 r))).val
  rw [idxCol_apply idx h, LibTakeRows2.clamp_of_lt (by decide) _ (h r), Spec.rowOf_val_of_lt (h r)]

/-- THE LOOKUP READ AT `(r, k)`: entry `k` of the table row that word `r` names. -/
theorem take_apply (table : FVec Ideal S1000000x64 .f32) (idx : IVec S16384 32) (h : Spec.InRange idx)
    (r : Fin 16384) (k : Fin 64) : RefTerm.take table idx (ix2 r k) = Spec.emb table idx r k := by
  unfold RefTerm.take
  rw [select_apply]
  have hm : broadcastInDim S16384x64 ![0] bcast_S16384_S16384x64_0 (RefTerm.inBounds idx) (ix2 r k) = 1#1 := by
    unfold broadcastInDim; exact inBounds_eq idx h _
  rw [hm, select_one]
  exact gather_apply table idx h r k

end Cert.Proof.TakeRows

end
-- ==== Proof.DenseLayers.lean ====
/-
  The reference's layers read at an entry. A layer is a contraction of the rows against the transposed weight
  matrix plus the bias broadcast over the rows: entry `(r, q)` is `Σ_k x(r, k) · W(q, k) + b(q)`. The rectifier is
  the maximum with the zero constant; the output's `1 / (1 + exp (-x))`, each `1` a constant, is the logistic
  function by definition. The concatenation of two 64-wide arrays along the columns reads the first below column
  64 and the second from there on, and a sum over 128 columns is the sum over the first 64 plus the sum over the
  last 64 — an identity of any commutative monoid.
-/
import proofs.«205169_g39805756899661_cont_8to1_b_81_27_alg».proof.Proof.RefTerm
import proofs.«205169_g39805756899661_cont_8to1_b_81_27_alg».proof.Proof.LibPlainMatmul
import Idealize.ShloMosaic.Lib.IdealHost
import Idealize.ShloMosaic.Lib.Pipeline.Value

noncomputable section

namespace Cert.Proof.DenseLayers

open Idealize.ShloMosaic Idealize.ShloMosaic.ValueIdx Cert.ReferenceIdeal Cert.ReferenceIdeal.Facts₀ Cert.Proof

/-- A sum over 128 terms is the sum of its first 64 plus the sum of its last 64. -/
theorem sum_halves {M : Type*} [AddCommMonoid M] (f : Fin 128 → M) :
    (∑ k : Fin 128, f k)
      = (∑ k : Fin 64, f (⟨k.val, by omega⟩ : Fin 128)) + (∑ k : Fin 64, f (⟨64 + k.val, by omega⟩ : Fin 128)) :=
  Fin.sum_univ_add (a := 64) (b := 64) f

variable [Cert.ReferenceIdeal.Facts]

/-- Below column 64 the concatenation reads its first piece. -/
theorem pair_left (a b : FVec Ideal S16384x64 .f32) (r : Fin 16384) (k : Fin 64) :
    RefTerm.pair a b (ix2 r (⟨k.val, by omega⟩ : Fin 128)) = a (ix2 r k) := by
  unfold RefTerm.pair
  exact concatenate_pair_apply_left (t := S16384x128) 1 a b concatenates_S16384x64_S16384x64_S16384x128_d1
    (ix2 r (⟨k.val, by omega⟩ : Fin 128)) rfl (ix2 r k) (fun c => match c with | ⟨0, _⟩ => rfl | ⟨1, _⟩ => rfl)

/-- From column 64 on it reads its second piece, 64 columns to the left. -/
theorem pair_right (a b : FVec Ideal S16384x64 .f32) (r : Fin 16384) (k : Fin 64) :
    RefTerm.pair a b (ix2 r (⟨64 + k.val, by omega⟩ : Fin 128)) = b (ix2 r k) := by
  unfold RefTerm.pair
  exact concatenate_pair_apply_right (t := S16384x128) 1 a b concatenates_S16384x64_S16384x64_S16384x128_d1
    (ix2 r (⟨64 + k.val, by omega⟩ : Fin 128)) rfl rfl (ix2 r k)
    (fun c => match c with | ⟨0, _⟩ => fun _ => rfl | ⟨1, _⟩ => fun hne => absurd rfl hne)
    (by show k.val + 64 = 64 + k.val; omega)

/-- The first layer before its rectifier at `(r, n)`. -/
theorem pre1_apply (x : FVec Ideal S16384x128 .f32) (W1 : FVec Ideal S128x128 .f32) (b1 : FVec Ideal S128 .f32)
    (r : Fin 16384) (n : Fin 128) :
    RefTerm.pre1 x W1 b1 (ix2 r n) = (∑ k : Fin 128, x (ix2 r k) * W1 (ix2 n k)) + b1 (ix1 n) := by
  unfold RefTerm.pre1
  rw [addf_apply]
  congr 1
  · refine (PlainMatmul.dotGeneral_apply dot_S16384x128_S128x128_S16384x128_1_0_0_1_n_n_wf none .single x
      (transpose S128x128 [1, 0] W1 transposes_S128x128_S128x128_1_0) r n).trans ?_
    refine Finset.sum_congr rfl fun k _ => ?_
    congr 1
    exact transpose_apply _ _ _ (ix2 k n) (ix2 n k) (fun c => match c with | ⟨0, _⟩ => rfl | ⟨1, _⟩ => rfl)
  · refine (broadcastInDim_apply _ _ _ (ix2 r n) (ix2 (0 : Fin 1) n)
      (fun c => match c with | ⟨0, _⟩ => rfl | ⟨1, _⟩ => rfl)).trans ?_
    exact broadcastInDim_apply _ _ _ (ix2 (0 : Fin 1) n) (ix1 n) (fun c => match c with | ⟨0, _⟩ => rfl)

/-- The second layer before its rectifier at `(r, q)`. -/
theorem pre2_apply (h : FVec Ideal S16384x128 .f32) (W2 : FVec Ideal S64x128 .f32) (b2 : FVec Ideal S64 .f32)
    (r : Fin 16384) (q : Fin 64) :
    RefTerm.pre2 h W2 b2 (ix2 r q) = (∑ n : Fin 128, h (ix2 r n) * W2 (ix2 q n)) + b2 (ix1 q) := by
  unfold RefTerm.pre2
  rw [addf_apply]
  congr 1
  · refine (PlainMatmul.dotGeneral_apply dot_S16384x128_S128x64_S16384x64_1_0_0_1_n_n_wf none .single h
      (transpose S128x64 [1, 0] W2 transposes_S64x128_S128x64_1_0) r q).trans ?_
    refine Finset.sum_congr rfl fun n _ => ?_
    congr 1
    exact transpose_apply _ _ _ (ix2 n q) (ix2 q n) (fun c => match c with | ⟨0, _⟩ => rfl | ⟨1, _⟩ => rfl)
  · refine (broadcastInDim_apply _ _ _ (ix2 r q) (ix2 (0 : Fin 1) q)
      (fun c => match c with | ⟨0, _⟩ => rfl | ⟨1, _⟩ => rfl)).trans ?_
    exact broadcastInDim_apply _ _ _ (ix2 (0 : Fin 1) q) (ix1 q) (fun c => match c with | ⟨0, _⟩ => rfl)

/-- The output layer's argument at `(r, 0)`. -/
theorem pre3_apply (h : FVec Ideal S16384x64 .f32) (W3 : FVec Ideal S1x64 .f32) (b3 : FVec Ideal S1 .f32)
    (r : Fin 16384) :
    RefTerm.pre3 h W3 b3 (ix2 r (0 : Fin 1))
      = (∑ q : Fin 64, h (ix2 r q) * W3 (ix2 (0 : Fin 1) q)) + b3 (ix1 (0 : Fin 1)) := by
  unfold RefTerm.pre3
  rw [addf_apply]
  congr 1
  · refine (PlainMatmul.dotGeneral_apply dot_S16384x64_S64x1_S16384x1_1_0_0_1_n_n_wf none .single h
      (transpose S64x1 [1, 0] W3 transposes_S1x64_S64x1_1_0) r (0 : Fin 1)).trans ?_
    refine Finset.sum_congr rfl fun q _ => ?_
    congr 1
    exact transpose_apply _ _ _ (ix2 q (0 : Fin 1)) (ix2 (0 : Fin 1) q)
      (fun c => match c with | ⟨0, _⟩ => rfl | ⟨1, _⟩ => rfl)
  · refine (broadcastInDim_apply _ _ _ (ix2 r (0 : Fin 1)) (ix2 (0 : Fin 1) (0 : Fin 1))
      (fun c => match c with | ⟨0, _⟩ => rfl | ⟨1, _⟩ => rfl)).trans ?_
    exact broadcastInDim_apply _ _ _ (ix2 (0 : Fin 1) (0 : Fin 1)) (ix1 (0 : Fin 1))
      (fun c => match c with | ⟨0, _⟩ => rfl)

/-- The rectifier on `[16384, 128]` at an index: the maximum with zero. -/
theorem relu128_apply (x : FVec Ideal S16384x128 .f32) (j : S16384x128.Idx) : RefTerm.relu128 x j = max (x j) 0 := by
  unfold RefTerm.relu128
  rw [maximumf_apply, broadcastInDim_scalar_apply, constant_apply, Ideal.ofBits_zero_f32]

/-- The rectifier on `[16384, 64]` at an index. -/
theorem relu64_apply (x : FVec Ideal S16384x64 .f32) (j : S16384x64.Idx) : RefTerm.relu64 x j = max (x j) 0 := by
  unfold RefTerm.relu64
  rw [maximumf_apply, broadcastInDim_scalar_apply, constant_apply, Ideal.ofBits_zero_f32]

/-- `1 / (1 + exp (-x))` at an index is the logistic function of the element. -/
theorem sigmoid_apply (x : FVec Ideal S16384x1 .f32) (j : S16384x1.Idx) :
    RefTerm.sigmoid x j = Ideal.logistic (x j) := by
  unfold RefTerm.sigmoid
  rw [hostDivf_apply, addf_apply, broadcastInDim_scalar_apply, constant_apply, Ideal.ofBits_one_f32]
  rfl

end Cert.Proof.DenseLayers

end
-- ==== Proof.RefValue.lean ====
/-
  The reference's value is the specification. Read at row `r`, the composed reference term looks up the two table
  rows the index words name, feeds their concatenation to the first layer — whose sum over 128 columns splits into
  the sum over the first row's 64 entries plus the sum over the second row's — then applies the second layer and
  the output layer with its logistic function: entry by entry the function `Spec.out`.
-/
import proofs.«205169_g39805756899661_cont_8to1_b_81_27_alg».proof.Proof.RefTerm
import proofs.«205169_g39805756899661_cont_8to1_b_81_27_alg».proof.Proof.Spec
import proofs.«205169_g39805756899661_cont_8to1_b_81_27_alg».proof.Proof.TakeRows
import proofs.«205169_g39805756899661_cont_8to1_b_81_27_alg».proof.Proof.DenseLayers

noncomputable section

namespace Cert.Proof.RefValue

open Idealize.ShloMosaic Idealize.ShloMosaic.ValueIdx Cert.ReferenceIdeal Cert.Proof

variable [Cert.ReferenceIdeal.Facts]

/-- Unit `n` of the reference's first hidden layer at row `r` is the specification's. -/
theorem hidden1_apply (ia ib : IVec S16384 32) (table : FVec Ideal S1000000x64 .f32)
    (W1 : FVec Ideal S128x128 .f32) (b1 : FVec Ideal S128 .f32)
    (ha : Spec.InRange ia) (hb : Spec.InRange ib) (r : Fin 16384) (n : Fin 128) :
    RefTerm.relu128 (RefTerm.pre1 (RefTerm.pair (RefTerm.take table ia) (RefTerm.take table ib)) W1 b1) (ix2 r n)
      = Spec.hidden1 (Spec.emb table ia r) (Spec.emb table ib r) W1 b1 n := by
  rw [DenseLayers.relu128_apply, DenseLayers.pre1_apply, DenseLayers.sum_halves]
  unfold Spec.hidden1
  simp only [DenseLayers.pair_left, DenseLayers.pair_right, TakeRows.take_apply table ia ha,
    TakeRows.take_apply table ib hb]

/-- Unit `q` of the reference's second hidden layer at row `r` is the specification's. -/
theorem hidden2_apply (ia ib : IVec S16384 32) (table : FVec Ideal S1000000x64 .f32)
    (W1 : FVec Ideal S128x128 .f32) (b1 : FVec Ideal S128 .f32)
    (W2 : FVec Ideal S64x128 .f32) (b2 : FVec Ideal S64 .f32)
    (ha : Spec.InRange ia) (hb : Spec.InRange ib) (r : Fin 16384) (q : Fin 64) :
    RefTerm.relu64 (RefTerm.pre2 (RefTerm.relu128
        (RefTerm.pre1 (RefTerm.pair (RefTerm.take table ia) (RefTerm.take table ib)) W1 b1)) W2 b2) (ix2 r q)
      = Spec.hidden2 (Spec.hidden1 (Spec.emb table ia r) (Spec.emb table ib r) W1 b1) W2 b2 q := by
  rw [DenseLayers.relu64_apply, DenseLayers.pre2_apply]
  unfold Spec.hidden2
  simp only [hidden1_apply ia ib table W1 b1 ha hb]

/-- THE REFERENCE'S VALUE: under the precondition on the two index arrays the composed reference term is the
    specification's function of the nine argument arrays. -/
theorem refTerm_eq_spec (ia ib : IVec S16384 32) (table : FVec Ideal S1000000x64 .f32)
    (W1 : FVec Ideal S128x128 .f32) (b1 : FVec Ideal S128 .f32)
    (W2 : FVec Ideal S64x128 .f32) (b2 : FVec Ideal S64 .f32)
    (W3 : FVec Ideal S1x64 .f32) (b3 : FVec Ideal S1 .f32)
    (ha : Spec.InRange ia) (hb : Spec.InRange ib) :
    RefTerm.refTerm ia ib table W1 b1 W2 b2 W3 b3 = Spec.out ia ib table W1 b1 W2 b2 W3 b3 := by
  funext j
  obtain ⟨r, c, rfl⟩ : ∃ (r : Fin 16384) (c : Fin 1), j = ix2 r c := ⟨j 0, j 1, eq_ix2 j⟩
  obtain rfl : c = 0 := Subsingleton.elim _ _
  unfold RefTerm.refTerm
  rw [DenseLayers.sigmoid_apply, DenseLayers.pre3_apply]
  simp only [hidden2_apply ia ib table W1 b1 W2 b2 ha hb]
  rfl

end Cert.Proof.RefValue

end
-- ==== Proof.PreRange.lean ====
/-
  The precondition's two integer conjuncts, read back.

  The precondition is one conjunction of nine "every entry satisfies …" statements: seven say that every float
  entry is finite, and the last two say, of each of the two index arrays, that every entry w satisfies
  0 ≤ w and w ≤ 999999 as SIGNED 32-bit words.  A word that is nonnegative signed reads the same signed and
  unsigned, so such a word is below 1000000 as a natural number: it names a row of the table.  The float
  conjuncts are not opened, so the statement holds at every float instance.
-/
import proofs.«205169_g39805756899661_cont_8to1_b_81_27_alg».proof.Proof.Gen.Pre_input_domain
import proofs.«205169_g39805756899661_cont_8to1_b_81_27_alg».proof.Proof.Spec
import Idealize.ShloMosaic.Lib.ReduceAll

noncomputable section

namespace Cert.Proof.PreRange

open Idealize.ShloMosaic Idealize.ShloMosaic.ValueIdx
open Cert.Pre_input_domain

/-- The rank-0 shape has one index. -/
instance subsingleton_scalar_idx : Subsingleton S_.Idx := ⟨fun a b => funext fun d => d.elim0⟩

/-- A 32-bit word in [0, 999999] signed is below 1000000 unsigned. -/
theorem toNat_lt_of_signed_range (w : BitVec 32) (h0 : IntOp.cmpi .sge w 0#32 = 1#1)
    (h1 : IntOp.cmpi .sle w 999999#32 = 1#1) : w.toNat < 1000000 := by
  rw [IntOp.cmpi_sge, show (0#32 : BitVec 32).toInt = 0 from by decide] at h0
  rw [IntOp.cmpi_sle, show (999999#32 : BitVec 32).toInt = 999999 from by decide] at h1
  have hx : 2 * w.toNat < 2 ^ 32 := BitVec.toInt_pos_iff.mp h0
  rw [BitVec.toInt_eq_toNat_of_lt hx] at h1
  omega

/-- One "every entry of the index array is in [0, 999999]" conjunct, read back at every entry. -/
theorem inRange_of_all [Facts] (a : IVec S16384 32)
    (h : Host.reduce IntOp.andi
          (andi (cmpi .sge a (broadcastInDim S16384 ![] Facts.bcast_S_S16384 (constantI S_ 32 0#32)))
                (cmpi .sle a (broadcastInDim S16384 ![] Facts.bcast_S_S16384 (constantI S_ 32 999999#32))))
          (constantI S_ 1 1#1) Facts.reducesTo_S16384_S_d0 Facts.h_S_ ix0 = 1#1) :
    Cert.Spec.InRange a := by
  intro r
  have hr := Host.reduce_andi_all _ _ _ _ _ h (ix1 r)
  have hr' : IntOp.andi (IntOp.cmpi .sge (a (ix1 r)) 0#32) (IntOp.cmpi .sle (a (ix1 r)) 999999#32) = 1#1 := hr
  obtain ⟨h0, h1⟩ := IntOp.andi_eq_one.1 hr'
  exact toNat_lt_of_signed_range _ h0 h1

/-- Under the precondition both index arrays hold only words in [0, 999999]: every entry names a table row. -/
theorem inRange_of_pre {F : FTy → Type} [FloatOps F] [Facts] (a0 a1 : IVec S16384 32)
    (a2 : FVec F S1000000x64 .f32) (a3 : FVec F S128x128 .f32) (a4 : FVec F S128 .f32) (a5 : FVec F S64x128 .f32)
    (a6 : FVec F S64 .f32) (a7 : FVec F S1x64 .f32) (a8 : FVec F S1 .f32)
    (h : Cert.Pre_input_domain.fn (F := F) a0 a1 a2 a3 a4 a5 a6 a7 a8 = fun _ => 1#1) :
    Cert.Spec.InRange a0 ∧ Cert.Spec.InRange a1 := by
  have e := congrFun h ix0
  dsimp only [Cert.Pre_input_domain.fn, Cert.Pre_input_domain.fn_part1, Cert.Pre_input_domain.fn_part2] at e
  -- the last two conjuncts of the conjunction, outermost first
  obtain ⟨e40, e46⟩ := IntOp.andi_eq_one.1 e
  obtain ⟨-, e39⟩ := IntOp.andi_eq_one.1 e40
  exact ⟨inRange_of_all a0 e39, inRange_of_all a1 e46⟩

end Cert.Proof.PreRange

end
-- ==== Proof.Final.lean ====
/-
  The certificate's claim from the two runs of the kernel.

  Both programs compute the specification's function `Cert.Spec.out` of the nine argument arrays whenever the
  two index arrays hold only words in `[0, 999999]`, which is what the precondition says of them. For the
  reference this is its run (the result buffer ends at the reference's composed term) followed by that term's
  value under the range condition. For the idealized kernel it is its run — stated here as a hypothesis: the
  result buffer ends at the blockwise perceptron of the two gathered arrays, each gathered array the table's
  rows that the index array names — followed by the blockwise perceptron's value. The two results are then the
  same array, and every run leaves the arguments as they were. The kernel as printed is only claimed to run
  and to leave its arguments unchanged, which is its run's hypothesis as it stands.
-/
import proofs.«205169_g39805756899661_cont_8to1_b_81_27_alg».proof.Defs
import proofs.«205169_g39805756899661_cont_8to1_b_81_27_alg».proof.Proof.Gen.Kernel
import proofs.«205169_g39805756899661_cont_8to1_b_81_27_alg».proof.Proof.Gen.KernelIdeal
import proofs.«205169_g39805756899661_cont_8to1_b_81_27_alg».proof.Proof.Gen.ReferenceIdeal
import proofs.«205169_g39805756899661_cont_8to1_b_81_27_alg».proof.Proof.Gen.Pre_input_domain
import proofs.«205169_g39805756899661_cont_8to1_b_81_27_alg».proof.Proof.Spec
import proofs.«205169_g39805756899661_cont_8to1_b_81_27_alg».proof.Proof.RefRun
import proofs.«205169_g39805756899661_cont_8to1_b_81_27_alg».proof.Proof.RefValue
import proofs.«205169_g39805756899661_cont_8to1_b_81_27_alg».proof.Proof.KernelOut
import proofs.«205169_g39805756899661_cont_8to1_b_81_27_alg».proof.Proof.PreRange
import proofs.«205169_g39805756899661_cont_8to1_b_81_27_alg».proof.Proof.Sc.TileSpec

noncomputable section

namespace Cert.Proof.Final

open Idealize.ShloMosaic Idealize.SL.Sem

/-- The idealized kernel's run: from any memory whose two index arrays are in range (zero counters), every
    weakly fair execution terminates with the result buffer at the blockwise perceptron of the two gathered
    arrays and the weights and biases, and the nine arguments unchanged. -/
def KernelRunIdeal : Prop :=
  ∀ (m : (ℓ : Loc Cert.KernelIdeal.nD Cert.KernelIdeal.τ Cert.KernelIdeal.sig) → Buf (Elt Ideal) ℓ) (g : Dev Cert.KernelIdeal.nD → PrngReg),
    (∀ c : Dev Cert.KernelIdeal.nD, Cert.Spec.InRange (m ((c.tc : Thread Cert.KernelIdeal.nD Cert.KernelIdeal.τ).loc Cert.KernelIdeal.main_arg0)) ∧ Cert.Spec.InRange (m ((c.tc : Thread Cert.KernelIdeal.nD Cert.KernelIdeal.τ).loc Cert.KernelIdeal.main_arg1))) →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_v10)
          = Cert.Proof.KernelOut.kernelOut
              (Cert.Proof.ScI.gath (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg0)))
              (Cert.Proof.ScI.gath (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg1)))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
              (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

/-- The printed kernel's run: from any memory whose two index arrays are in range (zero counters), every
    weakly fair execution terminates with the nine arguments unchanged. -/
def KernelRunBits : Prop :=
  ∀ (m : (ℓ : Loc Cert.Kernel.nD Cert.Kernel.τ Cert.Kernel.sig) → Buf (Elt Bits) ℓ) (g : Dev Cert.Kernel.nD → PrngReg),
    (∀ c : Dev Cert.Kernel.nD, Cert.Spec.InRange (m ((c.tc : Thread Cert.Kernel.nD Cert.Kernel.τ).loc Cert.Kernel.main_arg0)) ∧ Cert.Spec.InRange (m ((c.tc : Thread Cert.Kernel.nD Cert.Kernel.τ).loc Cert.Kernel.main_arg1))) →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

/-- The precondition puts the printed kernel's two index arrays in range. -/
theorem inRange_of_pre_Kernel (m : (ℓ : Loc Cert.Kernel.nD Cert.Kernel.τ Cert.Kernel.sig) → Buf (Elt Bits) ℓ) (h : Cert.Pre_Kernel m)
    (c : Dev Cert.Kernel.nD) :
    Cert.Spec.InRange (m ((c.tc : Thread Cert.Kernel.nD Cert.Kernel.τ).loc Cert.Kernel.main_arg0)) ∧ Cert.Spec.InRange (m ((c.tc : Thread Cert.Kernel.nD Cert.Kernel.τ).loc Cert.Kernel.main_arg1)) :=
  Cert.Proof.PreRange.inRange_of_pre (F := Bits) _ _ _ _ _ _ _ _ _ (h c)

/-- And the idealized kernel's. -/
theorem inRange_of_pre_KernelIdeal (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.InRange (m ((c.tc : Thread Cert.KernelIdeal.nD Cert.KernelIdeal.τ).loc Cert.KernelIdeal.main_arg0)) ∧ Cert.Spec.InRange (m ((c.tc : Thread Cert.KernelIdeal.nD Cert.KernelIdeal.τ).loc Cert.KernelIdeal.main_arg1)) :=
  Cert.Proof.PreRange.inRange_of_pre (F := Ideal) _ _ _ _ _ _ _ _ _ (h c)

/-- The printed kernel runs and leaves its arguments unchanged. -/
theorem frame_Kernel (hB : KernelRunBits) : Cert.frame_Kernel :=
  fun m g hpre => hB m g (inRange_of_pre_Kernel m hpre)

/-- The idealized kernel runs and leaves its arguments unchanged: its run without the result's conjunct. -/
theorem frame_KernelIdeal (hI : KernelRunIdeal) : Cert.frame_KernelIdeal :=
  fun m g hpre => (θ_run (Cert.KernelIdeal.defs (F := Ideal)) _ _).mono (fun _ h c => (h c).2) (hI m g (inRange_of_pre_KernelIdeal m hpre))

/-- The idealized kernel and the idealized reference end with the same result array, the specification's
    function of the kernel's argument arrays, and unchanged arguments. -/
theorem algebraic (hI : KernelRunIdeal) : Cert.algebraic_KernelIdeal_ReferenceIdeal := by
  intro m g m' g' hpre hag
  have hr := inRange_of_pre_KernelIdeal m hpre
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run (Cert.KernelIdeal.defs (F := Ideal)) _ _).mono (fun _ h c => ⟨(h c).1.trans ?_, (h c).2⟩) (hI m g hr)
    exact Cert.Proof.KernelOut.kernelOut_eq_spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) _ _ _ _ _ _ _ _
      (fun _ _ => rfl) (fun _ _ => rfl)
  · refine (θ_run (Cert.ReferenceIdeal.defs (F := Ideal)) _ _).mono (fun _ h c => ⟨(h c).1.trans ?_, (h c).2⟩) (Cert.Proof.RefRun.run m' g')
    obtain ⟨e0, e1, e2, e3, e4, e5, e6, e7, e8⟩ := hag c
    rw [e0, e1, e2, e3, e4, e5, e6, e7, e8]
    exact Cert.Proof.RefValue.refTerm_eq_spec _ _ _ _ _ _ _ _ _ (hr c).1 (hr c).2

/-- Everything the certificate claims, from the kernel's two runs. -/
theorem claim_of (hI : KernelRunIdeal) (hB : KernelRunBits) : Cert.Claim :=
  ⟨Cert.Kernel.Gen.facts, Cert.KernelIdeal.Gen.facts, Cert.ReferenceIdeal.Gen.facts, Cert.Pre_input_domain.Gen.facts,
    frame_Kernel hB, frame_KernelIdeal hI, Cert.Proof.RefRun.frame, trivial, algebraic hI⟩

end Cert.Proof.Final

end
-- ==== Proof.ScIdeal.FinalIdeal.lean ====
/-
  The idealized kernel's run, read against the blockwise perceptron array.

  The region's result array is a function of the TensorCore's arrays at the region's entry: the two gathered arrays,
  which the gather call left at the gather of the table at each index array, and the seven weight operands, which the
  nine host operations prepared from the weight arguments. At the ideal values that function of those contents is the
  blockwise perceptron array of the gathered arrays and the weight arguments.
-/
import proofs.«205169_g39805756899661_cont_8to1_b_81_27_alg».proof.Proof.Sc.RegionRule
import proofs.«205169_g39805756899661_cont_8to1_b_81_27_alg».proof.Proof.ScIdeal.Bridge
import proofs.«205169_g39805756899661_cont_8to1_b_81_27_alg».proof.Proof.Final

set_option Elab.async false

noncomputable section

namespace Cert.Proof.ScI

open Cert.KernelIdeal Cert.KernelIdeal.Gen
open Idealize.ShloMosaic Idealize.ShloMosaic.TcCoe
open Idealize.ShloMosaic.SparseCore (T)
open Idealize.ShloMosaic.SparseCore.Cfg (HIx)
open Idealize.SL Idealize.SL.Sem
open Cert.Proof.MlpBlock Cert.Proof.KernelOut

variable (m : (ℓ : Loc nD τ sig) → Buf (Elt Ideal) ℓ)

/-- At the ideal values the region's result array, from the TensorCore's arrays at the region's entry, is the blockwise
    perceptron array of the two gathered arrays and the weight arguments. -/
theorem outArr_Vd_ideal (c : Dev nD) :
    outArr c (Vd (F := Ideal) m c)
      = kernelOut (gath (F := Ideal) (m ((c.tc : Thread nD τ).loc main_arg2)) (m ((c.tc : Thread nD τ).loc main_arg0)))
          (gath (F := Ideal) (m ((c.tc : Thread nD τ).loc main_arg2)) (m ((c.tc : Thread nD τ).loc main_arg1)))
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [outArr_eq, Vd_v0_0, Vd_v0_1, Vd_other m c main_v2 (by decide) (by decide), Vd_other m c main_v4 (by decide) (by decide),
    Vd_other m c main_v5 (by decide) (by decide), Vd_other m c main_v6 (by decide) (by decide), Vd_other m c main_v7 (by decide) (by decide),
    Vd_other m c main_v8 (by decide) (by decide), Vd_other m c main_v9 (by decide) (by decide)]
  unfold Vh
  rw [hostOps_eq, after_main_v2, after_main_v4, after_main_v5, after_main_v6, after_main_v7, after_main_v8, after_main_v9]
  exact outFn_eq_kernelOut _ _ (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- The idealized kernel's run as the certificate's last step takes it, from the run that ends at the region's result array. -/
theorem kernelRunIdeal_of_run
    (hrun : ∀ (m : (ℓ : Loc nD τ sig) → Buf (Elt Ideal) ℓ) (g : Dev nD → PrngReg),
      (∀ c : Dev nD, Cert.Spec.InRange (m ((c.tc : Thread nD τ).loc main_arg0)) ∧ Cert.Spec.InRange (m ((c.tc : Thread nD τ).loc main_arg1))) →
      θ_run (Cert.KernelIdeal.defs (F := Ideal)) (Cert.KernelIdeal.threads (F := Ideal)) ⟨m, fun _ => 0, g⟩ (fun r => ∀ c : Dev nD,
        r.2.mem ((c.tc : Thread nD τ).loc main_v10) = outArr c (Vd (F := Ideal) m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))) :
    Cert.Proof.Final.KernelRunIdeal :=
  fun m g hin => (θ_run (Cert.KernelIdeal.defs (F := Ideal)) _ _).mono
    (fun _ h c => ⟨(h c).1.trans (outArr_Vd_ideal m c), (h c).2⟩) (hrun m g hin)

end Cert.Proof.ScI

end
-- ==== Proof.ScIdeal.IdealRun.lean ====
/-
  The idealized kernel's run, from the gather kernel's body on one tile.
-/
import proofs.«205169_g39805756899661_cont_8to1_b_81_27_alg».proof.Proof.Sc.Launch
import proofs.«205169_g39805756899661_cont_8to1_b_81_27_alg».proof.Proof.Sc.TileWrap
import proofs.«205169_g39805756899661_cont_8to1_b_81_27_alg».proof.Proof.ScIdeal.FinalIdeal

set_option Elab.async false

noncomputable section

namespace Cert.Proof.ScI

open Idealize.ShloMosaic

/-- The idealized kernel runs to the blockwise perceptron array of the gathered arrays and the weight arguments, the
    nine arguments unchanged: the program's run at the ideal values, the kernel region's rule supplied, read through
    the closed form of the region's result. -/
theorem kernelRunIdeal (hcore : TileCore (F := Ideal)) : Cert.Proof.Final.KernelRunIdeal :=
  kernelRunIdeal_of_run fun m g hin => run_main m g (tileBody_of_core facts hcore) region_rule hin

end Cert.Proof.ScI

end
-- ==== Proof.ScB.Setup.lean ====
/-
  The program as the launch theorem for SparseCore programs sees it, and the ghost state the proof runs at.

  The device runs one vector-subcore kernel on 2 SparseCores × 16 tiles (the row gather) and then one TensorCore
  kernel over a grid of 8 row blocks (the perceptron). Three protocols meet: the launch handshakes between the
  TensorCore, the sequencers and the tiles (rounds indexed by the call), the TensorCore pipeline's staging cells
  (rounds with no index), and each tile's own local copies (plain counters). The ghost state is their product.
-/
import proofs.«205169_g39805756899661_cont_8to1_b_81_27_alg».proof.Kernel
import proofs.«205169_g39805756899661_cont_8to1_b_81_27_alg».proof.Proof.Gen.Kernel
import Idealize.ShloMosaic.Lib.SparseCore.Launch
import Idealize.ShloMosaic.Lib.Pipeline.Kit
import Idealize.ShloMosaic.Lib.Transfers

noncomputable section

namespace Cert.Proof.ScB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem
open Idealize.ShloMosaic.Rounds

variable {F : FTy → Type}

/-- The label table of the TensorCore pipelines (one pallas_call), which the SparseCore calls extend. -/
abbrev ΛP : Labels := Pipeline.Sig Λ₀ (Fin 1) fun p => (pcfgs (F := F) p).Adm
/-- The SparseCore calls of @main: one, the gather. -/
abbrev K : SparseCore.Cfg τ sig (ΛP (F := F)) 1 := sc (F := F)
/-- The body table the SparseCore calls extend: the kernels' bodies and the pipeline's. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds (indexed by the call), -/
abbrev UH : Type := URounds (GSem nD τ sig) ℕ
/-- the TensorCore pipeline's staging cells' rounds, -/
abbrev UP : Type := URounds (GSem nD τ sig) Unit
/-- and their product with the local copies' counters. -/
abbrev UU : Type := UH × (UP × Counters)

/-- The handshakes' rounds are the left factor. -/
abbrev EH : Emb UH (MT nD τ sig (HIx 1) (Elt F) ℕ UU ℕ) := embL
/-- The pipeline's staging cells' rounds are the left factor of the right factor. -/
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

end Cert.Proof.ScB

end
-- ==== Proof.ScB.TileSpec.lean ====
/-
  What one tile of the gather kernel is handed and hands back, and its obligation.

  Tile (c, s) — SparseCore c, vector subcore s — owns entries [1024 s + 512 c, +512) of each index array and the same
  rows of each gathered array; the table is read by every tile, each under a read share. After the tile's body,
  row r of a gathered array holds the table's row that entry r of the index array names.
-/
import proofs.«205169_g39805756899661_cont_8to1_b_81_27_alg».proof.Proof.ScB.Setup
import proofs.«205169_g39805756899661_cont_8to1_b_81_27_alg».proof.Proof.Gen.Kernel.Skeleton
import Idealize.ShloMosaic.Lib.SparseCore.Launch
import Idealize.ShloMosaic.Lib.Batch
import Idealize.ShloMosaic.Lib.StableHlo.Run
import Idealize.ShloMosaic.Lib.Pipeline.Kit
import Idealize.ShloMosaic.Lib.Tactic
import Idealize.ShloMosaic.Lib.Ring
import proofs.«205169_g39805756899661_cont_8to1_b_81_27_alg».proof.Proof.Spec

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iaW" => (Memref.whole Cert.Kernel.main_arg0_scv : Memref Cert.Kernel.sig Kind.scVector Space.hbm Cert.Kernel.S16384 EltTy.i32)
local notation "ibW" => (Memref.whole Cert.Kernel.main_arg1_scv : Memref Cert.Kernel.sig Kind.scVector Space.hbm Cert.Kernel.S16384 EltTy.i32)
local notation "tbW" => (Memref.whole Cert.Kernel.main_arg2_scv : Memref Cert.Kernel.sig Kind.scVector Space.hbm Cert.Kernel.S1000000x64 EltTy.f32)
local notation "oaW" => (Memref.whole Cert.Kernel.main_v0_0_scv : Memref Cert.Kernel.sig Kind.scVector Space.hbm Cert.Kernel.S16384x64 EltTy.f32)
local notation "obW" => (Memref.whole Cert.Kernel.main_v0_1_scv : Memref Cert.Kernel.sig Kind.scVector Space.hbm Cert.Kernel.S16384x64 EltTy.f32)
local notation "sIW" => (Memref.whole Cert.Kernel.cc0_scratch0 : Memref Cert.Kernel.sig Kind.scVector Space.vmem Cert.Kernel.S512 EltTy.i32)
local notation "sRW" => (Memref.whole Cert.Kernel.cc0_scratch1 : Memref Cert.Kernel.sig Kind.scVector Space.vmem Cert.Kernel.S512x64 EltTy.f32)

variable [FloatOps F]

variable (d : Dev nD) (L : grid0.Coords)

/-- The SparseCore and the vector subcore a grid point names. -/
abbrev cV (L : grid0.Coords) : Fin τ.nSC := (L 0).castLE hcore0
abbrev jV (L : grid0.Coords) : Fin τ.nSub := (L 1).castLE hsub0

/-- The tile's 512 entries of an index array, as the body slices them. -/
def iaSl (L : grid0.Coords) : Memref sig .scVector .hbm S512 .i32 := (iaW).slice (Rect.unit (s := S16384) (k0_off1 L) S512.size (k0_off1_inb L)) (fun _ => rfl)
def ibSl (L : grid0.Coords) : Memref sig .scVector .hbm S512 .i32 := (ibW).slice (Rect.unit (s := S16384) (k0_off1 L) S512.size (k0_off1_inb L)) (fun _ => rfl)
/-- The tile's 512 rows of a gathered array. -/
def oaSl (L : grid0.Coords) : Memref sig .scVector .hbm S512x64 .f32 := (oaW).slice (Rect.unit (s := S16384x64) (k0_off37 L) S512x64.size (k0_off37_inb L)) (fun _ => rfl)
def obSl (L : grid0.Coords) : Memref sig .scVector .hbm S512x64 .f32 := (obW).slice (Rect.unit (s := S16384x64) (k0_off37 L) S512x64.size (k0_off37_inb L)) (fun _ => rfl)

/-- The gathered array as ONE whole-array function of the table and an index array: row `r` is the table's row
    that entry `r` of the index array names. Pure data movement, the same at every reading of floats. -/
def gath (tb : S1000000x64.Idx → Elt F .f32) (ix : S16384.Idx → BitVec 32) : S16384x64.Idx → Elt F .f32 :=
  fun y => tb (ValueIdx.ix2 (Cert.Spec.rowOf (ix (ValueIdx.ix1 (y 0)))) (y 1))

/-- What a tile is handed: its entries of the two index arrays under a read share `qi`, the table under a read share `q`,
    and its rows of the two gathered arrays at whatever they hold. -/
def tileGo (qi q : PosShare TreeShare) (ia ib : S16384.Idx → BitVec 32) (tb : S1000000x64.Idx → Elt F .f32) : sProp 𝕄 :=
  iprop(((iaSl L).view.loc (V d (cV L) (jV L)) ↦[(iaSl L).view.set]{qi} ia)
    ∗ ((ibSl L).view.loc (V d (cV L) (jV L)) ↦[(ibSl L).view.set]{qi} ib)
    ∗ ((tbW).view.loc (V d (cV L) (jV L)) ↦{q} tb)
    ∗ (∃ f, (oaSl L).view.loc (V d (cV L) (jV L)) ↦[(oaSl L).view.set]{fullShare} f)
    ∗ (∃ f, (obSl L).view.loc (V d (cV L) (jV L)) ↦[(obSl L).view.set]{fullShare} f))

/-- What it hands back: its rows of the gathered arrays, now the gathered rows. (The read shares are not handed back:
    nothing after the kernel needs them whole.) -/
def tileTd (ia ib : S16384.Idx → BitVec 32) (tb : S1000000x64.Idx → Elt F .f32) : sProp 𝕄 :=
  iprop(((oaSl L).view.loc (V d (cV L) (jV L)) ↦[(oaSl L).view.set]{fullShare} gath tb ia)
    ∗ ((obSl L).view.loc (V d (cV L) (jV L)) ↦[(obSl L).view.set]{fullShare} gath tb ib))

/-- THE TILE'S OBLIGATION, as the launch needs it: at a symbolic tile, from what it is handed, its scoped storage and
    what it owes, the gather kernel's body runs to what it hands back, the scoped storage as it was, owing the same. -/
def TileBody : Prop :=
  ∀ (d : Dev nD) (L : grid0.Coords) (qi q : PosShare TreeShare) (ia ib : S16384.Idx → BitVec 32) (tb : S1000000x64.Idx → Elt F .f32)
    (_ : Cert.Spec.InRange ia) (_ : Cert.Spec.InRange ib)
    (O : CellTallies nD τ sig (HIx 1)) (W : Waits sig (HIx 1)) (_ : ∀ g, O g none = 0),
    iprop(levAts (K (F := F)).L (K (F := F)).lev ∗ tileGo (F := F) d L qi q ia ib tb
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L iaW (Memref.isWhole_whole _) ibW (Memref.isWhole_whole _) tbW (Memref.isWhole_whole _) oaW (Memref.isWhole_whole _) obW (Memref.isWhole_whole _)
            sIW (Memref.isWhole_whole _) sRW (Memref.isWhole_whole _) cc0_scratch2 cc0_scoped0 cc0_scoped1 cc0_scoped2 cc0_scoped3)
          fun _ => iprop(tileTd (F := F) d L ia ib tb ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.ScB

end
-- ==== Proof.ScB.Tiles.lean ====
/-
  How the 32 tiles cut the index arrays and the gathered arrays.

  Tile (c, s) — SparseCore c of 2, vector subcore s of 16 — works on rows [1024·s + 512·c, 1024·s + 512·c + 512)
  of each [16384] index array and of each [16384, 64] gathered array.  The 32 intervals of length 512 starting at
  1024·s + 512·c, c < 2, s < 16, are pairwise disjoint and cover [0, 16384): row r lies in the tile with
  s = r / 1024 and c = (r / 512) mod 2.  Hence an array held whole is held tile by tile, and back.
-/
import proofs.«205169_g39805756899661_cont_8to1_b_81_27_alg».proof.Proof.ScB.Setup
import Idealize.ShloMosaic.Lib.Ring

noncomputable section

namespace Cert.Proof.ScB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem

variable {F : FTy → Type}

/-! ## The tiles' coordinates -/

/-- The grid point of SparseCore c, vector subcore s. -/
def tile (c : Fin 2) (s : Fin 16) : grid0.Coords :=
  fun | 0 => c | 1 => s | ⟨_ + 2, h⟩ => absurd h (Nat.not_lt.2 (Nat.le_add_left _ _))

theorem core_lt (i : grid0.Coords) : (i 0).val < 2 := (i 0).isLt
theorem sub_lt (i : grid0.Coords) : (i 1).val < 16 := (i 1).isLt

/-- A grid point is its two coordinates. -/
theorem coords_ext {i i' : grid0.Coords} (h0 : (i 0).val = (i' 0).val) (h1 : (i 1).val = (i' 1).val) : i = i' := by
  funext a
  match a with
  | ⟨0, _⟩ => exact Fin.ext h0
  | ⟨1, _⟩ => exact Fin.ext h1

/-- The first row of tile i. -/
def tileBase (i : grid0.Coords) : ℕ := 1024 * (i 1).val + 512 * (i 0).val

/-- Two tiles whose row intervals meet are one tile. -/
theorem tile_unique {i i' : grid0.Coords} {r : ℕ} (h : tileBase i ≤ r ∧ r < tileBase i + 512)
    (h' : tileBase i' ≤ r ∧ r < tileBase i' + 512) : i = i' := by
  unfold tileBase at h h'
  have := core_lt i; have := core_lt i'; have := sub_lt i; have := sub_lt i'
  exact coords_ext (by omega) (by omega)

/-- Row r lies in the tile of subcore r / 1024, core (r / 512) mod 2. -/
theorem tile_of_row (r : ℕ) (hr : r < 16384) :
    ∃ i : grid0.Coords, tileBase i ≤ r ∧ r < tileBase i + 512 := by
  refine ⟨tile ⟨r / 512 % 2, Nat.mod_lt _ (by decide)⟩ ⟨r / 1024, by omega⟩, ?_⟩
  show 1024 * (r / 1024) + 512 * (r / 512 % 2) ≤ r ∧ r < 1024 * (r / 1024) + 512 * (r / 512 % 2) + 512
  omega

/-! ## The tiles of an index array -/

/-- The elements of a [16384] index array tile i works on: the rectangle exactly as the body slices it. -/
def tileIdxSet (i : grid0.Coords) : Finset S16384.Idx :=
  (Rect.unit (s := S16384) (k0_off1 i) S512.size (k0_off1_inb i)).set

theorem mem_tileIdxSet (i : grid0.Coords) (y : S16384.Idx) :
    y ∈ tileIdxSet i ↔ 1024 * (i 1).val + 512 * (i 0).val ≤ (y 0).val ∧ (y 0).val < 1024 * (i 1).val + 512 * (i 0).val + 512 := by
  unfold tileIdxSet
  rw [Rect.mem_set_unit, k0_off1_eq]
  constructor
  · intro H; exact H 0
  · intro H a
    match a with
    | ⟨0, _⟩ => exact H

theorem tileIdxSet_disjoint (i i' : grid0.Coords) (h : i ≠ i') : Disjoint (tileIdxSet i) (tileIdxSet i') := by
  rw [Finset.disjoint_left]
  intro y hy hy'
  rw [mem_tileIdxSet] at hy hy'
  exact h (tile_unique (r := (y 0).val) hy hy')

theorem tileIdxSet_cover : Finset.univ.biUnion tileIdxSet = Finset.univ := by
  ext y
  simp only [Finset.mem_biUnion, Finset.mem_univ, true_and, iff_true]
  obtain ⟨i, hi⟩ := tile_of_row (y 0).val (y 0).isLt
  exact ⟨i, (mem_tileIdxSet i y).mpr hi⟩

/-! ## The tiles of a gathered array -/

/-- The elements of a [16384, 64] gathered array tile i works on: its 512 rows, whole. -/
def tileRowSet (i : grid0.Coords) : Finset S16384x64.Idx :=
  (Rect.unit (s := S16384x64) (k0_off37 i) S512x64.size (k0_off37_inb i)).set

theorem mem_tileRowSet (i : grid0.Coords) (y : S16384x64.Idx) :
    y ∈ tileRowSet i ↔ 1024 * (i 1).val + 512 * (i 0).val ≤ (y 0).val ∧ (y 0).val < 1024 * (i 1).val + 512 * (i 0).val + 512 := by
  unfold tileRowSet
  rw [Rect.mem_set_unit, k0_off37_eq]
  constructor
  · intro H; exact H 0
  · intro H a
    match a with
    | ⟨0, _⟩ => exact H
    | ⟨1, _⟩ => exact ⟨Nat.zero_le _, by have h : (y 1).val < 64 := (y 1).isLt; show (y 1).val < 0 + 64; omega⟩

theorem tileRowSet_disjoint (i i' : grid0.Coords) (h : i ≠ i') : Disjoint (tileRowSet i) (tileRowSet i') := by
  rw [Finset.disjoint_left]
  intro y hy hy'
  rw [mem_tileRowSet] at hy hy'
  exact h (tile_unique (r := (y 0).val) hy hy')

theorem tileRowSet_cover : Finset.univ.biUnion tileRowSet = Finset.univ := by
  ext y
  simp only [Finset.mem_biUnion, Finset.mem_univ, true_and, iff_true]
  obtain ⟨i, hi⟩ := tile_of_row (y 0).val (y 0).isLt
  exact ⟨i, (mem_tileRowSet i y).mpr hi⟩

/-! ## An array held whole is held tile by tile -/

local notation "𝕄" => MT nD τ sig (HIx 1) (Elt F) ℕ UU ℕ

/-- The four arrays' buffers on device d. -/
abbrev locIa (d : Dev nD) : Loc nD τ sig := (SparseCore.T d : Thread nD τ).loc main_arg0
abbrev locIb (d : Dev nD) : Loc nD τ sig := (SparseCore.T d : Thread nD τ).loc main_arg1
abbrev locGa (d : Dev nD) : Loc nD τ sig := (SparseCore.T d : Thread nD τ).loc main_v0_0
abbrev locGb (d : Dev nD) : Loc nD τ sig := (SparseCore.T d : Thread nD τ).loc main_v0_1

/-- The first index array, whole, is its 32 tiles. -/
theorem pts_tiles_arg0 (d : Dev nD) (q : PosShare TreeShare) (f : Buf (Elt F) (locIa d)) :
    ((locIa d) ↦{q} f : sProp 𝕄)
      = bigSep Finset.univ (fun i : grid0.Coords => ((locIa d) ↦[tileIdxSet i]{q} f : sProp 𝕄)) :=
  Ring.pointsTo_blocks (ℓ := locIa d) (Ix := HIx 1) (Val := Elt F) (Name := ℕ) (U := UU) (Lvl := ℕ) (B := grid0.Coords) (q := q)
    (fun i : grid0.Coords => (tileIdxSet i : Finset (Idx (locIa d)))) tileIdxSet_disjoint tileIdxSet_cover f

/-- The second index array, whole, is its 32 tiles. -/
theorem pts_tiles_arg1 (d : Dev nD) (q : PosShare TreeShare) (f : Buf (Elt F) (locIb d)) :
    ((locIb d) ↦{q} f : sProp 𝕄)
      = bigSep Finset.univ (fun i : grid0.Coords => ((locIb d) ↦[tileIdxSet i]{q} f : sProp 𝕄)) :=
  Ring.pointsTo_blocks (ℓ := locIb d) (Ix := HIx 1) (Val := Elt F) (Name := ℕ) (U := UU) (Lvl := ℕ) (B := grid0.Coords) (q := q)
    (fun i : grid0.Coords => (tileIdxSet i : Finset (Idx (locIb d)))) tileIdxSet_disjoint tileIdxSet_cover f

/-- The first gathered array, whole, is its 32 tiles. -/
theorem pts_tiles_v0_0 (d : Dev nD) (q : PosShare TreeShare) (f : Buf (Elt F) (locGa d)) :
    ((locGa d) ↦{q} f : sProp 𝕄)
      = bigSep Finset.univ (fun i : grid0.Coords => ((locGa d) ↦[tileRowSet i]{q} f : sProp 𝕄)) :=
  Ring.pointsTo_blocks (ℓ := locGa d) (Ix := HIx 1) (Val := Elt F) (Name := ℕ) (U := UU) (Lvl := ℕ) (B := grid0.Coords) (q := q)
    (fun i : grid0.Coords => (tileRowSet i : Finset (Idx (locGa d)))) tileRowSet_disjoint tileRowSet_cover f

/-- The second gathered array, whole, is its 32 tiles. -/
theorem pts_tiles_v0_1 (d : Dev nD) (q : PosShare TreeShare) (f : Buf (Elt F) (locGb d)) :
    ((locGb d) ↦{q} f : sProp 𝕄)
      = bigSep Finset.univ (fun i : grid0.Coords => ((locGb d) ↦[tileRowSet i]{q} f : sProp 𝕄)) :=
  Ring.pointsTo_blocks (ℓ := locGb d) (Ix := HIx 1) (Val := Elt F) (Name := ℕ) (U := UU) (Lvl := ℕ) (B := grid0.Coords) (q := q)
    (fun i : grid0.Coords => (tileRowSet i : Finset (Idx (locGb d)))) tileRowSet_disjoint tileRowSet_cover f

end Cert.Proof.ScB

end
-- ==== Proof.ScB.Pay.lean ====
/-
  What the gather call's handshakes carry.

  The one SparseCore call runs on 2 SparseCores × 16 vector subcores. Tile (c, s) is handed its 512 entries of the
  two index arrays under the right half of the full share, the whole table under a read share — the one numbered
  16 c + s of the 32 split off the full share — and its 512 rows of the two gathered arrays, owned; it hands back
  its rows of the gathered arrays, now the gathered rows. A SparseCore is handed, and hands back, exactly what its
  sixteen tiles are: the split of a SparseCore's operands among its tiles is the identity. The arrays live in HBM,
  where a tile's view of a location is the TensorCore's: the payloads are stated over the TensorCore's locations
  and the tiles' element sets, and are what the tile's body is stated over.
-/
import proofs.«205169_g39805756899661_cont_8to1_b_81_27_alg».proof.Proof.ScB.TileSpec
import proofs.«205169_g39805756899661_cont_8to1_b_81_27_alg».proof.Proof.ScB.Tiles

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

theorem nCore_zero : (K (F := F)).nCore 0 = 2 := rfl
theorem nSub_zero : (K (F := F)).nSub 0 = 16 := rfl

/-! ## A tile's slices are its element sets -/

omit [FloatOps F] in
private theorem set_iaSl (L : grid0.Coords) : (iaSl L).view.set = tileIdxSet L := by
  show ((View.whole (main_arg0_scv : Ref sig .scVector)).slice (Rect.unit (s := S16384) (k0_off1 L) S512.size (k0_off1_inb L))).set = _
  rw [View.set_slice]; exact Finset.map_refl
omit [FloatOps F] in
private theorem set_ibSl (L : grid0.Coords) : (ibSl L).view.set = tileIdxSet L := by
  show ((View.whole (main_arg1_scv : Ref sig .scVector)).slice (Rect.unit (s := S16384) (k0_off1 L) S512.size (k0_off1_inb L))).set = _
  rw [View.set_slice]; exact Finset.map_refl
omit [FloatOps F] in
private theorem set_oaSl (L : grid0.Coords) : (oaSl L).view.set = tileRowSet L := by
  show ((View.whole (main_v0_0_scv : Ref sig .scVector)).slice (Rect.unit (s := S16384x64) (k0_off37 L) S512x64.size (k0_off37_inb L))).set = _
  rw [View.set_slice]; exact Finset.map_refl
omit [FloatOps F] in
private theorem set_obSl (L : grid0.Coords) : (obSl L).view.set = tileRowSet L := by
  show ((View.whole (main_v0_1_scv : Ref sig .scVector)).slice (Rect.unit (s := S16384x64) (k0_off37 L) S512x64.size (k0_off37_inb L))).set = _
  rw [View.set_slice]; exact Finset.map_refl

/-! ## The payloads over the TensorCore's locations -/

/-- The table's buffer on device `d`. -/
abbrev locTb (d : Dev nD) : Loc nD τ sig := (SparseCore.T d : Thread nD τ).loc main_arg2

/-- What tile `L` is handed, over the TensorCore's locations, -/
def goT (d : Dev nD) (L : grid0.Coords) (qi q : PosShare TreeShare) (ia ib : S16384.Idx → BitVec 32)
    (tb : S1000000x64.Idx → Elt F .f32) : sProp 𝕄 :=
  iprop((locIa d ↦[tileIdxSet L]{qi} ia) ∗ (locIb d ↦[tileIdxSet L]{qi} ib) ∗ (locTb d ↦{q} tb)
    ∗ (∃ f, locGa d ↦[tileRowSet L]{fullShare} f) ∗ (∃ f, locGb d ↦[tileRowSet L]{fullShare} f))
/-- and what it hands back. -/
def tdT (d : Dev nD) (L : grid0.Coords) (ia ib : S16384.Idx → BitVec 32) (tb : S1000000x64.Idx → Elt F .f32) : sProp 𝕄 :=
  iprop((locGa d ↦[tileRowSet L]{fullShare} gath tb ia) ∗ (locGb d ↦[tileRowSet L]{fullShare} gath tb ib))

omit [FloatOps F] in
/-- They are what the tile's body is stated over. -/
theorem tileGo_eq (d : Dev nD) (L : grid0.Coords) (qi q : PosShare TreeShare) (ia ib : S16384.Idx → BitVec 32)
    (tb : S1000000x64.Idx → Elt F .f32) : tileGo (F := F) d L qi q ia ib tb = goT d L qi q ia ib tb := by
  unfold tileGo goT
  rw [set_iaSl, set_ibSl, set_oaSl, set_obSl]
  rfl
omit [FloatOps F] in
theorem tileTd_eq (d : Dev nD) (L : grid0.Coords) (ia ib : S16384.Idx → BitVec 32)
    (tb : S1000000x64.Idx → Elt F .f32) : tileTd (F := F) d L ia ib tb = tdT d L ia ib tb := by
  unfold tileTd tdT
  rw [set_oaSl, set_obSl]
  rfl

/-- The launch memory's two index arrays and the table, on device `d`. -/
abbrev iaM (d : Dev nD) : S16384.Idx → BitVec 32 := m (locIa d)
abbrev ibM (d : Dev nD) : S16384.Idx → BitVec 32 := m (locIb d)
abbrev tbM (d : Dev nD) : S1000000x64.Idx → Elt F .f32 := m (locTb d)

/-- The read share of the table tile `L` is handed: the one numbered `16 c + s` of 32. -/
def tok (L : grid0.Coords) : PosShare TreeShare := Transfers.shareTok fullShare 32 (finProdFinEquiv (L 0, L 1))

/-- The grid point a SparseCore and a vector subcore of the call's grid name. -/
abbrev tileOf (c : Fin ((K (F := F)).nCore 0)) (i : Fin ((K (F := F)).nSub 0)) : grid0.Coords :=
  tile (Fin.cast nCore_zero c) (Fin.cast nSub_zero i)

/-- What tile `(c, i)` of the call's grid is handed, -/
def goB (d : Dev nD) (c : Fin ((K (F := F)).nCore 0)) (i : Fin ((K (F := F)).nSub 0)) : sProp 𝕄 :=
  goT d (tileOf c i) fullShare.right (tok (tileOf c i)) (iaM m d) (ibM m d) (tbM m d)
/-- and what it hands back. -/
def tdB (d : Dev nD) (c : Fin ((K (F := F)).nCore 0)) (i : Fin ((K (F := F)).nSub 0)) : sProp 𝕄 :=
  tdT d (tileOf c i) (iaM m d) (ibM m d) (tbM m d)

instance goB_storable (d : Dev nD) (c : Fin ((K (F := F)).nCore 0)) (i : Fin ((K (F := F)).nSub 0)) :
    BI.Storable (upEmb : UEmb _ 𝕄) (goB m d c i) := by
  unfold goB goT; infer_instance
instance tdB_storable (d : Dev nD) (c : Fin ((K (F := F)).nCore 0)) (i : Fin ((K (F := F)).nSub 0)) :
    BI.Storable (upEmb : UEmb _ 𝕄) (tdB m d c i) := by
  unfold tdB tdT; infer_instance

/-- The call's payloads: a SparseCore's are its sixteen tiles'; no kernel proof consumes anything of the launch's. -/
def P : (K (F := F)).Pay (nD := nD) (Val := Elt F) (Name := ℕ) (U := UU) where
  st := fun q d c => match q with | 0 => bigSep Finset.univ fun i : Fin ((K (F := F)).nSub 0) => goB m d c i
  dn := fun q d c => match q with | 0 => bigSep Finset.univ fun i : Fin ((K (F := F)).nSub 0) => tdB m d c i
  go := fun q d c i => match q with | 0 => goB m d c i
  td := fun q d c i => match q with | 0 => tdB m d c i
  x := fun _ _ => iprop(emp)

instance P_storable : (P (F := F) m).IsStorable where
  st q d c := match q with
    | 0 => (inferInstance : BI.Storable (upEmb : UEmb _ 𝕄) (bigSep Finset.univ fun i : Fin ((K (F := F)).nSub 0) => goB m d c i))
  dn q d c := match q with
    | 0 => (inferInstance : BI.Storable (upEmb : UEmb _ 𝕄) (bigSep Finset.univ fun i : Fin ((K (F := F)).nSub 0) => tdB m d c i))
  go q d c i := match q with
    | 0 => (inferInstance : BI.Storable (upEmb : UEmb _ 𝕄) (goB m d c i))
  td q d c i := match q with
    | 0 => (inferInstance : BI.Storable (upEmb : UEmb _ 𝕄) (tdB m d c i))

/-- A SparseCore's operands are its tiles', and its results theirs. -/
theorem vecSplit : (K (F := F)).VecSplit' (P m) 0 := by
  intro d c
  show (bigSep Finset.univ fun i : Fin ((K (F := F)).nSub 0) => goB m d c i) ⊢ |={Set.univ}=> iprop(
      (bigSep Finset.univ fun i : Fin ((K (F := F)).nSub 0) => goB m d c i)
      ∗ ((bigSep Finset.univ fun i : Fin ((K (F := F)).nSub 0) => tdB m d c i)
          -∗ (bigSep Finset.univ fun i : Fin ((K (F := F)).nSub 0) => tdB m d c i)))
  iintro H; imodintro
  isplitl [H]; · iexact H
  iintro H; iexact H

end Cert.Proof.ScB

end
-- ==== Proof.ScB.TileObl.lean ====
/-
  The tile's obligation to the launch, from the tile's body.

  The launch runs the gather kernel's label on vector subcore (c, i) of the call's grid under the lifted body
  table; the label's row there is the kernel's function at the grid point (c, i). What the tile is handed and hands
  back are the payloads of Pay.lean, which are the body's own pre- and postcondition; the kernel owes nothing for
  a protocol of its own.
-/
import proofs.«205169_g39805756899661_cont_8to1_b_81_27_alg».proof.Proof.ScB.Pay
import Idealize.ShloMosaic.Lib.SparseCore.Launch
import Idealize.ShloMosaic.Lib.Tactic

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-- The label's row on a vector subcore is the kernel's function at the subcore's grid point. -/
theorem defs₀_vector (c : Fin τ.nSC) (s : Fin τ.nSub) :
    defs₀ (F := F) (.scVector c s) 0 ()
      = SparseCore.onTile hcore0 hsub0 (fun c s => cc0_gather_kernel (tile c s)
          (Memref.whole main_arg0_scv) (Memref.isWhole_whole _) (Memref.whole main_arg1_scv) (Memref.isWhole_whole _)
          (Memref.whole main_arg2_scv) (Memref.isWhole_whole _) (Memref.whole main_v0_0_scv) (Memref.isWhole_whole _)
          (Memref.whole main_v0_1_scv) (Memref.isWhole_whole _) (Memref.whole cc0_scratch0) (Memref.isWhole_whole _)
          (Memref.whole cc0_scratch1) (Memref.isWhole_whole _) cc0_scratch2 cc0_scoped0 cc0_scoped1 cc0_scoped2 cc0_scoped3) ⟨⟩ c s := rfl

omit [FloatOps F] in
/-- The recorded waits the body leaves are among those the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- Nothing of the launch's is consumed by the kernel's proof. -/
theorem obl_pre {A B C D E : sProp 𝕄} : iprop(A ∗ (iprop(emp) : sProp 𝕄) ∗ B ∗ C ∗ D ∗ E) ⊢ iprop(A ∗ B ∗ C ∗ D ∗ E) := by
  iintro ⟨HA, -, HB, HC, HD, HE⟩
  isplitl [HA]; · iexact HA
  isplitl [HB]; · iexact HB
  isplitl [HC]; · iexact HC
  isplitl [HD]; · iexact HD
  iexact HE

/-- THE TILE'S OBLIGATION at the one call, from the tile's body and the precondition on the two index arrays. -/
theorem tileObl (hbody : TileBody (F := F))
    (hin : ∀ d : Dev nD, Cert.Spec.InRange (iaM m d) ∧ Cert.Spec.InRange (ibM m d)) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hb := hbody d (tile ⟨_, hc.1⟩ ⟨_, hc.2⟩) fullShare.right (tok (tileOf c i)) (iaM m d) (ibM m d) (tbM m d)
    (hin d).1 (hin d).2 O W hO
  rw [tileGo_eq, tileTd_eq] at hb
  exact (obl_pre.trans hb).trans (wp_mono frame _ _ fun _ => obl_post)

end Cert.Proof.ScB

end
-- ==== Proof.ScB.Ghost.lean ====
/-
  The launch element of the ghost state.

  The ghost state is the product of the handshakes' rounds, the TensorCore pipeline's staging cells' rounds and the
  local copies' counters. At launch it is the handshake cells' and the staging cells' initial elements and the unit
  counter: the first goes to the launch theorem, the second funds every TensorCore's staging cells' ghost state and
  duty tokens — what the kernel region is entered with —, and the gather kernel's proof consumes nothing.
-/
import proofs.«205169_g39805756899661_cont_8to1_b_81_27_alg».proof.Proof.ScB.Pay
import proofs.«205169_g39805756899661_cont_8to1_b_81_27_alg».proof.Proof.Gen.Kernel.Launch
import Idealize.ShloMosaic.Lib.SparseCore.Launch
import Idealize.ShloMosaic.Lib.Pipeline.Kit
import Idealize.ShloMosaic.Lib.Tactic

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-- What @main's proof starts from on device `d`, beyond what the launch deals every TensorCore: the pipeline's
    staging cells' ghost state and duty tokens. -/
def G (d : Dev nD) : sProp 𝕄 :=
  iprop(Pipeline.cellsGhost cfgs (EP (F := F)) 0 d ∗ Pipeline.toksInit cfgs (EP (F := F)) 0 d)

/-- The launch element: the handshake cells' rounds, the staging cells' rounds, the unit counter. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

omit [FloatOps F] in
/-- One pipeline: a family over the pipelines is its member. -/
theorem bigSep_pipes (Φ : Fin 1 → Dev nD → sProp 𝕄) :
    (bigSep Finset.univ fun d : Dev nD => bigSep Finset.univ fun p : Fin 1 => Φ p d) = bigSep Finset.univ fun d : Dev nD => Φ 0 d :=
  bigSep_congr fun _ _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost cfgs (EP (F := F)) cellOf_inj) $$ HP with ⟨Hg, Ht⟩
  imodintro
  isplitl [HH]; · iexact HH
  isplitl [Hg Ht]
  · unfold G
    rw [bigSep_sep']
    isplitl [Hg]
    · iapply (Entails.of_eq (bigSep_pipes (F := F) (fun p d => Pipeline.cellsGhost cfgs (EP (F := F)) p d))); iexact Hg
    · iapply (Entails.of_eq (bigSep_pipes (F := F) (fun p d => Pipeline.toksInit cfgs (EP (F := F)) p d))); iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.ScB

end
-- ==== Proof.ScB.RegionBody.lean ====
/-
  The perceptron kernel's body on one block of rows: nine whole-buffer loads, one pure term, one whole-buffer store.

  Run on ten whole staging buffers, the nine inputs' at contents read and the output's at anything, the body hands
  the nine back as they were and leaves in the output's buffer the pure term of the nine contents, stored through
  the buffer's one covering rectangle.
-/
import proofs.«205169_g39805756899661_cont_8to1_b_81_27_alg».proof.Proof.ScB.Setup
import proofs.«205169_g39805756899661_cont_8to1_b_81_27_alg».proof.Proof.Gen.Kernel.Launch
import proofs.«205169_g39805756899661_cont_8to1_b_81_27_alg».proof.Proof.Gen.Kernel.Skeleton
import proofs.«205169_g39805756899661_cont_8to1_b_81_27_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Proof.ScB

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses: each buffer through its one whole rectangle -/

abbrev rIn : Rect S2048x64 := Rect.unit (s := S2048x64) ![0, 0] S2048x64.size inb_S2048x64_S2048x64_0_0
abbrev rW1 : Rect S64x128 := Rect.unit (s := S64x128) ![0, 0] S64x128.size inb_S64x128_S64x128_0_0
abbrev rB1 : Rect S1x128 := Rect.unit (s := S1x128) ![0, 0] S1x128.size inb_S1x128_S1x128_0_0
abbrev rW2 : Rect S128x64 := Rect.unit (s := S128x64) ![0, 0] S128x64.size inb_S128x64_S128x64_0_0
abbrev rB2 : Rect S1x64 := Rect.unit (s := S1x64) ![0, 0] S1x64.size inb_S1x64_S1x64_0_0
abbrev rW3 : Rect S64x1 := Rect.unit (s := S64x1) ![0, 0] S64x1.size inb_S64x1_S64x1_0_0
abbrev rB3 : Rect S1x1 := Rect.unit (s := S1x1) ![0, 0] S1x1.size inb_S1x1_S1x1_0_0
abbrev rOut : Rect S2048x1 := Rect.unit (s := S2048x1) ![0, 0] S2048x1.size inb_S2048x1_S2048x1_0_0

/-- What the body leaves in the output's buffer, from the nine inputs' contents: its one store as a piece. -/
def blockOut (xa xb : Vec F S2048x64 .f32) (w1a w1b : Vec F S64x128 .f32) (b1r : Vec F S1x128 .f32)
    (w2t : Vec F S128x64 .f32) (b2r : Vec F S1x64 .f32) (w3t : Vec F S64x1 .f32) (b3r : Vec F S1x1 .f32) : Vec F S2048x1 .f32 :=
  View.canon [⟨rOut, k1_pay1 (View.ld xa rIn) (View.ld w1a rW1) (View.ld xb rIn) (View.ld w1b rW1) (View.ld b1r rB1)
    (View.ld w2t rW2) (View.ld b2r rB2) (View.ld w3t rW3) (View.ld b3r rB3)⟩]

/-- The store's rectangle is the whole buffer. -/
theorem cover_out (p0 : Vec F S2048x1 .f32) (y : S2048x1.Idx) :
    ∃ pc ∈ ([⟨rOut, p0⟩] : List (View.Piece (Elt F) S2048x1 .f32)), y ∈ pc.1.set :=
  View.cover_of_tiled [⟨rOut, p0⟩] S2048x1.size (by rfl) y

set_option maxHeartbeats 1000000 in
/-- The body's triple on whole staging memrefs. -/
theorem sound_kernel (c : Dev nD) (E : Set ℕ) (i : grid1.Coords)
    (arg1 : Memref sig .tc .vmem S2048x64 .f32) (harg1 : arg1.IsWhole) (arg2 : Memref sig .tc .vmem S2048x64 .f32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S128x64 .f32) (harg6 : arg6.IsWhole)
    (arg7 : Memref sig .tc .vmem S1x64 .f32) (harg7 : arg7.IsWhole) (arg8 : Memref sig .tc .vmem S64x1 .f32) (harg8 : arg8.IsWhole)
    (arg9 : Memref sig .tc .vmem S1x1 .f32) (harg9 : arg9.IsWhole) (arg10 : Memref sig .tc .vmem S2048x1 .f32) (harg10 : arg10.IsWhole)
    (xa xb : Vec F S2048x64 .f32) (w1a w1b : Vec F S64x128 .f32) (b1r : Vec F S1x128 .f32)
    (w2t : Vec F S128x64 .f32) (b2r : Vec F S1x64 .f32) (w3t : Vec F S64x1 .f32) (b3r : Vec F S1x1 .f32) (Kc : PUnit → sProp 𝕄) :
    iprop(owns (c : Thread nD τ) arg1 fullShare xa ∗ owns (c : Thread nD τ) arg2 fullShare xb
        ∗ owns (c : Thread nD τ) arg3 fullShare w1a ∗ owns (c : Thread nD τ) arg4 fullShare w1b
        ∗ owns (c : Thread nD τ) arg5 fullShare b1r ∗ owns (c : Thread nD τ) arg6 fullShare w2t
        ∗ owns (c : Thread nD τ) arg7 fullShare b2r ∗ owns (c : Thread nD τ) arg8 fullShare w3t
        ∗ owns (c : Thread nD τ) arg9 fullShare b3r ∗ (∃ d, owns (c : Thread nD τ) arg10 fullShare d)
        ∗ (iprop(owns (c : Thread nD τ) arg1 fullShare xa ∗ owns (c : Thread nD τ) arg2 fullShare xb
            ∗ owns (c : Thread nD τ) arg3 fullShare w1a ∗ owns (c : Thread nD τ) arg4 fullShare w1b
            ∗ owns (c : Thread nD τ) arg5 fullShare b1r ∗ owns (c : Thread nD τ) arg6 fullShare w2t
            ∗ owns (c : Thread nD τ) arg7 fullShare b2r ∗ owns (c : Thread nD τ) arg8 fullShare w3t
            ∗ owns (c : Thread nD τ) arg9 fullShare b3r
            ∗ owns (c : Thread nD τ) arg10 fullShare (blockOut xa xb w1a w1b b1r w2t b2r w3t b3r)) -∗ Kc ⟨⟩))
      ⊢ wp frame (wpE (defs₀ (F := F)) Variants.none c none) E
          (cc1__mlp_body i arg1 harg1 arg2 harg2 arg3 harg3 arg4 harg4 arg5 harg5 arg6 harg6 arg7 harg7 arg8 harg8 arg9 harg9 arg10 harg10) Kc := by
  simp only [cc1__mlp_body_eq_skeleton]; unfold cc1__mlp_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover_out _)

end Cert.Proof.ScB

end
-- ==== Proof.ScB.RegionData.lean ====
/-
  The proof data of the perceptron pipeline inside the SparseCore program, and its body obligation.

  The pipeline runs the body at eight points, block row t of the two gathered arrays at point t, the seven weight
  operands whole at every point. After the body each input's staging buffer holds its block as fetched and the
  output's holds the body's term of the nine blocks. The core owes nothing during the region; the pairs its
  earlier waits recorded stay at or below the level the handshakes left them at.
-/
import proofs.«205169_g39805756899661_cont_8to1_b_81_27_alg».proof.Proof.ScB.Setup
import proofs.«205169_g39805756899661_cont_8to1_b_81_27_alg».proof.Proof.Gen.Kernel.Launch
import proofs.«205169_g39805756899661_cont_8to1_b_81_27_alg».proof.Proof.Gen.Kernel.Skeleton
import proofs.«205169_g39805756899661_cont_8to1_b_81_27_alg».proof.Proof.Gen.Kernel.Points
import proofs.«205169_g39805756899661_cont_8to1_b_81_27_alg».proof.Proof.ScB.RegionBody
import Idealize.ShloMosaic.Lib.Pipeline.FrameBody
import Idealize.ShloMosaic.Lib.Pipeline.Regions
import Idealize.ShloMosaic.Lib.Tactic

set_option maxRecDepth 16384

noncomputable section

namespace Cert.Proof.ScB

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The pipeline has no prefetched table: its one admissible table contents. -/
abbrev adm : (p : Fin 1) → (pcfgs (F := F) p).Adm := fun p => (cfgs p).toPCfg_adm

/-- A valuation of every TensorCore's buffers. -/
abbrev Valn : Type := (c : Dev nD) → (b : Ref sig .tc) → Buf (Elt F) ((c : Thread nD τ).loc b)

variable (V : Valn (F := F))

/-- Window `w`'s block at point `t`, read off its array at the valuation. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pairs a TensorCore's waits may have recorded when the region is entered: those at or below level 8. -/
def lowPairs (c : Dev nD) : Set (SemLoc sig × HIx 1) := {p | (K (F := F)).lev ((T c : Thread nD τ), p.1) p.2 ≤ 8}

/-- The proof data of the pipeline on core `c`. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => blockOut (iblk V c 0 t) (iblk V c 1 t) (iblk V c 2 t) (iblk V c 3 t) (iblk V c 4 t) (iblk V c 5 t) (iblk V c 6 t) (iblk V c 7 t) (iblk V c 8 t)
  Φ _ := Pipeline.scopedRest (Ix := HIx 1) (Name := ℕ) (U := UU) (Lvl := ℕ) (Val := Elt F) spec1 c
  q _ := fullShare
  owed _ := 0
  recorded _ := lowPairs (F := F) c

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t
    = blockOut (iblk V c 0 t) (iblk V c 1 t) (iblk V c 2 t) (iblk V c 3 t) (iblk V c 4 t) (iblk V c 5 t) (iblk V c 6 t) (iblk V c 7 t) (iblk V c 8 t) := by
  dsimp only [dat]

/-- Each input's current staging buffer holds its block at every point, fetched there or not: unfetched, the block
    index has not moved. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg1.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat V c).Φ t.castSucc ∗ (dat V c).owesAt none t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d)))

def bodyPost (c : Dev nD) (t : Fin cfg1.N) : sProp 𝕄 :=
  iprop((dat V c).Φ t.succ ∗ (dat V c).owesAt none t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t))

/-- The body at any point: the inputs' memrefs hold their blocks, so the body's triple applies; the invariant and
    the core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8]
  rw [show (dat V c).Φ t.succ = (dat V c).Φ t.castSucc from rfl,
    show (dat V c).owesAt none t.succ = (dat V c).owesAt none t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid1.coords t) _ _ _ _ _ _ _ _ _ _ _ _ _ _ _ _ _ _ _ _
    (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dat (F := F) V c) (defs₀ (F := F)) Variants.none none Set.univ := fun t => by
  rw [bigSep_W1, bigSep_W1]
  exact sound_body V c t

end Cert.Proof.ScB

end
-- ==== Proof.ScB.Region.lean ====
/-
  The TensorCore kernel region inside the SparseCore program.

  Between the gather and the return the TensorCore runs one kernel region: the perceptron pipeline over the two
  gathered arrays and the seven prepared weight operands. Entered holding the ten arrays whole, owing nothing, with
  the pipeline's staging cells still unallocated, it comes back with the nine operands as they were and the result
  array at what the pipeline's eight write-backs leave in it, still owing nothing, every recorded wait at or below
  the level it was found at. The region's own protocol (the staging cells' rounds) lives in its own component of
  the ghost state and is allocated at the entry; nothing of the handshakes with the SparseCores is touched.
-/
import proofs.«205169_g39805756899661_cont_8to1_b_81_27_alg».proof.Proof.ScB.Setup
import proofs.«205169_g39805756899661_cont_8to1_b_81_27_alg».proof.Proof.Gen.Kernel.Launch
import proofs.«205169_g39805756899661_cont_8to1_b_81_27_alg».proof.Proof.Gen.Kernel.Skeleton
import proofs.«205169_g39805756899661_cont_8to1_b_81_27_alg».proof.Proof.Gen.Kernel.Points
import proofs.«205169_g39805756899661_cont_8to1_b_81_27_alg».proof.Proof.ScB.RegionData
import Idealize.ShloMosaic.Lib.Pipeline.FrameBody
import Idealize.ShloMosaic.Lib.Pipeline.Regions
import Idealize.ShloMosaic.Lib.Tactic

set_option maxRecDepth 16384

noncomputable section

namespace Cert.Proof.ScB

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The thread state around the region -/

/-- A valuation of one TensorCore's buffers. -/
abbrev Val1 (d : Dev nD) : Type := (b : Ref sig .tc) → Buf (Elt F) ((T d : Thread nD τ).loc b)

/-- Nothing owed, every recorded pair at or below level 8: the TensorCore after its one SparseCore call. -/
def owesLow (d : Dev nD) : sProp 𝕄 :=
  iprop(∃ W, ⌜(K (F := F)).WBelow (T d) W 8⌝ ∗ owes (T d : Thread nD τ) (0 : CellTallies nD τ sig (HIx 1)) W)

/-- The ten arrays the region moves, each whole at the full share: the nine operands at the valuation, the result at `o`. -/
def arrs (d : Dev nD) (Vd : Val1 (F := F) d) (o : Buf (Elt F) ((T d : Thread nD τ).loc main_v10)) : sProp 𝕄 :=
  iprop(((T d : Thread nD τ).loc main_v0_0 ↦{fullShare} Vd main_v0_0) ∗ ((T d : Thread nD τ).loc main_v0_1 ↦{fullShare} Vd main_v0_1)
    ∗ ((T d : Thread nD τ).loc main_v2 ↦{fullShare} Vd main_v2) ∗ ((T d : Thread nD τ).loc main_v4 ↦{fullShare} Vd main_v4)
    ∗ ((T d : Thread nD τ).loc main_v5 ↦{fullShare} Vd main_v5) ∗ ((T d : Thread nD τ).loc main_v6 ↦{fullShare} Vd main_v6)
    ∗ ((T d : Thread nD τ).loc main_v7 ↦{fullShare} Vd main_v7) ∗ ((T d : Thread nD τ).loc main_v8 ↦{fullShare} Vd main_v8)
    ∗ ((T d : Thread nD τ).loc main_v9 ↦{fullShare} Vd main_v9) ∗ ((T d : Thread nD τ).loc main_v10 ↦{fullShare} o))

variable (V : Valn (F := F)) (lv : GSem nD τ sig → HIx 1 → ℕ)

/-- The proof data of the program's one pipeline. -/
def pdats (p : Fin 1) (c : Dev nD) : Dat τ (Elt F) (HIx 1) ℕ UU ℕ (Pipeline.pin (pcfgs (F := F)) adm p) c := dat V c

/-- The result array after the region: what the eight write-backs leave. -/
def outArrAt (c : Dev nD) : Buf (Elt F) ((T c : Thread nD τ).loc main_v10) := (dat V c).arrAt 9 cfg1.N

theorem share_full (c : Dev nD) (w) : (pdats V 0 c).share w = fullShare := (pdats V 0 c).share_full (fun _ => rfl) w

/-- The pipeline's arrays at contents `G`, one by one. -/
theorem arrays_chain (c : Dev nD) (G : (w : Fin cfg1.W) → Buf (Elt F) (((cfg1.win w).arr.view.loc (c : Thread nD τ)))) :
    (pdats V 0 c).arrays G = iprop(((T c : Thread nD τ).loc main_v0_0 ↦{fullShare} G 0) ∗ ((T c : Thread nD τ).loc main_v0_1 ↦{fullShare} G 1)
      ∗ ((T c : Thread nD τ).loc main_v2 ↦{fullShare} G 2) ∗ ((T c : Thread nD τ).loc main_v4 ↦{fullShare} G 3)
      ∗ ((T c : Thread nD τ).loc main_v5 ↦{fullShare} G 4) ∗ ((T c : Thread nD τ).loc main_v6 ↦{fullShare} G 5)
      ∗ ((T c : Thread nD τ).loc main_v7 ↦{fullShare} G 6) ∗ ((T c : Thread nD τ).loc main_v8 ↦{fullShare} G 7)
      ∗ ((T c : Thread nD τ).loc main_v9 ↦{fullShare} G 8) ∗ ((T c : Thread nD τ).loc main_v10 ↦{fullShare} G 9)) := by
  rw [Pipeline.arrays_eq (Pipeline.pin (pcfgs (F := F)) adm) (pdats V) 0 c launch1.arr_whole (share_full V c) G, bigSep_W1]

set_option backward.isDefEq.respectTransparency.types false in
/-- The region over the thread state "the ten arrays and the core's `owes`". Nothing enters the invariant but the scoped
    rest (empty); the kernel has no semaphore of its own. -/
def reg : Pipeline.RegionSeg (pcfgs (F := F)) adm (pdats V) (none : HIx 1) defs₀ 𝒱₀ (K (F := F)).L lv 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L lv 0 fun _ _ => rfl
  pre c := iprop(arrs c (V c) (V c main_v10) ∗ owesLow (F := F) c)
  post c := iprop(arrs c (V c) (outArrAt V c) ∗ owesLow (F := F) c)
  X _ := BI.emp
  Y _ := BI.emp
  Z _ := BI.emp
  hentry c := by
    rw [Pipeline.ownSems0_none, arrays_chain]
    unfold arrs owesLow
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iempintro
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    rw [arrays_chain]
    unfold arrs owesLow
    iintro ⟨Ha, HO, -, -⟩
    imodintro
    isplitl [Ha]
    · rw [show (pdats V 0 c).arrAt 0 (Pipeline.pin (pcfgs (F := F)) adm 0).N = V c main_v0_0 from (dat V c).arrAt_in 0 rfl _,
        show (pdats V 0 c).arrAt 1 (Pipeline.pin (pcfgs (F := F)) adm 0).N = V c main_v0_1 from (dat V c).arrAt_in 1 rfl _,
        show (pdats V 0 c).arrAt 2 (Pipeline.pin (pcfgs (F := F)) adm 0).N = V c main_v2 from (dat V c).arrAt_in 2 rfl _,
        show (pdats V 0 c).arrAt 3 (Pipeline.pin (pcfgs (F := F)) adm 0).N = V c main_v4 from (dat V c).arrAt_in 3 rfl _,
        show (pdats V 0 c).arrAt 4 (Pipeline.pin (pcfgs (F := F)) adm 0).N = V c main_v5 from (dat V c).arrAt_in 4 rfl _,
        show (pdats V 0 c).arrAt 5 (Pipeline.pin (pcfgs (F := F)) adm 0).N = V c main_v6 from (dat V c).arrAt_in 5 rfl _,
        show (pdats V 0 c).arrAt 6 (Pipeline.pin (pcfgs (F := F)) adm 0).N = V c main_v7 from (dat V c).arrAt_in 6 rfl _,
        show (pdats V 0 c).arrAt 7 (Pipeline.pin (pcfgs (F := F)) adm 0).N = V c main_v8 from (dat V c).arrAt_in 7 rfl _,
        show (pdats V 0 c).arrAt 8 (Pipeline.pin (pcfgs (F := F)) adm 0).N = V c main_v9 from (dat V c).arrAt_in 8 rfl _]
      iexact Ha
    unfold Pipeline.Dat.owesAt Pipeline.owesWithin
    icases HO with ⟨%W, %hW, HO⟩
    iexists W; isplitr; swap; (· iexact HO)
    ipureintro
    intro p hp
    rcases hW hp with h | ⟨w, s, rfl⟩
    · exact h
    · exact Nat.zero_le _

end Cert.Proof.ScB

end
-- ==== Proof.ScB.MainPre.lean ====
/-
  @main's text and what the launch deals the TensorCore.

  @main is the gather call, a straight line of nine host operations (slices, transposes and reshapes of the weight
  arrays), the kernel region, and the return. The launch deals the TensorCore its 21 unscoped arrays whole at their
  launch contents; they are taken out of the family one by one.
-/
import proofs.«205169_g39805756899661_cont_8to1_b_81_27_alg».proof.Proof.ScB.Pay
import proofs.«205169_g39805756899661_cont_8to1_b_81_27_alg».proof.Proof.ScB.Ghost
import proofs.«205169_g39805756899661_cont_8to1_b_81_27_alg».proof.Proof.ScB.Region
import Idealize.ShloMosaic.Lib.SparseCore.Launch
import Idealize.ShloMosaic.Lib.StableHlo.Run
import Idealize.ShloMosaic.Lib.Transfers
import Idealize.ShloMosaic.Lib.Tactic

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The nine host operations between the two kernels. -/
def hostOps : List (HloOp τ sig (Elt F)) :=
  [StableHlo.unary main_arg3 main_v1 ((extractStridedSlice S128x64 ![0, 0] · slices_S128x128_S128x64_0_0) : (⟨S128x128, .f32⟩ : BufTy).Contents (Elt F) → (⟨S128x64, .f32⟩ : BufTy).Contents (Elt F)),
   StableHlo.unary main_v1 main_v2 ((transpose S64x128 [1, 0] · transposes_S128x64_S64x128_1_0) : (⟨S128x64, .f32⟩ : BufTy).Contents (Elt F) → (⟨S64x128, .f32⟩ : BufTy).Contents (Elt F)),
   StableHlo.unary main_arg3 main_v3 ((extractStridedSlice S128x64 ![0, 64] · slices_S128x128_S128x64_0_64) : (⟨S128x128, .f32⟩ : BufTy).Contents (Elt F) → (⟨S128x64, .f32⟩ : BufTy).Contents (Elt F)),
   StableHlo.unary main_v3 main_v4 ((transpose S64x128 [1, 0] · transposes_S128x64_S64x128_1_0) : (⟨S128x64, .f32⟩ : BufTy).Contents (Elt F) → (⟨S64x128, .f32⟩ : BufTy).Contents (Elt F)),
   StableHlo.reshape main_arg4 main_v5 rfl shapeCasts_S128_S1x128,
   StableHlo.unary main_arg5 main_v6 ((transpose S128x64 [1, 0] · transposes_S64x128_S128x64_1_0) : (⟨S64x128, .f32⟩ : BufTy).Contents (Elt F) → (⟨S128x64, .f32⟩ : BufTy).Contents (Elt F)),
   StableHlo.reshape main_arg6 main_v7 rfl shapeCasts_S64_S1x64,
   StableHlo.unary main_arg7 main_v8 ((transpose S64x1 [1, 0] · transposes_S1x64_S64x1_1_0) : (⟨S1x64, .f32⟩ : BufTy).Contents (Elt F) → (⟨S64x1, .f32⟩ : BufTy).Contents (Elt F)),
   StableHlo.reshape main_arg8 main_v9 rfl shapeCasts_S1_S1x1]

/-- @main is the gather call, the nine host operations, the kernel region, the return. -/
theorem main_eq (d : Dev nD) :
    main (F := F) d = ((K (F := F)).run d 0 >>= fun _ => (StableHlo.seq (hostOps (F := F)) >>= fun _ =>
      (Prog.lift (.customCall (SparseCore.inner (Pipeline.entry 0)) ()) >>= fun _ => pure ⟨⟩))) := rfl

omit [FloatOps F] in
/-- A family over the elements of a list without repeats is the elements' terms one after the other. -/
theorem bigSep_list {I : Type} [DecidableEq I] (Φ : I → sProp 𝕄) :
    ∀ (l : List I), l.Nodup → bigSep l.toFinset Φ = l.foldr (fun a R => iprop(Φ a ∗ R)) iprop(emp)
  | [], _ => rfl
  | a :: l, h => by
    rw [List.toFinset_cons, SparseCore.bigSep_insert' (by simpa using (List.nodup_cons.mp h).1),
      bigSep_list Φ l (List.nodup_cons.mp h).2]
    rfl

/-- The TensorCore's 21 unscoped arrays. -/
def refs21 : List (Ref sig .tc) := [main_arg0, main_arg1, main_arg2, main_arg3, main_arg4, main_arg5, main_arg6, main_arg7, main_arg8, main_v0_0, main_v0_1, main_v1, main_v2, main_v3, main_v4, main_v5, main_v6, main_v7, main_v8, main_v9, main_v10]
theorem refs21_nodup : refs21.Nodup := by decide
theorem refs21_unscoped : ∀ b ∈ refs21, ¬ b.isScoped := by decide

omit [FloatOps F] in
/-- The TensorCore's unscoped arrays, one by one. -/
theorem unscopedBufs_split (d : Dev nD) (W : (b : Ref sig .tc) → Buf (Elt F) ((d.tc : Thread nD τ).loc b)) :
    (unscopedBufs d W : sProp 𝕄) ⊢ iprop(((T d : Thread nD τ).loc main_arg0 ↦{fullShare} W main_arg0)
      ∗ ((T d : Thread nD τ).loc main_arg1 ↦{fullShare} W main_arg1)
      ∗ ((T d : Thread nD τ).loc main_arg2 ↦{fullShare} W main_arg2)
      ∗ ((T d : Thread nD τ).loc main_arg3 ↦{fullShare} W main_arg3)
      ∗ ((T d : Thread nD τ).loc main_arg4 ↦{fullShare} W main_arg4)
      ∗ ((T d : Thread nD τ).loc main_arg5 ↦{fullShare} W main_arg5)
      ∗ ((T d : Thread nD τ).loc main_arg6 ↦{fullShare} W main_arg6)
      ∗ ((T d : Thread nD τ).loc main_arg7 ↦{fullShare} W main_arg7)
      ∗ ((T d : Thread nD τ).loc main_arg8 ↦{fullShare} W main_arg8)
      ∗ ((T d : Thread nD τ).loc main_v0_0 ↦{fullShare} W main_v0_0)
      ∗ ((T d : Thread nD τ).loc main_v0_1 ↦{fullShare} W main_v0_1)
      ∗ ((T d : Thread nD τ).loc main_v1 ↦{fullShare} W main_v1)
      ∗ ((T d : Thread nD τ).loc main_v2 ↦{fullShare} W main_v2)
      ∗ ((T d : Thread nD τ).loc main_v3 ↦{fullShare} W main_v3)
      ∗ ((T d : Thread nD τ).loc main_v4 ↦{fullShare} W main_v4)
      ∗ ((T d : Thread nD τ).loc main_v5 ↦{fullShare} W main_v5)
      ∗ ((T d : Thread nD τ).loc main_v6 ↦{fullShare} W main_v6)
      ∗ ((T d : Thread nD τ).loc main_v7 ↦{fullShare} W main_v7)
      ∗ ((T d : Thread nD τ).loc main_v8 ↦{fullShare} W main_v8)
      ∗ ((T d : Thread nD τ).loc main_v9 ↦{fullShare} W main_v9)
      ∗ ((T d : Thread nD τ).loc main_v10 ↦{fullShare} W main_v10)
      ∗ emp) := by
  unfold unscopedBufs
  have hsub : refs21.toFinset ⊆ (Finset.univ.filter fun b : Ref sig .tc => ¬ b.isScoped) := by
    intro b hb
    rw [Finset.mem_filter]
    exact ⟨Finset.mem_univ _, refs21_unscoped b (List.mem_toFinset.mp hb)⟩
  refine (bigSep_subset hsub).trans ?_
  rw [bigSep_list _ _ refs21_nodup]
  unfold refs21
  simp only [List.foldr_cons, List.foldr_nil]
  exact BI.Entails.refl _

end Cert.Proof.ScB

end
-- ==== Proof.ScB.CallPay.lean ====
/-
  What the TensorCore hands the gather call and gets back, whole.

  The call's 32 tiles cut the right halves of the two index arrays and the two gathered arrays into their element
  sets, and share the table by 32 read shares split off the full share: so the call is handed the right halves of
  the index arrays, the 32 read shares of the table and the gathered arrays, each whole. Every tile hands back its
  rows of the gathered arrays at one whole-array function — the gather of the table at the index array — so the
  call hands back the two gathered arrays whole at that function.
-/
import proofs.«205169_g39805756899661_cont_8to1_b_81_27_alg».proof.Proof.ScB.Pay
import Idealize.ShloMosaic.Lib.Transfers
import Idealize.ShloMosaic.Lib.Tactic

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ## The grid points, two ways -/

/-- The grid points are the pairs (SparseCore, vector subcore) of the call's grid, -/
def tileEquiv : (Fin ((K (F := F)).nCore 0) × Fin ((K (F := F)).nSub 0)) ≃ grid0.Coords where
  toFun p := tileOf p.1 p.2
  invFun L := (Fin.cast nCore_zero.symm (L 0), Fin.cast nSub_zero.symm (L 1))
  left_inv _ := rfl
  right_inv _ := coords_ext rfl rfl

/-- and are numbered `16 c + s`. -/
def tokEquiv : grid0.Coords ≃ Fin 32 :=
  ({ toFun := fun L => (L 0, L 1), invFun := fun p => tile p.1 p.2, left_inv := fun _ => coords_ext rfl rfl, right_inv := fun _ => rfl } :
    grid0.Coords ≃ Fin 2 × Fin 16).trans finProdFinEquiv

/-- What the call hands its SparseCores is what it hands its 32 tiles; -/
theorem st0_eq (d : Dev nD) : (bigSep Finset.univ fun c : Fin ((K (F := F)).nCore 0) => (P m).st 0 d c)
    = bigSep Finset.univ fun L : grid0.Coords => goT d L fullShare.right (tok L) (iaM m d) (ibM m d) (tbM m d) := by
  show (bigSep Finset.univ fun c : Fin ((K (F := F)).nCore 0) => bigSep Finset.univ fun i : Fin ((K (F := F)).nSub 0) => goB m d c i) = _
  rw [← bigSep_univ_prod (fun p : Fin ((K (F := F)).nCore 0) × Fin ((K (F := F)).nSub 0) => goB m d p.1 p.2),
    bigSep_univ_equiv (tileEquiv (F := F)) (fun L : grid0.Coords => goT d L fullShare.right (tok L) (iaM m d) (ibM m d) (tbM m d))]
  rfl

/-- what they hand back, what the tiles do. -/
theorem dn0_eq (d : Dev nD) : (bigSep Finset.univ fun c : Fin ((K (F := F)).nCore 0) => (P m).dn 0 d c)
    = bigSep Finset.univ fun L : grid0.Coords => tdT d L (iaM m d) (ibM m d) (tbM m d) := by
  show (bigSep Finset.univ fun c : Fin ((K (F := F)).nCore 0) => bigSep Finset.univ fun i : Fin ((K (F := F)).nSub 0) => tdB m d c i) = _
  rw [← bigSep_univ_prod (fun p : Fin ((K (F := F)).nCore 0) × Fin ((K (F := F)).nSub 0) => tdB m d p.1 p.2),
    bigSep_univ_equiv (tileEquiv (F := F)) (fun L : grid0.Coords => tdT d L (iaM m d) (ibM m d) (tbM m d))]
  rfl

omit [FloatOps F] in
/-- The table's 32 read shares are the tiles'. -/
theorem table_toks (d : Dev nD) (f : Buf (Elt F) (locTb d)) :
    (bigSep Finset.univ fun i : Fin 32 => (locTb d ↦{Transfers.shareTok fullShare 32 i} f : sProp 𝕄))
      = bigSep Finset.univ fun L : grid0.Coords => locTb d ↦{tok L} f :=
  bigSep_univ_equiv tokEquiv (fun i : Fin 32 => (locTb d ↦{Transfers.shareTok fullShare 32 i} f : sProp 𝕄))

omit [FloatOps F] in
/-- A buffer's elements held at given contents are held at some contents. -/
theorem pointsTo_some {ℓ : Loc nD τ sig} {S : Finset (Idx ℓ)} {q : PosShare TreeShare} (f : Buf (Elt F) ℓ) :
    (ℓ ↦[S]{q} f : sProp 𝕄) ⊢ iprop(∃ g, ℓ ↦[S]{q} g) := by
  iintro H; iexists f; iexact H

/-- THE CALL'S OPERANDS, from the arrays whole. -/
theorem st0_intro (d : Dev nD) (fa : Buf (Elt F) (locGa d)) (fb : Buf (Elt F) (locGb d)) :
    iprop((locIa d ↦{fullShare.right} m (locIa d)) ∗ (locIb d ↦{fullShare.right} m (locIb d))
        ∗ (bigSep Finset.univ fun i : Fin 32 => locTb d ↦{Transfers.shareTok fullShare 32 i} m (locTb d))
        ∗ (locGa d ↦{fullShare} fa) ∗ (locGb d ↦{fullShare} fb))
      ⊢ (bigSep Finset.univ fun c : Fin ((K (F := F)).nCore 0) => (P m).st 0 d c : sProp 𝕄) := by
  have hga : (bigSep Finset.univ fun L : grid0.Coords => (locGa d ↦[tileRowSet L]{fullShare} fa : sProp 𝕄))
      ⊢ bigSep Finset.univ fun L : grid0.Coords => iprop(∃ f, locGa d ↦[tileRowSet L]{fullShare} f) :=
    bigSep_mono fun L _ => pointsTo_some fa
  have hgb : (bigSep Finset.univ fun L : grid0.Coords => (locGb d ↦[tileRowSet L]{fullShare} fb : sProp 𝕄))
      ⊢ bigSep Finset.univ fun L : grid0.Coords => iprop(∃ f, locGb d ↦[tileRowSet L]{fullShare} f) :=
    bigSep_mono fun L _ => pointsTo_some fb
  rw [st0_eq, pts_tiles_arg0 d fullShare.right, pts_tiles_arg1 d fullShare.right, table_toks, pts_tiles_v0_0 d fullShare, pts_tiles_v0_1 d fullShare]
  unfold goT
  rw [bigSep_sep', bigSep_sep', bigSep_sep', bigSep_sep']
  iintro ⟨Ha, Hb, Ht, Hga, Hgb⟩
  isplitl [Ha]; · iexact Ha
  isplitl [Hb]; · iexact Hb
  isplitl [Ht]; · iexact Ht
  isplitl [Hga]
  · iapply hga; iexact Hga
  · iapply hgb; iexact Hgb

/-- THE CALL'S RESULTS, whole: the two gathered arrays at the gather of the table at each index array. -/
theorem dn0_elim (d : Dev nD) :
    (bigSep Finset.univ fun c : Fin ((K (F := F)).nCore 0) => (P m).dn 0 d c : sProp 𝕄)
      ⊢ iprop((locGa d ↦{fullShare} gath (tbM m d) (iaM m d)) ∗ (locGb d ↦{fullShare} gath (tbM m d) (ibM m d))) := by
  rw [dn0_eq, pts_tiles_v0_0 d fullShare, pts_tiles_v0_1 d fullShare]
  unfold tdT
  rw [bigSep_sep']

end Cert.Proof.ScB

end
-- ==== Proof.ScB.Main.lean ====
/-
  @main on the TensorCore.

  The TensorCore splits each index array in two halves of the full share and the table in 32 read shares and a
  remainder; the right halves, the read shares and the two gathered arrays go to the gather call, which hands the
  gathered arrays back whole at the gather of the table at each index array. The nine host operations run over the
  weight arrays and their results. The kernel region is entered with the gathered arrays and the seven prepared
  operands at those contents and the result array at whatever it holds, and comes back with the result array at
  the region's result. What is left for the claim: the nine argument arrays, each under the share the TensorCore
  kept, at their launch contents, and the result array.
-/
import proofs.«205169_g39805756899661_cont_8to1_b_81_27_alg».proof.Proof.ScB.Pay
import proofs.«205169_g39805756899661_cont_8to1_b_81_27_alg».proof.Proof.ScB.MainPre
import proofs.«205169_g39805756899661_cont_8to1_b_81_27_alg».proof.Proof.ScB.CallPay
import proofs.«205169_g39805756899661_cont_8to1_b_81_27_alg».proof.Proof.ScB.Ghost
import proofs.«205169_g39805756899661_cont_8to1_b_81_27_alg».proof.Proof.ScB.Region
import Idealize.ShloMosaic.Lib.SparseCore.Launch
import Idealize.ShloMosaic.Lib.StableHlo.Run
import Idealize.ShloMosaic.Lib.Transfers
import Idealize.ShloMosaic.Lib.Tactic

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The kernel region's rule, as a hypothesis -/

/-- The kernel region's rule over a result array `out`, a function of the TensorCore's valuation at the region's entry. -/
def RegionRule (out : (d : Dev nD) → Val1 (F := F) d → Buf (Elt F) ((T d : Thread nD τ).loc main_v10)) : Prop :=
  ∀ (lv : GSem nD τ sig → HIx 1 → ℕ) (d : Dev nD) (Vd : Val1 (F := F) d) (Φ : PUnit → sProp 𝕄),
    iprop(levAts (K (F := F)).L lv
        ∗ Pipeline.cellsGhost cfgs (EP (F := F)) 0 d ∗ Pipeline.toksInit cfgs (EP (F := F)) 0 d
        ∗ boundary (T d : Thread nD τ) ∗ arrs d Vd (Vd main_v10) ∗ owesLow (F := F) d
        ∗ (iprop(boundary (T d : Thread nD τ) ∗ arrs d Vd (out d Vd) ∗ owesLow (F := F) d) -∗ Φ ⟨⟩))
      ⊢ wp frame (wpE ((K (F := F)).defs (D (F := F))) 𝒱 (T d) none) Set.univ
          (Prog.lift (.customCall (SparseCore.inner (Pipeline.entry 0)) ())) Φ

/-! ## The valuations -/

/-- The launch valuation of device `d`, -/
def V0 (d : Dev nD) : Valuation τ sig (Elt F) := fun b => m (d, b)
/-- the valuation after the nine host operations, -/
def Vh (d : Dev nD) : Valuation τ sig (Elt F) := StableHlo.after (hostOps (F := F)) (V0 m d)
/-- and the TensorCore's valuation at the region's entry: the gathered arrays at the gather of the table at each
    index array, every other array as the host operations left it. -/
def Vd (d : Dev nD) : Val1 (F := F) d :=
  Function.update (Function.update (fun b => Vh m d (Proc.devRef .tc b)) main_v0_0 (gath (tbM m d) (iaM m d)))
    main_v0_1 (gath (tbM m d) (ibM m d))

theorem Vd_v0_0 (d : Dev nD) : Vd m d main_v0_0 = gath (tbM m d) (iaM m d) := by
  unfold Vd; rw [Function.update_of_ne (by decide), Function.update_self]
theorem Vd_v0_1 (d : Dev nD) : Vd m d main_v0_1 = gath (tbM m d) (ibM m d) := by
  unfold Vd; rw [Function.update_self]
theorem Vd_other (d : Dev nD) (b : Ref sig .tc) (h0 : b ≠ main_v0_0) (h1 : b ≠ main_v0_1) :
    Vd m d b = Vh m d (Proc.devRef .tc b) := by
  unfold Vd; rw [Function.update_of_ne h1, Function.update_of_ne h0]

/-- The arrays the host operations write. -/
def hostWrites : List (Ref sig .tc) := [main_v1, main_v2, main_v3, main_v4, main_v5, main_v6, main_v7, main_v8, main_v9]

theorem hostOps_writes : (hostOps (F := F)).Forall fun op => op.writes ⊆ (hostWrites.map (Proc.devRef (τ := τ) .tc)).toFinset := by
  have h : ∀ y : Ref sig .tc, y ∈ hostWrites →
      ({Proc.devRef .tc y} : Finset (DevRef τ sig)) ⊆ (hostWrites.map (Proc.devRef (τ := τ) .tc)).toFinset :=
    fun y hy => Finset.singleton_subset_iff.mpr (List.mem_toFinset.mpr (List.mem_map_of_mem hy))
  simp only [hostOps, List.forall_cons, List.Forall]
  exact ⟨h main_v1 (by decide), h main_v2 (by decide), h main_v3 (by decide), h main_v4 (by decide), h main_v5 (by decide),
    h main_v6 (by decide), h main_v7 (by decide), h main_v8 (by decide), h main_v9 (by decide)⟩

/-- An array the host operations do not write keeps its launch contents. -/
theorem Vh_of_not_written (d : Dev nD) (r : Ref sig .tc) (hr : r ∉ hostWrites) :
    Vh m d (Proc.devRef .tc r) = V0 m d (Proc.devRef .tc r) :=
  StableHlo.after_of_writes_sub (hostOps (F := F)) (V0 m d) hostOps_writes hr

/-! ## The arrays the host operations run over -/

/-- The weight arrays and the host operations' results. -/
def refs15 : List (Ref sig .tc) := [main_arg3, main_arg4, main_arg5, main_arg6, main_arg7, main_arg8, main_v1, main_v2, main_v3, main_v4, main_v5, main_v6, main_v7, main_v8, main_v9]
theorem refs15_nodup : refs15.Nodup := by decide
def S15 : Finset (DevRef τ sig) := (refs15.map (Proc.devRef (τ := τ) .tc)).toFinset

omit [FloatOps F] in
theorem held_S15 (d : Dev nD) (W : Valuation τ sig (Elt F)) :
    (held (T d) S15 W : sProp 𝕄) = iprop(((T d : Thread nD τ).loc main_arg3 ↦{fullShare} W (Proc.devRef .tc main_arg3))
      ∗ ((T d : Thread nD τ).loc main_arg4 ↦{fullShare} W (Proc.devRef .tc main_arg4))
      ∗ ((T d : Thread nD τ).loc main_arg5 ↦{fullShare} W (Proc.devRef .tc main_arg5))
      ∗ ((T d : Thread nD τ).loc main_arg6 ↦{fullShare} W (Proc.devRef .tc main_arg6))
      ∗ ((T d : Thread nD τ).loc main_arg7 ↦{fullShare} W (Proc.devRef .tc main_arg7))
      ∗ ((T d : Thread nD τ).loc main_arg8 ↦{fullShare} W (Proc.devRef .tc main_arg8))
      ∗ ((T d : Thread nD τ).loc main_v1 ↦{fullShare} W (Proc.devRef .tc main_v1))
      ∗ ((T d : Thread nD τ).loc main_v2 ↦{fullShare} W (Proc.devRef .tc main_v2))
      ∗ ((T d : Thread nD τ).loc main_v3 ↦{fullShare} W (Proc.devRef .tc main_v3))
      ∗ ((T d : Thread nD τ).loc main_v4 ↦{fullShare} W (Proc.devRef .tc main_v4))
      ∗ ((T d : Thread nD τ).loc main_v5 ↦{fullShare} W (Proc.devRef .tc main_v5))
      ∗ ((T d : Thread nD τ).loc main_v6 ↦{fullShare} W (Proc.devRef .tc main_v6))
      ∗ ((T d : Thread nD τ).loc main_v7 ↦{fullShare} W (Proc.devRef .tc main_v7))
      ∗ ((T d : Thread nD τ).loc main_v8 ↦{fullShare} W (Proc.devRef .tc main_v8))
      ∗ ((T d : Thread nD τ).loc main_v9 ↦{fullShare} W (Proc.devRef .tc main_v9))
      ∗ emp) := by
  unfold held S15
  rw [bigSep_list _ _ (List.Nodup.map (Proc.devRef_injective _) refs15_nodup)]
  unfold refs15
  simp only [List.map_cons, List.map_nil, List.foldr_cons, List.foldr_nil]

omit [FloatOps F] in
theorem pair_sub {a b : Ref sig .tc} (ha : a ∈ refs15) (hb : b ∈ refs15) :
    ({Proc.devRef .tc a, Proc.devRef .tc b} : Finset (DevRef τ sig)) ⊆ S15 := by
  intro x hx
  rcases Finset.mem_insert.mp hx with rfl | hx
  · exact List.mem_toFinset.mpr (List.mem_map_of_mem ha)
  · rw [Finset.mem_singleton.mp hx]; exact List.mem_toFinset.mpr (List.mem_map_of_mem hb)

theorem hostOps_bufs : ∀ op ∈ hostOps (F := F), op.bufs ⊆ S15 := by
  intro op hop
  simp only [hostOps, List.mem_cons, List.not_mem_nil, or_false] at hop
  rcases hop with rfl | rfl | rfl | rfl | rfl | rfl | rfl | rfl | rfl
  · exact pair_sub (a := main_arg3) (b := main_v1) (by decide) (by decide)
  · exact pair_sub (a := main_v1) (b := main_v2) (by decide) (by decide)
  · exact pair_sub (a := main_arg3) (b := main_v3) (by decide) (by decide)
  · exact pair_sub (a := main_v3) (b := main_v4) (by decide) (by decide)
  · exact pair_sub (a := main_arg4) (b := main_v5) (by decide) (by decide)
  · exact pair_sub (a := main_arg5) (b := main_v6) (by decide) (by decide)
  · exact pair_sub (a := main_arg6) (b := main_v7) (by decide) (by decide)
  · exact pair_sub (a := main_arg7) (b := main_v8) (by decide) (by decide)
  · exact pair_sub (a := main_arg8) (b := main_v9) (by decide) (by decide)

theorem hostOps_fresh : ∀ op ∈ hostOps (F := F), op.fresh = ∅ := by
  intro op hop
  simp only [hostOps, List.mem_cons, List.not_mem_nil, or_false] at hop
  rcases hop with rfl | rfl | rfl | rfl | rfl | rfl | rfl | rfl | rfl <;> rfl

/-! ## What is left for the claim -/

/-- The nine argument arrays, each under the share the TensorCore kept, at their launch contents, and the result
    array at the region's result. -/
def FIN (out : (d : Dev nD) → Val1 (F := F) d → Buf (Elt F) ((T d : Thread nD τ).loc main_v10)) (d : Dev nD) : sProp 𝕄 :=
  iprop((locIa d ↦{fullShare.left} m (locIa d)) ∗ (locIb d ↦{fullShare.left} m (locIb d))
    ∗ (locTb d ↦{Transfers.shareDrop fullShare 32} m (locTb d))
    ∗ ((T d : Thread nD τ).loc main_arg3 ↦{fullShare} m ((T d : Thread nD τ).loc main_arg3))
    ∗ ((T d : Thread nD τ).loc main_arg4 ↦{fullShare} m ((T d : Thread nD τ).loc main_arg4))
    ∗ ((T d : Thread nD τ).loc main_arg5 ↦{fullShare} m ((T d : Thread nD τ).loc main_arg5))
    ∗ ((T d : Thread nD τ).loc main_arg6 ↦{fullShare} m ((T d : Thread nD τ).loc main_arg6))
    ∗ ((T d : Thread nD τ).loc main_arg7 ↦{fullShare} m ((T d : Thread nD τ).loc main_arg7))
    ∗ ((T d : Thread nD τ).loc main_arg8 ↦{fullShare} m ((T d : Thread nD τ).loc main_arg8))
    ∗ ((T d : Thread nD τ).loc main_v10 ↦{fullShare} out d (Vd m d)))

omit [FloatOps F] in
/-- After its one call the TensorCore owes nothing: that part of its handshake state, taken out and put back. -/
theorem tcSt_one_elim (d : Dev nD) :
    ((K (F := F)).tcSt EH d 1 : sProp 𝕄) ⊢ iprop(owesLow (F := F) d ∗ (owesLow (F := F) d -∗ (K (F := F)).tcSt EH d 1)) := by
  unfold SparseCore.Cfg.tcSt owesLow
  rw [(K (F := F)).Otc_end d le_rfl]
  iintro ⟨HO, Hrest⟩
  isplitl [HO]; · iexact HO
  iintro HO
  isplitl [HO]; · iexact HO
  iexact Hrest

set_option backward.isDefEq.respectTransparency.types false in
/-- @MAIN on device `d`'s TensorCore. -/
theorem hmain {out : (d : Dev nD) → Val1 (F := F) d → Buf (Elt F) ((T d : Thread nD τ).loc main_v10)}
    (hregion : RegionRule (F := F) out) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m out d) := by
  unfold SparseCore.Cfg.tcRes G
  rw [main_eq, wp_bind]
  iintro ⟨#Hctx, Hst, ⟨Hb, Hu, -, -⟩, Hcg, Hti⟩
  ihave Hu' := (unscopedBufs_split d _) $$ Hu
  icases Hu' with ⟨Ha0, Ha1, Ha2, Ha3, Ha4, Ha5, Ha6, Ha7, Ha8, Hg0, Hg1, Hv1, Hv2, Hv3, Hv4, Hv5, Hv6, Hv7, Hv8, Hv9, Hv10, -⟩
  -- the index arrays in halves, the table in 32 read shares and a remainder
  ihave Ha0' := (pointsTo_share (PosShare.mem_left_op_right fullShare)).1 $$ Ha0
  icases Ha0' with ⟨Ha0l, Ha0r⟩
  ihave Ha1' := (pointsTo_share (PosShare.mem_left_op_right fullShare)).1 $$ Ha1
  icases Ha1' with ⟨Ha1l, Ha1r⟩
  ihave Ha2' := (Transfers.pointsTo_toks_split fullShare 32) $$ Ha2
  icases Ha2' with ⟨Ha2d, Ha2t⟩
  -- the gather call
  iapply ((K (F := F)).wp_run (D (F := F)) 𝒱 (EH := EH) (P := P m) κ d 0) $$ [Hst Ha0r Ha1r Ha2t Hg0 Hg1 Hb Ha0l Ha1l Ha2d Ha3 Ha4 Ha5 Ha6 Ha7 Ha8 Hv1 Hv2 Hv3 Hv4 Hv5 Hv6 Hv7 Hv8 Hv9 Hv10 Hcg Hti]
  isplitr; · iexact Hctx
  isplitl [Hst]; · iexact Hst
  isplitl [Ha0r Ha1r Ha2t Hg0 Hg1]
  · iapply (st0_intro m d _ _)
    isplitl [Ha0r]; · iexact Ha0r
    isplitl [Ha1r]; · iexact Ha1r
    isplitl [Ha2t]; · iexact Ha2t
    isplitl [Hg0]; · iexact Hg0
    iexact Hg1
  iintro ⟨Hst, Hdn⟩
  ihave Hdn' := (dn0_elim m d) $$ Hdn
  icases Hdn' with ⟨Hg0, Hg1⟩
  -- the nine host operations
  iapply (StableHlo.wp_seq 𝒱 none Set.univ d S15 _ (hostOps (F := F)) hostOps_bufs hostOps_fresh (V0 m d)) $$ [Hb Ha3 Ha4 Ha5 Ha6 Ha7 Ha8 Hv1 Hv2 Hv3 Hv4 Hv5 Hv6 Hv7 Hv8 Hv9]
  · isplitl [Hb]; · iexact Hb
    rw [held_S15]
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    iempintro
  iintro ⟨Hb, Hheld⟩
  ihave Hheld' := (Entails.of_eq (show (held (d.tc : Thread nD τ) S15 (StableHlo.after (hostOps (F := F)) (V0 m d)) : sProp 𝕄)
    = held (SparseCore.T d) S15 (Vh m d) from rfl)) $$ Hheld
  ihave Hh := (Entails.of_eq (held_S15 (F := F) d (Vh m d))) $$ Hheld'
  icases Hh with ⟨Ha3, Ha4, Ha5, Ha6, Ha7, Ha8, Hv1, Hv2, Hv3, Hv4, Hv5, Hv6, Hv7, Hv8, Hv9, -⟩
  -- the kernel region
  rw [wp_bind]
  ihave Hst1 := (Entails.of_eq (show ((K (F := F)).tcSt EH d ((0 : Fin 1).val + 1) : sProp 𝕄) = (K (F := F)).tcSt EH d 1 from rfl)) $$ Hst
  ihave Hst' := (tcSt_one_elim (F := F) d) $$ Hst1
  icases Hst' with ⟨Ho, Hback⟩
  iapply (hregion (K (F := F)).lev d (Vd m d) _) $$ [Hcg Hti Hb Hg0 Hg1 Hv2 Hv4 Hv5 Hv6 Hv7 Hv8 Hv9 Hv10 Ho Hback Ha0l Ha1l Ha2d Ha3 Ha4 Ha5 Ha6 Ha7 Ha8]
  isplitr; · iapply ((K (F := F)).ctx_levAts (EH := EH) (P := P m) κ); iexact Hctx
  isplitl [Hcg]; · iexact Hcg
  isplitl [Hti]; · iexact Hti
  isplitl [Hb]; · iexact Hb
  isplitl [Hg0 Hg1 Hv2 Hv4 Hv5 Hv6 Hv7 Hv8 Hv9 Hv10]
  · unfold arrs
    rw [Vd_v0_0, Vd_v0_1, Vd_other m d main_v2 (by decide) (by decide), Vd_other m d main_v4 (by decide) (by decide),
      Vd_other m d main_v5 (by decide) (by decide), Vd_other m d main_v6 (by decide) (by decide),
      Vd_other m d main_v7 (by decide) (by decide), Vd_other m d main_v8 (by decide) (by decide),
      Vd_other m d main_v9 (by decide) (by decide), Vd_other m d main_v10 (by decide) (by decide),
      Vh_of_not_written m d main_v10 (by decide)]
    isplitl [Hg0]; · iexact Hg0
    isplitl [Hg1]; · iexact Hg1
    isplitl [Hv2]; · iexact Hv2
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    iexact Hv10
  isplitl [Ho]; · iexact Ho
  iintro ⟨Hb, Ha, Ho⟩
  rw [wp_pure]
  imodintro
  isplitl [Ho Hback]; · iapply Hback; iexact Ho
  unfold FIN arrs
  icases Ha with ⟨-, -, -, -, -, -, -, -, -, Hv10⟩
  rw [Vh_of_not_written m d main_arg3 (by decide), Vh_of_not_written m d main_arg4 (by decide), Vh_of_not_written m d main_arg5 (by decide),
    Vh_of_not_written m d main_arg6 (by decide), Vh_of_not_written m d main_arg7 (by decide), Vh_of_not_written m d main_arg8 (by decide)]
  isplitl [Ha0l]; · iexact Ha0l
  isplitl [Ha1l]; · iexact Ha1l
  isplitl [Ha2d]; · iexact Ha2d
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  iexact Hv10

end Cert.Proof.ScB

end
-- ==== Proof.ScB.Launch.lean ====
/-
  The program's run.

  The SparseCore launch theorem, applied: the tile's obligation from the tile's body, the identity split of a
  SparseCore's operands among its tiles, the launch element, @main on the TensorCore, and the final assertions —
  the points-tos the TensorCore is left with pin the final memory's contents at every share, so the nine argument
  arrays end at their launch contents and the result array at the region's result.
-/
import proofs.«205169_g39805756899661_cont_8to1_b_81_27_alg».proof.Proof.ScB.Pay
import proofs.«205169_g39805756899661_cont_8to1_b_81_27_alg».proof.Proof.ScB.TileObl
import proofs.«205169_g39805756899661_cont_8to1_b_81_27_alg».proof.Proof.ScB.Main
import proofs.«205169_g39805756899661_cont_8to1_b_81_27_alg».proof.Proof.ScB.Ghost
import proofs.«205169_g39805756899661_cont_8to1_b_81_27_alg».proof.Proof.ScB.Region
import Idealize.ShloMosaic.Lib.SparseCore.Launch
import Idealize.ShloMosaic.Lib.StableHlo.Run
import Idealize.ShloMosaic.Lib.Transfers
import Idealize.ShloMosaic.Lib.Tactic

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The final assertions read the claim off the final memory -/

/-- What device `d`'s TensorCore's final assertion says of the final memory. -/
def fq (out : (d : Dev nD) → Val1 (F := F) d → Buf (Elt F) ((T d : Thread nD τ).loc main_v10)) (d : Dev nD)
    (s' : Phys nD τ sig (Elt F)) : Prop :=
  s'.mem.mem ((T d : Thread nD τ).loc main_v10) = out d (Vd m d)
    ∧ s'.mem.mem ((T d : Thread nD τ).loc main_arg0) = m ((T d : Thread nD τ).loc main_arg0)
    ∧ s'.mem.mem ((T d : Thread nD τ).loc main_arg1) = m ((T d : Thread nD τ).loc main_arg1)
    ∧ s'.mem.mem ((T d : Thread nD τ).loc main_arg2) = m ((T d : Thread nD τ).loc main_arg2)
    ∧ s'.mem.mem ((T d : Thread nD τ).loc main_arg3) = m ((T d : Thread nD τ).loc main_arg3)
    ∧ s'.mem.mem ((T d : Thread nD τ).loc main_arg4) = m ((T d : Thread nD τ).loc main_arg4)
    ∧ s'.mem.mem ((T d : Thread nD τ).loc main_arg5) = m ((T d : Thread nD τ).loc main_arg5)
    ∧ s'.mem.mem ((T d : Thread nD τ).loc main_arg6) = m ((T d : Thread nD τ).loc main_arg6)
    ∧ s'.mem.mem ((T d : Thread nD τ).loc main_arg7) = m ((T d : Thread nD τ).loc main_arg7)
    ∧ s'.mem.mem ((T d : Thread nD τ).loc main_arg8) = m ((T d : Thread nD τ).loc main_arg8)

omit [FloatOps F] in
/-- A buffer held whole at any share pins the final memory's contents of it. -/
theorem SI_agree {ℓ : Loc nD τ sig} {q : PosShare TreeShare} {f : Buf (Elt F) ℓ} (s' : Phys nD τ sig (Elt F)) :
    iprop(SI s' ∗ ℓ ↦{q} f) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := q) (f := f))) $$ [HSI Hp]
  · isplitl [HSI] <;> iassumption
  icases H with ⟨%h, HSI, -⟩
  isplitr
  · ipureintro; exact funext fun i => h i (Finset.mem_univ i)
  iexact HSI

theorem hfin (out : (d : Dev nD) → Val1 (F := F) d → Buf (Elt F) ((T d : Thread nD τ).loc main_v10)) (d : Dev nD)
    (s' : Phys nD τ sig (Elt F)) : iprop(FIN m out d ∗ SI s') ⊢ (⌜fq m out d s'⌝ : sProp 𝕄) := by
  unfold FIN
  iintro ⟨⟨H0, H1, H2, H3, H4, H5, H6, H7, H8, H10⟩, HSI⟩
  ihave H := (SI_agree (F := F) s') $$ [HSI H0]
  · isplitl [HSI] <;> iassumption
  icases H with ⟨%h0, HSI⟩
  ihave H := (SI_agree (F := F) s') $$ [HSI H1]
  · isplitl [HSI] <;> iassumption
  icases H with ⟨%h1, HSI⟩
  ihave H := (SI_agree (F := F) s') $$ [HSI H2]
  · isplitl [HSI] <;> iassumption
  icases H with ⟨%h2, HSI⟩
  ihave H := (SI_agree (F := F) s') $$ [HSI H3]
  · isplitl [HSI] <;> iassumption
  icases H with ⟨%h3, HSI⟩
  ihave H := (SI_agree (F := F) s') $$ [HSI H4]
  · isplitl [HSI] <;> iassumption
  icases H with ⟨%h4, HSI⟩
  ihave H := (SI_agree (F := F) s') $$ [HSI H5]
  · isplitl [HSI] <;> iassumption
  icases H with ⟨%h5, HSI⟩
  ihave H := (SI_agree (F := F) s') $$ [HSI H6]
  · isplitl [HSI] <;> iassumption
  icases H with ⟨%h6, HSI⟩
  ihave H := (SI_agree (F := F) s') $$ [HSI H7]
  · isplitl [HSI] <;> iassumption
  icases H with ⟨%h7, HSI⟩
  ihave H := (SI_agree (F := F) s') $$ [HSI H8]
  · isplitl [HSI] <;> iassumption
  icases H with ⟨%h8, HSI⟩
  ihave H := (SI_agree (F := F) s') $$ [HSI H10]
  · isplitl [HSI] <;> iassumption
  icases H with ⟨%h10, HSI⟩
  ipureintro; exact ⟨h10, h0, h1, h2, h3, h4, h5, h6, h7, h8⟩

/-! ## The run -/

/-- The claim: on every device the result array ends at the region's result and the nine argument arrays unchanged. -/
def QC (out : (d : Dev nD) → Val1 (F := F) d → Buf (Elt F) ((T d : Thread nD τ).loc main_v10)) :
    PUnit × MemSt nD τ sig (Elt F) → Prop := fun r => ∀ c : Dev nD,
  r.2.mem ((c.tc : Thread nD τ).loc main_v10) = out c (Vd m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)

/-- THE PROGRAM'S RUN, from the tile's body, the kernel region's rule and the precondition on the two index arrays. -/
theorem run_main [∀ e, Nonempty (Elt F e)]
    {out : (d : Dev nD) → Val1 (F := F) d → Buf (Elt F) ((T d : Thread nD τ).loc main_v10)}
    (hbody : TileBody (F := F)) (hreg : RegionRule (F := F) out)
    (hin : ∀ d : Dev nD, Cert.Spec.InRange (iaM m d) ∧ Cert.Spec.InRange (ibM m d)) :
    θ_run (Cert.Kernel.defs (F := F)) (Cert.Kernel.threads (F := F)) ⟨m, fun _ => 0, ρ⟩ (QC m out) :=
  SparseCore.Cfg.θ_run_sc (K := K (F := F)) (D := D (F := F)) (𝒱 := 𝒱) (EH := EH) (P := P m) facts v₀
    (fun q hq => match q with | 0 => nomatch hq)
    (fun q _ => match q with | 0 => tileObl m hbody hin)
    (fun q _ => match q with | 0 => SparseCore.Cfg.VecSplit.of_plain (vecSplit m))
    m ρ main (fun d => G (F := F) d) (FIN m out) (u₀ (F := F)) (sep_elim_left.trans (hu₀ m)) (hmain m ρ hreg) (fq m out) (hfin m out)
    (QC m out) (fun _ h => h)

end Cert.Proof.ScB

end
-- ==== Proof.ScB.TileCore.lean ====
/-
  The tile's obligation over its resources one by one: the form the body is run in. The launch's form (TileSpec's
  TileBody) packs the two scratch buffers and the five DMA semaphores into the subcore's scoped storage.
-/
import proofs.«205169_g39805756899661_cont_8to1_b_81_27_alg».proof.Proof.ScB.TileSpec
import proofs.«205169_g39805756899661_cont_8to1_b_81_27_alg».proof.Proof.Gen.Kernel.Skeleton
import Idealize.ShloMosaic.Lib.SparseCore.Launch
import Idealize.ShloMosaic.Lib.Batch
import Idealize.ShloMosaic.Lib.StableHlo.Run
import Idealize.ShloMosaic.Lib.Pipeline.Kit
import Idealize.ShloMosaic.Lib.Tactic
import Idealize.ShloMosaic.Lib.Ring
import proofs.«205169_g39805756899661_cont_8to1_b_81_27_alg».proof.Proof.Spec

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iaW" => (Memref.whole Cert.Kernel.main_arg0_scv : Memref Cert.Kernel.sig Kind.scVector Space.hbm Cert.Kernel.S16384 EltTy.i32)
local notation "ibW" => (Memref.whole Cert.Kernel.main_arg1_scv : Memref Cert.Kernel.sig Kind.scVector Space.hbm Cert.Kernel.S16384 EltTy.i32)
local notation "tbW" => (Memref.whole Cert.Kernel.main_arg2_scv : Memref Cert.Kernel.sig Kind.scVector Space.hbm Cert.Kernel.S1000000x64 EltTy.f32)
local notation "oaW" => (Memref.whole Cert.Kernel.main_v0_0_scv : Memref Cert.Kernel.sig Kind.scVector Space.hbm Cert.Kernel.S16384x64 EltTy.f32)
local notation "obW" => (Memref.whole Cert.Kernel.main_v0_1_scv : Memref Cert.Kernel.sig Kind.scVector Space.hbm Cert.Kernel.S16384x64 EltTy.f32)
local notation "sIW" => (Memref.whole Cert.Kernel.cc0_scratch0 : Memref Cert.Kernel.sig Kind.scVector Space.vmem Cert.Kernel.S512 EltTy.i32)
local notation "sRW" => (Memref.whole Cert.Kernel.cc0_scratch1 : Memref Cert.Kernel.sig Kind.scVector Space.vmem Cert.Kernel.S512x64 EltTy.f32)

variable [FloatOps F]

/-- From the read shares, the tile's rows of the gathered arrays, the two scratch buffers whole, the five semaphores
    at zero, what the tile owes and the evidence that its waits are admissible, the gather kernel's body runs to the
    gathered rows, the scratch buffers at some contents, the semaphores at zero, owing the same. -/
def TileCore : Prop :=
  ∀ (d : Dev nD) (L : grid0.Coords) (qi q : PosShare TreeShare) (ia ib : S16384.Idx → BitVec 32) (tb : S1000000x64.Idx → Elt F .f32)
    (_ : Cert.Spec.InRange ia) (_ : Cert.Spec.InRange ib)
    (fa : Buf (Elt F) ((oaSl L).view.loc (V d (cV L) (jV L)))) (fb : Buf (Elt F) ((obSl L).view.loc (V d (cV L) (jV L))))
    (fs : Buf (Elt F) ((sIW).view.loc (V d (cV L) (jV L)))) (fr : Buf (Elt F) ((sRW).view.loc (V d (cV L) (jV L))))
    (O : CellTallies nD τ sig (HIx 1)) (W : Waits sig (HIx 1)),
    (iprop(Transfers.MayWaits (V d (cV L) (jV L)) (none : HIx 1) O
        ∗ ((iaSl L).view.loc (V d (cV L) (jV L)) ↦[(iaSl L).view.set]{qi} ia)
        ∗ ((ibSl L).view.loc (V d (cV L) (jV L)) ↦[(ibSl L).view.set]{qi} ib)
        ∗ ((tbW).view.loc (V d (cV L) (jV L)) ↦{q} tb)
        ∗ ((oaSl L).view.loc (V d (cV L) (jV L)) ↦[(oaSl L).view.set]{fullShare} fa)
        ∗ ((obSl L).view.loc (V d (cV L) (jV L)) ↦[(obSl L).view.set]{fullShare} fb)
        ∗ ((sIW).view.loc (V d (cV L) (jV L)) ↦{fullShare} fs)
        ∗ ((sRW).view.loc (V d (cV L) (jV L)) ↦{fullShare} fr)
        ∗ semVal (V d (cV L) (jV L), SemLoc.dma cc0_scratch2.sem) 0
        ∗ semVal (V d (cV L) (jV L), SemLoc.dma cc0_scoped0.sem) 0
        ∗ semVal (V d (cV L) (jV L), SemLoc.dma cc0_scoped1.sem) 0
        ∗ semVal (V d (cV L) (jV L), SemLoc.dma cc0_scoped2.sem) 0
        ∗ semVal (V d (cV L) (jV L), SemLoc.dma cc0_scoped3.sem) 0
        ∗ owes (V d (cV L) (jV L)) O W) : sProp 𝕄)
      ⊢ wp frame (wpE (defs₀ (F := F)) 𝒱₀ (V d (cV L) (jV L)) none) Set.univ
          (cc0_gather_kernel L iaW (Memref.isWhole_whole _) ibW (Memref.isWhole_whole _) tbW (Memref.isWhole_whole _) oaW (Memref.isWhole_whole _) obW (Memref.isWhole_whole _)
            sIW (Memref.isWhole_whole _) sRW (Memref.isWhole_whole _) cc0_scratch2 cc0_scoped0 cc0_scoped1 cc0_scoped2 cc0_scoped3)
          fun _ => iprop(((oaSl L).view.loc (V d (cV L) (jV L)) ↦[(oaSl L).view.set]{fullShare} gath tb ia)
            ∗ ((obSl L).view.loc (V d (cV L) (jV L)) ↦[(obSl L).view.set]{fullShare} gath tb ib)
            ∗ (∃ f, (sIW).view.loc (V d (cV L) (jV L)) ↦{fullShare} f)
            ∗ (∃ f, (sRW).view.loc (V d (cV L) (jV L)) ↦{fullShare} f)
            ∗ semVal (V d (cV L) (jV L), SemLoc.dma cc0_scratch2.sem) 0
            ∗ semVal (V d (cV L) (jV L), SemLoc.dma cc0_scoped0.sem) 0
            ∗ semVal (V d (cV L) (jV L), SemLoc.dma cc0_scoped1.sem) 0
            ∗ semVal (V d (cV L) (jV L), SemLoc.dma cc0_scoped2.sem) 0
            ∗ semVal (V d (cV L) (jV L), SemLoc.dma cc0_scoped3.sem) 0
            ∗ ∃ W', ⌜∀ p ∈ W', p ∈ W ∨ p.2 = none⌝ ∗ owes (V d (cV L) (jV L)) O W')

end Cert.Proof.ScB

end
-- ==== Proof.ScB.TileWrap.lean ====
/-
  The tile's obligation in the launch's form, from its obligation over its resources one by one.

  The launch hands a vector subcore its scoped storage as two packed propositions: every scoped buffer at some contents,
  every scoped semaphore at zero.  The body names two of those buffers (the index scratch and the row scratch) and five of
  those semaphores; the packed propositions are those named pieces and the rest, the body runs on the named pieces, and
  the pieces and the untouched rest pack again.  The evidence that the subcore's waits are admissible comes from the
  cells' levels, which are persistent.
-/
import proofs.«205169_g39805756899661_cont_8to1_b_81_27_alg».proof.Proof.ScB.TileCore

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iaW" => (Memref.whole Cert.Kernel.main_arg0_scv : Memref Cert.Kernel.sig Kind.scVector Space.hbm Cert.Kernel.S16384 EltTy.i32)
local notation "ibW" => (Memref.whole Cert.Kernel.main_arg1_scv : Memref Cert.Kernel.sig Kind.scVector Space.hbm Cert.Kernel.S16384 EltTy.i32)
local notation "tbW" => (Memref.whole Cert.Kernel.main_arg2_scv : Memref Cert.Kernel.sig Kind.scVector Space.hbm Cert.Kernel.S1000000x64 EltTy.f32)
local notation "oaW" => (Memref.whole Cert.Kernel.main_v0_0_scv : Memref Cert.Kernel.sig Kind.scVector Space.hbm Cert.Kernel.S16384x64 EltTy.f32)
local notation "obW" => (Memref.whole Cert.Kernel.main_v0_1_scv : Memref Cert.Kernel.sig Kind.scVector Space.hbm Cert.Kernel.S16384x64 EltTy.f32)
local notation "sIW" => (Memref.whole Cert.Kernel.cc0_scratch0 : Memref Cert.Kernel.sig Kind.scVector Space.vmem Cert.Kernel.S512 EltTy.i32)
local notation "sRW" => (Memref.whole Cert.Kernel.cc0_scratch1 : Memref Cert.Kernel.sig Kind.scVector Space.vmem Cert.Kernel.S512x64 EltTy.f32)

variable [FloatOps F]

section Wrap
variable (d : Dev nD) (L : grid0.Coords)

/-- The five cells of the subcore's DMA semaphores the body names. -/
abbrev cellW : GSem nD τ sig := (V d (cV L) (jV L), SemLoc.dma cc0_scratch2.sem)
abbrev cell0 : GSem nD τ sig := (V d (cV L) (jV L), SemLoc.dma cc0_scoped0.sem)
abbrev cell1 : GSem nD τ sig := (V d (cV L) (jV L), SemLoc.dma cc0_scoped1.sem)
abbrev cell2 : GSem nD τ sig := (V d (cV L) (jV L), SemLoc.dma cc0_scoped2.sem)
abbrev cell3 : GSem nD τ sig := (V d (cV L) (jV L), SemLoc.dma cc0_scoped3.sem)

/-- Cells of one thread on different DMA semaphores are different cells. -/
theorem cell_ne {thr : Thread nD τ} {a b : DmaSem sig} (h : a ≠ b) :
    ((thr, SemLoc.dma a) : GSem nD τ sig) ≠ (thr, SemLoc.dma b) :=
  fun e => h (SemLoc.dma.inj (Prod.mk.inj e).2)

omit [FloatOps F] in
/-- The subcore's scoped semaphores at zero are the five the body names and the rest. -/
theorem ownSems0_V :
    (ownSems0 (V d (cV L) (jV L)) : sProp 𝕄)
      = iprop(semVal (cellW d L) 0 ∗ semVal (cell0 d L) 0 ∗ semVal (cell1 d L) 0 ∗ semVal (cell2 d L) 0 ∗ semVal (cell3 d L) 0
          ∗ bigSep ((((((ownCells (V d (cV L) (jV L))).erase (cellW d L)).erase (cell0 d L)).erase (cell1 d L)).erase (cell2 d L)).erase (cell3 d L))
              fun g => semVal g 0) := by
  unfold SparseCore.Cfg.ownSems0
  have mW : cellW d L ∈ ownCells (V d (cV L) (jV L)) := (mem_ownCells (g := cellW d L)).mpr ⟨rfl, by
    show (SemLoc.dma cc0_scratch2.sem : SemLoc sig).isScoped .scVector = true; decide⟩
  have m0 : cell0 d L ∈ ownCells (V d (cV L) (jV L)) := (mem_ownCells (g := cell0 d L)).mpr ⟨rfl, by
    show (SemLoc.dma cc0_scoped0.sem : SemLoc sig).isScoped .scVector = true; decide⟩
  have m1 : cell1 d L ∈ ownCells (V d (cV L) (jV L)) := (mem_ownCells (g := cell1 d L)).mpr ⟨rfl, by
    show (SemLoc.dma cc0_scoped1.sem : SemLoc sig).isScoped .scVector = true; decide⟩
  have m2 : cell2 d L ∈ ownCells (V d (cV L) (jV L)) := (mem_ownCells (g := cell2 d L)).mpr ⟨rfl, by
    show (SemLoc.dma cc0_scoped2.sem : SemLoc sig).isScoped .scVector = true; decide⟩
  have m3 : cell3 d L ∈ ownCells (V d (cV L) (jV L)) := (mem_ownCells (g := cell3 d L)).mpr ⟨rfl, by
    show (SemLoc.dma cc0_scoped3.sem : SemLoc sig).isScoped .scVector = true; decide⟩
  have n0W : cell0 d L ≠ cellW d L := cell_ne (by decide)
  have n1W : cell1 d L ≠ cellW d L := cell_ne (by decide)
  have n2W : cell2 d L ≠ cellW d L := cell_ne (by decide)
  have n3W : cell3 d L ≠ cellW d L := cell_ne (by decide)
  have n10 : cell1 d L ≠ cell0 d L := cell_ne (by decide)
  have n20 : cell2 d L ≠ cell0 d L := cell_ne (by decide)
  have n30 : cell3 d L ≠ cell0 d L := cell_ne (by decide)
  have n21 : cell2 d L ≠ cell1 d L := cell_ne (by decide)
  have n31 : cell3 d L ≠ cell1 d L := cell_ne (by decide)
  have n32 : cell3 d L ≠ cell2 d L := cell_ne (by decide)
  rw [SparseCore.bigSep_erase' mW,
    SparseCore.bigSep_erase' (Finset.mem_erase.mpr ⟨n0W, m0⟩),
    SparseCore.bigSep_erase' (Finset.mem_erase.mpr ⟨n10, Finset.mem_erase.mpr ⟨n1W, m1⟩⟩),
    SparseCore.bigSep_erase' (Finset.mem_erase.mpr ⟨n21, Finset.mem_erase.mpr ⟨n20, Finset.mem_erase.mpr ⟨n2W, m2⟩⟩⟩),
    SparseCore.bigSep_erase' (Finset.mem_erase.mpr ⟨n32, Finset.mem_erase.mpr ⟨n31, Finset.mem_erase.mpr ⟨n30, Finset.mem_erase.mpr ⟨n3W, m3⟩⟩⟩⟩)]

omit [FloatOps F] in
/-- The subcore's own buffers at some contents are the two scratch buffers the body names and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The tile's obligation as the launch needs it follows from its obligation over its resources one by one. -/
theorem tileBody_of_core (hF : (K (F := F)).Facts) : TileCore (F := F) → TileBody (F := F) := by
  intro hcore d L qi q ia ib tb hia hib O W hO
  rw [(K (F := F)).scopedBufs_V hF d (cV L) (jV L), SparseCore.Cfg.scopedSems0_V (Val := Elt F) d (cV L) (jV L), ownSems0_V, ownBufs_V]
  unfold tileGo tileTd
  iintro ⟨#Hlv, ⟨Hia, Hib, Htb, ⟨%fa, Hoa⟩, ⟨%fb, Hob⟩⟩, ⟨⟨%fs, Hs⟩, ⟨%fr, Hr⟩, Hbufs⟩, ⟨HcW, Hc0, Hc1, Hc2, Hc3, Hsems⟩, HO⟩
  ihave Hmw := ((K (F := F)).mayWaits_none (thr := V d (cV L) (jV L)) hO) $$ Hlv
  ihave Hwp := (hcore d L qi q ia ib tb hia hib fa fb fs fr O W) $$ [Hmw Hia Hib Htb Hoa Hob Hs Hr HcW Hc0 Hc1 Hc2 Hc3 HO]
  · isplitl [Hmw]; · iexact Hmw
    isplitl [Hia]; · iexact Hia
    isplitl [Hib]; · iexact Hib
    isplitl [Htb]; · iexact Htb
    isplitl [Hoa]; · iexact Hoa
    isplitl [Hob]; · iexact Hob
    isplitl [Hs]; · iexact Hs
    isplitl [Hr]; · iexact Hr
    isplitl [HcW]; · iexact HcW
    isplitl [Hc0]; · iexact Hc0
    isplitl [Hc1]; · iexact Hc1
    isplitl [Hc2]; · iexact Hc2
    isplitl [Hc3]; · iexact Hc3
    iexact HO
  iapply (wp_wand_r frame _ _) $$ [Hwp Hbufs Hsems]
  isplitl [Hwp]; · iexact Hwp
  iintro %_ ⟨Hoa, Hob, ⟨%fs', Hs⟩, ⟨%fr', Hr⟩, HcW, Hc0, Hc1, Hc2, Hc3, HO⟩
  isplitl [Hoa Hob]
  · isplitl [Hoa]; · iexact Hoa
    iexact Hob
  isplitl [Hs Hr Hbufs]
  · isplitl [Hs]; · iexists fs'; iexact Hs
    isplitl [Hr]; · iexists fr'; iexact Hr
    iexact Hbufs
  isplitl [HcW Hc0 Hc1 Hc2 Hc3 Hsems]
  · isplitl [HcW]; · iexact HcW
    isplitl [Hc0]; · iexact Hc0
    isplitl [Hc1]; · iexact Hc1
    isplitl [Hc2]; · iexact Hc2
    isplitl [Hc3]; · iexact Hc3
    iexact Hsems
  iexact HO

end Wrap

end Cert.Proof.ScB

end
-- ==== Proof.ScB.RegionWp.lean ====
/-
  The kernel region's rule, as the SparseCore program's @main meets it.

  The line of @main that calls the perceptron kernel is the region of the TensorCore program lifted to the SparseCore
  program's label table. Its rule is the region rule of the pipeline library at the thread state of Region.lean,
  transported along the lifting.
-/
import proofs.«205169_g39805756899661_cont_8to1_b_81_27_alg».proof.Proof.ScB.Setup
import proofs.«205169_g39805756899661_cont_8to1_b_81_27_alg».proof.Proof.Gen.Kernel.Launch
import proofs.«205169_g39805756899661_cont_8to1_b_81_27_alg».proof.Proof.Gen.Kernel.Skeleton
import proofs.«205169_g39805756899661_cont_8to1_b_81_27_alg».proof.Proof.Gen.Kernel.Points
import proofs.«205169_g39805756899661_cont_8to1_b_81_27_alg».proof.Proof.ScB.Region
import Idealize.ShloMosaic.Lib.Pipeline.FrameBody
import Idealize.ShloMosaic.Lib.Pipeline.Regions
import Idealize.ShloMosaic.Lib.Tactic

set_option Elab.async false
set_option maxRecDepth 16384

noncomputable section

namespace Cert.Proof.ScB

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (lv : GSem nD τ sig → HIx 1 → ℕ)

/-- The result array after the region, from one TensorCore's valuation at its entry. -/
def outArr (d : Dev nD) (Vd : Val1 (F := F) d) : Buf (Elt F) ((T d : Thread nD τ).loc main_v10) := outArrAt (fun _ => Vd) d

/-- The kernel's call in the TensorCore program's own label table. -/
abbrev entryCall : Prog (TpuEff nD τ sig (Elt F) (ΛP (F := F)) Proc.tc) PUnit :=
  .op (.customCall (Pipeline.entry 0) ()) Prog.ret

/-- Lifted to the SparseCore program's label table it is the line of @main. -/
theorem lift_entryCall :
    (SparseCore.liftProg (Q := 1) (entryCall (F := F)) : Prog (TpuEff nD τ sig (Elt F) (SparseCore.Sig (ΛP (F := F)) 1) Proc.tc) PUnit)
      = Prog.lift (.customCall (SparseCore.inner (Pipeline.entry 0)) ()) := rfl

set_option backward.isDefEq.respectTransparency.types false in
/-- The region rule of the pipeline library at this thread state, in the TensorCore program's own label table. -/
theorem region_wp_inner [∀ e, Nonempty (Elt F e)] (d : Dev nD) (Vd : Val1 (F := F) d) (Φ : PUnit → sProp 𝕄) :
    iprop(levAts (K (F := F)).L lv
        ∗ Pipeline.cellsGhost cfgs (EP (F := F)) 0 d ∗ Pipeline.toksInit cfgs (EP (F := F)) 0 d
        ∗ boundary (T d : Thread nD τ) ∗ arrs d Vd (Vd main_v10) ∗ owesLow (F := F) d
        ∗ (iprop(boundary (T d : Thread nD τ) ∗ arrs d Vd (outArr d Vd) ∗ owesLow (F := F) d) -∗ Φ ⟨⟩))
      ⊢ wp frame (wpE (D (F := F)) 𝒱 (T d) none) Set.univ (entryCall (F := F)) Φ := by
  iintro ⟨Hlev, Hg, Ht, Hb, Ha, Ho, Hk⟩
  iapply (Pipeline.RegionSeg.wp (pcfgs (F := F)) adm (pdats (fun _ => Vd)) (none : HIx 1) cellOf_inj (EP (F := F)) defs₀ 𝒱₀ (K (F := F)).L lv
    (reg (fun _ => Vd) lv) d none (fun _ h => by cases h) Prog.ret Φ)
  rw [show (reg (fun _ => Vd) lv).post d = iprop(arrs d Vd (outArr d Vd) ∗ owesLow (F := F) d) from rfl,
    show (reg (fun _ => Vd) lv).pre d = iprop(arrs d Vd (Vd main_v10) ∗ owesLow (F := F) d) from rfl]
  isplitl [Hk]
  · iintro ⟨Hb, Ha, Ho⟩
    rw [wp_ret]
    imodintro
    iapply Hk
    isplitl [Hb]; · iexact Hb
    isplitl [Ha]; · iexact Ha
    iexact Ho
  isplitl [Hb]; · iexact Hb
  isplitl [Ha Ho]
  · isplitl [Ha]; · iexact Ha
    iexact Ho
  isplitl [Hlev]; · iexact Hlev
  isplitl [Hg]; · iexact Hg
  iexact Ht

/-- **The region.** From the level facts, the pipeline's share of the launch's ghost state on this core, the region
    boundary, the ten arrays whole and the core owing nothing, the call of the perceptron kernel runs to the
    continuation holding the boundary, the nine operands as they were, the result at `outArr`, and the core owing
    nothing. -/
theorem region_wp [∀ e, Nonempty (Elt F e)] (d : Dev nD) (Vd : Val1 (F := F) d) (Φ : PUnit → sProp 𝕄) :
    iprop(levAts (K (F := F)).L lv
        ∗ Pipeline.cellsGhost cfgs (EP (F := F)) 0 d ∗ Pipeline.toksInit cfgs (EP (F := F)) 0 d
        ∗ boundary (T d : Thread nD τ) ∗ arrs d Vd (Vd main_v10) ∗ owesLow (F := F) d
        ∗ (iprop(boundary (T d : Thread nD τ) ∗ arrs d Vd (outArr d Vd) ∗ owesLow (F := F) d) -∗ Φ ⟨⟩))
      ⊢ wp frame (wpE ((K (F := F)).defs (D (F := F))) 𝒱 (T d) none) Set.univ
          (Prog.lift (.customCall (SparseCore.inner (Pipeline.entry 0)) ())) Φ := by
  rw [← lift_entryCall]
  exact (region_wp_inner lv d Vd Φ).trans ((K (F := F)).wp_liftProg (D (F := F)) 𝒱 (T d) Set.univ none (entryCall (F := F)) Φ)

/-- info: 'Cert.Proof.ScB.region_wp' depends on axioms: [propext, Classical.choice, Quot.sound] -/
#guard_msgs in #print axioms region_wp

end Cert.Proof.ScB

end
-- ==== Proof.ScB.RegionValue.lean ====
/-
  The result array after the region, in closed form.

  Point t of the grid writes block row t of the result, rows [2048 t, 2048 t + 2048), and what it writes is the
  body's term of block row t of the two gathered arrays and of the seven weight operands whole. The eight block rows
  tile the 16384 rows, so the array ends holding, at row r, the body's term of block row r / 2048 read at row
  r % 2048 of the block.
-/
import proofs.«205169_g39805756899661_cont_8to1_b_81_27_alg».proof.Proof.ScB.Setup
import proofs.«205169_g39805756899661_cont_8to1_b_81_27_alg».proof.Proof.Gen.Kernel.Launch
import proofs.«205169_g39805756899661_cont_8to1_b_81_27_alg».proof.Proof.Gen.Kernel.Skeleton
import proofs.«205169_g39805756899661_cont_8to1_b_81_27_alg».proof.Proof.Gen.Kernel.Points
import proofs.«205169_g39805756899661_cont_8to1_b_81_27_alg».proof.Proof.ScB.Region
import Idealize.ShloMosaic.Lib.Pipeline.Value
import Idealize.ShloMosaic.Lib.ValueIdx
import Idealize.ShloMosaic.Lib.Pipeline.FrameBody
import Idealize.ShloMosaic.Lib.Pipeline.Regions
import Idealize.ShloMosaic.Lib.Tactic

set_option maxRecDepth 16384

noncomputable section

namespace Cert.Proof.ScB

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

/-! ## The closed form -/

/-- Block row `b` of a [16384, 64] array: its rows [2048 b, 2048 b + 2048). -/
def rowBlock (A : Vec F S16384x64 .f32) (b : Fin 8) : Vec F S2048x64 .f32 :=
  fun y => A (ix2 (⟨b.val * 2048 + (y 0).val, by have := idx2_lt0 y; have := b.isLt; omega⟩ : Fin 16384) (⟨(y 1).val, idx2_lt1 y⟩ : Fin 64))

/-- The block row a row of the result lies in, and the row's place in it. -/
def blkOf (i : S16384x1.Idx) : Fin 8 := ⟨(i 0).val / 2048, by have := idx2_lt0 i; omega⟩
def rowIn (i : S16384x1.Idx) : Fin 2048 := ⟨(i 0).val % 2048, by omega⟩

/-- The result array as one function of the nine operand arrays. -/
def outFn (A B : Vec F S16384x64 .f32) (w1a w1b : Vec F S64x128 .f32) (b1r : Vec F S1x128 .f32)
    (w2t : Vec F S128x64 .f32) (b2r : Vec F S1x64 .f32) (w3t : Vec F S64x1 .f32) (b3r : Vec F S1x1 .f32) : Vec F S16384x1 .f32 :=
  fun i => k1_pay1 (rowBlock A (blkOf i)) w1a (rowBlock B (blkOf i)) w1b b1r w2t b2r w3t b3r (ix2 (rowIn i) (⟨(i 1).val, idx2_lt1 i⟩ : Fin 1))

/-- Row `2048 b + p` of the result is the body's term of block row `b`, read at row `p`. -/
theorem outFn_apply (A B : Vec F S16384x64 .f32) (w1a w1b : Vec F S64x128 .f32) (b1r : Vec F S1x128 .f32)
    (w2t : Vec F S128x64 .f32) (b2r : Vec F S1x64 .f32) (w3t : Vec F S64x1 .f32) (b3r : Vec F S1x1 .f32)
    (b : Fin 8) (p : Fin 2048) (u : Fin 1) (h : b.val * 2048 + p.val < 16384 := by omega) :
    outFn A B w1a w1b b1r w2t b2r w3t b3r (ix2 (⟨b.val * 2048 + p.val, h⟩ : Fin 16384) u)
      = k1_pay1 (rowBlock A b) w1a (rowBlock B b) w1b b1r w2t b2r w3t b3r (ix2 p u) := by
  have hb : blkOf (ix2 (⟨b.val * 2048 + p.val, h⟩ : Fin 16384) u) = b := Fin.ext (by show (b.val * 2048 + p.val) / 2048 = b.val; omega)
  have hp : rowIn (ix2 (⟨b.val * 2048 + p.val, h⟩ : Fin 16384) u) = p := Fin.ext (by show (b.val * 2048 + p.val) % 2048 = p.val; omega)
  unfold outFn
  rw [hb, hp]

/-! ## What each point writes back -/

theorem hz2 : (![0, 0] : Fin 2 → Nat) = fun _ => 0 := funext fun a => by fin_cases a <;> rfl

/-- The printed index maps, decided over the grid: the two row windows move with the result's, one block row per
    point; the weight windows stay. -/
theorem idx_facts : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) ≤ 7 ∧ win1_9.index t (1 : Fin 2) = 0 :=
  (by decide +kernel : ∀ t : Fin grid1.N, _)

/-- Every block row is some point's. -/
theorem idx_onto : ∀ q0 : Fin 8, ∃ t : Fin cfg1.N, win1_9.index t = ![q0.val, 0] :=
  (by decide +kernel : ∀ q0 : Fin 8, ∃ t : Fin grid1.N, win1_9.index t = ![q0.val, 0])

variable (V : Valn (F := F))

/-- A row window's block at point `t` is the block row the result's window is at. -/
theorem iblk_0 (c : Dev nD) (t : Fin cfg1.N) :
    iblk V c 0 t = rowBlock (V c main_v0_0) ⟨win1_9.index t (0 : Fin 2), by have := (idx_facts t).2.2.2.2.2.2.2.2.2.2.2.2.2.2.2.2.2.2.1; omega⟩ := by
  obtain ⟨e0, e1, -⟩ := idx_facts t
  funext y
  show V c main_v0_0 (((cfg1.win 0).blk t).view.emb y) = V c main_v0_0 _
  congr 1
  funext a; apply Fin.ext
  match a with
  | ⟨0, _⟩ => show win1_0.index t (0 : Fin 2) * 2048 + 1 * (y 0).val = win1_9.index t (0 : Fin 2) * 2048 + (y 0).val; omega
  | ⟨1, _⟩ => show win1_0.index t (1 : Fin 2) * 64 + 1 * (y 1).val = (y 1).val; omega

theorem iblk_1 (c : Dev nD) (t : Fin cfg1.N) :
    iblk V c 1 t = rowBlock (V c main_v0_1) ⟨win1_9.index t (0 : Fin 2), by have := (idx_facts t).2.2.2.2.2.2.2.2.2.2.2.2.2.2.2.2.2.2.1; omega⟩ := by
  obtain ⟨-, -, e0, e1, -⟩ := idx_facts t
  funext y
  show V c main_v0_1 (((cfg1.win 1).blk t).view.emb y) = V c main_v0_1 _
  congr 1
  funext a; apply Fin.ext
  match a with
  | ⟨0, _⟩ => show win1_1.index t (0 : Fin 2) * 2048 + 1 * (y 0).val = win1_9.index t (0 : Fin 2) * 2048 + (y 0).val; omega
  | ⟨1, _⟩ => show win1_1.index t (1 : Fin 2) * 64 + 1 * (y 1).val = (y 1).val; omega

/-- A weight window's block at any point is its whole array. -/
theorem iblk_2 (c : Dev nD) (t : Fin cfg1.N) : iblk V c 2 t = V c main_v2 := by
  have e := idx_facts t
  funext y
  show V c main_v2 (((cfg1.win 2).blk t).view.emb y) = V c main_v2 y
  congr 1
  funext a; apply Fin.ext
  match a with
  | ⟨0, _⟩ => show win1_2.index t (0 : Fin 2) * 64 + 1 * (y 0).val = (y 0).val; omega
  | ⟨1, _⟩ => show win1_2.index t (1 : Fin 2) * 128 + 1 * (y 1).val = (y 1).val; omega

theorem iblk_3 (c : Dev nD) (t : Fin cfg1.N) : iblk V c 3 t = V c main_v4 := by
  have e := idx_facts t
  funext y
  show V c main_v4 (((cfg1.win 3).blk t).view.emb y) = V c main_v4 y
  congr 1
  funext a; apply Fin.ext
  match a with
  | ⟨0, _⟩ => show win1_3.index t (0 : Fin 2) * 64 + 1 * (y 0).val = (y 0).val; omega
  | ⟨1, _⟩ => show win1_3.index t (1 : Fin 2) * 128 + 1 * (y 1).val = (y 1).val; omega

theorem iblk_4 (c : Dev nD) (t : Fin cfg1.N) : iblk V c 4 t = V c main_v5 := by
  have e := idx_facts t
  funext y
  show V c main_v5 (((cfg1.win 4).blk t).view.emb y) = V c main_v5 y
  congr 1
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem iblk_5 (c : Dev nD) (t : Fin cfg1.N) : iblk V c 5 t = V c main_v6 := by
  have e := idx_facts t
  funext y
  show V c main_v6 (((cfg1.win 5).blk t).view.emb y) = V c main_v6 y
  congr 1
  funext a; apply Fin.ext
  match a with
  | ⟨0, _⟩ => show win1_5.index t (0 : Fin 2) * 128 + 1 * (y 0).val = (y 0).val; omega
  | ⟨1, _⟩ => show win1_5.index t (1 : Fin 2) * 64 + 1 * (y 1).val = (y 1).val; omega

theorem iblk_6 (c : Dev nD) (t : Fin cfg1.N) : iblk V c 6 t = V c main_v7 := by
  have e := idx_facts t
  funext y
  show V c main_v7 (((cfg1.win 6).blk t).view.emb y) = V c main_v7 y
  congr 1
  funext a; apply Fin.ext
  match a with
  | ⟨0, _⟩ => show win1_6.index t (0 : Fin 2) * 1 + 1 * (y 0).val = (y 0).val; omega
  | ⟨1, _⟩ => show win1_6.index t (1 : Fin 2) * 64 + 1 * (y 1).val = (y 1).val; omega

theorem iblk_7 (c : Dev nD) (t : Fin cfg1.N) : iblk V c 7 t = V c main_v8 := by
  have e := idx_facts t
  funext y
  show V c main_v8 (((cfg1.win 7).blk t).view.emb y) = V c main_v8 y
  congr 1
  funext a; apply Fin.ext
  match a with
  | ⟨0, _⟩ => show win1_7.index t (0 : Fin 2) * 64 + 1 * (y 0).val = (y 0).val; omega
  | ⟨1, _⟩ => show win1_7.index t (1 : Fin 2) * 1 + 1 * (y 1).val = (y 1).val; omega

theorem iblk_8 (c : Dev nD) (t : Fin cfg1.N) : iblk V c 8 t = V c main_v9 := by
  have e := idx_facts t
  funext y
  show V c main_v9 (((cfg1.win 8).blk t).view.emb y) = V c main_v9 y
  congr 1
  funext a; apply Fin.ext
  match a with
  | ⟨0, _⟩ => show win1_8.index t (0 : Fin 2) * 1 + 1 * (y 0).val = (y 0).val; omega
  | ⟨1, _⟩ => show win1_8.index t (1 : Fin 2) * 1 + 1 * (y 1).val = (y 1).val; omega

/-- The block row the result's window is at, as a block row's number. -/
def blkAt (t : Fin cfg1.N) : Fin 8 := ⟨win1_9.index t (0 : Fin 2), by have := (idx_facts t).2.2.2.2.2.2.2.2.2.2.2.2.2.2.2.2.2.2.1; omega⟩

/-- WHAT POINT `t` WRITES BACK is block `t` of `outFn` of the operand arrays as the region finds them. -/
theorem flushed_eq (c : Dev nD) (t : Fin cfg1.N) :
    (dat V c).flushed 9 t = ((cfg1.win 9).blk t).view.read (Elt F)
      (outFn (V c main_v0_0) (V c main_v0_1) (V c main_v2) (V c main_v4) (V c main_v5) (V c main_v6) (V c main_v7) (V c main_v8) (V c main_v9)) := by
  show (cfg1.win 9).cut (grid1.coords t) ((dat V c).after 9 t) = _
  rw [after_9]
  unfold blockOut
  rw [View.canon_unit_zero hz2]
  simp only [View.ld_unit_zero (S := S2048x64) hz2, View.ld_unit_zero (S := S64x128) hz2, View.ld_unit_zero (S := S1x128) hz2,
    View.ld_unit_zero (S := S128x64) hz2, View.ld_unit_zero (S := S1x64) hz2, View.ld_unit_zero (S := S64x1) hz2, View.ld_unit_zero (S := S1x1) hz2]
  rw [iblk_0, iblk_1, iblk_2, iblk_3, iblk_4, iblk_5, iblk_6, iblk_7, iblk_8]
  have e := idx_facts t
  funext j
  have hj0 := idx2_lt0 j
  have hj1 := idx2_lt1 j
  have hemb : ((cfg1.win 9).blk t).view.emb j
      = ix2 (⟨(blkAt t).val * 2048 + (⟨(j 0).val, hj0⟩ : Fin 2048).val, by have := (blkAt t).isLt; omega⟩ : Fin 16384) (⟨(j 1).val, hj1⟩ : Fin 1) := by
    funext a; apply Fin.ext
    match a with
    | ⟨0, _⟩ => show win1_9.index t (0 : Fin 2) * 2048 + 1 * (j 0).val = win1_9.index t (0 : Fin 2) * 2048 + (j 0).val; omega
    | ⟨1, _⟩ => show win1_9.index t (1 : Fin 2) * 1 + 1 * (j 1).val = (j 1).val; omega
  show k1_pay1 (rowBlock (V c main_v0_0) (blkAt t)) (V c main_v2) (rowBlock (V c main_v0_1) (blkAt t)) (V c main_v4) (V c main_v5) (V c main_v6) (V c main_v7) (V c main_v8) (V c main_v9) j
    = outFn (V c main_v0_0) (V c main_v0_1) (V c main_v2) (V c main_v4) (V c main_v5) (V c main_v6) (V c main_v7) (V c main_v8) (V c main_v9) (((cfg1.win 9).blk t).view.emb j)
  rw [hemb, outFn_apply]
  congr 1
  exact eq_ix2 j

/-- A row of the result is in point `t`'s block iff each coordinate is in the block's range on its axis. -/
theorem mem_blk (t : Fin cfg1.N) (i : S16384x1.Idx) :
    i ∈ ((cfg1.win 9).blk t).view.set ↔ ∀ a : Fin 2, win1_9.index t a * S2048x1.size a ≤ (i a).val ∧ (i a).val < win1_9.index t a * S2048x1.size a + S2048x1.size a := by
  show i ∈ ((View.whole main_v10).slice (win1_9.rect t)).set ↔ _
  rw [View.set_slice_whole, Rect.mem_set_unit]
  exact Iff.rfl

/-- Every row of the result is in some point's block: row `r` in that of the point at block row `r / 2048`. -/
theorem cover (i : S16384x1.Idx) : ∃ t : Fin cfg1.N, (cfg1.win 9).flush t = true ∧ i ∈ ((cfg1.win 9).blk t).view.set := by
  have hi0 := idx2_lt0 i
  have hi1 := idx2_lt1 i
  obtain ⟨t, ht⟩ := idx_onto ⟨(i 0).val / 2048, by omega⟩
  have q0 : win1_9.index t (0 : Fin 2) = (i 0).val / 2048 := congrFun ht 0
  have q1 : win1_9.index t (1 : Fin 2) = 0 := congrFun ht 1
  refine ⟨t, flush1_9 t, ?_⟩
  rw [mem_blk]
  intro a
  match a with
  | ⟨0, _⟩ => show win1_9.index t (0 : Fin 2) * 2048 ≤ (i 0).val ∧ (i 0).val < win1_9.index t (0 : Fin 2) * 2048 + 2048; omega
  | ⟨1, _⟩ => show win1_9.index t (1 : Fin 2) * 1 ≤ (i 1).val ∧ (i 1).val < win1_9.index t (1 : Fin 2) * 1 + 1; omega

/-- THE RESULT ARRAY after the region is `outFn` of the operand arrays as the region finds them. -/
theorem outArrAt_eq (c : Dev nD) :
    outArrAt V c = outFn (V c main_v0_0) (V c main_v0_1) (V c main_v2) (V c main_v4) (V c main_v5) (V c main_v6) (V c main_v7) (V c main_v8) (V c main_v9) :=
  (dat V c).arrAt_eq_of_cover 9 _ (fun t _ => flushed_eq V c t) cover

end Cert.Proof.ScB

end
-- ==== Proof.ScB.RegionOut.lean ====
/-
  The kernel region's rule with the result array in closed form.
-/
import proofs.«205169_g39805756899661_cont_8to1_b_81_27_alg».proof.Proof.ScB.Setup
import proofs.«205169_g39805756899661_cont_8to1_b_81_27_alg».proof.Proof.Gen.Kernel.Launch
import proofs.«205169_g39805756899661_cont_8to1_b_81_27_alg».proof.Proof.Gen.Kernel.Skeleton
import proofs.«205169_g39805756899661_cont_8to1_b_81_27_alg».proof.Proof.Gen.Kernel.Points
import proofs.«205169_g39805756899661_cont_8to1_b_81_27_alg».proof.Proof.ScB.RegionWp
import proofs.«205169_g39805756899661_cont_8to1_b_81_27_alg».proof.Proof.ScB.RegionValue
import Idealize.ShloMosaic.Lib.Pipeline.FrameBody
import Idealize.ShloMosaic.Lib.Pipeline.Regions
import Idealize.ShloMosaic.Lib.Tactic

set_option Elab.async false
set_option maxRecDepth 16384

noncomputable section

namespace Cert.Proof.ScB

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (lv : GSem nD τ sig → HIx 1 → ℕ)

/-- The result array after the region, as one function of the nine operand arrays at the region's entry. -/
theorem outArr_eq (d : Dev nD) (Vd : Val1 (F := F) d) :
    outArr d Vd = outFn (Vd main_v0_0) (Vd main_v0_1) (Vd main_v2) (Vd main_v4) (Vd main_v5) (Vd main_v6) (Vd main_v7) (Vd main_v8) (Vd main_v9) :=
  outArrAt_eq (fun _ => Vd) d

/-- **The region, with its value.** As `region_wp`, the result array named: row `r` holds the body's term of block row
    `r / 2048` of the two gathered arrays and the seven weight operands, read at row `r % 2048` (`outFn`, `outFn_apply`). -/
theorem region_wp_value [∀ e, Nonempty (Elt F e)] (d : Dev nD) (Vd : Val1 (F := F) d) (Φ : PUnit → sProp 𝕄) :
    iprop(levAts (K (F := F)).L lv
        ∗ Pipeline.cellsGhost cfgs (EP (F := F)) 0 d ∗ Pipeline.toksInit cfgs (EP (F := F)) 0 d
        ∗ boundary (T d : Thread nD τ) ∗ arrs d Vd (Vd main_v10) ∗ owesLow (F := F) d
        ∗ (iprop(boundary (T d : Thread nD τ)
            ∗ arrs d Vd (outFn (Vd main_v0_0) (Vd main_v0_1) (Vd main_v2) (Vd main_v4) (Vd main_v5) (Vd main_v6) (Vd main_v7) (Vd main_v8) (Vd main_v9))
            ∗ owesLow (F := F) d) -∗ Φ ⟨⟩))
      ⊢ wp frame (wpE ((K (F := F)).defs (D (F := F))) 𝒱 (T d) none) Set.univ
          (Prog.lift (.customCall (SparseCore.inner (Pipeline.entry 0)) ())) Φ := by
  rw [← outArr_eq]
  exact region_wp lv d Vd Φ

/-- info: 'Cert.Proof.ScB.region_wp_value' depends on axioms: [propext, Classical.choice, Quot.sound] -/
#guard_msgs in #print axioms region_wp_value

end Cert.Proof.ScB

end
-- ==== Proof.ScB.HostVals.lean ====
/-
  What the nine host operations leave in the arrays.

  Each of the seven weight operands the kernel region reads is one or two host operations of one argument array:
  a slice then a transpose, a transpose, or a reshape. The gathered arrays, the result array and the arguments are
  written by none of the nine.
-/
import proofs.«205169_g39805756899661_cont_8to1_b_81_27_alg».proof.Kernel
import proofs.«205169_g39805756899661_cont_8to1_b_81_27_alg».proof.Proof.Gen.Kernel
import Idealize.ShloMosaic.Lib.StableHlo.Run

noncomputable section

namespace Cert.Proof.ScB

open Cert.Kernel Cert.Kernel.Facts₀
open Idealize.ShloMosaic Idealize.ShloMosaic.StableHlo

variable {F : FTy → Type} [FloatOps F]

/-- The nine host operations between the two kernels, in @main's order. -/
def hostOpsLine : List (HloOp τ sig (Elt F)) :=
  [StableHlo.unary main_arg3 main_v1 ((extractStridedSlice S128x64 ![0, 0] · slices_S128x128_S128x64_0_0) : (⟨S128x128, .f32⟩ : BufTy).Contents (Elt F) → (⟨S128x64, .f32⟩ : BufTy).Contents (Elt F)),
   StableHlo.unary main_v1 main_v2 ((transpose S64x128 [1, 0] · transposes_S128x64_S64x128_1_0) : (⟨S128x64, .f32⟩ : BufTy).Contents (Elt F) → (⟨S64x128, .f32⟩ : BufTy).Contents (Elt F)),
   StableHlo.unary main_arg3 main_v3 ((extractStridedSlice S128x64 ![0, 64] · slices_S128x128_S128x64_0_64) : (⟨S128x128, .f32⟩ : BufTy).Contents (Elt F) → (⟨S128x64, .f32⟩ : BufTy).Contents (Elt F)),
   StableHlo.unary main_v3 main_v4 ((transpose S64x128 [1, 0] · transposes_S128x64_S64x128_1_0) : (⟨S128x64, .f32⟩ : BufTy).Contents (Elt F) → (⟨S64x128, .f32⟩ : BufTy).Contents (Elt F)),
   StableHlo.reshape main_arg4 main_v5 rfl shapeCasts_S128_S1x128,
   StableHlo.unary main_arg5 main_v6 ((transpose S128x64 [1, 0] · transposes_S64x128_S128x64_1_0) : (⟨S64x128, .f32⟩ : BufTy).Contents (Elt F) → (⟨S128x64, .f32⟩ : BufTy).Contents (Elt F)),
   StableHlo.reshape main_arg6 main_v7 rfl shapeCasts_S64_S1x64,
   StableHlo.unary main_arg7 main_v8 ((transpose S64x1 [1, 0] · transposes_S1x64_S64x1_1_0) : (⟨S1x64, .f32⟩ : BufTy).Contents (Elt F) → (⟨S64x1, .f32⟩ : BufTy).Contents (Elt F)),
   StableHlo.reshape main_arg8 main_v9 rfl shapeCasts_S1_S1x1]

variable (V : Valuation τ sig (Elt F))

/-! ## The seven weight operands -/

theorem after_main_v2 : StableHlo.after (hostOpsLine (F := F)) V (Proc.devRef .tc main_v2)
    = transpose S64x128 [1, 0] (extractStridedSlice S128x64 ![0, 0] (V (Proc.devRef .tc main_arg3)) slices_S128x128_S128x64_0_0) transposes_S128x64_S64x128_1_0 := by
  unfold hostOpsLine
  after_results

theorem after_main_v4 : StableHlo.after (hostOpsLine (F := F)) V (Proc.devRef .tc main_v4)
    = transpose S64x128 [1, 0] (extractStridedSlice S128x64 ![0, 64] (V (Proc.devRef .tc main_arg3)) slices_S128x128_S128x64_0_64) transposes_S128x64_S64x128_1_0 := by
  unfold hostOpsLine
  after_results

theorem after_main_v5 : StableHlo.after (hostOpsLine (F := F)) V (Proc.devRef .tc main_v5)
    = shapeCast S1x128 (V (Proc.devRef .tc main_arg4)) shapeCasts_S128_S1x128 := by
  unfold hostOpsLine
  after_results
  rfl

theorem after_main_v6 : StableHlo.after (hostOpsLine (F := F)) V (Proc.devRef .tc main_v6)
    = transpose S128x64 [1, 0] (V (Proc.devRef .tc main_arg5)) transposes_S64x128_S128x64_1_0 := by
  unfold hostOpsLine
  after_results

theorem after_main_v7 : StableHlo.after (hostOpsLine (F := F)) V (Proc.devRef .tc main_v7)
    = shapeCast S1x64 (V (Proc.devRef .tc main_arg6)) shapeCasts_S64_S1x64 := by
  unfold hostOpsLine
  after_results
  rfl

theorem after_main_v8 : StableHlo.after (hostOpsLine (F := F)) V (Proc.devRef .tc main_v8)
    = transpose S64x1 [1, 0] (V (Proc.devRef .tc main_arg7)) transposes_S1x64_S64x1_1_0 := by
  unfold hostOpsLine
  after_results

theorem after_main_v9 : StableHlo.after (hostOpsLine (F := F)) V (Proc.devRef .tc main_v9)
    = shapeCast S1x1 (V (Proc.devRef .tc main_arg8)) shapeCasts_S1_S1x1 := by
  unfold hostOpsLine
  after_results
  rfl

/-! ## What none of the nine writes -/

theorem after_main_v0_0 : StableHlo.after (hostOpsLine (F := F)) V (Proc.devRef .tc main_v0_0)
    = V (Proc.devRef .tc main_v0_0) := by
  unfold hostOpsLine
  after_results

theorem after_main_v0_1 : StableHlo.after (hostOpsLine (F := F)) V (Proc.devRef .tc main_v0_1)
    = V (Proc.devRef .tc main_v0_1) := by
  unfold hostOpsLine
  after_results

theorem after_main_v10 : StableHlo.after (hostOpsLine (F := F)) V (Proc.devRef .tc main_v10)
    = V (Proc.devRef .tc main_v10) := by
  unfold hostOpsLine
  after_results

theorem after_main_arg0 : StableHlo.after (hostOpsLine (F := F)) V (Proc.devRef .tc main_arg0)
    = V (Proc.devRef .tc main_arg0) := by
  unfold hostOpsLine
  after_results

theorem after_main_arg1 : StableHlo.after (hostOpsLine (F := F)) V (Proc.devRef .tc main_arg1)
    = V (Proc.devRef .tc main_arg1) := by
  unfold hostOpsLine
  after_results

theorem after_main_arg2 : StableHlo.after (hostOpsLine (F := F)) V (Proc.devRef .tc main_arg2)
    = V (Proc.devRef .tc main_arg2) := by
  unfold hostOpsLine
  after_results

theorem after_main_arg3 : StableHlo.after (hostOpsLine (F := F)) V (Proc.devRef .tc main_arg3)
    = V (Proc.devRef .tc main_arg3) := by
  unfold hostOpsLine
  after_results

theorem after_main_arg4 : StableHlo.after (hostOpsLine (F := F)) V (Proc.devRef .tc main_arg4)
    = V (Proc.devRef .tc main_arg4) := by
  unfold hostOpsLine
  after_results

theorem after_main_arg5 : StableHlo.after (hostOpsLine (F := F)) V (Proc.devRef .tc main_arg5)
    = V (Proc.devRef .tc main_arg5) := by
  unfold hostOpsLine
  after_results

theorem after_main_arg6 : StableHlo.after (hostOpsLine (F := F)) V (Proc.devRef .tc main_arg6)
    = V (Proc.devRef .tc main_arg6) := by
  unfold hostOpsLine
  after_results

theorem after_main_arg7 : StableHlo.after (hostOpsLine (F := F)) V (Proc.devRef .tc main_arg7)
    = V (Proc.devRef .tc main_arg7) := by
  unfold hostOpsLine
  after_results

theorem after_main_arg8 : StableHlo.after (hostOpsLine (F := F)) V (Proc.devRef .tc main_arg8)
    = V (Proc.devRef .tc main_arg8) := by
  unfold hostOpsLine
  after_results

end Cert.Proof.ScB

end
-- ==== Proof.ScB.RegionRule.lean ====
/-
  The kernel region's rule as the program's run takes it, and the host operations' two spellings.
-/
import proofs.«205169_g39805756899661_cont_8to1_b_81_27_alg».proof.Proof.ScB.Main
import proofs.«205169_g39805756899661_cont_8to1_b_81_27_alg».proof.Proof.ScB.RegionOut
import proofs.«205169_g39805756899661_cont_8to1_b_81_27_alg».proof.Proof.ScB.HostVals

set_option Elab.async false

noncomputable section

namespace Cert.Proof.ScB

open Cert.Kernel Cert.Kernel.Gen
open Idealize.ShloMosaic Idealize.ShloMosaic.TcCoe
open Idealize.ShloMosaic.SparseCore (T)
open Idealize.ShloMosaic.SparseCore.Cfg (HIx)
open Idealize.SL Idealize.SL.Sem

variable {F : FTy → Type} [FloatOps F]

/-- The nine host operations, either spelling. -/
theorem hostOps_eq : hostOps (F := F) = hostOpsLine := rfl

/-- The kernel region's rule, at the result array the pipeline's write-backs leave. -/
theorem region_rule [∀ e, Nonempty (Elt F e)] : RegionRule (F := F) (fun d Vd => outArr d Vd) :=
  fun lv d Vd Φ => region_wp lv d Vd Φ

end Cert.Proof.ScB

end
-- ==== Proof.FinalRuns.lean ====
/-
  From the printed kernel's run to the hypothesis the final assembly takes of it.

  The run of the printed kernel is proved by the same text as the idealized kernel's, read at the bit-exact
  floats: it says what the result buffer ends holding and that the nine arguments end unchanged. The claim
  about the printed kernel only asks for the second half, so the run's post is weakened by dropping its first
  conjunct; what the result buffer holds is left arbitrary here.
-/
import proofs.«205169_g39805756899661_cont_8to1_b_81_27_alg».proof.Proof.Final

noncomputable section

namespace Cert.Proof.FinalRuns

open Idealize.ShloMosaic Idealize.SL.Sem

/-- One run of the printed kernel whose post says what the result buffer holds and that the arguments are
    unchanged is in particular a run whose post says the arguments are unchanged. -/
theorem unchanged_of_run_Bits (m : (ℓ : Loc Cert.Kernel.nD Cert.Kernel.τ Cert.Kernel.sig) → Buf (Elt Bits) ℓ) (g : Dev Cert.Kernel.nD → PrngReg)
    (out : (c : Dev Cert.Kernel.nD) → Buf (Elt Bits) ((c.tc : Thread Cert.Kernel.nD Cert.Kernel.τ).loc Cert.Kernel.main_v10))
    (h : θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_v10) = out c
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))) :
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)) :=
  (θ_run (Cert.Kernel.defs (F := Bits)) _ _).mono (fun _ h c => (h c).2) h

/-- The printed kernel's run, for every memory whose two index arrays are in range, gives the hypothesis the
    final assembly takes of the printed kernel. -/
theorem kernelRunBits_of_run
    (out : ((ℓ : Loc Cert.Kernel.nD Cert.Kernel.τ Cert.Kernel.sig) → Buf (Elt Bits) ℓ) → (c : Dev Cert.Kernel.nD) → Buf (Elt Bits) ((c.tc : Thread Cert.Kernel.nD Cert.Kernel.τ).loc Cert.Kernel.main_v10))
    (hrun : ∀ (m : (ℓ : Loc Cert.Kernel.nD Cert.Kernel.τ Cert.Kernel.sig) → Buf (Elt Bits) ℓ) (g : Dev Cert.Kernel.nD → PrngReg),
      (∀ c : Dev Cert.Kernel.nD, Cert.Spec.InRange (m ((c.tc : Thread Cert.Kernel.nD Cert.Kernel.τ).loc Cert.Kernel.main_arg0)) ∧ Cert.Spec.InRange (m ((c.tc : Thread Cert.Kernel.nD Cert.Kernel.τ).loc Cert.Kernel.main_arg1))) →
      θ_run (Cert.Kernel.defs (F := Bits)) (Cert.Kernel.threads (F := Bits)) ⟨m, fun _ => 0, g⟩ (fun r => ∀ c : Dev Cert.Kernel.nD,
        r.2.mem ((c.tc : Thread Cert.Kernel.nD Cert.Kernel.τ).loc Cert.Kernel.main_v10) = out m c
        ∧ r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4)
        ∧ r.2.mem ((c.tc : Thread Cert.Kernel.nD Cert.Kernel.τ).loc Cert.Kernel.main_arg5) = m ((c.tc : Thread Cert.Kernel.nD Cert.Kernel.τ).loc Cert.Kernel.main_arg5)
        ∧ r.2.mem ((c.tc : Thread Cert.Kernel.nD Cert.Kernel.τ).loc Cert.Kernel.main_arg6) = m ((c.tc : Thread Cert.Kernel.nD Cert.Kernel.τ).loc Cert.Kernel.main_arg6)
        ∧ r.2.mem ((c.tc : Thread Cert.Kernel.nD Cert.Kernel.τ).loc Cert.Kernel.main_arg7) = m ((c.tc : Thread Cert.Kernel.nD Cert.Kernel.τ).loc Cert.Kernel.main_arg7)
        ∧ r.2.mem ((c.tc : Thread Cert.Kernel.nD Cert.Kernel.τ).loc Cert.Kernel.main_arg8) = m ((c.tc : Thread Cert.Kernel.nD Cert.Kernel.τ).loc Cert.Kernel.main_arg8))) :
    Cert.Proof.Final.KernelRunBits :=
  fun m g hr => unchanged_of_run_Bits m g (out m) (hrun m g hr)

end Cert.Proof.FinalRuns

end
-- ==== Proof.BitsRun.lean ====
/-
  The printed kernel's run, from the gather kernel's body on one tile.
-/
import proofs.«205169_g39805756899661_cont_8to1_b_81_27_alg».proof.Proof.ScB.Launch
import proofs.«205169_g39805756899661_cont_8to1_b_81_27_alg».proof.Proof.ScB.TileWrap
import proofs.«205169_g39805756899661_cont_8to1_b_81_27_alg».proof.Proof.ScB.RegionRule
import proofs.«205169_g39805756899661_cont_8to1_b_81_27_alg».proof.Proof.FinalRuns

set_option Elab.async false

noncomputable section

namespace Cert.Proof

open Idealize.ShloMosaic

/-- The printed kernel runs and leaves its nine arguments unchanged: the program's run at the machine's floats, the
    kernel region's rule supplied, the result array whatever the region leaves. -/
theorem kernelRunBits (hcore : ScB.TileCore (F := Bits)) : Cert.Proof.Final.KernelRunBits :=
  FinalRuns.kernelRunBits_of_run (fun m c => ScB.outArr c (ScB.Vd m c))
    (fun m g hin => ScB.run_main m g (ScB.tileBody_of_core ScB.facts hcore) ScB.region_rule hin)

end Cert.Proof

end
-- ==== Proof.Sc.TileDefs.lean ====
/-
  Names for the gather kernel's tile body: the rows of the tile's row scratch as transfers' destinations, the table's read
  tokens, the batch of 512 row copies on the scratch semaphore and what each delivers.

  One side of the kernel copies the tile's 512 index words into the index scratch, starts 512 row copies — copy t from the
  table row the t-th word names into row t of the row scratch — all on ONE semaphore, waits 512 times, and copies the
  row scratch out. Only the last wait tells that every copy has landed; copy t then has left in row t the table's row
  the t-th word names.
-/
import proofs.«205169_g39805756899661_cont_8to1_b_81_27_alg».proof.Proof.Sc.TileSpec
import proofs.«205169_g39805756899661_cont_8to1_b_81_27_alg».proof.Proof.Gen.KernelIdeal.Skeleton
import Idealize.ShloMosaic.Lib.SparseCore.Launch
import Idealize.ShloMosaic.Lib.Batch
import Idealize.ShloMosaic.Lib.StableHlo.Run
import Idealize.ShloMosaic.Lib.Pipeline.Kit
import Idealize.ShloMosaic.Lib.Tactic
import Idealize.ShloMosaic.Lib.Ring
import proofs.«205169_g39805756899661_cont_8to1_b_81_27_alg».proof.Proof.Spec

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iaW" => (Memref.whole Cert.KernelIdeal.main_arg0_scv : Memref Cert.KernelIdeal.sig Kind.scVector Space.hbm Cert.KernelIdeal.S16384 EltTy.i32)
local notation "ibW" => (Memref.whole Cert.KernelIdeal.main_arg1_scv : Memref Cert.KernelIdeal.sig Kind.scVector Space.hbm Cert.KernelIdeal.S16384 EltTy.i32)
local notation "tbW" => (Memref.whole Cert.KernelIdeal.main_arg2_scv : Memref Cert.KernelIdeal.sig Kind.scVector Space.hbm Cert.KernelIdeal.S1000000x64 EltTy.f32)
local notation "oaW" => (Memref.whole Cert.KernelIdeal.main_v0_0_scv : Memref Cert.KernelIdeal.sig Kind.scVector Space.hbm Cert.KernelIdeal.S16384x64 EltTy.f32)
local notation "obW" => (Memref.whole Cert.KernelIdeal.main_v0_1_scv : Memref Cert.KernelIdeal.sig Kind.scVector Space.hbm Cert.KernelIdeal.S16384x64 EltTy.f32)
local notation "sIW" => (Memref.whole Cert.KernelIdeal.cc0_scratch0 : Memref Cert.KernelIdeal.sig Kind.scVector Space.vmem Cert.KernelIdeal.S512 EltTy.i32)
local notation "sRW" => (Memref.whole Cert.KernelIdeal.cc0_scratch1 : Memref Cert.KernelIdeal.sig Kind.scVector Space.vmem Cert.KernelIdeal.S512x64 EltTy.f32)

variable [FloatOps F]

/-- Sixteen heads off a range of 512 starting at a multiple of 16. -/
theorem head16 {M : Type} [URA M] (Φ : Fin 512 → sProp M) (k : ℕ) (hk : k < 32) :
    bigSep (Ring.rangeSet 512 (16 * k) 512) Φ
      = iprop(Φ ⟨16 * k, by omega⟩ ∗ Φ ⟨16 * k + 1, by omega⟩ ∗ Φ ⟨16 * k + 1 + 1, by omega⟩ ∗ Φ ⟨16 * k + 1 + 1 + 1, by omega⟩ ∗ Φ ⟨16 * k + 1 + 1 + 1 + 1, by omega⟩ ∗ Φ ⟨16 * k + 1 + 1 + 1 + 1 + 1, by omega⟩ ∗ Φ ⟨16 * k + 1 + 1 + 1 + 1 + 1 + 1, by omega⟩ ∗ Φ ⟨16 * k + 1 + 1 + 1 + 1 + 1 + 1 + 1, by omega⟩ ∗ Φ ⟨16 * k + 1 + 1 + 1 + 1 + 1 + 1 + 1 + 1, by omega⟩ ∗ Φ ⟨16 * k + 1 + 1 + 1 + 1 + 1 + 1 + 1 + 1 + 1, by omega⟩ ∗ Φ ⟨16 * k + 1 + 1 + 1 + 1 + 1 + 1 + 1 + 1 + 1 + 1, by omega⟩ ∗ Φ ⟨16 * k + 1 + 1 + 1 + 1 + 1 + 1 + 1 + 1 + 1 + 1 + 1, by omega⟩ ∗ Φ ⟨16 * k + 1 + 1 + 1 + 1 + 1 + 1 + 1 + 1 + 1 + 1 + 1 + 1, by omega⟩ ∗ Φ ⟨16 * k + 1 + 1 + 1 + 1 + 1 + 1 + 1 + 1 + 1 + 1 + 1 + 1 + 1, by omega⟩ ∗ Φ ⟨16 * k + 1 + 1 + 1 + 1 + 1 + 1 + 1 + 1 + 1 + 1 + 1 + 1 + 1 + 1, by omega⟩ ∗ Φ ⟨16 * k + 1 + 1 + 1 + 1 + 1 + 1 + 1 + 1 + 1 + 1 + 1 + 1 + 1 + 1 + 1, by omega⟩ ∗ bigSep (Ring.rangeSet 512 (16 * k + 1 + 1 + 1 + 1 + 1 + 1 + 1 + 1 + 1 + 1 + 1 + 1 + 1 + 1 + 1 + 1) 512) Φ) := by
  rw [Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega)]

/-- The same with the sixteen indices and the rest's start under any names equal to them. -/
theorem head16g {M : Type} [URA M] (Φ : Fin 512 → sProp M) (k : ℕ) (hk : k < 32)
    (a0 a1 a2 a3 a4 a5 a6 a7 a8 a9 a10 a11 a12 a13 a14 a15 e : ℕ)
    (h0 : a0 = 16 * k) (h1 : a1 = 16 * k + 1) (h2 : a2 = 16 * k + 1 + 1) (h3 : a3 = 16 * k + 1 + 1 + 1) (h4 : a4 = 16 * k + 1 + 1 + 1 + 1) (h5 : a5 = 16 * k + 1 + 1 + 1 + 1 + 1) (h6 : a6 = 16 * k + 1 + 1 + 1 + 1 + 1 + 1) (h7 : a7 = 16 * k + 1 + 1 + 1 + 1 + 1 + 1 + 1) (h8 : a8 = 16 * k + 1 + 1 + 1 + 1 + 1 + 1 + 1 + 1) (h9 : a9 = 16 * k + 1 + 1 + 1 + 1 + 1 + 1 + 1 + 1 + 1) (h10 : a10 = 16 * k + 1 + 1 + 1 + 1 + 1 + 1 + 1 + 1 + 1 + 1) (h11 : a11 = 16 * k + 1 + 1 + 1 + 1 + 1 + 1 + 1 + 1 + 1 + 1 + 1) (h12 : a12 = 16 * k + 1 + 1 + 1 + 1 + 1 + 1 + 1 + 1 + 1 + 1 + 1 + 1) (h13 : a13 = 16 * k + 1 + 1 + 1 + 1 + 1 + 1 + 1 + 1 + 1 + 1 + 1 + 1 + 1) (h14 : a14 = 16 * k + 1 + 1 + 1 + 1 + 1 + 1 + 1 + 1 + 1 + 1 + 1 + 1 + 1 + 1) (h15 : a15 = 16 * k + 1 + 1 + 1 + 1 + 1 + 1 + 1 + 1 + 1 + 1 + 1 + 1 + 1 + 1 + 1) (he : e = 16 * k + 1 + 1 + 1 + 1 + 1 + 1 + 1 + 1 + 1 + 1 + 1 + 1 + 1 + 1 + 1 + 1) :
    bigSep (Ring.rangeSet 512 (16 * k) 512) Φ
      = iprop(Φ ⟨a0, by omega⟩ ∗ Φ ⟨a1, by omega⟩ ∗ Φ ⟨a2, by omega⟩ ∗ Φ ⟨a3, by omega⟩ ∗ Φ ⟨a4, by omega⟩ ∗ Φ ⟨a5, by omega⟩ ∗ Φ ⟨a6, by omega⟩ ∗ Φ ⟨a7, by omega⟩ ∗ Φ ⟨a8, by omega⟩ ∗ Φ ⟨a9, by omega⟩ ∗ Φ ⟨a10, by omega⟩ ∗ Φ ⟨a11, by omega⟩ ∗ Φ ⟨a12, by omega⟩ ∗ Φ ⟨a13, by omega⟩ ∗ Φ ⟨a14, by omega⟩ ∗ Φ ⟨a15, by omega⟩ ∗ bigSep (Ring.rangeSet 512 e 512) Φ) := by
  subst h0 h1 h2 h3 h4 h5 h6 h7 h8 h9 h10 h11 h12 h13 h14 h15 he
  exact head16 Φ k hk

/-- Sixteen heads, the indices spelt as the body's destination rows are: `16 k + 0`, `16 k + 0 + j`, `16 k + 15`. -/
theorem head16s {M : Type} [URA M] (Φ : Fin 512 → sProp M) (k : ℕ) (hk : k < 32) :
    bigSep (Ring.rangeSet 512 (16 * k) 512) Φ
      = iprop(Φ ⟨16 * k + 0, by omega⟩ ∗ Φ ⟨16 * k + 0 + 1, by omega⟩ ∗ Φ ⟨16 * k + 0 + 2, by omega⟩ ∗ Φ ⟨16 * k + 0 + 3, by omega⟩ ∗ Φ ⟨16 * k + 0 + 4, by omega⟩ ∗ Φ ⟨16 * k + 0 + 5, by omega⟩ ∗ Φ ⟨16 * k + 0 + 6, by omega⟩ ∗ Φ ⟨16 * k + 0 + 7, by omega⟩ ∗ Φ ⟨16 * k + 0 + 8, by omega⟩ ∗ Φ ⟨16 * k + 0 + 9, by omega⟩ ∗ Φ ⟨16 * k + 0 + 10, by omega⟩ ∗ Φ ⟨16 * k + 0 + 11, by omega⟩ ∗ Φ ⟨16 * k + 0 + 12, by omega⟩ ∗ Φ ⟨16 * k + 0 + 13, by omega⟩ ∗ Φ ⟨16 * k + 0 + 14, by omega⟩ ∗ Φ ⟨16 * k + 15, by omega⟩ ∗ bigSep (Ring.rangeSet 512 (16 * (k + 1)) 512) Φ) :=
  head16g Φ k hk (16 * k + 0) (16 * k + 0 + 1) (16 * k + 0 + 2) (16 * k + 0 + 3) (16 * k + 0 + 4) (16 * k + 0 + 5) (16 * k + 0 + 6) (16 * k + 0 + 7) (16 * k + 0 + 8) (16 * k + 0 + 9) (16 * k + 0 + 10) (16 * k + 0 + 11) (16 * k + 0 + 12) (16 * k + 0 + 13) (16 * k + 0 + 14) (16 * k + 15) (16 * (k + 1)) (by omega) (by omega) (by omega) (by omega) (by omega) (by omega) (by omega) (by omega) (by omega) (by omega) (by omega) (by omega) (by omega) (by omega) (by omega) (by omega) (by omega)

section Tile
variable (d : Dev nD) (L : grid0.Coords)

/-- Row `t` of the tile's row scratch, as a transfer's destination. -/
theorem rRow_inb (t : Fin 512) : ∀ a, (![t.val, 0] : Fin 2 → Nat) a + S1x64.size a ≤ S512x64.size a := by
  have := t.isLt; intro a; fin_cases a
  · show t.val + 1 ≤ 512; omega
  · show 0 + 64 ≤ 64; omega
def rRow (t : Fin 512) : Memref sig .scVector .vmem S64 .f32 :=
  ((sRW).slice (Rect.unit (s := S512x64) ![t.val, 0] S1x64.size (rRow_inb t)) (fun _ => rfl)).squeeze S64 squeezes_S1x64_S64

/-- The body's spelling of a destination row, at any offsets equal to the row's, is that row. -/
theorem rRow_body_eq (t : Fin 512) (off : Fin 2 → ℕ) (hoff : off = ![t.val, 0]) (pf : ∀ a, off a + S1x64.size a ≤ S512x64.size a) :
    ((sRW).slice (Rect.unit (s := S512x64) off S1x64.size pf) (fun _ => rfl)).squeeze S64 squeezes_S1x64_S64 = rRow t := by
  subst hoff; rfl

/-- Row `t` of the scratch holds the table's row that the `t`-th index word names. -/
def rowGood (iv : Buf (Elt F) ((sIW).view.loc (V d (cV L) (jV L)))) (tb : Buf (Elt F) ((tbW).view.loc (V d (cV L) (jV L))))
    (t : Fin 512) (g : Buf (Elt F) ((rRow t).view.loc (V d (cV L) (jV L)))) : Prop :=
  ∀ y : S64.Idx, g ((rRow t).view.emb y) = tb (ValueIdx.ix2 (Cert.Spec.rowOf (iv (ValueIdx.ix1 t))) (y 0))

/-- What transfer `t` delivers: its row of the scratch, holding that table row. -/
abbrev dlv (iv : Buf (Elt F) ((sIW).view.loc (V d (cV L) (jV L)))) (tb : Buf (Elt F) ((tbW).view.loc (V d (cV L) (jV L)))) (t : Fin 512) : sProp 𝕄 :=
  iprop(∃ g, ⌜rowGood d L iv tb t g⌝ ∗ (rRow t).view.loc (V d (cV L) (jV L)) ↦[(rRow t).view.set]{fullShare} g)
/-- A row of the scratch owned at some contents. -/
abbrev rowOwn (t : Fin 512) : sProp 𝕄 := iprop(∃ g, (rRow t).view.loc (V d (cV L) (jV L)) ↦[(rRow t).view.set]{fullShare} g)
/-- The table under read token `t` of the tile's share `q`. -/
abbrev tTok (tb : Buf (Elt F) ((tbW).view.loc (V d (cV L) (jV L)))) (q : PosShare TreeShare) (t : ℕ) : sProp 𝕄 :=
  (tbW).view.loc (V d (cV L) (jV L)) ↦[(tbW).view.set]{Transfers.shareTokN q t} tb
/-- One row's credit on the scratch semaphore. -/
abbrev NR : ℕ := (rRow (0 : Fin 512)).view.amount (SemLoc.dma (sig := sig) cc0_scratch2.sem)
abbrev batchA (iv : Buf (Elt F) ((sIW).view.loc (V d (cV L) (jV L)))) (tb : Buf (Elt F) ((tbW).view.loc (V d (cV L) (jV L)))) (j u : ℕ) : sProp 𝕄 :=
  Transfers.Batch (countersEmb (U := UU)) (V d (cV L) (jV L)) (.dma cc0_scratch2.sem) (none : HIx 1) NR (dlv d L iv tb) j u

/-- Before trip `k` of an issue loop: `16 k` rows issued, the index scratch at `iv`, the rows and tokens from `16 k` on in hand. -/
def issueAt (iv : Buf (Elt F) ((sIW).view.loc (V d (cV L) (jV L)))) (tb : Buf (Elt F) ((tbW).view.loc (V d (cV L) (jV L)))) (q : PosShare TreeShare)
    (k : ℕ) (_ : Unit) : sProp 𝕄 :=
  iprop(((sIW).view.loc (V d (cV L) (jV L)) ↦{fullShare} iv) ∗ batchA d L iv tb (16 * k) 0
    ∗ bigSep (Ring.rangeSet 512 (16 * k) 512) (rowOwn d L) ∗ bigSep (Ring.rangeSet 512 (16 * k) 512) (fun t => tTok d L tb q t.val))

/-- A row held under one name of its memref is held under any equal name. -/
theorem rowPts_eq {M M' : Memref sig .scVector .vmem S64 .f32} (h : M = M') (g : Buf (Elt F) (M'.view.loc (V d (cV L) (jV L)))) :
    (M'.view.loc (V d (cV L) (jV L)) ↦[M'.view.set]{fullShare} g : sProp 𝕄) = (M.view.loc (V d (cV L) (jV L)) ↦[M.view.set]{fullShare} (h ▸ g)) := by
  subst h; rfl

end Tile

end Cert.Proof.ScI

end
-- ==== Proof.Sc.Drain.lean ====
/-
  The loop that waits for a side's 512 row copies, and the row scratch as its rows.

  The 512 row copies of a side all credit ONE semaphore, a row's credit each; the loop waits 512 times for a row's
  credit.  A wait before the last tells nothing about any row: the credits of several copies may have added up to a
  row's.  The last wait brings the credit consumed to 512 rows', which is all that was ever to come, so every copy has
  landed: the semaphore is back at zero and every row holds what its copy delivers.  The row scratch held whole is its
  512 rows held, and the rows held each at the table row its index word names are the scratch held whole at one
  function of the index words and the table.
-/
import proofs.«205169_g39805756899661_cont_8to1_b_81_27_alg».proof.Proof.Sc.TileDefs

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iaW" => (Memref.whole Cert.KernelIdeal.main_arg0_scv : Memref Cert.KernelIdeal.sig Kind.scVector Space.hbm Cert.KernelIdeal.S16384 EltTy.i32)
local notation "ibW" => (Memref.whole Cert.KernelIdeal.main_arg1_scv : Memref Cert.KernelIdeal.sig Kind.scVector Space.hbm Cert.KernelIdeal.S16384 EltTy.i32)
local notation "tbW" => (Memref.whole Cert.KernelIdeal.main_arg2_scv : Memref Cert.KernelIdeal.sig Kind.scVector Space.hbm Cert.KernelIdeal.S1000000x64 EltTy.f32)
local notation "oaW" => (Memref.whole Cert.KernelIdeal.main_v0_0_scv : Memref Cert.KernelIdeal.sig Kind.scVector Space.hbm Cert.KernelIdeal.S16384x64 EltTy.f32)
local notation "obW" => (Memref.whole Cert.KernelIdeal.main_v0_1_scv : Memref Cert.KernelIdeal.sig Kind.scVector Space.hbm Cert.KernelIdeal.S16384x64 EltTy.f32)
local notation "sIW" => (Memref.whole Cert.KernelIdeal.cc0_scratch0 : Memref Cert.KernelIdeal.sig Kind.scVector Space.vmem Cert.KernelIdeal.S512 EltTy.i32)
local notation "sRW" => (Memref.whole Cert.KernelIdeal.cc0_scratch1 : Memref Cert.KernelIdeal.sig Kind.scVector Space.vmem Cert.KernelIdeal.S512x64 EltTy.f32)

variable [FloatOps F]

/-! ## The row scratch as its 512 rows -/

section Rows
variable (d : Dev nD) (L : grid0.Coords)

/-- The elements of row t of a [512, 64] array. -/
abbrev rowSet (t : Fin 512) : Finset S512x64.Idx := (Rect.unit (s := S512x64) ![t.val, 0] S1x64.size (rRow_inb t)).set

/-- The elements row t of the row scratch names are row t's. -/
theorem rRow_set (t : Fin 512) : ((rRow t).view.set : Finset S512x64.Idx) = rowSet t := by
  unfold rRow; exact (View.set_reshape _ _).trans (View.set_slice_whole _ _)

/-- An element lies in row t exactly when its row coordinate is t. -/
theorem mem_rowSet (t : Fin 512) (y : S512x64.Idx) : y ∈ rowSet t ↔ (y 0).val = t.val := by
  rw [Rect.mem_set_unit]
  have h1 : (y 1).val < 64 := (y 1).isLt
  constructor
  · intro H; have a0 : t.val ≤ (y 0).val ∧ (y 0).val < t.val + 1 := H 0; omega
  · intro H a
    match a with
    | ⟨0, _⟩ => show t.val ≤ (y 0).val ∧ (y 0).val < t.val + 1; omega
    | ⟨1, _⟩ => show 0 ≤ (y 1).val ∧ (y 1).val < 0 + 64; omega

theorem rowSet_disjoint (t t' : Fin 512) (h : t ≠ t') : Disjoint (rowSet t) (rowSet t') := by
  rw [Finset.disjoint_left]; intro y hy hy'; rw [mem_rowSet] at hy hy'; exact h (Fin.ext (by omega))

theorem rowSet_cover : Finset.univ.biUnion rowSet = Finset.univ := by
  ext y; simp only [Finset.mem_biUnion, Finset.mem_univ, true_and, iff_true]; exact ⟨y 0, (mem_rowSet _ _).mpr rfl⟩

/-- Element y of row t, placed in the scratch: row t, column y. -/
theorem rRow_emb (t : Fin 512) (y : S64.Idx) : ((rRow t).view.emb y : S512x64.Idx) = ValueIdx.ix2 t (y 0) := by
  have e : Shape.reshapeEquiv (squeezes_S1x64_S64).numel_eq y = Fin.cons ⟨0, Nat.one_pos⟩ y :=
    Shape.reshapeEquiv_cons_one _ y
  funext a
  apply Fin.ext
  match a with
  | ⟨0, _⟩ =>
    show t.val + 1 * ((Shape.reshapeEquiv (squeezes_S1x64_S64).numel_eq y) 0).val = t.val
    rw [e]; rfl
  | ⟨1, _⟩ =>
    show 0 + 1 * ((Shape.reshapeEquiv (squeezes_S1x64_S64).numel_eq y) 1).val = (y 0).val
    rw [e]; show 0 + 1 * (y 0).val = (y 0).val; omega

/-- Row t held through its memref is row t's elements of the scratch held. -/
theorem rowPts (t : Fin 512) (g : Buf (Elt F) ((sRW).view.loc (V d (cV L) (jV L)))) :
    ((rRow t).view.loc (V d (cV L) (jV L)) ↦[(rRow t).view.set]{fullShare} g : sProp 𝕄)
      = ((sRW).view.loc (V d (cV L) (jV L)) ↦[rowSet t]{fullShare} g : sProp 𝕄) := by
  show ((sRW).view.loc (V d (cV L) (jV L)) ↦[((rRow t).view.set : Finset S512x64.Idx)]{fullShare} g : sProp 𝕄) = _
  rw [rRow_set]

/-- The row scratch with every row at the table row its index word names, as ONE function. -/
def rowsOf (iv : Buf (Elt F) ((sIW).view.loc (V d (cV L) (jV L)))) (tb : Buf (Elt F) ((tbW).view.loc (V d (cV L) (jV L)))) :
    Buf (Elt F) ((sRW).view.loc (V d (cV L) (jV L))) :=
  fun y => tb (ValueIdx.ix2 (Cert.Spec.rowOf (iv (ValueIdx.ix1 (y 0)))) (y 1))

/-- Row t's elements of the scratch held at f are row t owned. -/
theorem row_owned (t : Fin 512) (f : Buf (Elt F) ((sRW).view.loc (V d (cV L) (jV L)))) :
    ((sRW).view.loc (V d (cV L) (jV L)) ↦[rowSet t]{fullShare} f : sProp 𝕄) ⊢ rowOwn d L t := by
  rw [← rowPts d L t f]
  iintro H; iexists f; iexact H

/-- Row t delivered is row t's elements of the scratch held at the one function. -/
theorem row_delivered (iv : Buf (Elt F) ((sIW).view.loc (V d (cV L) (jV L)))) (tb : Buf (Elt F) ((tbW).view.loc (V d (cV L) (jV L))))
    (t : Fin 512) :
    dlv d L iv tb t ⊢ ((sRW).view.loc (V d (cV L) (jV L)) ↦[rowSet t]{fullShare} rowsOf d L iv tb : sProp 𝕄) := by
  iintro ⟨%g, %hg, H⟩
  have e : ∀ i ∈ rowSet t, (g : S512x64.Idx → Elt F .f32) i = rowsOf d L iv tb i := by
    intro i hi
    rw [← rRow_set t] at hi
    obtain ⟨y, -, rfl⟩ := Finset.mem_map.mp hi
    exact (hg y).trans (congrArg (rowsOf d L iv tb) (rRow_emb t y)).symm
  have E : ((rRow t).view.loc (V d (cV L) (jV L)) ↦[(rRow t).view.set]{fullShare} g : sProp 𝕄)
      = ((sRW).view.loc (V d (cV L) (jV L)) ↦[rowSet t]{fullShare} rowsOf d L iv tb : sProp 𝕄) :=
    (rowPts d L t g).trans (pointsTo_congr e)
  rw [← E]
  iexact H

/-- The scratch held whole is held row by row, each at some contents. -/
theorem rows_split (f : Buf (Elt F) ((sRW).view.loc (V d (cV L) (jV L)))) :
    ((sRW).view.loc (V d (cV L) (jV L)) ↦{fullShare} f : sProp 𝕄) ⊢ bigSep Finset.univ (rowOwn d L) := by
  rw [Ring.pointsTo_blocks (ℓ := (sRW).view.loc (V d (cV L) (jV L))) (Ix := HIx 1) (Val := Elt F) (Name := ℕ) (U := UU) (Lvl := ℕ)
    (B := Fin 512) (q := fullShare) (fun t : Fin 512 => (rowSet t : Finset (Idx ((sRW).view.loc (V d (cV L) (jV L))))))
    rowSet_disjoint rowSet_cover f]
  exact bigSep_mono fun t _ => row_owned d L t f

/-- Every row delivered — row t at the table row word t names — is the scratch held whole at that one function. -/
theorem rows_join (iv : Buf (Elt F) ((sIW).view.loc (V d (cV L) (jV L)))) (tb : Buf (Elt F) ((tbW).view.loc (V d (cV L) (jV L)))) :
    bigSep Finset.univ (dlv d L iv tb) ⊢ ((sRW).view.loc (V d (cV L) (jV L)) ↦{fullShare} rowsOf d L iv tb : sProp 𝕄) := by
  rw [Ring.pointsTo_blocks (ℓ := (sRW).view.loc (V d (cV L) (jV L))) (Ix := HIx 1) (Val := Elt F) (Name := ℕ) (U := UU) (Lvl := ℕ)
    (B := Fin 512) (q := fullShare) (fun t : Fin 512 => (rowSet t : Finset (Idx ((sRW).view.loc (V d (cV L) (jV L))))))
    rowSet_disjoint rowSet_cover (rowsOf d L iv tb)]
  exact bigSep_mono fun t _ => row_delivered d L iv tb t

end Rows

/-! ## The loop that waits for a side's 512 row copies -/

section Drain
variable (d : Dev nD) (L : grid0.Coords) [∀ e, Nonempty (Elt F e)]

/-- One row's credit, as a number. -/
theorem NR_eq : (NR : ℕ) = 2048 := by decide

/-- Before trip k of a drain loop: k ≤ 512; the thread's debts as they were, its waits so far recorded; and EITHER
    (k < 512) the batch with every copy issued and k rows' credit consumed, OR (k = 512) the semaphore back at zero and
    every row at what its copy delivers. -/
def drainAt (iv : Buf (Elt F) ((sIW).view.loc (V d (cV L) (jV L)))) (tb : Buf (Elt F) ((tbW).view.loc (V d (cV L) (jV L))))
    (O : CellTallies nD τ sig (HIx 1)) (W : Waits sig (HIx 1)) (k : ℕ) (_ : Unit) : sProp 𝕄 :=
  iprop(⌜k ≤ 512⌝ ∗ Transfers.MayWaits (V d (cV L) (jV L)) (none : HIx 1) O
    ∗ (∃ W', ⌜∀ p ∈ W', p ∈ W ∨ p.2 = none⌝ ∗ owes (V d (cV L) (jV L)) O W')
    ∗ (if k < 512 then batchA d L iv tb 512 (k * NR)
       else iprop(semVal (V d (cV L) (jV L), SemLoc.dma cc0_scratch2.sem) 0 ∗ bigSep Finset.univ (dlv d L iv tb))))

/-- ONE TRIP of side a's drain loop, by cases: k + 1 < 512, a wait that tells nothing; k + 1 = 512, THE LAST. -/
theorem drain_step_a (iv : Buf (Elt F) ((sIW).view.loc (V d (cV L) (jV L)))) (tb : Buf (Elt F) ((tbW).view.loc (V d (cV L) (jV L))))
    (O : CellTallies nD τ sig (HIx 1)) (W : Waits sig (HIx 1)) (k : Fin k0_t2_loop.trips) (acc : Unit) :
    drainAt d L iv tb O W k acc
      ⊢ wp frame (wpE (defs₀ (F := F)) 𝒱₀ (V d (cV L) (jV L)) none) Set.univ
          (k0_t2_body L iaW (Memref.isWhole_whole _) ibW (Memref.isWhole_whole _) tbW (Memref.isWhole_whole _)
            oaW (Memref.isWhole_whole _) obW (Memref.isWhole_whole _) sIW (Memref.isWhole_whole _) sRW (Memref.isWhole_whole _)
            cc0_scratch2 cc0_scoped0 cc0_scoped1 cc0_scoped2 cc0_scoped3 k acc)
          (drainAt d L iv tb O W (k.val + 1)) := by
  have hk : k.val < 512 := k.isLt
  unfold drainAt batchA
  simp only [if_pos hk]
  rw [NR_eq]
  rcases Nat.lt_or_ge (k.val + 1) 512 with h1 | h1
  · simp only [if_pos h1]
    iintro ⟨-, Hmw, ⟨%W', %hW', HO⟩, HB⟩
    sl_unfold [k0_t2_body]
    sl_exec
    sl_step
    isplitr; · ipureintro; omega
    isplitl [Hmw]; · iexact Hmw
    isplitl [HO]
    · iexists (insert (SemLoc.dma cc0_scratch2.sem, (none : HIx 1)) W'); isplitr
      · ipureintro; intro p hp
        rcases Finset.mem_insert.mp hp with hp | hp
        · exact .inr (hp ▸ rfl)
        · exact hW' p hp
      · iexact HO
    rw [show (k.val + 1) * 2048 = k.val * 2048 + 2048 by omega]
    iexact HB
  · simp only [if_neg (Nat.not_lt.mpr h1)]
    iintro ⟨-, Hmw, ⟨%W', %hW', HO⟩, HB⟩
    sl_unfold [k0_t2_body]
    sl_exec
    sl_step
    isplitr; · ipureintro; omega
    isplitl [Hmw]; · iexact Hmw
    isplitl [HO]
    · iexists (insert (SemLoc.dma cc0_scratch2.sem, (none : HIx 1)) W'); isplitr
      · ipureintro; intro p hp
        rcases Finset.mem_insert.mp hp with hp | hp
        · exact .inr (hp ▸ rfl)
        · exact hW' p hp
      · iexact HO
    isplitl [HB]; · iexact HB
    iexact HB_all

/-- ONE TRIP of side b's drain loop: the same waits, on the second side's copies. -/
theorem drain_step_b (iv : Buf (Elt F) ((sIW).view.loc (V d (cV L) (jV L)))) (tb : Buf (Elt F) ((tbW).view.loc (V d (cV L) (jV L))))
    (O : CellTallies nD τ sig (HIx 1)) (W : Waits sig (HIx 1)) (k : Fin k0_t4_loop.trips) (acc : Unit) :
    drainAt d L iv tb O W k acc
      ⊢ wp frame (wpE (defs₀ (F := F)) 𝒱₀ (V d (cV L) (jV L)) none) Set.univ
          (k0_t4_body L iaW (Memref.isWhole_whole _) ibW (Memref.isWhole_whole _) tbW (Memref.isWhole_whole _)
            oaW (Memref.isWhole_whole _) obW (Memref.isWhole_whole _) sIW (Memref.isWhole_whole _) sRW (Memref.isWhole_whole _)
            cc0_scratch2 cc0_scoped0 cc0_scoped1 cc0_scoped2 cc0_scoped3 k acc)
          (drainAt d L iv tb O W (k.val + 1)) := by
  have hk : k.val < 512 := k.isLt
  unfold drainAt batchA
  simp only [if_pos hk]
  rw [NR_eq]
  rcases Nat.lt_or_ge (k.val + 1) 512 with h1 | h1
  · simp only [if_pos h1]
    iintro ⟨-, Hmw, ⟨%W', %hW', HO⟩, HB⟩
    sl_unfold [k0_t4_body]
    sl_exec
    sl_step
    isplitr; · ipureintro; omega
    isplitl [Hmw]; · iexact Hmw
    isplitl [HO]
    · iexists (insert (SemLoc.dma cc0_scratch2.sem, (none : HIx 1)) W'); isplitr
      · ipureintro; intro p hp
        rcases Finset.mem_insert.mp hp with hp | hp
        · exact .inr (hp ▸ rfl)
        · exact hW' p hp
      · iexact HO
    rw [show (k.val + 1) * 2048 = k.val * 2048 + 2048 by omega]
    iexact HB
  · simp only [if_neg (Nat.not_lt.mpr h1)]
    iintro ⟨-, Hmw, ⟨%W', %hW', HO⟩, HB⟩
    sl_unfold [k0_t4_body]
    sl_exec
    sl_step
    isplitr; · ipureintro; omega
    isplitl [Hmw]; · iexact Hmw
    isplitl [HO]
    · iexists (insert (SemLoc.dma cc0_scratch2.sem, (none : HIx 1)) W'); isplitr
      · ipureintro; intro p hp
        rcases Finset.mem_insert.mp hp with hp | hp
        · exact .inr (hp ▸ rfl)
        · exact hW' p hp
      · iexact HO
    isplitl [HB]; · iexact HB
    iexact HB_all

end Drain

end Cert.Proof.ScI

end
-- ==== Proof.Sc.RowLanded.lean ====
/-
  A landed row copy leaves a good row.

  Copy `t` of the gather kernel's batch moves one table row — the row the `t`-th index word names, sliced out of the
  table at offsets `(word, 0)` with one row of 64 and the unit axis dropped — into row `t` of the tile's row scratch,
  sliced and squeezed the same way at offsets `(t, 0)`. Entry `y` of the squeezed one-row slice at offsets `(r, 0)`
  is the array's entry `(r, y)`: dropping the leading unit axis puts a zero in front of the index, and the slice adds
  its offsets. So once the destination's contents are the source's read written over the whole of row `t`, entry `y`
  of row `t` is the table's entry `(word, y)`, which is what a good row is when the word is in range.
-/
import proofs.«205169_g39805756899661_cont_8to1_b_81_27_alg».proof.Proof.Sc.TileDefs
import Idealize.ShloMosaic.Lib.Writes
import Idealize.ShloMosaic.Lib.Pipeline.Value

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iaW" => (Memref.whole Cert.KernelIdeal.main_arg0_scv : Memref Cert.KernelIdeal.sig Kind.scVector Space.hbm Cert.KernelIdeal.S16384 EltTy.i32)
local notation "ibW" => (Memref.whole Cert.KernelIdeal.main_arg1_scv : Memref Cert.KernelIdeal.sig Kind.scVector Space.hbm Cert.KernelIdeal.S16384 EltTy.i32)
local notation "tbW" => (Memref.whole Cert.KernelIdeal.main_arg2_scv : Memref Cert.KernelIdeal.sig Kind.scVector Space.hbm Cert.KernelIdeal.S1000000x64 EltTy.f32)
local notation "oaW" => (Memref.whole Cert.KernelIdeal.main_v0_0_scv : Memref Cert.KernelIdeal.sig Kind.scVector Space.hbm Cert.KernelIdeal.S16384x64 EltTy.f32)
local notation "obW" => (Memref.whole Cert.KernelIdeal.main_v0_1_scv : Memref Cert.KernelIdeal.sig Kind.scVector Space.hbm Cert.KernelIdeal.S16384x64 EltTy.f32)
local notation "sIW" => (Memref.whole Cert.KernelIdeal.cc0_scratch0 : Memref Cert.KernelIdeal.sig Kind.scVector Space.vmem Cert.KernelIdeal.S512 EltTy.i32)
local notation "sRW" => (Memref.whole Cert.KernelIdeal.cc0_scratch1 : Memref Cert.KernelIdeal.sig Kind.scVector Space.vmem Cert.KernelIdeal.S512x64 EltTy.f32)

variable [FloatOps F]

section Tile
variable (d : Dev nD) (L : grid0.Coords)

/-- The table row a word names, as the kernel body slices it: one row of 64 at offsets `(word, 0)`, the unit axis dropped. -/
def tRowW (w : BitVec 32) (hw : ∀ a, (k0_off4 w) a + S1x64.size a ≤ S1000000x64.size a) : Memref sig .scVector .hbm S64 .f32 :=
  ((tbW).slice (Rect.unit (s := S1000000x64) (k0_off4 w) S1x64.size hw) (fun _ => rfl)).squeeze S64 squeezes_S1x64_S64

/-- Entry `y` of row `t` of the row scratch is the scratch's entry `(t, y)`. -/
theorem rRow_emb_at (t : Fin 512) (y : S64.Idx) :
    (rRow t).view.emb y = (ValueIdx.ix2 t (y 0) : S512x64.Idx) := by
  show (Rect.unit (s := S512x64) ![t.val, 0] S1x64.size (rRow_inb t)).emb (Shape.reshapeEquiv squeezes_S1x64_S64.numel_eq y) = _
  rw [Shape.reshapeEquiv_cons_one]
  funext a
  apply Fin.ext
  fin_cases a
  · show t.val + 1 * 0 = t.val; omega
  · show 0 + 1 * (y 0).val = (y 0).val; omega

/-- Entry `y` of the table row a word names is the table's entry `(word, y)`. -/
theorem tRowW_emb (w : BitVec 32) (hw : ∀ a, (k0_off4 w) a + S1x64.size a ≤ S1000000x64.size a) (hlt : w.toNat < 1000000)
    (y : S64.Idx) :
    (tRowW w hw).view.emb y = (ValueIdx.ix2 (⟨w.toNat, hlt⟩ : Fin 1000000) (y 0) : S1000000x64.Idx) := by
  show (Rect.unit (s := S1000000x64) (k0_off4 w) S1x64.size hw).emb (Shape.reshapeEquiv squeezes_S1x64_S64.numel_eq y) = _
  rw [Shape.reshapeEquiv_cons_one]
  funext a
  apply Fin.ext
  fin_cases a
  · show w.toNat + 1 * 0 = w.toNat; omega
  · show 0 + 1 * (y 0).val = (y 0).val; omega

/-- A word in range names the table row of its own number. -/
theorem rowOf_eq_of_lt (w : BitVec 32) (hlt : w.toNat < 1000000) : Cert.Spec.rowOf w = ⟨w.toNat, hlt⟩ :=
  Fin.ext (Cert.Spec.rowOf_val_of_lt hlt)

/-- Once the copy from the table row the `t`-th index word names has landed in row `t` — the row's contents are the
    source's read written over the whole row, whatever the row held before — row `t` is good. -/
theorem rowGood_landed (iv : Buf (Elt F) ((sIW).view.loc (V d (cV L) (jV L)))) (tb : Buf (Elt F) ((tbW).view.loc (V d (cV L) (jV L))))
    (t : Fin 512) (g0 : Buf (Elt F) ((rRow t).view.loc (V d (cV L) (jV L)))) (w : BitVec 32)
    (hw : ∀ a, (k0_off4 w) a + S1x64.size a ≤ S1000000x64.size a) (hwt : w = iv (ValueIdx.ix1 t)) (hlt : w.toNat < 1000000) :
    rowGood d L iv tb t ((rRow t).view.writes (Elt F) g0
      [⟨Rect.whole S64, ReadAs.same.apply (View.read (Elt F) (tRowW w hw).view tb)⟩]) := by
  intro y
  have h1 := View.read_writes_cons_emb (rRow t).view g0 (Rect.whole S64)
    (ReadAs.same.apply (View.read (Elt F) (tRowW w hw).view tb)) [] y
  rw [Rect.emb_whole_apply] at h1
  refine (show _ = _ from h1).trans ?_
  show tb ((tRowW w hw).view.emb y) = _
  rw [tRowW_emb w hw hlt, ← hwt, rowOf_eq_of_lt w hlt]

/-- The same with the landed contents spelt as one unmasked write through the row. -/
theorem rowGood_landed_write (iv : Buf (Elt F) ((sIW).view.loc (V d (cV L) (jV L)))) (tb : Buf (Elt F) ((tbW).view.loc (V d (cV L) (jV L))))
    (t : Fin 512) (g0 : Buf (Elt F) ((rRow t).view.loc (V d (cV L) (jV L)))) (w : BitVec 32)
    (hw : ∀ a, (k0_off4 w) a + S1x64.size a ≤ S1000000x64.size a) (hwt : w = iv (ValueIdx.ix1 t)) (hlt : w.toNat < 1000000) :
    rowGood d L iv tb t ((rRow t).view.write (Elt F) g0
      (ReadAs.same.apply (View.read (Elt F) (tRowW w hw).view tb)) Finset.univ) := by
  intro y
  refine (View.write_emb_of_mem (v := (rRow t).view) g0 _ (Finset.mem_univ y)).trans ?_
  show tb ((tRowW w hw).view.emb y) = _
  rw [tRowW_emb w hw hlt, ← hwt, rowOf_eq_of_lt w hlt]

/-- Lane `j` of the sixteen index words a trip loads at offset `16 kk` of the tile's index scratch is the scratch's
    entry `16 kk + j`: the load reads the entries `16 kk, …, 16 kk + 15` in order, the shape cast to the same shape
    changes nothing, and the one-element slice at `j` read at `0` is element `j + 0`. -/
theorem lane_word (iv : Buf (Elt F) ((sIW).view.loc (V d (cV L) (jV L)))) (off1 : Fin 1 → ℕ) (kk : ℕ) (h1 : off1 = ![16 * kk])
    (pf1 : ∀ a, off1 a + S16.size a ≤ S512.size a) (j : ℕ) (hj : j < 16) (hs : S16.Slices ![j] S1) (hlt : 16 * kk + j < 512) :
    extractAt ![0] (extractStridedSlice S1 ![j] (shapeCast S16 (View.readAt (Elt F) (sIW).view (Rect.unit (s := S512) off1 S16.size pf1).toLoadRect iv) shapeCasts_S16_S16) hs) inpos_S1_p0
      = iv (ValueIdx.ix1 ⟨16 * kk + j, hlt⟩) := by
  subst h1
  refine Eq.trans (congrArg (fun X => extractAt ![0] (extractStridedSlice S1 ![j] X hs) inpos_S1_p0)
    (shapeCast_self (s := S16) _ shapeCasts_S16_S16)) ?_
  unfold extractAt extractStridedSlice
  rw [View.readAt_apply, View.read_apply]
  refine (cast_eq _ _).trans ?_
  refine congrArg iv (funext fun a => Fin.ext ?_)
  match a with
  | ⟨0, _⟩ =>
    show 16 * kk + 1 * (j + 0) = 16 * kk + j
    omega

end Tile

end Cert.Proof.ScI

end
-- ==== Proof.Sc.Issue.lean ====
/-
  The issue loops of the gather kernel's tile body: one trip starts sixteen row copies on the scratch semaphore.

  A trip loads sixteen index words from the index scratch, assumes of each that it names a row of the table (the
  precondition's range), and starts the copy of that table row into the next row of the row scratch. The copies are
  transfers `16 k` … `16 k + 15` of the batch of 512; what transfer `t` will have delivered is stated when the batch
  is allocated: row `t` of the scratch holding the table's row the `t`-th index word names.
-/
import proofs.«205169_g39805756899661_cont_8to1_b_81_27_alg».proof.Proof.Sc.RowLanded
import proofs.«205169_g39805756899661_cont_8to1_b_81_27_alg».proof.Proof.Gen.KernelIdeal.Skeleton
import Idealize.ShloMosaic.Lib.SparseCore.Launch
import Idealize.ShloMosaic.Lib.Batch
import Idealize.ShloMosaic.Lib.StableHlo.Run
import Idealize.ShloMosaic.Lib.Pipeline.Kit
import Idealize.ShloMosaic.Lib.Tactic
import Idealize.ShloMosaic.Lib.Ring
import proofs.«205169_g39805756899661_cont_8to1_b_81_27_alg».proof.Proof.Spec

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iaW" => (Memref.whole Cert.KernelIdeal.main_arg0_scv : Memref Cert.KernelIdeal.sig Kind.scVector Space.hbm Cert.KernelIdeal.S16384 EltTy.i32)
local notation "ibW" => (Memref.whole Cert.KernelIdeal.main_arg1_scv : Memref Cert.KernelIdeal.sig Kind.scVector Space.hbm Cert.KernelIdeal.S16384 EltTy.i32)
local notation "tbW" => (Memref.whole Cert.KernelIdeal.main_arg2_scv : Memref Cert.KernelIdeal.sig Kind.scVector Space.hbm Cert.KernelIdeal.S1000000x64 EltTy.f32)
local notation "oaW" => (Memref.whole Cert.KernelIdeal.main_v0_0_scv : Memref Cert.KernelIdeal.sig Kind.scVector Space.hbm Cert.KernelIdeal.S16384x64 EltTy.f32)
local notation "obW" => (Memref.whole Cert.KernelIdeal.main_v0_1_scv : Memref Cert.KernelIdeal.sig Kind.scVector Space.hbm Cert.KernelIdeal.S16384x64 EltTy.f32)
local notation "sIW" => (Memref.whole Cert.KernelIdeal.cc0_scratch0 : Memref Cert.KernelIdeal.sig Kind.scVector Space.vmem Cert.KernelIdeal.S512 EltTy.i32)
local notation "sRW" => (Memref.whole Cert.KernelIdeal.cc0_scratch1 : Memref Cert.KernelIdeal.sig Kind.scVector Space.vmem Cert.KernelIdeal.S512x64 EltTy.f32)

variable [FloatOps F]

section Tile
variable (d : Dev nD) (L : grid0.Coords)

/-- A landed row copy delivers what the batch states of it. -/
theorem dlv_intro (iv : Buf (Elt F) ((sIW).view.loc (V d (cV L) (jV L)))) (tb : Buf (Elt F) ((tbW).view.loc (V d (cV L) (jV L))))
    (t : Fin 512) (off : Fin 2 → ℕ) (pf : ∀ a, off a + S1x64.size a ≤ S512x64.size a)
    (g0 : Buf (Elt F) ((((sRW).slice (Rect.unit (s := S512x64) off S1x64.size pf) (fun _ => rfl)).squeeze S64 squeezes_S1x64_S64).view.loc (V d (cV L) (jV L))))
    (w : BitVec 32) (hw : ∀ a, (k0_off4 w) a + S1x64.size a ≤ S1000000x64.size a) (qq : PosShare TreeShare)
    (hoff : off = ![t.val, 0]) (hwt : w = iv (ValueIdx.ix1 t)) (hlt : w.toNat < 1000000) :
    iprop(((((sRW).slice (Rect.unit (s := S512x64) off S1x64.size pf) (fun _ => rfl)).squeeze S64 squeezes_S1x64_S64).view.loc (V d (cV L) (jV L))
            ↦[(((sRW).slice (Rect.unit (s := S512x64) off S1x64.size pf) (fun _ => rfl)).squeeze S64 squeezes_S1x64_S64).view.set]{fullShare}
              (((sRW).slice (Rect.unit (s := S512x64) off S1x64.size pf) (fun _ => rfl)).squeeze S64 squeezes_S1x64_S64).view.writes (Elt F) g0
                [⟨Rect.whole S64, ReadAs.same.apply (View.read (Elt F) (tRowW w hw).view tb)⟩])
        ∗ ((tbW).view.loc (V d (cV L) (jV L)) ↦[(tRowW w hw).view.set]{qq} tb))
      ⊢ dlv d L iv tb t := by
  subst hoff
  iintro ⟨Hd, -⟩
  iexists _
  isplitr
  · ipureintro; exact rowGood_landed d L iv tb t g0 w hw hwt hlt
  · iexact Hd

set_option sl_exec.dischHeartbeats 20000 in
set_option maxHeartbeats 1000000 in
/-- ONE TRIP of side a's issue loop at a symbolic trip `k`: sixteen index words loaded, each checked to name a table row,
    each row copy started as the batch's next transfer — transfers `16 k` … `16 k + 15` — into rows `16 k` … `16 k + 15`
    of the row scratch, each under its own read token of the table. -/
theorem issue_step_a [∀ e, Nonempty (Elt F e)] (iv : Buf (Elt F) ((sIW).view.loc (V d (cV L) (jV L)))) (tb : Buf (Elt F) ((tbW).view.loc (V d (cV L) (jV L))))
    (q : PosShare TreeShare) (hin : ∀ j, (iv j).toNat < 1000000) (k : Fin k0_t1_loop.trips) (acc : Unit) :
    issueAt d L iv tb q k acc ⊢ wp frame (wpE (defs₀ (F := F)) 𝒱₀ (V d (cV L) (jV L)) none) Set.univ
      (k0_t1_body L iaW (Memref.isWhole_whole _) ibW (Memref.isWhole_whole _) tbW (Memref.isWhole_whole _) oaW (Memref.isWhole_whole _) obW (Memref.isWhole_whole _)
            sIW (Memref.isWhole_whole _) sRW (Memref.isWhole_whole _) cc0_scratch2 cc0_scoped0 cc0_scoped1 cc0_scoped2 cc0_scoped3 k acc)
      (issueAt d L iv tb q (k.val + 1)) := by
  have hk : k.val < 32 := k.isLt
  unfold issueAt
  rw [head16s (rowOwn d L) k.val hk, head16s (fun t => tTok d L tb q t.val) k.val hk]
  unfold rowOwn
  have hl0 : 16 * k.val + 0 < 512 := by omega
  have hl1 : 16 * k.val + 0 + 1 < 512 := by omega
  have hl2 : 16 * k.val + 0 + 2 < 512 := by omega
  have hl3 : 16 * k.val + 0 + 3 < 512 := by omega
  have hl4 : 16 * k.val + 0 + 4 < 512 := by omega
  have hl5 : 16 * k.val + 0 + 5 < 512 := by omega
  have hl6 : 16 * k.val + 0 + 6 < 512 := by omega
  have hl7 : 16 * k.val + 0 + 7 < 512 := by omega
  have hl8 : 16 * k.val + 0 + 8 < 512 := by omega
  have hl9 : 16 * k.val + 0 + 9 < 512 := by omega
  have hl10 : 16 * k.val + 0 + 10 < 512 := by omega
  have hl11 : 16 * k.val + 0 + 11 < 512 := by omega
  have hl12 : 16 * k.val + 0 + 12 < 512 := by omega
  have hl13 : 16 * k.val + 0 + 13 < 512 := by omega
  have hl14 : 16 * k.val + 0 + 14 < 512 := by omega
  have hl15 : 16 * k.val + 0 + 15 < 512 := by omega
  iintro ⟨HsI, HB, ⟨⟨%g0, HR0⟩, ⟨%g1, HR1⟩, ⟨%g2, HR2⟩, ⟨%g3, HR3⟩, ⟨%g4, HR4⟩, ⟨%g5, HR5⟩, ⟨%g6, HR6⟩, ⟨%g7, HR7⟩, ⟨%g8, HR8⟩, ⟨%g9, HR9⟩, ⟨%g10, HR10⟩, ⟨%g11, HR11⟩, ⟨%g12, HR12⟩, ⟨%g13, HR13⟩, ⟨%g14, HR14⟩, ⟨%g15, HR15⟩, HRs⟩, ⟨HT0, HT1, HT2, HT3, HT4, HT5, HT6, HT7, HT8, HT9, HT10, HT11, HT12, HT13, HT14, HT15, HTs⟩⟩
  ihave HR0 := (Entails.of_eq (rowPts_eq d L (rRow_body_eq ⟨16 * k.val + 0, hl0⟩ (k0_off5 k (BitVec.ofNat 32 0)) (k0_off5_eq k ⟨0, by decide⟩) (k0_off5_inb k 0)) g0)) $$ HR0
  ihave HR1 := (Entails.of_eq (rowPts_eq d L (rRow_body_eq ⟨16 * k.val + 0 + 1, hl1⟩ (k0_off7 k (BitVec.ofNat 32 1)) (k0_off7_eq k ⟨0, by decide⟩) (k0_off7_inb k 0)) g1)) $$ HR1
  ihave HR2 := (Entails.of_eq (rowPts_eq d L (rRow_body_eq ⟨16 * k.val + 0 + 2, hl2⟩ (k0_off9 k (BitVec.ofNat 32 2)) (k0_off9_eq k ⟨0, by decide⟩) (k0_off9_inb k 0)) g2)) $$ HR2
  ihave HR3 := (Entails.of_eq (rowPts_eq d L (rRow_body_eq ⟨16 * k.val + 0 + 3, hl3⟩ (k0_off11 k (BitVec.ofNat 32 3)) (k0_off11_eq k ⟨0, by decide⟩) (k0_off11_inb k 0)) g3)) $$ HR3
  ihave HR4 := (Entails.of_eq (rowPts_eq d L (rRow_body_eq ⟨16 * k.val + 0 + 4, hl4⟩ (k0_off13 k (BitVec.ofNat 32 4)) (k0_off13_eq k ⟨0, by decide⟩) (k0_off13_inb k 0)) g4)) $$ HR4
  ihave HR5 := (Entails.of_eq (rowPts_eq d L (rRow_body_eq ⟨16 * k.val + 0 + 5, hl5⟩ (k0_off15 k (BitVec.ofNat 32 5)) (k0_off15_eq k ⟨0, by decide⟩) (k0_off15_inb k 0)) g5)) $$ HR5
  ihave HR6 := (Entails.of_eq (rowPts_eq d L (rRow_body_eq ⟨16 * k.val + 0 + 6, hl6⟩ (k0_off17 k (BitVec.ofNat 32 6)) (k0_off17_eq k ⟨0, by decide⟩) (k0_off17_inb k 0)) g6)) $$ HR6
  ihave HR7 := (Entails.of_eq (rowPts_eq d L (rRow_body_eq ⟨16 * k.val + 0 + 7, hl7⟩ (k0_off19 k (BitVec.ofNat 32 7)) (k0_off19_eq k ⟨0, by decide⟩) (k0_off19_inb k 0)) g7)) $$ HR7
  ihave HR8 := (Entails.of_eq (rowPts_eq d L (rRow_body_eq ⟨16 * k.val + 0 + 8, hl8⟩ (k0_off21 k (BitVec.ofNat 32 8)) (k0_off21_eq k ⟨0, by decide⟩) (k0_off21_inb k 0)) g8)) $$ HR8
  ihave HR9 := (Entails.of_eq (rowPts_eq d L (rRow_body_eq ⟨16 * k.val + 0 + 9, hl9⟩ (k0_off23 k (BitVec.ofNat 32 9)) (k0_off23_eq k ⟨0, by decide⟩) (k0_off23_inb k 0)) g9)) $$ HR9
  ihave HR10 := (Entails.of_eq (rowPts_eq d L (rRow_body_eq ⟨16 * k.val + 0 + 10, hl10⟩ (k0_off25 k (BitVec.ofNat 32 10)) (k0_off25_eq k ⟨0, by decide⟩) (k0_off25_inb k 0)) g10)) $$ HR10
  ihave HR11 := (Entails.of_eq (rowPts_eq d L (rRow_body_eq ⟨16 * k.val + 0 + 11, hl11⟩ (k0_off27 k (BitVec.ofNat 32 11)) (k0_off27_eq k ⟨0, by decide⟩) (k0_off27_inb k 0)) g11)) $$ HR11
  ihave HR12 := (Entails.of_eq (rowPts_eq d L (rRow_body_eq ⟨16 * k.val + 0 + 12, hl12⟩ (k0_off29 k (BitVec.ofNat 32 12)) (k0_off29_eq k ⟨0, by decide⟩) (k0_off29_inb k 0)) g12)) $$ HR12
  ihave HR13 := (Entails.of_eq (rowPts_eq d L (rRow_body_eq ⟨16 * k.val + 0 + 13, hl13⟩ (k0_off31 k (BitVec.ofNat 32 13)) (k0_off31_eq k ⟨0, by decide⟩) (k0_off31_inb k 0)) g13)) $$ HR13
  ihave HR14 := (Entails.of_eq (rowPts_eq d L (rRow_body_eq ⟨16 * k.val + 0 + 14, hl14⟩ (k0_off33 k (BitVec.ofNat 32 14)) (k0_off33_eq k ⟨0, by decide⟩) (k0_off33_inb k 0)) g14)) $$ HR14
  ihave HR15 := (Entails.of_eq (rowPts_eq d L (rRow_body_eq ⟨16 * k.val + 15, (show 16 * k.val + 15 < 512 from hl15)⟩ (k0_off35 k) (k0_off35_eq k) (k0_off35_inb k)) g15)) $$ HR15
  sl_unfold [k0_t1_body]
  sl_exec (disch := first
    | (intro a; fin_cases a <;> first | exact Nat.succ_le_of_lt (hin _) | exact Nat.le_refl 64 | decide)
    | omega
    | exact dlv_intro d L iv tb _ _ _ _ _ _ _ ClosedOff.eq (lane_word d L iv _ k.val (k0_off2_eq k) _ _ (by omega) _ (by omega)) (hin _)
    | exact dlv_intro d L iv tb _ _ _ _ _ _ _ ClosedOff.eq (lane_word d L iv _ k.val (k0_off2_eq k) _ 15 (by decide) slices_S16_o15_S1 (by omega)) (hin _))
  sl_step
  ihave HB := (Entails.of_eq (congrArg (fun n => batchA d L iv tb n 0) (show 16 * k.val + 1 + 1 + 1 + 1 + 1 + 1 + 1 + 1 + 1 + 1 + 1 + 1 + 1 + 1 + 1 + 1 = 16 * (k.val + 1) by omega))) $$ HB
  isplitl [HsI]; · iexact HsI
  isplitl [HB]; · iexact HB
  isplitl [HRs]; · iexact HRs
  iexact HTs

set_option sl_exec.dischHeartbeats 20000 in
set_option maxHeartbeats 1000000 in
/-- ONE TRIP of side b's issue loop at a symbolic trip `k`: sixteen index words loaded, each checked to name a table row,
    each row copy started as the batch's next transfer — transfers `16 k` … `16 k + 15` — into rows `16 k` … `16 k + 15`
    of the row scratch, each under its own read token of the table. -/
theorem issue_step_b [∀ e, Nonempty (Elt F e)] (iv : Buf (Elt F) ((sIW).view.loc (V d (cV L) (jV L)))) (tb : Buf (Elt F) ((tbW).view.loc (V d (cV L) (jV L))))
    (q : PosShare TreeShare) (hin : ∀ j, (iv j).toNat < 1000000) (k : Fin k0_t3_loop.trips) (acc : Unit) :
    issueAt d L iv tb q k acc ⊢ wp frame (wpE (defs₀ (F := F)) 𝒱₀ (V d (cV L) (jV L)) none) Set.univ
      (k0_t3_body L iaW (Memref.isWhole_whole _) ibW (Memref.isWhole_whole _) tbW (Memref.isWhole_whole _) oaW (Memref.isWhole_whole _) obW (Memref.isWhole_whole _)
            sIW (Memref.isWhole_whole _) sRW (Memref.isWhole_whole _) cc0_scratch2 cc0_scoped0 cc0_scoped1 cc0_scoped2 cc0_scoped3 k acc)
      (issueAt d L iv tb q (k.val + 1)) := by
  have hk : k.val < 32 := k.isLt
  unfold issueAt
  rw [head16s (rowOwn d L) k.val hk, head16s (fun t => tTok d L tb q t.val) k.val hk]
  unfold rowOwn
  have hl0 : 16 * k.val + 0 < 512 := by omega
  have hl1 : 16 * k.val + 0 + 1 < 512 := by omega
  have hl2 : 16 * k.val + 0 + 2 < 512 := by omega
  have hl3 : 16 * k.val + 0 + 3 < 512 := by omega
  have hl4 : 16 * k.val + 0 + 4 < 512 := by omega
  have hl5 : 16 * k.val + 0 + 5 < 512 := by omega
  have hl6 : 16 * k.val + 0 + 6 < 512 := by omega
  have hl7 : 16 * k.val + 0 + 7 < 512 := by omega
  have hl8 : 16 * k.val + 0 + 8 < 512 := by omega
  have hl9 : 16 * k.val + 0 + 9 < 512 := by omega
  have hl10 : 16 * k.val + 0 + 10 < 512 := by omega
  have hl11 : 16 * k.val + 0 + 11 < 512 := by omega
  have hl12 : 16 * k.val + 0 + 12 < 512 := by omega
  have hl13 : 16 * k.val + 0 + 13 < 512 := by omega
  have hl14 : 16 * k.val + 0 + 14 < 512 := by omega
  have hl15 : 16 * k.val + 0 + 15 < 512 := by omega
  iintro ⟨HsI, HB, ⟨⟨%g0, HR0⟩, ⟨%g1, HR1⟩, ⟨%g2, HR2⟩, ⟨%g3, HR3⟩, ⟨%g4, HR4⟩, ⟨%g5, HR5⟩, ⟨%g6, HR6⟩, ⟨%g7, HR7⟩, ⟨%g8, HR8⟩, ⟨%g9, HR9⟩, ⟨%g10, HR10⟩, ⟨%g11, HR11⟩, ⟨%g12, HR12⟩, ⟨%g13, HR13⟩, ⟨%g14, HR14⟩, ⟨%g15, HR15⟩, HRs⟩, ⟨HT0, HT1, HT2, HT3, HT4, HT5, HT6, HT7, HT8, HT9, HT10, HT11, HT12, HT13, HT14, HT15, HTs⟩⟩
  ihave HR0 := (Entails.of_eq (rowPts_eq d L (rRow_body_eq ⟨16 * k.val + 0, hl0⟩ (k0_off41 k (BitVec.ofNat 32 0)) (k0_off41_eq k ⟨0, by decide⟩) (k0_off41_inb k 0)) g0)) $$ HR0
  ihave HR1 := (Entails.of_eq (rowPts_eq d L (rRow_body_eq ⟨16 * k.val + 0 + 1, hl1⟩ (k0_off43 k (BitVec.ofNat 32 1)) (k0_off43_eq k ⟨0, by decide⟩) (k0_off43_inb k 0)) g1)) $$ HR1
  ihave HR2 := (Entails.of_eq (rowPts_eq d L (rRow_body_eq ⟨16 * k.val + 0 + 2, hl2⟩ (k0_off45 k (BitVec.ofNat 32 2)) (k0_off45_eq k ⟨0, by decide⟩) (k0_off45_inb k 0)) g2)) $$ HR2
  ihave HR3 := (Entails.of_eq (rowPts_eq d L (rRow_body_eq ⟨16 * k.val + 0 + 3, hl3⟩ (k0_off47 k (BitVec.ofNat 32 3)) (k0_off47_eq k ⟨0, by decide⟩) (k0_off47_inb k 0)) g3)) $$ HR3
  ihave HR4 := (Entails.of_eq (rowPts_eq d L (rRow_body_eq ⟨16 * k.val + 0 + 4, hl4⟩ (k0_off49 k (BitVec.ofNat 32 4)) (k0_off49_eq k ⟨0, by decide⟩) (k0_off49_inb k 0)) g4)) $$ HR4
  ihave HR5 := (Entails.of_eq (rowPts_eq d L (rRow_body_eq ⟨16 * k.val + 0 + 5, hl5⟩ (k0_off51 k (BitVec.ofNat 32 5)) (k0_off51_eq k ⟨0, by decide⟩) (k0_off51_inb k 0)) g5)) $$ HR5
  ihave HR6 := (Entails.of_eq (rowPts_eq d L (rRow_body_eq ⟨16 * k.val + 0 + 6, hl6⟩ (k0_off53 k (BitVec.ofNat 32 6)) (k0_off53_eq k ⟨0, by decide⟩) (k0_off53_inb k 0)) g6)) $$ HR6
  ihave HR7 := (Entails.of_eq (rowPts_eq d L (rRow_body_eq ⟨16 * k.val + 0 + 7, hl7⟩ (k0_off55 k (BitVec.ofNat 32 7)) (k0_off55_eq k ⟨0, by decide⟩) (k0_off55_inb k 0)) g7)) $$ HR7
  ihave HR8 := (Entails.of_eq (rowPts_eq d L (rRow_body_eq ⟨16 * k.val + 0 + 8, hl8⟩ (k0_off57 k (BitVec.ofNat 32 8)) (k0_off57_eq k ⟨0, by decide⟩) (k0_off57_inb k 0)) g8)) $$ HR8
  ihave HR9 := (Entails.of_eq (rowPts_eq d L (rRow_body_eq ⟨16 * k.val + 0 + 9, hl9⟩ (k0_off59 k (BitVec.ofNat 32 9)) (k0_off59_eq k ⟨0, by decide⟩) (k0_off59_inb k 0)) g9)) $$ HR9
  ihave HR10 := (Entails.of_eq (rowPts_eq d L (rRow_body_eq ⟨16 * k.val + 0 + 10, hl10⟩ (k0_off61 k (BitVec.ofNat 32 10)) (k0_off61_eq k ⟨0, by decide⟩) (k0_off61_inb k 0)) g10)) $$ HR10
  ihave HR11 := (Entails.of_eq (rowPts_eq d L (rRow_body_eq ⟨16 * k.val + 0 + 11, hl11⟩ (k0_off63 k (BitVec.ofNat 32 11)) (k0_off63_eq k ⟨0, by decide⟩) (k0_off63_inb k 0)) g11)) $$ HR11
  ihave HR12 := (Entails.of_eq (rowPts_eq d L (rRow_body_eq ⟨16 * k.val + 0 + 12, hl12⟩ (k0_off65 k (BitVec.ofNat 32 12)) (k0_off65_eq k ⟨0, by decide⟩) (k0_off65_inb k 0)) g12)) $$ HR12
  ihave HR13 := (Entails.of_eq (rowPts_eq d L (rRow_body_eq ⟨16 * k.val + 0 + 13, hl13⟩ (k0_off67 k (BitVec.ofNat 32 13)) (k0_off67_eq k ⟨0, by decide⟩) (k0_off67_inb k 0)) g13)) $$ HR13
  ihave HR14 := (Entails.of_eq (rowPts_eq d L (rRow_body_eq ⟨16 * k.val + 0 + 14, hl14⟩ (k0_off69 k (BitVec.ofNat 32 14)) (k0_off69_eq k ⟨0, by decide⟩) (k0_off69_inb k 0)) g14)) $$ HR14
  ihave HR15 := (Entails.of_eq (rowPts_eq d L (rRow_body_eq ⟨16 * k.val + 15, (show 16 * k.val + 15 < 512 from hl15)⟩ (k0_off71 k) (k0_off71_eq k) (k0_off71_inb k)) g15)) $$ HR15
  sl_unfold [k0_t3_body]
  sl_exec (disch := first
    | (intro a; fin_cases a <;> first | exact Nat.succ_le_of_lt (hin _) | exact Nat.le_refl 64 | decide)
    | omega
    | exact dlv_intro d L iv tb _ _ _ _ _ _ _ ClosedOff.eq (lane_word d L iv _ k.val (k0_off38_eq k) _ _ (by omega) _ (by omega)) (hin _)
    | exact dlv_intro d L iv tb _ _ _ _ _ _ _ ClosedOff.eq (lane_word d L iv _ k.val (k0_off38_eq k) _ 15 (by decide) slices_S16_o15_S1 (by omega)) (hin _))
  sl_step
  ihave HB := (Entails.of_eq (congrArg (fun n => batchA d L iv tb n 0) (show 16 * k.val + 1 + 1 + 1 + 1 + 1 + 1 + 1 + 1 + 1 + 1 + 1 + 1 + 1 + 1 + 1 + 1 = 16 * (k.val + 1) by omega))) $$ HB
  isplitl [HsI]; · iexact HsI
  isplitl [HB]; · iexact HB
  isplitl [HRs]; · iexact HRs
  iexact HTs

end Tile
end Cert.Proof.ScI
end
-- ==== Proof.Sc.TileSets.lean ====
/-
  The elements a tile's slice of an array names are the tile's set of the array.

  The body slices each whole array by the unit-stride rectangle of the tile's 512 rows; the elements of a slice of a whole
  array are the rectangle's.
-/
import proofs.«205169_g39805756899661_cont_8to1_b_81_27_alg».proof.Proof.Sc.TileSpec
import proofs.«205169_g39805756899661_cont_8to1_b_81_27_alg».proof.Proof.Sc.Tiles

noncomputable section

namespace Cert.Proof.ScI

open Cert.KernelIdeal Cert.KernelIdeal.Gen
open Idealize.ShloMosaic

theorem iaSl_set (L : grid0.Coords) : (iaSl L).view.set = tileIdxSet L := by
  unfold iaSl tileIdxSet; exact View.set_slice_whole _ _
theorem ibSl_set (L : grid0.Coords) : (ibSl L).view.set = tileIdxSet L := by
  unfold ibSl tileIdxSet; exact View.set_slice_whole _ _
theorem oaSl_set (L : grid0.Coords) : (oaSl L).view.set = tileRowSet L := by
  unfold oaSl tileRowSet; exact View.set_slice_whole _ _
theorem obSl_set (L : grid0.Coords) : (obSl L).view.set = tileRowSet L := by
  unfold obSl tileRowSet; exact View.set_slice_whole _ _

/-- A tile's slice of an array lies in the array's own buffer on the device. -/
theorem iaSl_loc (d : Dev nD) (L : grid0.Coords) : (iaSl L).view.loc (SparseCore.V d (cV L) (jV L)) = locIa d := rfl
theorem ibSl_loc (d : Dev nD) (L : grid0.Coords) : (ibSl L).view.loc (SparseCore.V d (cV L) (jV L)) = locIb d := rfl
theorem oaSl_loc (d : Dev nD) (L : grid0.Coords) : (oaSl L).view.loc (SparseCore.V d (cV L) (jV L)) = locGa d := rfl
theorem obSl_loc (d : Dev nD) (L : grid0.Coords) : (obSl L).view.loc (SparseCore.V d (cV L) (jV L)) = locGb d := rfl

end Cert.Proof.ScI

end
-- ==== Proof.Sc.OutGood.lean ====
/-
  The copy-out leaves the gathered rows.

  A side of the gather kernel's tile body fetches the tile's 512 index words into the index scratch, lands 512 table
  rows in the row scratch — row `r` the table row that word `r` names — and copies the row scratch out over the tile's
  512 rows of the gathered array. The tile's slice of an array starts at row `tileBase L`, so entry `r` of the index
  scratch is entry `tileBase L + r` of the index array and row `r` of the row scratch lands in row `tileBase L + r` of
  the gathered array: on the tile's rows the gathered array is the whole-array function `gath` of the table and the
  index array.
-/
import proofs.«205169_g39805756899661_cont_8to1_b_81_27_alg».proof.Proof.Sc.Drain
import proofs.«205169_g39805756899661_cont_8to1_b_81_27_alg».proof.Proof.Sc.TileSets
import Idealize.ShloMosaic.Lib.Writes

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iaW" => (Memref.whole Cert.KernelIdeal.main_arg0_scv : Memref Cert.KernelIdeal.sig Kind.scVector Space.hbm Cert.KernelIdeal.S16384 EltTy.i32)
local notation "ibW" => (Memref.whole Cert.KernelIdeal.main_arg1_scv : Memref Cert.KernelIdeal.sig Kind.scVector Space.hbm Cert.KernelIdeal.S16384 EltTy.i32)
local notation "tbW" => (Memref.whole Cert.KernelIdeal.main_arg2_scv : Memref Cert.KernelIdeal.sig Kind.scVector Space.hbm Cert.KernelIdeal.S1000000x64 EltTy.f32)
local notation "oaW" => (Memref.whole Cert.KernelIdeal.main_v0_0_scv : Memref Cert.KernelIdeal.sig Kind.scVector Space.hbm Cert.KernelIdeal.S16384x64 EltTy.f32)
local notation "obW" => (Memref.whole Cert.KernelIdeal.main_v0_1_scv : Memref Cert.KernelIdeal.sig Kind.scVector Space.hbm Cert.KernelIdeal.S16384x64 EltTy.f32)
local notation "sIW" => (Memref.whole Cert.KernelIdeal.cc0_scratch0 : Memref Cert.KernelIdeal.sig Kind.scVector Space.vmem Cert.KernelIdeal.S512 EltTy.i32)
local notation "sRW" => (Memref.whole Cert.KernelIdeal.cc0_scratch1 : Memref Cert.KernelIdeal.sig Kind.scVector Space.vmem Cert.KernelIdeal.S512x64 EltTy.f32)

variable [FloatOps F] [∀ e, Nonempty (Elt F e)]

section Tile
variable (d : Dev nD) (L : grid0.Coords)

/-- The index scratch written whole holds what was written. -/
theorem idx_fetched (fs : Buf (Elt F) ((sIW).view.loc (V d (cV L) (jV L)))) (P : S512.Idx → Elt F .i32) :
    View.write (Elt F) (sIW).view fs P Finset.univ = P :=
  View.write_whole_univ (Val := Elt F) cc0_scratch0 fs P

/-- Entry `r` of the tile's index words is the index array's entry at the row of the tile's row `r`. -/
theorem tile_idx_eq (y : S512x64.Idx) :
    ((Rect.unit (s := S16384) (k0_off1 L) S512.size (k0_off1_inb L)).emb (ValueIdx.ix1 (y 0)) : S16384.Idx)
      = ValueIdx.ix1 (((Rect.unit (s := S16384x64) (k0_off37 L) S512x64.size (k0_off37_inb L)).emb y) 0) := by
  funext a
  apply Fin.ext
  match a with
  | ⟨0, _⟩ =>
    show (k0_off1 L) 0 + 1 * (y 0).val = (k0_off37 L) 0 + 1 * (y 0).val
    rw [k0_off1_eq, k0_off37_eq]; rfl

/-- The tile's rows keep their columns. -/
theorem tile_col_eq (y : S512x64.Idx) :
    (y 1 : Fin 64) = (((Rect.unit (s := S16384x64) (k0_off37 L) S512x64.size (k0_off37_inb L)).emb y) 1 : Fin 64) := by
  apply Fin.ext
  show (y 1).val = (k0_off37 L) 1 + 1 * (y 1).val
  rw [k0_off37_eq]; show (y 1).val = 0 + 1 * (y 1).val; omega

/-- After side a's copy-out the tile's rows of the first gathered array hold the table rows the first index array
    names: the row scratch held, at row `r`, the table row that entry `r` of the index scratch names, the index scratch
    held the tile's entries of the index array, and row `r` of the tile is row `tileBase L + r` of the arrays. -/
theorem out_good_a (ia : Buf (Elt F) ((iaSl L).view.loc (V d (cV L) (jV L)))) (tb : Buf (Elt F) ((tbW).view.loc (V d (cV L) (jV L))))
    (fs : Buf (Elt F) ((sIW).view.loc (V d (cV L) (jV L)))) (g0 : Buf (Elt F) ((oaSl L).view.loc (V d (cV L) (jV L)))) :
    ((oaSl L).view.loc (V d (cV L) (jV L)) ↦[(oaSl L).view.set]{fullShare}
        (oaSl L).view.writes (Elt F) g0 [⟨Rect.whole S512x64, ReadAs.same.apply (View.read (Elt F) (sRW).view
          (rowsOf d L (View.write (Elt F) (sIW).view fs (ReadAs.same.apply (View.read (Elt F) (iaSl L).view ia)) Finset.univ) tb))⟩] : sProp 𝕄)
      ⊢ ((oaSl L).view.loc (V d (cV L) (jV L)) ↦[(oaSl L).view.set]{fullShare} gath tb ia) := by
  rw [idx_fetched]
  refine Entails.of_eq (pointsTo_congr fun i hi => ?_)
  obtain ⟨y, -, rfl⟩ := Finset.mem_map.mp hi
  have h1 := View.read_writes_cons_emb (oaSl L).view g0 (Rect.whole S512x64)
    (ReadAs.same.apply (View.read (Elt F) (sRW).view
      (rowsOf d L (ReadAs.same.apply (View.read (Elt F) (iaSl L).view ia)) tb))) [] y
  rw [Rect.emb_whole_apply] at h1
  refine (show _ = _ from h1).trans ?_
  show tb (ValueIdx.ix2 (Cert.Spec.rowOf (ia ((Rect.unit (s := S16384) (k0_off1 L) S512.size (k0_off1_inb L)).emb (ValueIdx.ix1 (y 0))))) (y 1 : Fin 64))
    = tb (ValueIdx.ix2 (Cert.Spec.rowOf (ia (ValueIdx.ix1 (((Rect.unit (s := S16384x64) (k0_off37 L) S512x64.size (k0_off37_inb L)).emb y) 0))))
        ((((Rect.unit (s := S16384x64) (k0_off37 L) S512x64.size (k0_off37_inb L)).emb y) 1 : Fin 64)))
  rw [tile_idx_eq L y, ← tile_col_eq L y]
  rfl

/-- The same for side b, whatever the index scratch held before side b's fetch. -/
theorem out_good_b (ib : Buf (Elt F) ((ibSl L).view.loc (V d (cV L) (jV L)))) (tb : Buf (Elt F) ((tbW).view.loc (V d (cV L) (jV L))))
    (fs' : Buf (Elt F) ((sIW).view.loc (V d (cV L) (jV L)))) (g0 : Buf (Elt F) ((obSl L).view.loc (V d (cV L) (jV L)))) :
    ((obSl L).view.loc (V d (cV L) (jV L)) ↦[(obSl L).view.set]{fullShare}
        (obSl L).view.writes (Elt F) g0 [⟨Rect.whole S512x64, ReadAs.same.apply (View.read (Elt F) (sRW).view
          (rowsOf d L (View.write (Elt F) (sIW).view fs' (ReadAs.same.apply (View.read (Elt F) (ibSl L).view ib)) Finset.univ) tb))⟩] : sProp 𝕄)
      ⊢ ((obSl L).view.loc (V d (cV L) (jV L)) ↦[(obSl L).view.set]{fullShare} gath tb ib) := by
  rw [idx_fetched]
  refine Entails.of_eq (pointsTo_congr fun i hi => ?_)
  obtain ⟨y, -, rfl⟩ := Finset.mem_map.mp hi
  have h1 := View.read_writes_cons_emb (obSl L).view g0 (Rect.whole S512x64)
    (ReadAs.same.apply (View.read (Elt F) (sRW).view
      (rowsOf d L (ReadAs.same.apply (View.read (Elt F) (ibSl L).view ib)) tb))) [] y
  rw [Rect.emb_whole_apply] at h1
  refine (show _ = _ from h1).trans ?_
  show tb (ValueIdx.ix2 (Cert.Spec.rowOf (ib ((Rect.unit (s := S16384) (k0_off1 L) S512.size (k0_off1_inb L)).emb (ValueIdx.ix1 (y 0))))) (y 1 : Fin 64))
    = tb (ValueIdx.ix2 (Cert.Spec.rowOf (ib (ValueIdx.ix1 (((Rect.unit (s := S16384x64) (k0_off37 L) S512x64.size (k0_off37_inb L)).emb y) 0))))
        ((((Rect.unit (s := S16384x64) (k0_off37 L) S512x64.size (k0_off37_inb L)).emb y) 1 : Fin 64)))
  rw [tile_idx_eq L y, ← tile_col_eq L y]
  rfl

end Tile

end Cert.Proof.ScI

end
-- ==== Proof.Sc.Tile.lean ====
/-
  The gather kernel's body on one tile, run from its resources one by one to the gathered rows.

  Side a: the tile's 512 index words are copied into the index scratch; the table's read share is cut into 512 read
  tokens, the row scratch into its 512 rows, and the batch of 512 row copies is allocated on the scratch semaphore
  with what each will deliver; the issue loop starts them sixteen a trip, the drain loop waits 512 times and the last
  wait hands every row back; the rows join into the scratch whole, which is copied out over the tile's rows of the
  first gathered array. Side b is the same over the second index array and the table's other half share. The waits
  on the tile's own semaphores are recorded at the index no handshake uses, so whatever the tile owes the launch is
  still owed at the end.
-/
import proofs.«205169_g39805756899661_cont_8to1_b_81_27_alg».proof.Proof.Sc.Drain
import proofs.«205169_g39805756899661_cont_8to1_b_81_27_alg».proof.Proof.Sc.Issue
import proofs.«205169_g39805756899661_cont_8to1_b_81_27_alg».proof.Proof.Sc.OutGood
import proofs.«205169_g39805756899661_cont_8to1_b_81_27_alg».proof.Proof.Sc.TileCore
import proofs.«205169_g39805756899661_cont_8to1_b_81_27_alg».proof.Proof.Gen.KernelIdeal.Skeleton
import Idealize.ShloMosaic.Lib.SparseCore.Launch
import Idealize.ShloMosaic.Lib.Batch
import Idealize.ShloMosaic.Lib.StableHlo.Run
import Idealize.ShloMosaic.Lib.Pipeline.Kit
import Idealize.ShloMosaic.Lib.Tactic
import Idealize.ShloMosaic.Lib.Ring
import proofs.«205169_g39805756899661_cont_8to1_b_81_27_alg».proof.Proof.Spec

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iaW" => (Memref.whole Cert.KernelIdeal.main_arg0_scv : Memref Cert.KernelIdeal.sig Kind.scVector Space.hbm Cert.KernelIdeal.S16384 EltTy.i32)
local notation "ibW" => (Memref.whole Cert.KernelIdeal.main_arg1_scv : Memref Cert.KernelIdeal.sig Kind.scVector Space.hbm Cert.KernelIdeal.S16384 EltTy.i32)
local notation "tbW" => (Memref.whole Cert.KernelIdeal.main_arg2_scv : Memref Cert.KernelIdeal.sig Kind.scVector Space.hbm Cert.KernelIdeal.S1000000x64 EltTy.f32)
local notation "oaW" => (Memref.whole Cert.KernelIdeal.main_v0_0_scv : Memref Cert.KernelIdeal.sig Kind.scVector Space.hbm Cert.KernelIdeal.S16384x64 EltTy.f32)
local notation "obW" => (Memref.whole Cert.KernelIdeal.main_v0_1_scv : Memref Cert.KernelIdeal.sig Kind.scVector Space.hbm Cert.KernelIdeal.S16384x64 EltTy.f32)
local notation "sIW" => (Memref.whole Cert.KernelIdeal.cc0_scratch0 : Memref Cert.KernelIdeal.sig Kind.scVector Space.vmem Cert.KernelIdeal.S512 EltTy.i32)
local notation "sRW" => (Memref.whole Cert.KernelIdeal.cc0_scratch1 : Memref Cert.KernelIdeal.sig Kind.scVector Space.vmem Cert.KernelIdeal.S512x64 EltTy.f32)

variable [FloatOps F]

section Tile
variable (d : Dev nD) (L : grid0.Coords) [∀ e, Nonempty (Elt F e)]

instance dlv_storable (iv : Buf (Elt F) ((sIW).view.loc (V d (cV L) (jV L)))) (tb : Buf (Elt F) ((tbW).view.loc (V d (cV L) (jV L)))) (t : Fin 512) :
    BI.Storable (upEmb : UEmb _ 𝕄) (dlv d L iv tb t) := by
  unfold dlv; infer_instance

/-- The table whole, held by its own elements. -/
theorem tb_set (qq : PosShare TreeShare) (tb : Buf (Elt F) ((tbW).view.loc (V d (cV L) (jV L)))) :
    ((tbW).view.loc (V d (cV L) (jV L)) ↦{qq} tb : sProp 𝕄) = ((tbW).view.loc (V d (cV L) (jV L)) ↦[(tbW).view.set]{qq} tb) := by
  simp only [Memref.view_whole, View.set_whole]

/-- After the last trip of a drain loop: the scratch semaphore back at zero and every row delivered. -/
theorem drainAt_exit (iv : Buf (Elt F) ((sIW).view.loc (V d (cV L) (jV L)))) (tb : Buf (Elt F) ((tbW).view.loc (V d (cV L) (jV L))))
    (O : CellTallies nD τ sig (HIx 1)) (W : Waits sig (HIx 1)) (acc : Unit) :
    drainAt d L iv tb O W 512 acc ⊢ iprop(Transfers.MayWaits (V d (cV L) (jV L)) (none : HIx 1) O
      ∗ (∃ W', ⌜∀ p ∈ W', p ∈ W ∨ p.2 = none⌝ ∗ owes (V d (cV L) (jV L)) O W')
      ∗ semVal (V d (cV L) (jV L), SemLoc.dma cc0_scratch2.sem) 0 ∗ bigSep Finset.univ (dlv d L iv tb)) := by
  unfold drainAt
  rw [if_neg (Nat.lt_irrefl 512)]
  iintro ⟨-, H⟩
  iexact H

set_option maxHeartbeats 1000000 in
/-- The body from its resources under one name `R` (kept opaque while the program is put in sequence form). -/
theorem core_a
    (qi q : PosShare TreeShare) (O : CellTallies nD τ sig (HIx 1)) (W : Waits sig (HIx 1))
    (ia : Buf (Elt F) ((iaSl L).view.loc (V d (cV L) (jV L)))) (ib : Buf (Elt F) ((ibSl L).view.loc (V d (cV L) (jV L))))
    (tb : Buf (Elt F) ((tbW).view.loc (V d (cV L) (jV L))))
    (fa : Buf (Elt F) ((oaSl L).view.loc (V d (cV L) (jV L)))) (fb : Buf (Elt F) ((obSl L).view.loc (V d (cV L) (jV L))))
    (fs : Buf (Elt F) ((sIW).view.loc (V d (cV L) (jV L)))) (fr : Buf (Elt F) ((sRW).view.loc (V d (cV L) (jV L))))
    (hia : ∀ j, (ia j).toNat < 1000000) (hib : ∀ j, (ib j).toNat < 1000000)
    (R : sProp 𝕄)
    (hR : R = iprop(Transfers.MayWaits (V d (cV L) (jV L)) (none : HIx 1) O
        ∗ ((iaSl L).view.loc (V d (cV L) (jV L)) ↦[(iaSl L).view.set]{qi} ia)
        ∗ ((ibSl L).view.loc (V d (cV L) (jV L)) ↦[(ibSl L).view.set]{qi} ib)
        ∗ ((tbW).view.loc (V d (cV L) (jV L)) ↦{q} tb)
        ∗ ((oaSl L).view.loc (V d (cV L) (jV L)) ↦[(oaSl L).view.set]{fullShare} fa)
        ∗ ((obSl L).view.loc (V d (cV L) (jV L)) ↦[(obSl L).view.set]{fullShare} fb)
        ∗ ((sIW).view.loc (V d (cV L) (jV L)) ↦{fullShare} fs)
        ∗ ((sRW).view.loc (V d (cV L) (jV L)) ↦{fullShare} fr)
        ∗ semVal (V d (cV L) (jV L), SemLoc.dma cc0_scratch2.sem) 0
        ∗ semVal (V d (cV L) (jV L), SemLoc.dma cc0_scoped0.sem) 0
        ∗ semVal (V d (cV L) (jV L), SemLoc.dma cc0_scoped1.sem) 0
        ∗ semVal (V d (cV L) (jV L), SemLoc.dma cc0_scoped2.sem) 0
        ∗ semVal (V d (cV L) (jV L), SemLoc.dma cc0_scoped3.sem) 0
        ∗ owes (V d (cV L) (jV L)) O W)) :
    R ⊢ wp frame (wpE (defs₀ (F := F)) 𝒱₀ (V d (cV L) (jV L)) none) Set.univ
          (cc0_gather_kernel L iaW (Memref.isWhole_whole _) ibW (Memref.isWhole_whole _) tbW (Memref.isWhole_whole _) oaW (Memref.isWhole_whole _) obW (Memref.isWhole_whole _)
            sIW (Memref.isWhole_whole _) sRW (Memref.isWhole_whole _) cc0_scratch2 cc0_scoped0 cc0_scoped1 cc0_scoped2 cc0_scoped3)
          fun _ => iprop(((oaSl L).view.loc (V d (cV L) (jV L)) ↦[(oaSl L).view.set]{fullShare} gath tb ia)
            ∗ ((obSl L).view.loc (V d (cV L) (jV L)) ↦[(obSl L).view.set]{fullShare} gath tb ib)
            ∗ (∃ f, (sIW).view.loc (V d (cV L) (jV L)) ↦{fullShare} f)
            ∗ (∃ f, (sRW).view.loc (V d (cV L) (jV L)) ↦{fullShare} f)
            ∗ semVal (V d (cV L) (jV L), SemLoc.dma cc0_scratch2.sem) 0
            ∗ semVal (V d (cV L) (jV L), SemLoc.dma cc0_scoped0.sem) 0
            ∗ semVal (V d (cV L) (jV L), SemLoc.dma cc0_scoped1.sem) 0
            ∗ semVal (V d (cV L) (jV L), SemLoc.dma cc0_scoped2.sem) 0
            ∗ semVal (V d (cV L) (jV L), SemLoc.dma cc0_scoped3.sem) 0
            ∗ ∃ W', ⌜∀ p ∈ W', p ∈ W ∨ p.2 = none⌝ ∗ owes (V d (cV L) (jV L)) O W') := by
  simp only [cc0_gather_kernel_eq_skeleton]; unfold cc0_gather_kernel_skel
  simp only [k0_part11_eq_skeleton]; unfold k0_part11_skel
  simp only [bind_assoc]
  rw [hR]
  iintro ⟨Hmw, Hia, Hib, Htb, Hoa, Hob, HsI, HsR, Hs9, Hs0, Hs1, Hs2, Hs3, HO⟩
  -- the tile's 512 index words into the index scratch
  sl_exec
  -- the index scratch now holds the words; every one names a row
  have hinA : ∀ j, ((View.write (Elt F) (sIW).view fs (core_a.sl.dma0 d L ia) Finset.univ) j).toNat < 1000000 := by
    intro j
    rw [View.write_whole_univ]
    exact hia _
  -- the table's share in two, one half per side; the first half as 512 read tokens
  ihave Htb2 := (pointsTo_share (PosShare.mem_left_op_right q)).1 $$ Htb
  icases Htb2 with ⟨HtbA, HtbB⟩
  ihave HtbA' := (Entails.of_eq (tb_set d L q.left tb)) $$ HtbA
  ihave HT := (Transfers.pointsTo_toks_range q.left 512).1 $$ HtbA'
  icases HT with ⟨-, HToks⟩
  ihave HToks' := (Entails.of_eq (Ring.bigSep_rangeSet_eq_range (NB := 512) (lo := 0) (hi := 512)
    (Φ := fun t : Fin 512 => tTok d L tb q.left t.val) le_rfl (fun t => tTok d L tb q.left t)
    (fun k hk => by show tTok d L tb q.left k = tTok d L tb q.left (0 + k); rw [Nat.zero_add])).symm) $$ HToks
  -- the row scratch as its 512 rows
  ihave HRows := (rows_split d L fr) $$ HsR
  rw [← Ring.rangeSet_univ]
  -- the batch of 512 row copies on the scratch semaphore, its deliveries stated
  imod (Transfers.batch_alloc' (Lvl := ℕ) (countersEmb (U := UU)) (V d (cV L) (jV L)) (none : HIx 1) NR
    (dlv d L (View.write (Elt F) (sIW).view fs (core_a.sl.dma0 d L ia) Finset.univ) tb) (sm := .dma cc0_scratch2.sem) (E := Set.univ)) $$ Hs9 with HB
  sl_for (issueAt d L (View.write (Elt F) (sIW).view fs (core_a.sl.dma0 d L ia) Finset.univ) tb q.left) $$ [HsI HB HRows HToks']
  case region => intro k acc; exact issue_step_a d L _ tb q.left hinA k acc
  · unfold issueAt batchA
    isplitl [HsI]; · iexact HsI
    isplitl [HB]; · iexact HB
    isplitl [HRows]; · iexact HRows
    iexact HToks'
  iintro %acc HI
  unfold issueAt batchA
  icases HI with ⟨HsI, HB, -, -⟩
  -- every row copy started: the 512 waits, the last of which hands every row back
  sl_for (drainAt d L (View.write (Elt F) (sIW).view fs (core_a.sl.dma0 d L ia) Finset.univ) tb O W) $$ [HB Hmw HO]
  case region => intro k acc; exact drain_step_a d L _ tb O _ k acc
  · unfold drainAt batchA
    rw [if_pos (by decide : (0 : ℕ) < 512), Nat.zero_mul]
    isplitr; · ipureintro; decide
    isplitl [Hmw]; · iexact Hmw
    isplitl [HO]
    · iexists _
      isplitr
      rotate_left
      · iexact HO
      · ipureintro
        intro p hp
        rcases Finset.mem_insert.mp hp with hp | hp
        · exact .inr (by rw [hp]; rfl)
        · exact .inl hp
    iexact HB
  iintro %acc2 HL
  rw [show Scf.trips k0_t2_loop.lb k0_t2_loop.ub k0_t2_loop.st = 512 from by decide]
  ihave HL' := (drainAt_exit d L (View.write (Elt F) (sIW).view fs (core_a.sl.dma0 d L ia) Finset.univ) tb O W acc2) $$ HL
  icases HL' with ⟨Hmw, ⟨%W', %hW', HO⟩, Hs9, Hall⟩
  ihave HsR := (rows_join d L (View.write (Elt F) (sIW).view fs (core_a.sl.dma0 d L ia) Finset.univ) tb) $$ Hall
  sl_exec
  -- SIDE B: the same over the second index array, the table's other half share
  have hinB : ∀ j, ((View.write (Elt F) (sIW).view (View.write (Elt F) (sIW).view fs (core_a.sl.dma0 d L ia) Finset.univ) (core_a.sl.dma0_2 d L ib) Finset.univ) j).toNat < 1000000 := by
    intro j
    rw [View.write_whole_univ]
    exact hib _
  ihave HtbB' := (Entails.of_eq (tb_set d L q.right tb)) $$ HtbB
  ihave HT2 := (Transfers.pointsTo_toks_range q.right 512).1 $$ HtbB'
  icases HT2 with ⟨-, HToksB⟩
  ihave HToksB' := (Entails.of_eq (Ring.bigSep_rangeSet_eq_range (NB := 512) (lo := 0) (hi := 512)
    (Φ := fun t : Fin 512 => tTok d L tb q.right t.val) le_rfl (fun t => tTok d L tb q.right t)
    (fun k hk => by show tTok d L tb q.right k = tTok d L tb q.right (0 + k); rw [Nat.zero_add])).symm) $$ HToksB
  ihave HRowsB := (rows_split d L _) $$ HsR
  rw [← Ring.rangeSet_univ]
  imod (Transfers.batch_alloc' (Lvl := ℕ) (countersEmb (U := UU)) (V d (cV L) (jV L)) (none : HIx 1) NR
    (dlv d L (View.write (Elt F) (sIW).view (View.write (Elt F) (sIW).view fs (core_a.sl.dma0 d L ia) Finset.univ) (core_a.sl.dma0_2 d L ib) Finset.univ) tb) (sm := .dma cc0_scratch2.sem) (E := Set.univ)) $$ Hs9 with HB
  sl_for (issueAt d L (View.write (Elt F) (sIW).view (View.write (Elt F) (sIW).view fs (core_a.sl.dma0 d L ia) Finset.univ) (core_a.sl.dma0_2 d L ib) Finset.univ) tb q.right) $$ [HsI HB HRowsB HToksB']
  case region => intro k acc; exact issue_step_b d L _ tb q.right hinB k acc
  · unfold issueAt batchA
    isplitl [HsI]; · iexact HsI
    isplitl [HB]; · iexact HB
    isplitl [HRowsB]; · iexact HRowsB
    iexact HToksB'
  iintro %acc3 HI
  unfold issueAt batchA
  icases HI with ⟨HsI, HB, -, -⟩
  sl_for (drainAt d L (View.write (Elt F) (sIW).view (View.write (Elt F) (sIW).view fs (core_a.sl.dma0 d L ia) Finset.univ) (core_a.sl.dma0_2 d L ib) Finset.univ) tb O W) $$ [HB Hmw HO]
  case region => intro k acc; exact drain_step_b d L _ tb O _ k acc
  · unfold drainAt batchA
    rw [if_pos (by decide : (0 : ℕ) < 512), Nat.zero_mul]
    isplitr; · ipureintro; decide
    isplitl [Hmw]; · iexact Hmw
    isplitl [HO]
    · iexists _
      isplitr
      rotate_left
      · iexact HO
      · ipureintro
        intro p hp
        rcases Finset.mem_insert.mp hp with hp | hp
        · exact .inr (by rw [hp]; rfl)
        rcases Finset.mem_insert.mp hp with hp | hp
        · exact .inr (by rw [hp]; rfl)
        · exact hW' p hp
    iexact HB
  iintro %acc4 HL
  rw [show Scf.trips k0_t4_loop.lb k0_t4_loop.ub k0_t4_loop.st = 512 from by decide]
  ihave HL' := (drainAt_exit d L (View.write (Elt F) (sIW).view (View.write (Elt F) (sIW).view fs (core_a.sl.dma0 d L ia) Finset.univ) (core_a.sl.dma0_2 d L ib) Finset.univ) tb O W acc4) $$ HL
  icases HL' with ⟨Hmw, ⟨%W'', %hW'', HO⟩, Hs9, Hall⟩
  ihave HsR := (rows_join d L (View.write (Elt F) (sIW).view (View.write (Elt F) (sIW).view fs (core_a.sl.dma0 d L ia) Finset.univ) (core_a.sl.dma0_2 d L ib) Finset.univ) tb) $$ Hall
  -- the second copy-out, and the end
  sl_exec
  sl_step
  -- the two gathered slices hold the gathered rows
  have hA : ((oaSl L).view.loc (V d (cV L) (jV L)) ↦[(oaSl L).view.set]{fullShare}
        (oaSl L).view.writes (Elt F) (oaSl L).view.junk [⟨Rect.whole S512x64, core_a.sl.dma0_1 d L ia tb fs⟩] : sProp 𝕄)
      ⊢ ((oaSl L).view.loc (V d (cV L) (jV L)) ↦[(oaSl L).view.set]{fullShare} gath tb ia) := out_good_a d L ia tb fs _
  have hB : ((obSl L).view.loc (V d (cV L) (jV L)) ↦[(obSl L).view.set]{fullShare}
        (obSl L).view.writes (Elt F) fb [⟨Rect.whole S512x64, core_a.sl.dma0_3 d L ia ib tb fs⟩] : sProp 𝕄)
      ⊢ ((obSl L).view.loc (V d (cV L) (jV L)) ↦[(obSl L).view.set]{fullShare} gath tb ib) := out_good_b d L ib tb _ fb
  ihave Hoa := hA $$ Hoa
  ihave Hob := hB $$ Hob
  isplitl [Hoa]; · iexact Hoa
  isplitl [Hob]; · iexact Hob
  isplitl [HsI]; · iexists _; iexact HsI
  isplitl [HsR]; · iexists _; iexact HsR
  isplitl [Hs9]; · iexact Hs9
  isplitl [Hs0]; · iexact Hs0
  isplitl [Hs1]; · iexact Hs1
  isplitl [Hs2]; · iexact Hs2
  isplitl [Hs3]; · iexact Hs3
  iexists _
  isplitr
  rotate_left
  · iexact HO
  · ipureintro
    intro p hp
    rcases Finset.mem_insert.mp hp with hp | hp
    · exact .inr (by rw [hp]; rfl)
    · exact hW'' p hp

end Tile

/-- THE TILE'S OBLIGATION over its resources one by one. -/
theorem tileCore [∀ e, Nonempty (Elt F e)] : TileCore (F := F) := by
  intro d L qi q ia ib tb hia hib fa fb fs fr O W
  exact core_a d L qi q O W ia ib tb fa fb fs fr
    (fun j => by rw [ValueIdx.eq_ix1 j]; exact hia _) (fun j => by rw [ValueIdx.eq_ix1 j]; exact hib _) _ rfl

end Cert.Proof.ScI

end
-- ==== Proof.ScB.TileDefs.lean ====
/-
  Names for the gather kernel's tile body: the rows of the tile's row scratch as transfers' destinations, the table's read
  tokens, the batch of 512 row copies on the scratch semaphore and what each delivers.

  One side of the kernel copies the tile's 512 index words into the index scratch, starts 512 row copies — copy t from the
  table row the t-th word names into row t of the row scratch — all on ONE semaphore, waits 512 times, and copies the
  row scratch out. Only the last wait tells that every copy has landed; copy t then has left in row t the table's row
  the t-th word names.
-/
import proofs.«205169_g39805756899661_cont_8to1_b_81_27_alg».proof.Proof.ScB.TileSpec
import proofs.«205169_g39805756899661_cont_8to1_b_81_27_alg».proof.Proof.Gen.Kernel.Skeleton
import Idealize.ShloMosaic.Lib.SparseCore.Launch
import Idealize.ShloMosaic.Lib.Batch
import Idealize.ShloMosaic.Lib.StableHlo.Run
import Idealize.ShloMosaic.Lib.Pipeline.Kit
import Idealize.ShloMosaic.Lib.Tactic
import Idealize.ShloMosaic.Lib.Ring
import proofs.«205169_g39805756899661_cont_8to1_b_81_27_alg».proof.Proof.Spec

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iaW" => (Memref.whole Cert.Kernel.main_arg0_scv : Memref Cert.Kernel.sig Kind.scVector Space.hbm Cert.Kernel.S16384 EltTy.i32)
local notation "ibW" => (Memref.whole Cert.Kernel.main_arg1_scv : Memref Cert.Kernel.sig Kind.scVector Space.hbm Cert.Kernel.S16384 EltTy.i32)
local notation "tbW" => (Memref.whole Cert.Kernel.main_arg2_scv : Memref Cert.Kernel.sig Kind.scVector Space.hbm Cert.Kernel.S1000000x64 EltTy.f32)
local notation "oaW" => (Memref.whole Cert.Kernel.main_v0_0_scv : Memref Cert.Kernel.sig Kind.scVector Space.hbm Cert.Kernel.S16384x64 EltTy.f32)
local notation "obW" => (Memref.whole Cert.Kernel.main_v0_1_scv : Memref Cert.Kernel.sig Kind.scVector Space.hbm Cert.Kernel.S16384x64 EltTy.f32)
local notation "sIW" => (Memref.whole Cert.Kernel.cc0_scratch0 : Memref Cert.Kernel.sig Kind.scVector Space.vmem Cert.Kernel.S512 EltTy.i32)
local notation "sRW" => (Memref.whole Cert.Kernel.cc0_scratch1 : Memref Cert.Kernel.sig Kind.scVector Space.vmem Cert.Kernel.S512x64 EltTy.f32)

variable [FloatOps F]

/-- Sixteen heads off a range of 512 starting at a multiple of 16. -/
theorem head16 {M : Type} [URA M] (Φ : Fin 512 → sProp M) (k : ℕ) (hk : k < 32) :
    bigSep (Ring.rangeSet 512 (16 * k) 512) Φ
      = iprop(Φ ⟨16 * k, by omega⟩ ∗ Φ ⟨16 * k + 1, by omega⟩ ∗ Φ ⟨16 * k + 1 + 1, by omega⟩ ∗ Φ ⟨16 * k + 1 + 1 + 1, by omega⟩ ∗ Φ ⟨16 * k + 1 + 1 + 1 + 1, by omega⟩ ∗ Φ ⟨16 * k + 1 + 1 + 1 + 1 + 1, by omega⟩ ∗ Φ ⟨16 * k + 1 + 1 + 1 + 1 + 1 + 1, by omega⟩ ∗ Φ ⟨16 * k + 1 + 1 + 1 + 1 + 1 + 1 + 1, by omega⟩ ∗ Φ ⟨16 * k + 1 + 1 + 1 + 1 + 1 + 1 + 1 + 1, by omega⟩ ∗ Φ ⟨16 * k + 1 + 1 + 1 + 1 + 1 + 1 + 1 + 1 + 1, by omega⟩ ∗ Φ ⟨16 * k + 1 + 1 + 1 + 1 + 1 + 1 + 1 + 1 + 1 + 1, by omega⟩ ∗ Φ ⟨16 * k + 1 + 1 + 1 + 1 + 1 + 1 + 1 + 1 + 1 + 1 + 1, by omega⟩ ∗ Φ ⟨16 * k + 1 + 1 + 1 + 1 + 1 + 1 + 1 + 1 + 1 + 1 + 1 + 1, by omega⟩ ∗ Φ ⟨16 * k + 1 + 1 + 1 + 1 + 1 + 1 + 1 + 1 + 1 + 1 + 1 + 1 + 1, by omega⟩ ∗ Φ ⟨16 * k + 1 + 1 + 1 + 1 + 1 + 1 + 1 + 1 + 1 + 1 + 1 + 1 + 1 + 1, by omega⟩ ∗ Φ ⟨16 * k + 1 + 1 + 1 + 1 + 1 + 1 + 1 + 1 + 1 + 1 + 1 + 1 + 1 + 1 + 1, by omega⟩ ∗ bigSep (Ring.rangeSet 512 (16 * k + 1 + 1 + 1 + 1 + 1 + 1 + 1 + 1 + 1 + 1 + 1 + 1 + 1 + 1 + 1 + 1) 512) Φ) := by
  rw [Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega), Ring.bigSep_rangeSet_head (by omega) (by omega)]

/-- The same with the sixteen indices and the rest's start under any names equal to them. -/
theorem head16g {M : Type} [URA M] (Φ : Fin 512 → sProp M) (k : ℕ) (hk : k < 32)
    (a0 a1 a2 a3 a4 a5 a6 a7 a8 a9 a10 a11 a12 a13 a14 a15 e : ℕ)
    (h0 : a0 = 16 * k) (h1 : a1 = 16 * k + 1) (h2 : a2 = 16 * k + 1 + 1) (h3 : a3 = 16 * k + 1 + 1 + 1) (h4 : a4 = 16 * k + 1 + 1 + 1 + 1) (h5 : a5 = 16 * k + 1 + 1 + 1 + 1 + 1) (h6 : a6 = 16 * k + 1 + 1 + 1 + 1 + 1 + 1) (h7 : a7 = 16 * k + 1 + 1 + 1 + 1 + 1 + 1 + 1) (h8 : a8 = 16 * k + 1 + 1 + 1 + 1 + 1 + 1 + 1 + 1) (h9 : a9 = 16 * k + 1 + 1 + 1 + 1 + 1 + 1 + 1 + 1 + 1) (h10 : a10 = 16 * k + 1 + 1 + 1 + 1 + 1 + 1 + 1 + 1 + 1 + 1) (h11 : a11 = 16 * k + 1 + 1 + 1 + 1 + 1 + 1 + 1 + 1 + 1 + 1 + 1) (h12 : a12 = 16 * k + 1 + 1 + 1 + 1 + 1 + 1 + 1 + 1 + 1 + 1 + 1 + 1) (h13 : a13 = 16 * k + 1 + 1 + 1 + 1 + 1 + 1 + 1 + 1 + 1 + 1 + 1 + 1 + 1) (h14 : a14 = 16 * k + 1 + 1 + 1 + 1 + 1 + 1 + 1 + 1 + 1 + 1 + 1 + 1 + 1 + 1) (h15 : a15 = 16 * k + 1 + 1 + 1 + 1 + 1 + 1 + 1 + 1 + 1 + 1 + 1 + 1 + 1 + 1 + 1) (he : e = 16 * k + 1 + 1 + 1 + 1 + 1 + 1 + 1 + 1 + 1 + 1 + 1 + 1 + 1 + 1 + 1 + 1) :
    bigSep (Ring.rangeSet 512 (16 * k) 512) Φ
      = iprop(Φ ⟨a0, by omega⟩ ∗ Φ ⟨a1, by omega⟩ ∗ Φ ⟨a2, by omega⟩ ∗ Φ ⟨a3, by omega⟩ ∗ Φ ⟨a4, by omega⟩ ∗ Φ ⟨a5, by omega⟩ ∗ Φ ⟨a6, by omega⟩ ∗ Φ ⟨a7, by omega⟩ ∗ Φ ⟨a8, by omega⟩ ∗ Φ ⟨a9, by omega⟩ ∗ Φ ⟨a10, by omega⟩ ∗ Φ ⟨a11, by omega⟩ ∗ Φ ⟨a12, by omega⟩ ∗ Φ ⟨a13, by omega⟩ ∗ Φ ⟨a14, by omega⟩ ∗ Φ ⟨a15, by omega⟩ ∗ bigSep (Ring.rangeSet 512 e 512) Φ) := by
  subst h0 h1 h2 h3 h4 h5 h6 h7 h8 h9 h10 h11 h12 h13 h14 h15 he
  exact head16 Φ k hk

/-- Sixteen heads, the indices spelt as the body's destination rows are: `16 k + 0`, `16 k + 0 + j`, `16 k + 15`. -/
theorem head16s {M : Type} [URA M] (Φ : Fin 512 → sProp M) (k : ℕ) (hk : k < 32) :
    bigSep (Ring.rangeSet 512 (16 * k) 512) Φ
      = iprop(Φ ⟨16 * k + 0, by omega⟩ ∗ Φ ⟨16 * k + 0 + 1, by omega⟩ ∗ Φ ⟨16 * k + 0 + 2, by omega⟩ ∗ Φ ⟨16 * k + 0 + 3, by omega⟩ ∗ Φ ⟨16 * k + 0 + 4, by omega⟩ ∗ Φ ⟨16 * k + 0 + 5, by omega⟩ ∗ Φ ⟨16 * k + 0 + 6, by omega⟩ ∗ Φ ⟨16 * k + 0 + 7, by omega⟩ ∗ Φ ⟨16 * k + 0 + 8, by omega⟩ ∗ Φ ⟨16 * k + 0 + 9, by omega⟩ ∗ Φ ⟨16 * k + 0 + 10, by omega⟩ ∗ Φ ⟨16 * k + 0 + 11, by omega⟩ ∗ Φ ⟨16 * k + 0 + 12, by omega⟩ ∗ Φ ⟨16 * k + 0 + 13, by omega⟩ ∗ Φ ⟨16 * k + 0 + 14, by omega⟩ ∗ Φ ⟨16 * k + 15, by omega⟩ ∗ bigSep (Ring.rangeSet 512 (16 * (k + 1)) 512) Φ) :=
  head16g Φ k hk (16 * k + 0) (16 * k + 0 + 1) (16 * k + 0 + 2) (16 * k + 0 + 3) (16 * k + 0 + 4) (16 * k + 0 + 5) (16 * k + 0 + 6) (16 * k + 0 + 7) (16 * k + 0 + 8) (16 * k + 0 + 9) (16 * k + 0 + 10) (16 * k + 0 + 11) (16 * k + 0 + 12) (16 * k + 0 + 13) (16 * k + 0 + 14) (16 * k + 15) (16 * (k + 1)) (by omega) (by omega) (by omega) (by omega) (by omega) (by omega) (by omega) (by omega) (by omega) (by omega) (by omega) (by omega) (by omega) (by omega) (by omega) (by omega) (by omega)

section Tile
variable (d : Dev nD) (L : grid0.Coords)

/-- Row `t` of the tile's row scratch, as a transfer's destination. -/
theorem rRow_inb (t : Fin 512) : ∀ a, (![t.val, 0] : Fin 2 → Nat) a + S1x64.size a ≤ S512x64.size a := by
  have := t.isLt; intro a; fin_cases a
  · show t.val + 1 ≤ 512; omega
  · show 0 + 64 ≤ 64; omega
def rRow (t : Fin 512) : Memref sig .scVector .vmem S64 .f32 :=
  ((sRW).slice (Rect.unit (s := S512x64) ![t.val, 0] S1x64.size (rRow_inb t)) (fun _ => rfl)).squeeze S64 squeezes_S1x64_S64

/-- The body's spelling of a destination row, at any offsets equal to the row's, is that row. -/
theorem rRow_body_eq (t : Fin 512) (off : Fin 2 → ℕ) (hoff : off = ![t.val, 0]) (pf : ∀ a, off a + S1x64.size a ≤ S512x64.size a) :
    ((sRW).slice (Rect.unit (s := S512x64) off S1x64.size pf) (fun _ => rfl)).squeeze S64 squeezes_S1x64_S64 = rRow t := by
  subst hoff; rfl

/-- Row `t` of the scratch holds the table's row that the `t`-th index word names. -/
def rowGood (iv : Buf (Elt F) ((sIW).view.loc (V d (cV L) (jV L)))) (tb : Buf (Elt F) ((tbW).view.loc (V d (cV L) (jV L))))
    (t : Fin 512) (g : Buf (Elt F) ((rRow t).view.loc (V d (cV L) (jV L)))) : Prop :=
  ∀ y : S64.Idx, g ((rRow t).view.emb y) = tb (ValueIdx.ix2 (Cert.Spec.rowOf (iv (ValueIdx.ix1 t))) (y 0))

/-- What transfer `t` delivers: its row of the scratch, holding that table row. -/
abbrev dlv (iv : Buf (Elt F) ((sIW).view.loc (V d (cV L) (jV L)))) (tb : Buf (Elt F) ((tbW).view.loc (V d (cV L) (jV L)))) (t : Fin 512) : sProp 𝕄 :=
  iprop(∃ g, ⌜rowGood d L iv tb t g⌝ ∗ (rRow t).view.loc (V d (cV L) (jV L)) ↦[(rRow t).view.set]{fullShare} g)
/-- A row of the scratch owned at some contents. -/
abbrev rowOwn (t : Fin 512) : sProp 𝕄 := iprop(∃ g, (rRow t).view.loc (V d (cV L) (jV L)) ↦[(rRow t).view.set]{fullShare} g)
/-- The table under read token `t` of the tile's share `q`. -/
abbrev tTok (tb : Buf (Elt F) ((tbW).view.loc (V d (cV L) (jV L)))) (q : PosShare TreeShare) (t : ℕ) : sProp 𝕄 :=
  (tbW).view.loc (V d (cV L) (jV L)) ↦[(tbW).view.set]{Transfers.shareTokN q t} tb
/-- One row's credit on the scratch semaphore. -/
abbrev NR : ℕ := (rRow (0 : Fin 512)).view.amount (SemLoc.dma (sig := sig) cc0_scratch2.sem)
abbrev batchA (iv : Buf (Elt F) ((sIW).view.loc (V d (cV L) (jV L)))) (tb : Buf (Elt F) ((tbW).view.loc (V d (cV L) (jV L)))) (j u : ℕ) : sProp 𝕄 :=
  Transfers.Batch (countersEmb (U := UU)) (V d (cV L) (jV L)) (.dma cc0_scratch2.sem) (none : HIx 1) NR (dlv d L iv tb) j u

/-- Before trip `k` of an issue loop: `16 k` rows issued, the index scratch at `iv`, the rows and tokens from `16 k` on in hand. -/
def issueAt (iv : Buf (Elt F) ((sIW).view.loc (V d (cV L) (jV L)))) (tb : Buf (Elt F) ((tbW).view.loc (V d (cV L) (jV L)))) (q : PosShare TreeShare)
    (k : ℕ) (_ : Unit) : sProp 𝕄 :=
  iprop(((sIW).view.loc (V d (cV L) (jV L)) ↦{fullShare} iv) ∗ batchA d L iv tb (16 * k) 0
    ∗ bigSep (Ring.rangeSet 512 (16 * k) 512) (rowOwn d L) ∗ bigSep (Ring.rangeSet 512 (16 * k) 512) (fun t => tTok d L tb q t.val))

/-- A row held under one name of its memref is held under any equal name. -/
theorem rowPts_eq {M M' : Memref sig .scVector .vmem S64 .f32} (h : M = M') (g : Buf (Elt F) (M'.view.loc (V d (cV L) (jV L)))) :
    (M'.view.loc (V d (cV L) (jV L)) ↦[M'.view.set]{fullShare} g : sProp 𝕄) = (M.view.loc (V d (cV L) (jV L)) ↦[M.view.set]{fullShare} (h ▸ g)) := by
  subst h; rfl

end Tile

end Cert.Proof.ScB

end
-- ==== Proof.ScB.Drain.lean ====
/-
  The loop that waits for a side's 512 row copies, and the row scratch as its rows.

  The 512 row copies of a side all credit ONE semaphore, a row's credit each; the loop waits 512 times for a row's
  credit.  A wait before the last tells nothing about any row: the credits of several copies may have added up to a
  row's.  The last wait brings the credit consumed to 512 rows', which is all that was ever to come, so every copy has
  landed: the semaphore is back at zero and every row holds what its copy delivers.  The row scratch held whole is its
  512 rows held, and the rows held each at the table row its index word names are the scratch held whole at one
  function of the index words and the table.
-/
import proofs.«205169_g39805756899661_cont_8to1_b_81_27_alg».proof.Proof.ScB.TileDefs

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iaW" => (Memref.whole Cert.Kernel.main_arg0_scv : Memref Cert.Kernel.sig Kind.scVector Space.hbm Cert.Kernel.S16384 EltTy.i32)
local notation "ibW" => (Memref.whole Cert.Kernel.main_arg1_scv : Memref Cert.Kernel.sig Kind.scVector Space.hbm Cert.Kernel.S16384 EltTy.i32)
local notation "tbW" => (Memref.whole Cert.Kernel.main_arg2_scv : Memref Cert.Kernel.sig Kind.scVector Space.hbm Cert.Kernel.S1000000x64 EltTy.f32)
local notation "oaW" => (Memref.whole Cert.Kernel.main_v0_0_scv : Memref Cert.Kernel.sig Kind.scVector Space.hbm Cert.Kernel.S16384x64 EltTy.f32)
local notation "obW" => (Memref.whole Cert.Kernel.main_v0_1_scv : Memref Cert.Kernel.sig Kind.scVector Space.hbm Cert.Kernel.S16384x64 EltTy.f32)
local notation "sIW" => (Memref.whole Cert.Kernel.cc0_scratch0 : Memref Cert.Kernel.sig Kind.scVector Space.vmem Cert.Kernel.S512 EltTy.i32)
local notation "sRW" => (Memref.whole Cert.Kernel.cc0_scratch1 : Memref Cert.Kernel.sig Kind.scVector Space.vmem Cert.Kernel.S512x64 EltTy.f32)

variable [FloatOps F]

/-! ## The row scratch as its 512 rows -/

section Rows
variable (d : Dev nD) (L : grid0.Coords)

/-- The elements of row t of a [512, 64] array. -/
abbrev rowSet (t : Fin 512) : Finset S512x64.Idx := (Rect.unit (s := S512x64) ![t.val, 0] S1x64.size (rRow_inb t)).set

/-- The elements row t of the row scratch names are row t's. -/
theorem rRow_set (t : Fin 512) : ((rRow t).view.set : Finset S512x64.Idx) = rowSet t := by
  unfold rRow; exact (View.set_reshape _ _).trans (View.set_slice_whole _ _)

/-- An element lies in row t exactly when its row coordinate is t. -/
theorem mem_rowSet (t : Fin 512) (y : S512x64.Idx) : y ∈ rowSet t ↔ (y 0).val = t.val := by
  rw [Rect.mem_set_unit]
  have h1 : (y 1).val < 64 := (y 1).isLt
  constructor
  · intro H; have a0 : t.val ≤ (y 0).val ∧ (y 0).val < t.val + 1 := H 0; omega
  · intro H a
    match a with
    | ⟨0, _⟩ => show t.val ≤ (y 0).val ∧ (y 0).val < t.val + 1; omega
    | ⟨1, _⟩ => show 0 ≤ (y 1).val ∧ (y 1).val < 0 + 64; omega

theorem rowSet_disjoint (t t' : Fin 512) (h : t ≠ t') : Disjoint (rowSet t) (rowSet t') := by
  rw [Finset.disjoint_left]; intro y hy hy'; rw [mem_rowSet] at hy hy'; exact h (Fin.ext (by omega))

theorem rowSet_cover : Finset.univ.biUnion rowSet = Finset.univ := by
  ext y; simp only [Finset.mem_biUnion, Finset.mem_univ, true_and, iff_true]; exact ⟨y 0, (mem_rowSet _ _).mpr rfl⟩

/-- Element y of row t, placed in the scratch: row t, column y. -/
theorem rRow_emb (t : Fin 512) (y : S64.Idx) : ((rRow t).view.emb y : S512x64.Idx) = ValueIdx.ix2 t (y 0) := by
  have e : Shape.reshapeEquiv (squeezes_S1x64_S64).numel_eq y = Fin.cons ⟨0, Nat.one_pos⟩ y :=
    Shape.reshapeEquiv_cons_one _ y
  funext a
  apply Fin.ext
  match a with
  | ⟨0, _⟩ =>
    show t.val + 1 * ((Shape.reshapeEquiv (squeezes_S1x64_S64).numel_eq y) 0).val = t.val
    rw [e]; rfl
  | ⟨1, _⟩ =>
    show 0 + 1 * ((Shape.reshapeEquiv (squeezes_S1x64_S64).numel_eq y) 1).val = (y 0).val
    rw [e]; show 0 + 1 * (y 0).val = (y 0).val; omega

/-- Row t held through its memref is row t's elements of the scratch held. -/
theorem rowPts (t : Fin 512) (g : Buf (Elt F) ((sRW).view.loc (V d (cV L) (jV L)))) :
    ((rRow t).view.loc (V d (cV L) (jV L)) ↦[(rRow t).view.set]{fullShare} g : sProp 𝕄)
      = ((sRW).view.loc (V d (cV L) (jV L)) ↦[rowSet t]{fullShare} g : sProp 𝕄) := by
  show ((sRW).view.loc (V d (cV L) (jV L)) ↦[((rRow t).view.set : Finset S512x64.Idx)]{fullShare} g : sProp 𝕄) = _
  rw [rRow_set]

/-- The row scratch with every row at the table row its index word names, as ONE function. -/
def rowsOf (iv : Buf (Elt F) ((sIW).view.loc (V d (cV L) (jV L)))) (tb : Buf (Elt F) ((tbW).view.loc (V d (cV L) (jV L)))) :
    Buf (Elt F) ((sRW).view.loc (V d (cV L) (jV L))) :=
  fun y => tb (ValueIdx.ix2 (Cert.Spec.rowOf (iv (ValueIdx.ix1 (y 0)))) (y 1))

/-- Row t's elements of the scratch held at f are row t owned. -/
theorem row_owned (t : Fin 512) (f : Buf (Elt F) ((sRW).view.loc (V d (cV L) (jV L)))) :
    ((sRW).view.loc (V d (cV L) (jV L)) ↦[rowSet t]{fullShare} f : sProp 𝕄) ⊢ rowOwn d L t := by
  rw [← rowPts d L t f]
  iintro H; iexists f; iexact H

/-- Row t delivered is row t's elements of the scratch held at the one function. -/
theorem row_delivered (iv : Buf (Elt F) ((sIW).view.loc (V d (cV L) (jV L)))) (tb : Buf (Elt F) ((tbW).view.loc (V d (cV L) (jV L))))
    (t : Fin 512) :
    dlv d L iv tb t ⊢ ((sRW).view.loc (V d (cV L) (jV L)) ↦[rowSet t]{fullShare} rowsOf d L iv tb : sProp 𝕄) := by
  iintro ⟨%g, %hg, H⟩
  have e : ∀ i ∈ rowSet t, (g : S512x64.Idx → Elt F .f32) i = rowsOf d L iv tb i := by
    intro i hi
    rw [← rRow_set t] at hi
    obtain ⟨y, -, rfl⟩ := Finset.mem_map.mp hi
    exact (hg y).trans (congrArg (rowsOf d L iv tb) (rRow_emb t y)).symm
  have E : ((rRow t).view.loc (V d (cV L) (jV L)) ↦[(rRow t).view.set]{fullShare} g : sProp 𝕄)
      = ((sRW).view.loc (V d (cV L) (jV L)) ↦[rowSet t]{fullShare} rowsOf d L iv tb : sProp 𝕄) :=
    (rowPts d L t g).trans (pointsTo_congr e)
  rw [← E]
  iexact H

/-- The scratch held whole is held row by row, each at some contents. -/
theorem rows_split (f : Buf (Elt F) ((sRW).view.loc (V d (cV L) (jV L)))) :
    ((sRW).view.loc (V d (cV L) (jV L)) ↦{fullShare} f : sProp 𝕄) ⊢ bigSep Finset.univ (rowOwn d L) := by
  rw [Ring.pointsTo_blocks (ℓ := (sRW).view.loc (V d (cV L) (jV L))) (Ix := HIx 1) (Val := Elt F) (Name := ℕ) (U := UU) (Lvl := ℕ)
    (B := Fin 512) (q := fullShare) (fun t : Fin 512 => (rowSet t : Finset (Idx ((sRW).view.loc (V d (cV L) (jV L))))))
    rowSet_disjoint rowSet_cover f]
  exact bigSep_mono fun t _ => row_owned d L t f

/-- Every row delivered — row t at the table row word t names — is the scratch held whole at that one function. -/
theorem rows_join (iv : Buf (Elt F) ((sIW).view.loc (V d (cV L) (jV L)))) (tb : Buf (Elt F) ((tbW).view.loc (V d (cV L) (jV L)))) :
    bigSep Finset.univ (dlv d L iv tb) ⊢ ((sRW).view.loc (V d (cV L) (jV L)) ↦{fullShare} rowsOf d L iv tb : sProp 𝕄) := by
  rw [Ring.pointsTo_blocks (ℓ := (sRW).view.loc (V d (cV L) (jV L))) (Ix := HIx 1) (Val := Elt F) (Name := ℕ) (U := UU) (Lvl := ℕ)
    (B := Fin 512) (q := fullShare) (fun t : Fin 512 => (rowSet t : Finset (Idx ((sRW).view.loc (V d (cV L) (jV L))))))
    rowSet_disjoint rowSet_cover (rowsOf d L iv tb)]
  exact bigSep_mono fun t _ => row_delivered d L iv tb t

end Rows

/-! ## The loop that waits for a side's 512 row copies -/

section Drain
variable (d : Dev nD) (L : grid0.Coords) [∀ e, Nonempty (Elt F e)]

/-- One row's credit, as a number. -/
theorem NR_eq : (NR : ℕ) = 2048 := by decide

/-- Before trip k of a drain loop: k ≤ 512; the thread's debts as they were, its waits so far recorded; and EITHER
    (k < 512) the batch with every copy issued and k rows' credit consumed, OR (k = 512) the semaphore back at zero and
    every row at what its copy delivers. -/
def drainAt (iv : Buf (Elt F) ((sIW).view.loc (V d (cV L) (jV L)))) (tb : Buf (Elt F) ((tbW).view.loc (V d (cV L) (jV L))))
    (O : CellTallies nD τ sig (HIx 1)) (W : Waits sig (HIx 1)) (k : ℕ) (_ : Unit) : sProp 𝕄 :=
  iprop(⌜k ≤ 512⌝ ∗ Transfers.MayWaits (V d (cV L) (jV L)) (none : HIx 1) O
    ∗ (∃ W', ⌜∀ p ∈ W', p ∈ W ∨ p.2 = none⌝ ∗ owes (V d (cV L) (jV L)) O W')
    ∗ (if k < 512 then batchA d L iv tb 512 (k * NR)
       else iprop(semVal (V d (cV L) (jV L), SemLoc.dma cc0_scratch2.sem) 0 ∗ bigSep Finset.univ (dlv d L iv tb))))

/-- ONE TRIP of side a's drain loop, by cases: k + 1 < 512, a wait that tells nothing; k + 1 = 512, THE LAST. -/
theorem drain_step_a (iv : Buf (Elt F) ((sIW).view.loc (V d (cV L) (jV L)))) (tb : Buf (Elt F) ((tbW).view.loc (V d (cV L) (jV L))))
    (O : CellTallies nD τ sig (HIx 1)) (W : Waits sig (HIx 1)) (k : Fin k0_t2_loop.trips) (acc : Unit) :
    drainAt d L iv tb O W k acc
      ⊢ wp frame (wpE (defs₀ (F := F)) 𝒱₀ (V d (cV L) (jV L)) none) Set.univ
          (k0_t2_body L iaW (Memref.isWhole_whole _) ibW (Memref.isWhole_whole _) tbW (Memref.isWhole_whole _)
            oaW (Memref.isWhole_whole _) obW (Memref.isWhole_whole _) sIW (Memref.isWhole_whole _) sRW (Memref.isWhole_whole _)
            cc0_scratch2 cc0_scoped0 cc0_scoped1 cc0_scoped2 cc0_scoped3 k acc)
          (drainAt d L iv tb O W (k.val + 1)) := by
  have hk : k.val < 512 := k.isLt
  unfold drainAt batchA
  simp only [if_pos hk]
  rw [NR_eq]
  rcases Nat.lt_or_ge (k.val + 1) 512 with h1 | h1
  · simp only [if_pos h1]
    iintro ⟨-, Hmw, ⟨%W', %hW', HO⟩, HB⟩
    sl_unfold [k0_t2_body]
    sl_exec
    sl_step
    isplitr; · ipureintro; omega
    isplitl [Hmw]; · iexact Hmw
    isplitl [HO]
    · iexists (insert (SemLoc.dma cc0_scratch2.sem, (none : HIx 1)) W'); isplitr
      · ipureintro; intro p hp
        rcases Finset.mem_insert.mp hp with hp | hp
        · exact .inr (hp ▸ rfl)
        · exact hW' p hp
      · iexact HO
    rw [show (k.val + 1) * 2048 = k.val * 2048 + 2048 by omega]
    iexact HB
  · simp only [if_neg (Nat.not_lt.mpr h1)]
    iintro ⟨-, Hmw, ⟨%W', %hW', HO⟩, HB⟩
    sl_unfold [k0_t2_body]
    sl_exec
    sl_step
    isplitr; · ipureintro; omega
    isplitl [Hmw]; · iexact Hmw
    isplitl [HO]
    · iexists (insert (SemLoc.dma cc0_scratch2.sem, (none : HIx 1)) W'); isplitr
      · ipureintro; intro p hp
        rcases Finset.mem_insert.mp hp with hp | hp
        · exact .inr (hp ▸ rfl)
        · exact hW' p hp
      · iexact HO
    isplitl [HB]; · iexact HB
    iexact HB_all

/-- ONE TRIP of side b's drain loop: the same waits, on the second side's copies. -/
theorem drain_step_b (iv : Buf (Elt F) ((sIW).view.loc (V d (cV L) (jV L)))) (tb : Buf (Elt F) ((tbW).view.loc (V d (cV L) (jV L))))
    (O : CellTallies nD τ sig (HIx 1)) (W : Waits sig (HIx 1)) (k : Fin k0_t4_loop.trips) (acc : Unit) :
    drainAt d L iv tb O W k acc
      ⊢ wp frame (wpE (defs₀ (F := F)) 𝒱₀ (V d (cV L) (jV L)) none) Set.univ
          (k0_t4_body L iaW (Memref.isWhole_whole _) ibW (Memref.isWhole_whole _) tbW (Memref.isWhole_whole _)
            oaW (Memref.isWhole_whole _) obW (Memref.isWhole_whole _) sIW (Memref.isWhole_whole _) sRW (Memref.isWhole_whole _)
            cc0_scratch2 cc0_scoped0 cc0_scoped1 cc0_scoped2 cc0_scoped3 k acc)
          (drainAt d L iv tb O W (k.val + 1)) := by
  have hk : k.val < 512 := k.isLt
  unfold drainAt batchA
  simp only [if_pos hk]
  rw [NR_eq]
  rcases Nat.lt_or_ge (k.val + 1) 512 with h1 | h1
  · simp only [if_pos h1]
    iintro ⟨-, Hmw, ⟨%W', %hW', HO⟩, HB⟩
    sl_unfold [k0_t4_body]
    sl_exec
    sl_step
    isplitr; · ipureintro; omega
    isplitl [Hmw]; · iexact Hmw
    isplitl [HO]
    · iexists (insert (SemLoc.dma cc0_scratch2.sem, (none : HIx 1)) W'); isplitr
      · ipureintro; intro p hp
        rcases Finset.mem_insert.mp hp with hp | hp
        · exact .inr (hp ▸ rfl)
        · exact hW' p hp
      · iexact HO
    rw [show (k.val + 1) * 2048 = k.val * 2048 + 2048 by omega]
    iexact HB
  · simp only [if_neg (Nat.not_lt.mpr h1)]
    iintro ⟨-, Hmw, ⟨%W', %hW', HO⟩, HB⟩
    sl_unfold [k0_t4_body]
    sl_exec
    sl_step
    isplitr; · ipureintro; omega
    isplitl [Hmw]; · iexact Hmw
    isplitl [HO]
    · iexists (insert (SemLoc.dma cc0_scratch2.sem, (none : HIx 1)) W'); isplitr
      · ipureintro; intro p hp
        rcases Finset.mem_insert.mp hp with hp | hp
        · exact .inr (hp ▸ rfl)
        · exact hW' p hp
      · iexact HO
    isplitl [HB]; · iexact HB
    iexact HB_all

end Drain

end Cert.Proof.ScB

end
-- ==== Proof.ScB.RowLanded.lean ====
/-
  A landed row copy leaves a good row.

  Copy `t` of the gather kernel's batch moves one table row — the row the `t`-th index word names, sliced out of the
  table at offsets `(word, 0)` with one row of 64 and the unit axis dropped — into row `t` of the tile's row scratch,
  sliced and squeezed the same way at offsets `(t, 0)`. Entry `y` of the squeezed one-row slice at offsets `(r, 0)`
  is the array's entry `(r, y)`: dropping the leading unit axis puts a zero in front of the index, and the slice adds
  its offsets. So once the destination's contents are the source's read written over the whole of row `t`, entry `y`
  of row `t` is the table's entry `(word, y)`, which is what a good row is when the word is in range.
-/
import proofs.«205169_g39805756899661_cont_8to1_b_81_27_alg».proof.Proof.ScB.TileDefs
import Idealize.ShloMosaic.Lib.Writes
import Idealize.ShloMosaic.Lib.Pipeline.Value

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iaW" => (Memref.whole Cert.Kernel.main_arg0_scv : Memref Cert.Kernel.sig Kind.scVector Space.hbm Cert.Kernel.S16384 EltTy.i32)
local notation "ibW" => (Memref.whole Cert.Kernel.main_arg1_scv : Memref Cert.Kernel.sig Kind.scVector Space.hbm Cert.Kernel.S16384 EltTy.i32)
local notation "tbW" => (Memref.whole Cert.Kernel.main_arg2_scv : Memref Cert.Kernel.sig Kind.scVector Space.hbm Cert.Kernel.S1000000x64 EltTy.f32)
local notation "oaW" => (Memref.whole Cert.Kernel.main_v0_0_scv : Memref Cert.Kernel.sig Kind.scVector Space.hbm Cert.Kernel.S16384x64 EltTy.f32)
local notation "obW" => (Memref.whole Cert.Kernel.main_v0_1_scv : Memref Cert.Kernel.sig Kind.scVector Space.hbm Cert.Kernel.S16384x64 EltTy.f32)
local notation "sIW" => (Memref.whole Cert.Kernel.cc0_scratch0 : Memref Cert.Kernel.sig Kind.scVector Space.vmem Cert.Kernel.S512 EltTy.i32)
local notation "sRW" => (Memref.whole Cert.Kernel.cc0_scratch1 : Memref Cert.Kernel.sig Kind.scVector Space.vmem Cert.Kernel.S512x64 EltTy.f32)

variable [FloatOps F]

section Tile
variable (d : Dev nD) (L : grid0.Coords)

/-- The table row a word names, as the kernel body slices it: one row of 64 at offsets `(word, 0)`, the unit axis dropped. -/
def tRowW (w : BitVec 32) (hw : ∀ a, (k0_off4 w) a + S1x64.size a ≤ S1000000x64.size a) : Memref sig .scVector .hbm S64 .f32 :=
  ((tbW).slice (Rect.unit (s := S1000000x64) (k0_off4 w) S1x64.size hw) (fun _ => rfl)).squeeze S64 squeezes_S1x64_S64

/-- Entry `y` of row `t` of the row scratch is the scratch's entry `(t, y)`. -/
theorem rRow_emb_at (t : Fin 512) (y : S64.Idx) :
    (rRow t).view.emb y = (ValueIdx.ix2 t (y 0) : S512x64.Idx) := by
  show (Rect.unit (s := S512x64) ![t.val, 0] S1x64.size (rRow_inb t)).emb (Shape.reshapeEquiv squeezes_S1x64_S64.numel_eq y) = _
  rw [Shape.reshapeEquiv_cons_one]
  funext a
  apply Fin.ext
  fin_cases a
  · show t.val + 1 * 0 = t.val; omega
  · show 0 + 1 * (y 0).val = (y 0).val; omega

/-- Entry `y` of the table row a word names is the table's entry `(word, y)`. -/
theorem tRowW_emb (w : BitVec 32) (hw : ∀ a, (k0_off4 w) a + S1x64.size a ≤ S1000000x64.size a) (hlt : w.toNat < 1000000)
    (y : S64.Idx) :
    (tRowW w hw).view.emb y = (ValueIdx.ix2 (⟨w.toNat, hlt⟩ : Fin 1000000) (y 0) : S1000000x64.Idx) := by
  show (Rect.unit (s := S1000000x64) (k0_off4 w) S1x64.size hw).emb (Shape.reshapeEquiv squeezes_S1x64_S64.numel_eq y) = _
  rw [Shape.reshapeEquiv_cons_one]
  funext a
  apply Fin.ext
  fin_cases a
  · show w.toNat + 1 * 0 = w.toNat; omega
  · show 0 + 1 * (y 0).val = (y 0).val; omega

/-- A word in range names the table row of its own number. -/
theorem rowOf_eq_of_lt (w : BitVec 32) (hlt : w.toNat < 1000000) : Cert.Spec.rowOf w = ⟨w.toNat, hlt⟩ :=
  Fin.ext (Cert.Spec.rowOf_val_of_lt hlt)

/-- Once the copy from the table row the `t`-th index word names has landed in row `t` — the row's contents are the
    source's read written over the whole row, whatever the row held before — row `t` is good. -/
theorem rowGood_landed (iv : Buf (Elt F) ((sIW).view.loc (V d (cV L) (jV L)))) (tb : Buf (Elt F) ((tbW).view.loc (V d (cV L) (jV L))))
    (t : Fin 512) (g0 : Buf (Elt F) ((rRow t).view.loc (V d (cV L) (jV L)))) (w : BitVec 32)
    (hw : ∀ a, (k0_off4 w) a + S1x64.size a ≤ S1000000x64.size a) (hwt : w = iv (ValueIdx.ix1 t)) (hlt : w.toNat < 1000000) :
    rowGood d L iv tb t ((rRow t).view.writes (Elt F) g0
      [⟨Rect.whole S64, ReadAs.same.apply (View.read (Elt F) (tRowW w hw).view tb)⟩]) := by
  intro y
  have h1 := View.read_writes_cons_emb (rRow t).view g0 (Rect.whole S64)
    (ReadAs.same.apply (View.read (Elt F) (tRowW w hw).view tb)) [] y
  rw [Rect.emb_whole_apply] at h1
  refine (show _ = _ from h1).trans ?_
  show tb ((tRowW w hw).view.emb y) = _
  rw [tRowW_emb w hw hlt, ← hwt, rowOf_eq_of_lt w hlt]

/-- The same with the landed contents spelt as one unmasked write through the row. -/
theorem rowGood_landed_write (iv : Buf (Elt F) ((sIW).view.loc (V d (cV L) (jV L)))) (tb : Buf (Elt F) ((tbW).view.loc (V d (cV L) (jV L))))
    (t : Fin 512) (g0 : Buf (Elt F) ((rRow t).view.loc (V d (cV L) (jV L)))) (w : BitVec 32)
    (hw : ∀ a, (k0_off4 w) a + S1x64.size a ≤ S1000000x64.size a) (hwt : w = iv (ValueIdx.ix1 t)) (hlt : w.toNat < 1000000) :
    rowGood d L iv tb t ((rRow t).view.write (Elt F) g0
      (ReadAs.same.apply (View.read (Elt F) (tRowW w hw).view tb)) Finset.univ) := by
  intro y
  refine (View.write_emb_of_mem (v := (rRow t).view) g0 _ (Finset.mem_univ y)).trans ?_
  show tb ((tRowW w hw).view.emb y) = _
  rw [tRowW_emb w hw hlt, ← hwt, rowOf_eq_of_lt w hlt]

/-- Lane `j` of the sixteen index words a trip loads at offset `16 kk` of the tile's index scratch is the scratch's
    entry `16 kk + j`: the load reads the entries `16 kk, …, 16 kk + 15` in order, the shape cast to the same shape
    changes nothing, and the one-element slice at `j` read at `0` is element `j + 0`. -/
theorem lane_word (iv : Buf (Elt F) ((sIW).view.loc (V d (cV L) (jV L)))) (off1 : Fin 1 → ℕ) (kk : ℕ) (h1 : off1 = ![16 * kk])
    (pf1 : ∀ a, off1 a + S16.size a ≤ S512.size a) (j : ℕ) (hj : j < 16) (hs : S16.Slices ![j] S1) (hlt : 16 * kk + j < 512) :
    extractAt ![0] (extractStridedSlice S1 ![j] (shapeCast S16 (View.readAt (Elt F) (sIW).view (Rect.unit (s := S512) off1 S16.size pf1).toLoadRect iv) shapeCasts_S16_S16) hs) inpos_S1_p0
      = iv (ValueIdx.ix1 ⟨16 * kk + j, hlt⟩) := by
  subst h1
  refine Eq.trans (congrArg (fun X => extractAt ![0] (extractStridedSlice S1 ![j] X hs) inpos_S1_p0)
    (shapeCast_self (s := S16) _ shapeCasts_S16_S16)) ?_
  unfold extractAt extractStridedSlice
  rw [View.readAt_apply, View.read_apply]
  refine (cast_eq _ _).trans ?_
  refine congrArg iv (funext fun a => Fin.ext ?_)
  match a with
  | ⟨0, _⟩ =>
    show 16 * kk + 1 * (j + 0) = 16 * kk + j
    omega

end Tile

end Cert.Proof.ScB

end
-- ==== Proof.ScB.Issue.lean ====
/-
  The issue loops of the gather kernel's tile body: one trip starts sixteen row copies on the scratch semaphore.

  A trip loads sixteen index words from the index scratch, assumes of each that it names a row of the table (the
  precondition's range), and starts the copy of that table row into the next row of the row scratch. The copies are
  transfers `16 k` … `16 k + 15` of the batch of 512; what transfer `t` will have delivered is stated when the batch
  is allocated: row `t` of the scratch holding the table's row the `t`-th index word names.
-/
import proofs.«205169_g39805756899661_cont_8to1_b_81_27_alg».proof.Proof.ScB.RowLanded
import proofs.«205169_g39805756899661_cont_8to1_b_81_27_alg».proof.Proof.Gen.Kernel.Skeleton
import Idealize.ShloMosaic.Lib.SparseCore.Launch
import Idealize.ShloMosaic.Lib.Batch
import Idealize.ShloMosaic.Lib.StableHlo.Run
import Idealize.ShloMosaic.Lib.Pipeline.Kit
import Idealize.ShloMosaic.Lib.Tactic
import Idealize.ShloMosaic.Lib.Ring
import proofs.«205169_g39805756899661_cont_8to1_b_81_27_alg».proof.Proof.Spec

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iaW" => (Memref.whole Cert.Kernel.main_arg0_scv : Memref Cert.Kernel.sig Kind.scVector Space.hbm Cert.Kernel.S16384 EltTy.i32)
local notation "ibW" => (Memref.whole Cert.Kernel.main_arg1_scv : Memref Cert.Kernel.sig Kind.scVector Space.hbm Cert.Kernel.S16384 EltTy.i32)
local notation "tbW" => (Memref.whole Cert.Kernel.main_arg2_scv : Memref Cert.Kernel.sig Kind.scVector Space.hbm Cert.Kernel.S1000000x64 EltTy.f32)
local notation "oaW" => (Memref.whole Cert.Kernel.main_v0_0_scv : Memref Cert.Kernel.sig Kind.scVector Space.hbm Cert.Kernel.S16384x64 EltTy.f32)
local notation "obW" => (Memref.whole Cert.Kernel.main_v0_1_scv : Memref Cert.Kernel.sig Kind.scVector Space.hbm Cert.Kernel.S16384x64 EltTy.f32)
local notation "sIW" => (Memref.whole Cert.Kernel.cc0_scratch0 : Memref Cert.Kernel.sig Kind.scVector Space.vmem Cert.Kernel.S512 EltTy.i32)
local notation "sRW" => (Memref.whole Cert.Kernel.cc0_scratch1 : Memref Cert.Kernel.sig Kind.scVector Space.vmem Cert.Kernel.S512x64 EltTy.f32)

variable [FloatOps F]

section Tile
variable (d : Dev nD) (L : grid0.Coords)

/-- A landed row copy delivers what the batch states of it. -/
theorem dlv_intro (iv : Buf (Elt F) ((sIW).view.loc (V d (cV L) (jV L)))) (tb : Buf (Elt F) ((tbW).view.loc (V d (cV L) (jV L))))
    (t : Fin 512) (off : Fin 2 → ℕ) (pf : ∀ a, off a + S1x64.size a ≤ S512x64.size a)
    (g0 : Buf (Elt F) ((((sRW).slice (Rect.unit (s := S512x64) off S1x64.size pf) (fun _ => rfl)).squeeze S64 squeezes_S1x64_S64).view.loc (V d (cV L) (jV L))))
    (w : BitVec 32) (hw : ∀ a, (k0_off4 w) a + S1x64.size a ≤ S1000000x64.size a) (qq : PosShare TreeShare)
    (hoff : off = ![t.val, 0]) (hwt : w = iv (ValueIdx.ix1 t)) (hlt : w.toNat < 1000000) :
    iprop(((((sRW).slice (Rect.unit (s := S512x64) off S1x64.size pf) (fun _ => rfl)).squeeze S64 squeezes_S1x64_S64).view.loc (V d (cV L) (jV L))
            ↦[(((sRW).slice (Rect.unit (s := S512x64) off S1x64.size pf) (fun _ => rfl)).squeeze S64 squeezes_S1x64_S64).view.set]{fullShare}
              (((sRW).slice (Rect.unit (s := S512x64) off S1x64.size pf) (fun _ => rfl)).squeeze S64 squeezes_S1x64_S64).view.writes (Elt F) g0
                [⟨Rect.whole S64, ReadAs.same.apply (View.read (Elt F) (tRowW w hw).view tb)⟩])
        ∗ ((tbW).view.loc (V d (cV L) (jV L)) ↦[(tRowW w hw).view.set]{qq} tb))
      ⊢ dlv d L iv tb t := by
  subst hoff
  iintro ⟨Hd, -⟩
  iexists _
  isplitr
  · ipureintro; exact rowGood_landed d L iv tb t g0 w hw hwt hlt
  · iexact Hd

set_option sl_exec.dischHeartbeats 20000 in
set_option maxHeartbeats 1000000 in
/-- ONE TRIP of side a's issue loop at a symbolic trip `k`: sixteen index words loaded, each checked to name a table row,
    each row copy started as the batch's next transfer — transfers `16 k` … `16 k + 15` — into rows `16 k` … `16 k + 15`
    of the row scratch, each under its own read token of the table. -/
theorem issue_step_a [∀ e, Nonempty (Elt F e)] (iv : Buf (Elt F) ((sIW).view.loc (V d (cV L) (jV L)))) (tb : Buf (Elt F) ((tbW).view.loc (V d (cV L) (jV L))))
    (q : PosShare TreeShare) (hin : ∀ j, (iv j).toNat < 1000000) (k : Fin k0_t1_loop.trips) (acc : Unit) :
    issueAt d L iv tb q k acc ⊢ wp frame (wpE (defs₀ (F := F)) 𝒱₀ (V d (cV L) (jV L)) none) Set.univ
      (k0_t1_body L iaW (Memref.isWhole_whole _) ibW (Memref.isWhole_whole _) tbW (Memref.isWhole_whole _) oaW (Memref.isWhole_whole _) obW (Memref.isWhole_whole _)
            sIW (Memref.isWhole_whole _) sRW (Memref.isWhole_whole _) cc0_scratch2 cc0_scoped0 cc0_scoped1 cc0_scoped2 cc0_scoped3 k acc)
      (issueAt d L iv tb q (k.val + 1)) := by
  have hk : k.val < 32 := k.isLt
  unfold issueAt
  rw [head16s (rowOwn d L) k.val hk, head16s (fun t => tTok d L tb q t.val) k.val hk]
  unfold rowOwn
  have hl0 : 16 * k.val + 0 < 512 := by omega
  have hl1 : 16 * k.val + 0 + 1 < 512 := by omega
  have hl2 : 16 * k.val + 0 + 2 < 512 := by omega
  have hl3 : 16 * k.val + 0 + 3 < 512 := by omega
  have hl4 : 16 * k.val + 0 + 4 < 512 := by omega
  have hl5 : 16 * k.val + 0 + 5 < 512 := by omega
  have hl6 : 16 * k.val + 0 + 6 < 512 := by omega
  have hl7 : 16 * k.val + 0 + 7 < 512 := by omega
  have hl8 : 16 * k.val + 0 + 8 < 512 := by omega
  have hl9 : 16 * k.val + 0 + 9 < 512 := by omega
  have hl10 : 16 * k.val + 0 + 10 < 512 := by omega
  have hl11 : 16 * k.val + 0 + 11 < 512 := by omega
  have hl12 : 16 * k.val + 0 + 12 < 512 := by omega
  have hl13 : 16 * k.val + 0 + 13 < 512 := by omega
  have hl14 : 16 * k.val + 0 + 14 < 512 := by omega
  have hl15 : 16 * k.val + 0 + 15 < 512 := by omega
  iintro ⟨HsI, HB, ⟨⟨%g0, HR0⟩, ⟨%g1, HR1⟩, ⟨%g2, HR2⟩, ⟨%g3, HR3⟩, ⟨%g4, HR4⟩, ⟨%g5, HR5⟩, ⟨%g6, HR6⟩, ⟨%g7, HR7⟩, ⟨%g8, HR8⟩, ⟨%g9, HR9⟩, ⟨%g10, HR10⟩, ⟨%g11, HR11⟩, ⟨%g12, HR12⟩, ⟨%g13, HR13⟩, ⟨%g14, HR14⟩, ⟨%g15, HR15⟩, HRs⟩, ⟨HT0, HT1, HT2, HT3, HT4, HT5, HT6, HT7, HT8, HT9, HT10, HT11, HT12, HT13, HT14, HT15, HTs⟩⟩
  ihave HR0 := (Entails.of_eq (rowPts_eq d L (rRow_body_eq ⟨16 * k.val + 0, hl0⟩ (k0_off5 k (BitVec.ofNat 32 0)) (k0_off5_eq k ⟨0, by decide⟩) (k0_off5_inb k 0)) g0)) $$ HR0
  ihave HR1 := (Entails.of_eq (rowPts_eq d L (rRow_body_eq ⟨16 * k.val + 0 + 1, hl1⟩ (k0_off7 k (BitVec.ofNat 32 1)) (k0_off7_eq k ⟨0, by decide⟩) (k0_off7_inb k 0)) g1)) $$ HR1
  ihave HR2 := (Entails.of_eq (rowPts_eq d L (rRow_body_eq ⟨16 * k.val + 0 + 2, hl2⟩ (k0_off9 k (BitVec.ofNat 32 2)) (k0_off9_eq k ⟨0, by decide⟩) (k0_off9_inb k 0)) g2)) $$ HR2
  ihave HR3 := (Entails.of_eq (rowPts_eq d L (rRow_body_eq ⟨16 * k.val + 0 + 3, hl3⟩ (k0_off11 k (BitVec.ofNat 32 3)) (k0_off11_eq k ⟨0, by decide⟩) (k0_off11_inb k 0)) g3)) $$ HR3
  ihave HR4 := (Entails.of_eq (rowPts_eq d L (rRow_body_eq ⟨16 * k.val + 0 + 4, hl4⟩ (k0_off13 k (BitVec.ofNat 32 4)) (k0_off13_eq k ⟨0, by decide⟩) (k0_off13_inb k 0)) g4)) $$ HR4
  ihave HR5 := (Entails.of_eq (rowPts_eq d L (rRow_body_eq ⟨16 * k.val + 0 + 5, hl5⟩ (k0_off15 k (BitVec.ofNat 32 5)) (k0_off15_eq k ⟨0, by decide⟩) (k0_off15_inb k 0)) g5)) $$ HR5
  ihave HR6 := (Entails.of_eq (rowPts_eq d L (rRow_body_eq ⟨16 * k.val + 0 + 6, hl6⟩ (k0_off17 k (BitVec.ofNat 32 6)) (k0_off17_eq k ⟨0, by decide⟩) (k0_off17_inb k 0)) g6)) $$ HR6
  ihave HR7 := (Entails.of_eq (rowPts_eq d L (rRow_body_eq ⟨16 * k.val + 0 + 7, hl7⟩ (k0_off19 k (BitVec.ofNat 32 7)) (k0_off19_eq k ⟨0, by decide⟩) (k0_off19_inb k 0)) g7)) $$ HR7
  ihave HR8 := (Entails.of_eq (rowPts_eq d L (rRow_body_eq ⟨16 * k.val + 0 + 8, hl8⟩ (k0_off21 k (BitVec.ofNat 32 8)) (k0_off21_eq k ⟨0, by decide⟩) (k0_off21_inb k 0)) g8)) $$ HR8
  ihave HR9 := (Entails.of_eq (rowPts_eq d L (rRow_body_eq ⟨16 * k.val + 0 + 9, hl9⟩ (k0_off23 k (BitVec.ofNat 32 9)) (k0_off23_eq k ⟨0, by decide⟩) (k0_off23_inb k 0)) g9)) $$ HR9
  ihave HR10 := (Entails.of_eq (rowPts_eq d L (rRow_body_eq ⟨16 * k.val + 0 + 10, hl10⟩ (k0_off25 k (BitVec.ofNat 32 10)) (k0_off25_eq k ⟨0, by decide⟩) (k0_off25_inb k 0)) g10)) $$ HR10
  ihave HR11 := (Entails.of_eq (rowPts_eq d L (rRow_body_eq ⟨16 * k.val + 0 + 11, hl11⟩ (k0_off27 k (BitVec.ofNat 32 11)) (k0_off27_eq k ⟨0, by decide⟩) (k0_off27_inb k 0)) g11)) $$ HR11
  ihave HR12 := (Entails.of_eq (rowPts_eq d L (rRow_body_eq ⟨16 * k.val + 0 + 12, hl12⟩ (k0_off29 k (BitVec.ofNat 32 12)) (k0_off29_eq k ⟨0, by decide⟩) (k0_off29_inb k 0)) g12)) $$ HR12
  ihave HR13 := (Entails.of_eq (rowPts_eq d L (rRow_body_eq ⟨16 * k.val + 0 + 13, hl13⟩ (k0_off31 k (BitVec.ofNat 32 13)) (k0_off31_eq k ⟨0, by decide⟩) (k0_off31_inb k 0)) g13)) $$ HR13
  ihave HR14 := (Entails.of_eq (rowPts_eq d L (rRow_body_eq ⟨16 * k.val + 0 + 14, hl14⟩ (k0_off33 k (BitVec.ofNat 32 14)) (k0_off33_eq k ⟨0, by decide⟩) (k0_off33_inb k 0)) g14)) $$ HR14
  ihave HR15 := (Entails.of_eq (rowPts_eq d L (rRow_body_eq ⟨16 * k.val + 15, (show 16 * k.val + 15 < 512 from hl15)⟩ (k0_off35 k) (k0_off35_eq k) (k0_off35_inb k)) g15)) $$ HR15
  sl_unfold [k0_t1_body]
  sl_exec (disch := first
    | (intro a; fin_cases a <;> first | exact Nat.succ_le_of_lt (hin _) | exact Nat.le_refl 64 | decide)
    | omega
    | exact dlv_intro d L iv tb _ _ _ _ _ _ _ ClosedOff.eq (lane_word d L iv _ k.val (k0_off2_eq k) _ _ (by omega) _ (by omega)) (hin _)
    | exact dlv_intro d L iv tb _ _ _ _ _ _ _ ClosedOff.eq (lane_word d L iv _ k.val (k0_off2_eq k) _ 15 (by decide) slices_S16_o15_S1 (by omega)) (hin _))
  sl_step
  ihave HB := (Entails.of_eq (congrArg (fun n => batchA d L iv tb n 0) (show 16 * k.val + 1 + 1 + 1 + 1 + 1 + 1 + 1 + 1 + 1 + 1 + 1 + 1 + 1 + 1 + 1 + 1 = 16 * (k.val + 1) by omega))) $$ HB
  isplitl [HsI]; · iexact HsI
  isplitl [HB]; · iexact HB
  isplitl [HRs]; · iexact HRs
  iexact HTs

set_option sl_exec.dischHeartbeats 20000 in
set_option maxHeartbeats 1000000 in
/-- ONE TRIP of side b's issue loop at a symbolic trip `k`: sixteen index words loaded, each checked to name a table row,
    each row copy started as the batch's next transfer — transfers `16 k` … `16 k + 15` — into rows `16 k` … `16 k + 15`
    of the row scratch, each under its own read token of the table. -/
theorem issue_step_b [∀ e, Nonempty (Elt F e)] (iv : Buf (Elt F) ((sIW).view.loc (V d (cV L) (jV L)))) (tb : Buf (Elt F) ((tbW).view.loc (V d (cV L) (jV L))))
    (q : PosShare TreeShare) (hin : ∀ j, (iv j).toNat < 1000000) (k : Fin k0_t3_loop.trips) (acc : Unit) :
    issueAt d L iv tb q k acc ⊢ wp frame (wpE (defs₀ (F := F)) 𝒱₀ (V d (cV L) (jV L)) none) Set.univ
      (k0_t3_body L iaW (Memref.isWhole_whole _) ibW (Memref.isWhole_whole _) tbW (Memref.isWhole_whole _) oaW (Memref.isWhole_whole _) obW (Memref.isWhole_whole _)
            sIW (Memref.isWhole_whole _) sRW (Memref.isWhole_whole _) cc0_scratch2 cc0_scoped0 cc0_scoped1 cc0_scoped2 cc0_scoped3 k acc)
      (issueAt d L iv tb q (k.val + 1)) := by
  have hk : k.val < 32 := k.isLt
  unfold issueAt
  rw [head16s (rowOwn d L) k.val hk, head16s (fun t => tTok d L tb q t.val) k.val hk]
  unfold rowOwn
  have hl0 : 16 * k.val + 0 < 512 := by omega
  have hl1 : 16 * k.val + 0 + 1 < 512 := by omega
  have hl2 : 16 * k.val + 0 + 2 < 512 := by omega
  have hl3 : 16 * k.val + 0 + 3 < 512 := by omega
  have hl4 : 16 * k.val + 0 + 4 < 512 := by omega
  have hl5 : 16 * k.val + 0 + 5 < 512 := by omega
  have hl6 : 16 * k.val + 0 + 6 < 512 := by omega
  have hl7 : 16 * k.val + 0 + 7 < 512 := by omega
  have hl8 : 16 * k.val + 0 + 8 < 512 := by omega
  have hl9 : 16 * k.val + 0 + 9 < 512 := by omega
  have hl10 : 16 * k.val + 0 + 10 < 512 := by omega
  have hl11 : 16 * k.val + 0 + 11 < 512 := by omega
  have hl12 : 16 * k.val + 0 + 12 < 512 := by omega
  have hl13 : 16 * k.val + 0 + 13 < 512 := by omega
  have hl14 : 16 * k.val + 0 + 14 < 512 := by omega
  have hl15 : 16 * k.val + 0 + 15 < 512 := by omega
  iintro ⟨HsI, HB, ⟨⟨%g0, HR0⟩, ⟨%g1, HR1⟩, ⟨%g2, HR2⟩, ⟨%g3, HR3⟩, ⟨%g4, HR4⟩, ⟨%g5, HR5⟩, ⟨%g6, HR6⟩, ⟨%g7, HR7⟩, ⟨%g8, HR8⟩, ⟨%g9, HR9⟩, ⟨%g10, HR10⟩, ⟨%g11, HR11⟩, ⟨%g12, HR12⟩, ⟨%g13, HR13⟩, ⟨%g14, HR14⟩, ⟨%g15, HR15⟩, HRs⟩, ⟨HT0, HT1, HT2, HT3, HT4, HT5, HT6, HT7, HT8, HT9, HT10, HT11, HT12, HT13, HT14, HT15, HTs⟩⟩
  ihave HR0 := (Entails.of_eq (rowPts_eq d L (rRow_body_eq ⟨16 * k.val + 0, hl0⟩ (k0_off41 k (BitVec.ofNat 32 0)) (k0_off41_eq k ⟨0, by decide⟩) (k0_off41_inb k 0)) g0)) $$ HR0
  ihave HR1 := (Entails.of_eq (rowPts_eq d L (rRow_body_eq ⟨16 * k.val + 0 + 1, hl1⟩ (k0_off43 k (BitVec.ofNat 32 1)) (k0_off43_eq k ⟨0, by decide⟩) (k0_off43_inb k 0)) g1)) $$ HR1
  ihave HR2 := (Entails.of_eq (rowPts_eq d L (rRow_body_eq ⟨16 * k.val + 0 + 2, hl2⟩ (k0_off45 k (BitVec.ofNat 32 2)) (k0_off45_eq k ⟨0, by decide⟩) (k0_off45_inb k 0)) g2)) $$ HR2
  ihave HR3 := (Entails.of_eq (rowPts_eq d L (rRow_body_eq ⟨16 * k.val + 0 + 3, hl3⟩ (k0_off47 k (BitVec.ofNat 32 3)) (k0_off47_eq k ⟨0, by decide⟩) (k0_off47_inb k 0)) g3)) $$ HR3
  ihave HR4 := (Entails.of_eq (rowPts_eq d L (rRow_body_eq ⟨16 * k.val + 0 + 4, hl4⟩ (k0_off49 k (BitVec.ofNat 32 4)) (k0_off49_eq k ⟨0, by decide⟩) (k0_off49_inb k 0)) g4)) $$ HR4
  ihave HR5 := (Entails.of_eq (rowPts_eq d L (rRow_body_eq ⟨16 * k.val + 0 + 5, hl5⟩ (k0_off51 k (BitVec.ofNat 32 5)) (k0_off51_eq k ⟨0, by decide⟩) (k0_off51_inb k 0)) g5)) $$ HR5
  ihave HR6 := (Entails.of_eq (rowPts_eq d L (rRow_body_eq ⟨16 * k.val + 0 + 6, hl6⟩ (k0_off53 k (BitVec.ofNat 32 6)) (k0_off53_eq k ⟨0, by decide⟩) (k0_off53_inb k 0)) g6)) $$ HR6
  ihave HR7 := (Entails.of_eq (rowPts_eq d L (rRow_body_eq ⟨16 * k.val + 0 + 7, hl7⟩ (k0_off55 k (BitVec.ofNat 32 7)) (k0_off55_eq k ⟨0, by decide⟩) (k0_off55_inb k 0)) g7)) $$ HR7
  ihave HR8 := (Entails.of_eq (rowPts_eq d L (rRow_body_eq ⟨16 * k.val + 0 + 8, hl8⟩ (k0_off57 k (BitVec.ofNat 32 8)) (k0_off57_eq k ⟨0, by decide⟩) (k0_off57_inb k 0)) g8)) $$ HR8
  ihave HR9 := (Entails.of_eq (rowPts_eq d L (rRow_body_eq ⟨16 * k.val + 0 + 9, hl9⟩ (k0_off59 k (BitVec.ofNat 32 9)) (k0_off59_eq k ⟨0, by decide⟩) (k0_off59_inb k 0)) g9)) $$ HR9
  ihave HR10 := (Entails.of_eq (rowPts_eq d L (rRow_body_eq ⟨16 * k.val + 0 + 10, hl10⟩ (k0_off61 k (BitVec.ofNat 32 10)) (k0_off61_eq k ⟨0, by decide⟩) (k0_off61_inb k 0)) g10)) $$ HR10
  ihave HR11 := (Entails.of_eq (rowPts_eq d L (rRow_body_eq ⟨16 * k.val + 0 + 11, hl11⟩ (k0_off63 k (BitVec.ofNat 32 11)) (k0_off63_eq k ⟨0, by decide⟩) (k0_off63_inb k 0)) g11)) $$ HR11
  ihave HR12 := (Entails.of_eq (rowPts_eq d L (rRow_body_eq ⟨16 * k.val + 0 + 12, hl12⟩ (k0_off65 k (BitVec.ofNat 32 12)) (k0_off65_eq k ⟨0, by decide⟩) (k0_off65_inb k 0)) g12)) $$ HR12
  ihave HR13 := (Entails.of_eq (rowPts_eq d L (rRow_body_eq ⟨16 * k.val + 0 + 13, hl13⟩ (k0_off67 k (BitVec.ofNat 32 13)) (k0_off67_eq k ⟨0, by decide⟩) (k0_off67_inb k 0)) g13)) $$ HR13
  ihave HR14 := (Entails.of_eq (rowPts_eq d L (rRow_body_eq ⟨16 * k.val + 0 + 14, hl14⟩ (k0_off69 k (BitVec.ofNat 32 14)) (k0_off69_eq k ⟨0, by decide⟩) (k0_off69_inb k 0)) g14)) $$ HR14
  ihave HR15 := (Entails.of_eq (rowPts_eq d L (rRow_body_eq ⟨16 * k.val + 15, (show 16 * k.val + 15 < 512 from hl15)⟩ (k0_off71 k) (k0_off71_eq k) (k0_off71_inb k)) g15)) $$ HR15
  sl_unfold [k0_t3_body]
  sl_exec (disch := first
    | (intro a; fin_cases a <;> first | exact Nat.succ_le_of_lt (hin _) | exact Nat.le_refl 64 | decide)
    | omega
    | exact dlv_intro d L iv tb _ _ _ _ _ _ _ ClosedOff.eq (lane_word d L iv _ k.val (k0_off38_eq k) _ _ (by omega) _ (by omega)) (hin _)
    | exact dlv_intro d L iv tb _ _ _ _ _ _ _ ClosedOff.eq (lane_word d L iv _ k.val (k0_off38_eq k) _ 15 (by decide) slices_S16_o15_S1 (by omega)) (hin _))
  sl_step
  ihave HB := (Entails.of_eq (congrArg (fun n => batchA d L iv tb n 0) (show 16 * k.val + 1 + 1 + 1 + 1 + 1 + 1 + 1 + 1 + 1 + 1 + 1 + 1 + 1 + 1 + 1 + 1 = 16 * (k.val + 1) by omega))) $$ HB
  isplitl [HsI]; · iexact HsI
  isplitl [HB]; · iexact HB
  isplitl [HRs]; · iexact HRs
  iexact HTs

end Tile
end Cert.Proof.ScB
end
-- ==== Proof.ScB.TileSets.lean ====
/-
  The elements a tile's slice of an array names are the tile's set of the array.

  The body slices each whole array by the unit-stride rectangle of the tile's 512 rows; the elements of a slice of a whole
  array are the rectangle's.
-/
import proofs.«205169_g39805756899661_cont_8to1_b_81_27_alg».proof.Proof.ScB.TileSpec
import proofs.«205169_g39805756899661_cont_8to1_b_81_27_alg».proof.Proof.ScB.Tiles

noncomputable section

namespace Cert.Proof.ScB

open Cert.Kernel Cert.Kernel.Gen
open Idealize.ShloMosaic

theorem iaSl_set (L : grid0.Coords) : (iaSl L).view.set = tileIdxSet L := by
  unfold iaSl tileIdxSet; exact View.set_slice_whole _ _
theorem ibSl_set (L : grid0.Coords) : (ibSl L).view.set = tileIdxSet L := by
  unfold ibSl tileIdxSet; exact View.set_slice_whole _ _
theorem oaSl_set (L : grid0.Coords) : (oaSl L).view.set = tileRowSet L := by
  unfold oaSl tileRowSet; exact View.set_slice_whole _ _
theorem obSl_set (L : grid0.Coords) : (obSl L).view.set = tileRowSet L := by
  unfold obSl tileRowSet; exact View.set_slice_whole _ _

/-- A tile's slice of an array lies in the array's own buffer on the device. -/
theorem iaSl_loc (d : Dev nD) (L : grid0.Coords) : (iaSl L).view.loc (SparseCore.V d (cV L) (jV L)) = locIa d := rfl
theorem ibSl_loc (d : Dev nD) (L : grid0.Coords) : (ibSl L).view.loc (SparseCore.V d (cV L) (jV L)) = locIb d := rfl
theorem oaSl_loc (d : Dev nD) (L : grid0.Coords) : (oaSl L).view.loc (SparseCore.V d (cV L) (jV L)) = locGa d := rfl
theorem obSl_loc (d : Dev nD) (L : grid0.Coords) : (obSl L).view.loc (SparseCore.V d (cV L) (jV L)) = locGb d := rfl

end Cert.Proof.ScB

end
-- ==== Proof.ScB.OutGood.lean ====
/-
  The copy-out leaves the gathered rows.

  A side of the gather kernel's tile body fetches the tile's 512 index words into the index scratch, lands 512 table
  rows in the row scratch — row `r` the table row that word `r` names — and copies the row scratch out over the tile's
  512 rows of the gathered array. The tile's slice of an array starts at row `tileBase L`, so entry `r` of the index
  scratch is entry `tileBase L + r` of the index array and row `r` of the row scratch lands in row `tileBase L + r` of
  the gathered array: on the tile's rows the gathered array is the whole-array function `gath` of the table and the
  index array.
-/
import proofs.«205169_g39805756899661_cont_8to1_b_81_27_alg».proof.Proof.ScB.Drain
import proofs.«205169_g39805756899661_cont_8to1_b_81_27_alg».proof.Proof.ScB.TileSets
import Idealize.ShloMosaic.Lib.Writes

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iaW" => (Memref.whole Cert.Kernel.main_arg0_scv : Memref Cert.Kernel.sig Kind.scVector Space.hbm Cert.Kernel.S16384 EltTy.i32)
local notation "ibW" => (Memref.whole Cert.Kernel.main_arg1_scv : Memref Cert.Kernel.sig Kind.scVector Space.hbm Cert.Kernel.S16384 EltTy.i32)
local notation "tbW" => (Memref.whole Cert.Kernel.main_arg2_scv : Memref Cert.Kernel.sig Kind.scVector Space.hbm Cert.Kernel.S1000000x64 EltTy.f32)
local notation "oaW" => (Memref.whole Cert.Kernel.main_v0_0_scv : Memref Cert.Kernel.sig Kind.scVector Space.hbm Cert.Kernel.S16384x64 EltTy.f32)
local notation "obW" => (Memref.whole Cert.Kernel.main_v0_1_scv : Memref Cert.Kernel.sig Kind.scVector Space.hbm Cert.Kernel.S16384x64 EltTy.f32)
local notation "sIW" => (Memref.whole Cert.Kernel.cc0_scratch0 : Memref Cert.Kernel.sig Kind.scVector Space.vmem Cert.Kernel.S512 EltTy.i32)
local notation "sRW" => (Memref.whole Cert.Kernel.cc0_scratch1 : Memref Cert.Kernel.sig Kind.scVector Space.vmem Cert.Kernel.S512x64 EltTy.f32)

variable [FloatOps F] [∀ e, Nonempty (Elt F e)]

section Tile
variable (d : Dev nD) (L : grid0.Coords)

/-- The index scratch written whole holds what was written. -/
theorem idx_fetched (fs : Buf (Elt F) ((sIW).view.loc (V d (cV L) (jV L)))) (P : S512.Idx → Elt F .i32) :
    View.write (Elt F) (sIW).view fs P Finset.univ = P :=
  View.write_whole_univ (Val := Elt F) cc0_scratch0 fs P

/-- Entry `r` of the tile's index words is the index array's entry at the row of the tile's row `r`. -/
theorem tile_idx_eq (y : S512x64.Idx) :
    ((Rect.unit (s := S16384) (k0_off1 L) S512.size (k0_off1_inb L)).emb (ValueIdx.ix1 (y 0)) : S16384.Idx)
      = ValueIdx.ix1 (((Rect.unit (s := S16384x64) (k0_off37 L) S512x64.size (k0_off37_inb L)).emb y) 0) := by
  funext a
  apply Fin.ext
  match a with
  | ⟨0, _⟩ =>
    show (k0_off1 L) 0 + 1 * (y 0).val = (k0_off37 L) 0 + 1 * (y 0).val
    rw [k0_off1_eq, k0_off37_eq]; rfl

/-- The tile's rows keep their columns. -/
theorem tile_col_eq (y : S512x64.Idx) :
    (y 1 : Fin 64) = (((Rect.unit (s := S16384x64) (k0_off37 L) S512x64.size (k0_off37_inb L)).emb y) 1 : Fin 64) := by
  apply Fin.ext
  show (y 1).val = (k0_off37 L) 1 + 1 * (y 1).val
  rw [k0_off37_eq]; show (y 1).val = 0 + 1 * (y 1).val; omega

/-- After side a's copy-out the tile's rows of the first gathered array hold the table rows the first index array
    names: the row scratch held, at row `r`, the table row that entry `r` of the index scratch names, the index scratch
    held the tile's entries of the index array, and row `r` of the tile is row `tileBase L + r` of the arrays. -/
theorem out_good_a (ia : Buf (Elt F) ((iaSl L).view.loc (V d (cV L) (jV L)))) (tb : Buf (Elt F) ((tbW).view.loc (V d (cV L) (jV L))))
    (fs : Buf (Elt F) ((sIW).view.loc (V d (cV L) (jV L)))) (g0 : Buf (Elt F) ((oaSl L).view.loc (V d (cV L) (jV L)))) :
    ((oaSl L).view.loc (V d (cV L) (jV L)) ↦[(oaSl L).view.set]{fullShare}
        (oaSl L).view.writes (Elt F) g0 [⟨Rect.whole S512x64, ReadAs.same.apply (View.read (Elt F) (sRW).view
          (rowsOf d L (View.write (Elt F) (sIW).view fs (ReadAs.same.apply (View.read (Elt F) (iaSl L).view ia)) Finset.univ) tb))⟩] : sProp 𝕄)
      ⊢ ((oaSl L).view.loc (V d (cV L) (jV L)) ↦[(oaSl L).view.set]{fullShare} gath tb ia) := by
  rw [idx_fetched]
  refine Entails.of_eq (pointsTo_congr fun i hi => ?_)
  obtain ⟨y, -, rfl⟩ := Finset.mem_map.mp hi
  have h1 := View.read_writes_cons_emb (oaSl L).view g0 (Rect.whole S512x64)
    (ReadAs.same.apply (View.read (Elt F) (sRW).view
      (rowsOf d L (ReadAs.same.apply (View.read (Elt F) (iaSl L).view ia)) tb))) [] y
  rw [Rect.emb_whole_apply] at h1
  refine (show _ = _ from h1).trans ?_
  show tb (ValueIdx.ix2 (Cert.Spec.rowOf (ia ((Rect.unit (s := S16384) (k0_off1 L) S512.size (k0_off1_inb L)).emb (ValueIdx.ix1 (y 0))))) (y 1 : Fin 64))
    = tb (ValueIdx.ix2 (Cert.Spec.rowOf (ia (ValueIdx.ix1 (((Rect.unit (s := S16384x64) (k0_off37 L) S512x64.size (k0_off37_inb L)).emb y) 0))))
        ((((Rect.unit (s := S16384x64) (k0_off37 L) S512x64.size (k0_off37_inb L)).emb y) 1 : Fin 64)))
  rw [tile_idx_eq L y, ← tile_col_eq L y]
  rfl

/-- The same for side b, whatever the index scratch held before side b's fetch. -/
theorem out_good_b (ib : Buf (Elt F) ((ibSl L).view.loc (V d (cV L) (jV L)))) (tb : Buf (Elt F) ((tbW).view.loc (V d (cV L) (jV L))))
    (fs' : Buf (Elt F) ((sIW).view.loc (V d (cV L) (jV L)))) (g0 : Buf (Elt F) ((obSl L).view.loc (V d (cV L) (jV L)))) :
    ((obSl L).view.loc (V d (cV L) (jV L)) ↦[(obSl L).view.set]{fullShare}
        (obSl L).view.writes (Elt F) g0 [⟨Rect.whole S512x64, ReadAs.same.apply (View.read (Elt F) (sRW).view
          (rowsOf d L (View.write (Elt F) (sIW).view fs' (ReadAs.same.apply (View.read (Elt F) (ibSl L).view ib)) Finset.univ) tb))⟩] : sProp 𝕄)
      ⊢ ((obSl L).view.loc (V d (cV L) (jV L)) ↦[(obSl L).view.set]{fullShare} gath tb ib) := by
  rw [idx_fetched]
  refine Entails.of_eq (pointsTo_congr fun i hi => ?_)
  obtain ⟨y, -, rfl⟩ := Finset.mem_map.mp hi
  have h1 := View.read_writes_cons_emb (obSl L).view g0 (Rect.whole S512x64)
    (ReadAs.same.apply (View.read (Elt F) (sRW).view
      (rowsOf d L (ReadAs.same.apply (View.read (Elt F) (ibSl L).view ib)) tb))) [] y
  rw [Rect.emb_whole_apply] at h1
  refine (show _ = _ from h1).trans ?_
  show tb (ValueIdx.ix2 (Cert.Spec.rowOf (ib ((Rect.unit (s := S16384) (k0_off1 L) S512.size (k0_off1_inb L)).emb (ValueIdx.ix1 (y 0))))) (y 1 : Fin 64))
    = tb (ValueIdx.ix2 (Cert.Spec.rowOf (ib (ValueIdx.ix1 (((Rect.unit (s := S16384x64) (k0_off37 L) S512x64.size (k0_off37_inb L)).emb y) 0))))
        ((((Rect.unit (s := S16384x64) (k0_off37 L) S512x64.size (k0_off37_inb L)).emb y) 1 : Fin 64)))
  rw [tile_idx_eq L y, ← tile_col_eq L y]
  rfl

end Tile

end Cert.Proof.ScB

end
-- ==== Proof.ScB.Tile.lean ====
/-
  The gather kernel's body on one tile, run from its resources one by one to the gathered rows.

  Side a: the tile's 512 index words are copied into the index scratch; the table's read share is cut into 512 read
  tokens, the row scratch into its 512 rows, and the batch of 512 row copies is allocated on the scratch semaphore
  with what each will deliver; the issue loop starts them sixteen a trip, the drain loop waits 512 times and the last
  wait hands every row back; the rows join into the scratch whole, which is copied out over the tile's rows of the
  first gathered array. Side b is the same over the second index array and the table's other half share. The waits
  on the tile's own semaphores are recorded at the index no handshake uses, so whatever the tile owes the launch is
  still owed at the end.
-/
import proofs.«205169_g39805756899661_cont_8to1_b_81_27_alg».proof.Proof.ScB.Drain
import proofs.«205169_g39805756899661_cont_8to1_b_81_27_alg».proof.Proof.ScB.Issue
import proofs.«205169_g39805756899661_cont_8to1_b_81_27_alg».proof.Proof.ScB.OutGood
import proofs.«205169_g39805756899661_cont_8to1_b_81_27_alg».proof.Proof.ScB.TileCore
import proofs.«205169_g39805756899661_cont_8to1_b_81_27_alg».proof.Proof.Gen.Kernel.Skeleton
import Idealize.ShloMosaic.Lib.SparseCore.Launch
import Idealize.ShloMosaic.Lib.Batch
import Idealize.ShloMosaic.Lib.StableHlo.Run
import Idealize.ShloMosaic.Lib.Pipeline.Kit
import Idealize.ShloMosaic.Lib.Tactic
import Idealize.ShloMosaic.Lib.Ring
import proofs.«205169_g39805756899661_cont_8to1_b_81_27_alg».proof.Proof.Spec

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iaW" => (Memref.whole Cert.Kernel.main_arg0_scv : Memref Cert.Kernel.sig Kind.scVector Space.hbm Cert.Kernel.S16384 EltTy.i32)
local notation "ibW" => (Memref.whole Cert.Kernel.main_arg1_scv : Memref Cert.Kernel.sig Kind.scVector Space.hbm Cert.Kernel.S16384 EltTy.i32)
local notation "tbW" => (Memref.whole Cert.Kernel.main_arg2_scv : Memref Cert.Kernel.sig Kind.scVector Space.hbm Cert.Kernel.S1000000x64 EltTy.f32)
local notation "oaW" => (Memref.whole Cert.Kernel.main_v0_0_scv : Memref Cert.Kernel.sig Kind.scVector Space.hbm Cert.Kernel.S16384x64 EltTy.f32)
local notation "obW" => (Memref.whole Cert.Kernel.main_v0_1_scv : Memref Cert.Kernel.sig Kind.scVector Space.hbm Cert.Kernel.S16384x64 EltTy.f32)
local notation "sIW" => (Memref.whole Cert.Kernel.cc0_scratch0 : Memref Cert.Kernel.sig Kind.scVector Space.vmem Cert.Kernel.S512 EltTy.i32)
local notation "sRW" => (Memref.whole Cert.Kernel.cc0_scratch1 : Memref Cert.Kernel.sig Kind.scVector Space.vmem Cert.Kernel.S512x64 EltTy.f32)

variable [FloatOps F]

section Tile
variable (d : Dev nD) (L : grid0.Coords) [∀ e, Nonempty (Elt F e)]

instance dlv_storable (iv : Buf (Elt F) ((sIW).view.loc (V d (cV L) (jV L)))) (tb : Buf (Elt F) ((tbW).view.loc (V d (cV L) (jV L)))) (t : Fin 512) :
    BI.Storable (upEmb : UEmb _ 𝕄) (dlv d L iv tb t) := by
  unfold dlv; infer_instance

/-- The table whole, held by its own elements. -/
theorem tb_set (qq : PosShare TreeShare) (tb : Buf (Elt F) ((tbW).view.loc (V d (cV L) (jV L)))) :
    ((tbW).view.loc (V d (cV L) (jV L)) ↦{qq} tb : sProp 𝕄) = ((tbW).view.loc (V d (cV L) (jV L)) ↦[(tbW).view.set]{qq} tb) := by
  simp only [Memref.view_whole, View.set_whole]

/-- After the last trip of a drain loop: the scratch semaphore back at zero and every row delivered. -/
theorem drainAt_exit (iv : Buf (Elt F) ((sIW).view.loc (V d (cV L) (jV L)))) (tb : Buf (Elt F) ((tbW).view.loc (V d (cV L) (jV L))))
    (O : CellTallies nD τ sig (HIx 1)) (W : Waits sig (HIx 1)) (acc : Unit) :
    drainAt d L iv tb O W 512 acc ⊢ iprop(Transfers.MayWaits (V d (cV L) (jV L)) (none : HIx 1) O
      ∗ (∃ W', ⌜∀ p ∈ W', p ∈ W ∨ p.2 = none⌝ ∗ owes (V d (cV L) (jV L)) O W')
      ∗ semVal (V d (cV L) (jV L), SemLoc.dma cc0_scratch2.sem) 0 ∗ bigSep Finset.univ (dlv d L iv tb)) := by
  unfold drainAt
  rw [if_neg (Nat.lt_irrefl 512)]
  iintro ⟨-, H⟩
  iexact H

set_option maxHeartbeats 1000000 in
/-- The body from its resources under one name `R` (kept opaque while the program is put in sequence form). -/
theorem core_a
    (qi q : PosShare TreeShare) (O : CellTallies nD τ sig (HIx 1)) (W : Waits sig (HIx 1))
    (ia : Buf (Elt F) ((iaSl L).view.loc (V d (cV L) (jV L)))) (ib : Buf (Elt F) ((ibSl L).view.loc (V d (cV L) (jV L))))
    (tb : Buf (Elt F) ((tbW).view.loc (V d (cV L) (jV L))))
    (fa : Buf (Elt F) ((oaSl L).view.loc (V d (cV L) (jV L)))) (fb : Buf (Elt F) ((obSl L).view.loc (V d (cV L) (jV L))))
    (fs : Buf (Elt F) ((sIW).view.loc (V d (cV L) (jV L)))) (fr : Buf (Elt F) ((sRW).view.loc (V d (cV L) (jV L))))
    (hia : ∀ j, (ia j).toNat < 1000000) (hib : ∀ j, (ib j).toNat < 1000000)
    (R : sProp 𝕄)
    (hR : R = iprop(Transfers.MayWaits (V d (cV L) (jV L)) (none : HIx 1) O
        ∗ ((iaSl L).view.loc (V d (cV L) (jV L)) ↦[(iaSl L).view.set]{qi} ia)
        ∗ ((ibSl L).view.loc (V d (cV L) (jV L)) ↦[(ibSl L).view.set]{qi} ib)
        ∗ ((tbW).view.loc (V d (cV L) (jV L)) ↦{q} tb)
        ∗ ((oaSl L).view.loc (V d (cV L) (jV L)) ↦[(oaSl L).view.set]{fullShare} fa)
        ∗ ((obSl L).view.loc (V d (cV L) (jV L)) ↦[(obSl L).view.set]{fullShare} fb)
        ∗ ((sIW).view.loc (V d (cV L) (jV L)) ↦{fullShare} fs)
        ∗ ((sRW).view.loc (V d (cV L) (jV L)) ↦{fullShare} fr)
        ∗ semVal (V d (cV L) (jV L), SemLoc.dma cc0_scratch2.sem) 0
        ∗ semVal (V d (cV L) (jV L), SemLoc.dma cc0_scoped0.sem) 0
        ∗ semVal (V d (cV L) (jV L), SemLoc.dma cc0_scoped1.sem) 0
        ∗ semVal (V d (cV L) (jV L), SemLoc.dma cc0_scoped2.sem) 0
        ∗ semVal (V d (cV L) (jV L), SemLoc.dma cc0_scoped3.sem) 0
        ∗ owes (V d (cV L) (jV L)) O W)) :
    R ⊢ wp frame (wpE (defs₀ (F := F)) 𝒱₀ (V d (cV L) (jV L)) none) Set.univ
          (cc0_gather_kernel L iaW (Memref.isWhole_whole _) ibW (Memref.isWhole_whole _) tbW (Memref.isWhole_whole _) oaW (Memref.isWhole_whole _) obW (Memref.isWhole_whole _)
            sIW (Memref.isWhole_whole _) sRW (Memref.isWhole_whole _) cc0_scratch2 cc0_scoped0 cc0_scoped1 cc0_scoped2 cc0_scoped3)
          fun _ => iprop(((oaSl L).view.loc (V d (cV L) (jV L)) ↦[(oaSl L).view.set]{fullShare} gath tb ia)
            ∗ ((obSl L).view.loc (V d (cV L) (jV L)) ↦[(obSl L).view.set]{fullShare} gath tb ib)
            ∗ (∃ f, (sIW).view.loc (V d (cV L) (jV L)) ↦{fullShare} f)
            ∗ (∃ f, (sRW).view.loc (V d (cV L) (jV L)) ↦{fullShare} f)
            ∗ semVal (V d (cV L) (jV L), SemLoc.dma cc0_scratch2.sem) 0
            ∗ semVal (V d (cV L) (jV L), SemLoc.dma cc0_scoped0.sem) 0
            ∗ semVal (V d (cV L) (jV L), SemLoc.dma cc0_scoped1.sem) 0
            ∗ semVal (V d (cV L) (jV L), SemLoc.dma cc0_scoped2.sem) 0
            ∗ semVal (V d (cV L) (jV L), SemLoc.dma cc0_scoped3.sem) 0
            ∗ ∃ W', ⌜∀ p ∈ W', p ∈ W ∨ p.2 = none⌝ ∗ owes (V d (cV L) (jV L)) O W') := by
  simp only [cc0_gather_kernel_eq_skeleton]; unfold cc0_gather_kernel_skel
  simp only [k0_part11_eq_skeleton]; unfold k0_part11_skel
  simp only [bind_assoc]
  rw [hR]
  iintro ⟨Hmw, Hia, Hib, Htb, Hoa, Hob, HsI, HsR, Hs9, Hs0, Hs1, Hs2, Hs3, HO⟩
  -- the tile's 512 index words into the index scratch
  sl_exec
  -- the index scratch now holds the words; every one names a row
  have hinA : ∀ j, ((View.write (Elt F) (sIW).view fs (core_a.sl.dma0 d L ia) Finset.univ) j).toNat < 1000000 := by
    intro j
    rw [View.write_whole_univ]
    exact hia _
  -- the table's share in two, one half per side; the first half as 512 read tokens
  ihave Htb2 := (pointsTo_share (PosShare.mem_left_op_right q)).1 $$ Htb
  icases Htb2 with ⟨HtbA, HtbB⟩
  ihave HtbA' := (Entails.of_eq (tb_set d L q.left tb)) $$ HtbA
  ihave HT := (Transfers.pointsTo_toks_range q.left 512).1 $$ HtbA'
  icases HT with ⟨-, HToks⟩
  ihave HToks' := (Entails.of_eq (Ring.bigSep_rangeSet_eq_range (NB := 512) (lo := 0) (hi := 512)
    (Φ := fun t : Fin 512 => tTok d L tb q.left t.val) le_rfl (fun t => tTok d L tb q.left t)
    (fun k hk => by show tTok d L tb q.left k = tTok d L tb q.left (0 + k); rw [Nat.zero_add])).symm) $$ HToks
  -- the row scratch as its 512 rows
  ihave HRows := (rows_split d L fr) $$ HsR
  rw [← Ring.rangeSet_univ]
  -- the batch of 512 row copies on the scratch semaphore, its deliveries stated
  imod (Transfers.batch_alloc' (Lvl := ℕ) (countersEmb (U := UU)) (V d (cV L) (jV L)) (none : HIx 1) NR
    (dlv d L (View.write (Elt F) (sIW).view fs (core_a.sl.dma0 d L ia) Finset.univ) tb) (sm := .dma cc0_scratch2.sem) (E := Set.univ)) $$ Hs9 with HB
  sl_for (issueAt d L (View.write (Elt F) (sIW).view fs (core_a.sl.dma0 d L ia) Finset.univ) tb q.left) $$ [HsI HB HRows HToks']
  case region => intro k acc; exact issue_step_a d L _ tb q.left hinA k acc
  · unfold issueAt batchA
    isplitl [HsI]; · iexact HsI
    isplitl [HB]; · iexact HB
    isplitl [HRows]; · iexact HRows
    iexact HToks'
  iintro %acc HI
  unfold issueAt batchA
  icases HI with ⟨HsI, HB, -, -⟩
  -- every row copy started: the 512 waits, the last of which hands every row back
  sl_for (drainAt d L (View.write (Elt F) (sIW).view fs (core_a.sl.dma0 d L ia) Finset.univ) tb O W) $$ [HB Hmw HO]
  case region => intro k acc; exact drain_step_a d L _ tb O _ k acc
  · unfold drainAt batchA
    rw [if_pos (by decide : (0 : ℕ) < 512), Nat.zero_mul]
    isplitr; · ipureintro; decide
    isplitl [Hmw]; · iexact Hmw
    isplitl [HO]
    · iexists _
      isplitr
      rotate_left
      · iexact HO
      · ipureintro
        intro p hp
        rcases Finset.mem_insert.mp hp with hp | hp
        · exact .inr (by rw [hp]; rfl)
        · exact .inl hp
    iexact HB
  iintro %acc2 HL
  rw [show Scf.trips k0_t2_loop.lb k0_t2_loop.ub k0_t2_loop.st = 512 from by decide]
  ihave HL' := (drainAt_exit d L (View.write (Elt F) (sIW).view fs (core_a.sl.dma0 d L ia) Finset.univ) tb O W acc2) $$ HL
  icases HL' with ⟨Hmw, ⟨%W', %hW', HO⟩, Hs9, Hall⟩
  ihave HsR := (rows_join d L (View.write (Elt F) (sIW).view fs (core_a.sl.dma0 d L ia) Finset.univ) tb) $$ Hall
  sl_exec
  -- SIDE B: the same over the second index array, the table's other half share
  have hinB : ∀ j, ((View.write (Elt F) (sIW).view (View.write (Elt F) (sIW).view fs (core_a.sl.dma0 d L ia) Finset.univ) (core_a.sl.dma0_2 d L ib) Finset.univ) j).toNat < 1000000 := by
    intro j
    rw [View.write_whole_univ]
    exact hib _
  ihave HtbB' := (Entails.of_eq (tb_set d L q.right tb)) $$ HtbB
  ihave HT2 := (Transfers.pointsTo_toks_range q.right 512).1 $$ HtbB'
  icases HT2 with ⟨-, HToksB⟩
  ihave HToksB' := (Entails.of_eq (Ring.bigSep_rangeSet_eq_range (NB := 512) (lo := 0) (hi := 512)
    (Φ := fun t : Fin 512 => tTok d L tb q.right t.val) le_rfl (fun t => tTok d L tb q.right t)
    (fun k hk => by show tTok d L tb q.right k = tTok d L tb q.right (0 + k); rw [Nat.zero_add])).symm) $$ HToksB
  ihave HRowsB := (rows_split d L _) $$ HsR
  rw [← Ring.rangeSet_univ]
  imod (Transfers.batch_alloc' (Lvl := ℕ) (countersEmb (U := UU)) (V d (cV L) (jV L)) (none : HIx 1) NR
    (dlv d L (View.write (Elt F) (sIW).view (View.write (Elt F) (sIW).view fs (core_a.sl.dma0 d L ia) Finset.univ) (core_a.sl.dma0_2 d L ib) Finset.univ) tb) (sm := .dma cc0_scratch2.sem) (E := Set.univ)) $$ Hs9 with HB
  sl_for (issueAt d L (View.write (Elt F) (sIW).view (View.write (Elt F) (sIW).view fs (core_a.sl.dma0 d L ia) Finset.univ) (core_a.sl.dma0_2 d L ib) Finset.univ) tb q.right) $$ [HsI HB HRowsB HToksB']
  case region => intro k acc; exact issue_step_b d L _ tb q.right hinB k acc
  · unfold issueAt batchA
    isplitl [HsI]; · iexact HsI
    isplitl [HB]; · iexact HB
    isplitl [HRowsB]; · iexact HRowsB
    iexact HToksB'
  iintro %acc3 HI
  unfold issueAt batchA
  icases HI with ⟨HsI, HB, -, -⟩
  sl_for (drainAt d L (View.write (Elt F) (sIW).view (View.write (Elt F) (sIW).view fs (core_a.sl.dma0 d L ia) Finset.univ) (core_a.sl.dma0_2 d L ib) Finset.univ) tb O W) $$ [HB Hmw HO]
  case region => intro k acc; exact drain_step_b d L _ tb O _ k acc
  · unfold drainAt batchA
    rw [if_pos (by decide : (0 : ℕ) < 512), Nat.zero_mul]
    isplitr; · ipureintro; decide
    isplitl [Hmw]; · iexact Hmw
    isplitl [HO]
    · iexists _
      isplitr
      rotate_left
      · iexact HO
      · ipureintro
        intro p hp
        rcases Finset.mem_insert.mp hp with hp | hp
        · exact .inr (by rw [hp]; rfl)
        rcases Finset.mem_insert.mp hp with hp | hp
        · exact .inr (by rw [hp]; rfl)
        · exact hW' p hp
    iexact HB
  iintro %acc4 HL
  rw [show Scf.trips k0_t4_loop.lb k0_t4_loop.ub k0_t4_loop.st = 512 from by decide]
  ihave HL' := (drainAt_exit d L (View.write (Elt F) (sIW).view (View.write (Elt F) (sIW).view fs (core_a.sl.dma0 d L ia) Finset.univ) (core_a.sl.dma0_2 d L ib) Finset.univ) tb O W acc4) $$ HL
  icases HL' with ⟨Hmw, ⟨%W'', %hW'', HO⟩, Hs9, Hall⟩
  ihave HsR := (rows_join d L (View.write (Elt F) (sIW).view (View.write (Elt F) (sIW).view fs (core_a.sl.dma0 d L ia) Finset.univ) (core_a.sl.dma0_2 d L ib) Finset.univ) tb) $$ Hall
  -- the second copy-out, and the end
  sl_exec
  sl_step
  -- the two gathered slices hold the gathered rows
  have hA : ((oaSl L).view.loc (V d (cV L) (jV L)) ↦[(oaSl L).view.set]{fullShare}
        (oaSl L).view.writes (Elt F) (oaSl L).view.junk [⟨Rect.whole S512x64, core_a.sl.dma0_1 d L ia tb fs⟩] : sProp 𝕄)
      ⊢ ((oaSl L).view.loc (V d (cV L) (jV L)) ↦[(oaSl L).view.set]{fullShare} gath tb ia) := out_good_a d L ia tb fs _
  have hB : ((obSl L).view.loc (V d (cV L) (jV L)) ↦[(obSl L).view.set]{fullShare}
        (obSl L).view.writes (Elt F) fb [⟨Rect.whole S512x64, core_a.sl.dma0_3 d L ia ib tb fs⟩] : sProp 𝕄)
      ⊢ ((obSl L).view.loc (V d (cV L) (jV L)) ↦[(obSl L).view.set]{fullShare} gath tb ib) := out_good_b d L ib tb _ fb
  ihave Hoa := hA $$ Hoa
  ihave Hob := hB $$ Hob
  isplitl [Hoa]; · iexact Hoa
  isplitl [Hob]; · iexact Hob
  isplitl [HsI]; · iexists _; iexact HsI
  isplitl [HsR]; · iexists _; iexact HsR
  isplitl [Hs9]; · iexact Hs9
  isplitl [Hs0]; · iexact Hs0
  isplitl [Hs1]; · iexact Hs1
  isplitl [Hs2]; · iexact Hs2
  isplitl [Hs3]; · iexact Hs3
  iexists _
  isplitr
  rotate_left
  · iexact HO
  · ipureintro
    intro p hp
    rcases Finset.mem_insert.mp hp with hp | hp
    · exact .inr (by rw [hp]; rfl)
    · exact hW'' p hp

end Tile

/-- THE TILE'S OBLIGATION over its resources one by one. -/
theorem tileCore [∀ e, Nonempty (Elt F e)] : TileCore (F := F) := by
  intro d L qi q ia ib tb hia hib fa fb fs fr O W
  exact core_a d L qi q O W ia ib tb fa fb fs fr
    (fun j => by rw [ValueIdx.eq_ix1 j]; exact hia _) (fun j => by rw [ValueIdx.eq_ix1 j]; exact hib _) _ rfl

end Cert.Proof.ScB

end
-- ==== Proof.lean ====
/-
  The certificate of `Cert.Claim` (Defs.lean): the two frames of the kernel's program, the frame of the reference, the
  (empty) ledger's preservation, and the algebraic conjunct — at the ideal reading of floats the kernel's result and
  the reference's are the same array.

  THE SPECIFICATION (Proof/Spec.lean). With `ia`, `ib` the two index arrays (16384 words each), `T` the table
  (1000000 rows of 64) and the three dense layers' weights, row `r` of the result is
      logistic (relu (relu (T[ia r] · W1[:, :64]ᵀ + T[ib r] · W1[:, 64:]ᵀ + b1) · W2ᵀ + b2) · W3ᵀ + b3),
  the first layer's 128-term sum written as two 64-term sums. The precondition bounds every index word by the table's
  row count, so an index names its row.

  THE REFERENCE (Proof/RefTerm, RefRun, TakeRows, DenseLayers, RefValue). Its program is host operations only; its run
  ends at one pure term of the arguments, and that term is the specification: under the index range the gather's
  wrap and mask are inert and a take reads the named row; the concatenated pair against `W1ᵀ` is the two half sums;
  the sigmoid the reference spells out is the ideal logistic by definition.

  THE KERNEL (Proof/Sc at the ideal reading, Proof/ScB the same text over the other printing at the bit reading).
  A vector-subcore kernel on 2 × 16 tiles gathers the rows: tile (c, s) owns entries [1024 s + 512 c, +512) of each
  index array and the same rows of each gathered array. Per side it copies its index words into a scratch, starts 512
  row copies on ONE semaphore — copy t from the table row the t-th word names into row t of a row scratch —, waits
  512 times, and copies the scratch out. The copies are one batch whose deliveries are stated when it is allocated
  (Sc/TileDefs): what copy t will have left is row t holding that table row; the issue loop's invariant counts the
  copies started, sixteen a trip (Sc/Issue), the drain loop's the units consumed, and only the last wait hands the
  rows back (Sc/Drain); the rows then join into the scratch whole and the copy-out leaves the tile's rows of the
  gathered array at the gathered rows (Sc/OutGood, Sc/Tile). Every transfer reads the table under its own read token,
  since rows may coincide. The tile's waits sit at the index no launch handshake uses, so what it owes the launch is
  still owed at its end; the launch theorem for SparseCore programs then gives the program's run (Sc/Pay, TileObl,
  Ghost, CallPay, Main, Launch): the arrays are dealt to the tiles and come back, nine host operations reshape the
  weights, and a TensorCore kernel over a grid of 8 blocks of 2048 rows (Sc/Region…) computes the perceptron block
  by block — its body one pure term of its ten windows, its output array the blocks' cover — entered inside the same
  program with its staging cells funded in the launch element. At the ideal reading that output array is the
  specification (MlpBlock, KernelOut, ScIdeal/Bridge, FinalIdeal). The frames drop the result and keep "every
  argument unchanged". Final.lean assembles the five conjuncts from the two kernel runs and the reference's.
-/
import proofs.«205169_g39805756899661_cont_8to1_b_81_27_alg».proof.Defs
import proofs.«205169_g39805756899661_cont_8to1_b_81_27_alg».proof.Proof.ScIdeal.IdealRun
import proofs.«205169_g39805756899661_cont_8to1_b_81_27_alg».proof.Proof.BitsRun
import proofs.«205169_g39805756899661_cont_8to1_b_81_27_alg».proof.Proof.Sc.Tile
import proofs.«205169_g39805756899661_cont_8to1_b_81_27_alg».proof.Proof.ScB.Tile

/-- `Cert.Claim`: the kernel's run at each reading of floats, over the tile body proved at that reading. -/
theorem Cert.Proof.claim : Cert.Claim :=
  Cert.Proof.Final.claim_of (Cert.Proof.ScI.kernelRunIdeal Cert.Proof.ScI.tileCore) (Cert.Proof.kernelRunBits Cert.Proof.ScB.tileCore)
